-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v180)) (v1 : (c : Dev Cert.KernelIdeal.nD) → Buf (Elt Ideal) ((c.tc : Thread Cert.KernelIdeal.nD Cert.KernelIdeal.τ).loc Cert.KernelIdeal.main_v123)) (v2 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_v123) = v1 c
          ∧ r.2.mem ((c.tc : Thread Cert.KernelIdeal.nD Cert.KernelIdeal.τ).loc Cert.KernelIdeal.main_v164) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v192) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x640 : Shape := ⟨2, ![100000, 640]⟩
abbrev S50000x64 : Shape := ⟨2, ![50000, 64]⟩
abbrev S32 : Shape := ⟨1, ![32]⟩
abbrev S384x480 : Shape := ⟨2, ![384, 480]⟩
abbrev S384x128 : Shape := ⟨2, ![384, 128]⟩
abbrev S384 : Shape := ⟨1, ![384]⟩
abbrev S128x128 : Shape := ⟨2, ![128, 128]⟩
abbrev S50000 : Shape := ⟨1, ![50000]⟩
abbrev S100000 : Shape := ⟨1, ![100000]⟩
abbrev S_ : Shape := ⟨0, ![]⟩

class Facts : Prop where
  bcast_S_S100000x640 : S_.BroadcastsInDim S100000x640 (![] : Fin 0 → Fin S100000x640.rank)
  reducesTo_S100000x640_S_d0_1 : S100000x640.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S32 : S_.BroadcastsInDim S32 (![] : Fin 0 → Fin S32.rank)
  reducesTo_S32_S_d0 : S32.ReducesTo [0] S_
  bcast_S_S384x480 : S_.BroadcastsInDim S384x480 (![] : Fin 0 → Fin S384x480.rank)
  reducesTo_S384x480_S_d0_1 : S384x480.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S50000 : S_.BroadcastsInDim S50000 (![] : Fin 0 → Fin S50000.rank)
  reducesTo_S50000_S_d0 : S50000.ReducesTo [0] S_

variable [Facts]

def fn_part3 {F : FTy → Type} [FloatOps F] (main_v47 : IVec S_ 1) (main_v49 : IVec S50000 1) (main_c_19 : IVec S_ 1) : IVec S_ 1 :=
  let main_v50 : IVec S_ 1 := (fun x v => Host.reduce IntOp.andi x v reducesTo_S50000_S_d0 h_S_) main_v49 main_c_19
  let main_v51 : IVec S_ 1 := andi main_v47 main_v50
  main_v51

def fn_part2 {F : FTy → Type} [FloatOps F] (main_arg7 : FVec F S384 .f32) (main_arg8 : FVec F S128x128 .f32) (main_arg11 : IVec S50000 32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_c_16 : IVec S_ 32 := constantI S_ 32 99488#32
  let main_v44 : IVec S50000 32 := broadcastInDim S50000 ![] bcast_S_S50000 main_c_16
  let main_v45 : IVec S50000 1 := cmpi .sge main_arg11 main_v44
  let main_c_17 : IVec S_ 1 := constantI S_ 1 1#1
  let main_v46 : IVec S_ 1 := (fun x v => Host.reduce IntOp.andi x v reducesTo_S50000_S_d0 h_S_) main_v45 main_c_17
  let main_v47 : IVec S_ 1 := andi main_v43 main_v46
  let main_c_18 : IVec S_ 32 := constantI S_ 32 100000#32
  let main_v48 : IVec S50000 32 := broadcastInDim S50000 ![] bcast_S_S50000 main_c_18
  let main_v49 : IVec S50000 1 := cmpi .slt main_arg11 main_v48
  let main_c_19 : IVec S_ 1 := constantI S_ 1 1#1
  fn_part3 (F := F) main_v47 main_v49 main_c_19

def fn_part1 {F : FTy → Type} [FloatOps F] (main_arg4 : FVec F S384x480 .f32) (main_arg5 : FVec F S384x128 .f32) (main_arg6 : FVec F S384 .f32) (main_arg7 : FVec F S384 .f32) (main_arg8 : FVec F S128x128 .f32) (main_arg11 : IVec S50000 32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S384x480 .f32 := Host.absf main_arg4
  let main_cst_6 : FVec F S_ .f32 := constant S_ .f32 0x7F800000#32
  let main_v20 : FVec F S384x480 .f32 := broadcastInDim S384x480 ![] bcast_S_S384x480 main_cst_6
  let main_v21 : IVec S384x480 1 := cmpf .olt main_v19 main_v20
  let main_c_7 : IVec S_ 1 := constantI S_ 1 1#1
  let main_v22 : IVec S_ 1 := (fun x v => Host.reduce IntOp.andi x v reducesTo_S384x480_S_d0_1 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg11 main_v33

def fn {F : FTy → Type} [FloatOps F] (main_arg0 : FVec F S100000x640 .f32) (main_arg1 : FVec F S50000x64 .f32) (main_arg2 : FVec F S32 .f32) (main_arg3 : FVec F S32 .f32) (main_arg4 : FVec F S384x480 .f32) (main_arg5 : FVec F S384x128 .f32) (main_arg6 : FVec F S384 .f32) (main_arg7 : FVec F S384 .f32) (main_arg8 : FVec F S128x128 .f32) (main_arg9 : IVec S50000 32) (main_arg10 : IVec S50000 32) (main_arg11 : IVec S50000 32) (main_arg12 : IVec S50000 32) (main_arg13 : IVec S100000 32) : IVec S_ 1 :=
  let main_v0 : FVec F S100000x640 .f32 := Host.absf main_arg0
  let main_cst : FVec F S_ .f32 := constant S_ .f32 0x7F800000#32
  let main_v1 : FVec F S100000x640 .f32 := broadcastInDim S100000x640 ![] bcast_S_S100000x640 main_cst
  let main_v2 : IVec S100000x640 1 := cmpf .olt main_v0 main_v1
  let main_c : IVec S_ 1 := constantI S_ 1 1#1
  let main_v3 : IVec S_ 1 := (fun x v => Host.reduce IntOp.andi x v reducesTo_S100000x640_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg11 main_v13 main_v16
-- ==== Kernel.lean ====
abbrev S100000x640 : Shape := ⟨2, ![100000, 640]⟩
abbrev S50000x64 : Shape := ⟨2, ![50000, 64]⟩
abbrev S32 : Shape := ⟨1, ![32]⟩
abbrev S384x480 : Shape := ⟨2, ![384, 480]⟩
abbrev S384x128 : Shape := ⟨2, ![384, 128]⟩
abbrev S384 : Shape := ⟨1, ![384]⟩
abbrev S128x128 : Shape := ⟨2, ![128, 128]⟩
abbrev S50000 : Shape := ⟨1, ![50000]⟩
abbrev S100000 : Shape := ⟨1, ![100000]⟩
abbrev S100000x128 : Shape := ⟨2, ![100000, 128]⟩
abbrev S100000x512 : Shape := ⟨2, ![100000, 512]⟩
abbrev S_ : Shape := ⟨0, ![]⟩
abbrev S50000x1 : Shape := ⟨2, ![50000, 1]⟩
abbrev S50000x128 : Shape := ⟨2, ![50000, 128]⟩
abbrev S1x32 : Shape := ⟨2, ![1, 32]⟩
abbrev S50000x32 : Shape := ⟨2, ![50000, 32]⟩
abbrev S50000x448 : Shape := ⟨2, ![50000, 448]⟩
abbrev S50000x480 : Shape := ⟨2, ![50000, 480]⟩
abbrev S100000x480 : Shape := ⟨2, ![100000, 480]⟩
abbrev S100000x1 : Shape := ⟨2, ![100000, 1]⟩
abbrev S50000x2 : Shape := ⟨2, ![50000, 2]⟩
abbrev S512x128 : Shape := ⟨2, ![512, 128]⟩
abbrev S128x512 : Shape := ⟨2, ![128, 512]⟩
abbrev S512x512 : Shape := ⟨2, ![512, 512]⟩
abbrev S480x384 : Shape := ⟨2, ![480, 384]⟩
abbrev S128x384 : Shape := ⟨2, ![128, 384]⟩
abbrev S1x384 : Shape := ⟨2, ![1, 384]⟩
abbrev S1000x128 : Shape := ⟨2, ![1000, 128]⟩
abbrev S800x640 : Shape := ⟨2, ![800, 640]⟩
abbrev S800x480 : Shape := ⟨2, ![800, 480]⟩
abbrev S800x512 : Shape := ⟨2, ![800, 512]⟩
abbrev S8x128 : Shape := ⟨2, ![8, 128]⟩
abbrev S800x128 : Shape := ⟨2, ![800, 128]⟩
abbrev S800x384 : Shape := ⟨2, ![800, 384]⟩
abbrev S800 : Shape := ⟨1, ![800]⟩
abbrev S800x1 : Shape := ⟨2, ![800, 1]⟩
abbrev S1 : Shape := ⟨1, ![1]⟩
abbrev S1x1 : Shape := ⟨2, ![1, 1]⟩
abbrev S1000x1 : Shape := ⟨2, ![1000, 1]⟩
abbrev S1000 : Shape := ⟨1, ![1000]⟩

abbrev nBuf : Space → Nat
  | .hbm => 243
  | .vmem => 15
  | .smem => 0
  | _ => 0

abbrev hbmTy0_0 (i : Nat) : BufTy := match i % 128 with
  | 0 => ⟨S100000x640, .f32⟩
  | 1 => ⟨S50000x64, .f32⟩
  | 2 => ⟨S32, .f32⟩
  | 3 => ⟨S32, .f32⟩
  | 4 => ⟨S384x480, .f32⟩
  | 5 => ⟨S384x128, .f32⟩
  | 6 => ⟨S384, .f32⟩
  | 7 => ⟨S384, .f32⟩
  | 8 => ⟨S128x128, .f32⟩
  | 9 => ⟨S50000, .i32⟩
  | 10 => ⟨S50000, .i32⟩
  | 11 => ⟨S50000, .i32⟩
  | 12 => ⟨S50000, .i32⟩
  | 13 => ⟨S100000, .i32⟩
  | 14 => ⟨S100000x128, .f32⟩
  | 15 => ⟨S100000x512, .f32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x128, .f32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000x128, .f32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S50000x128, .f32⟩
  | 43 => ⟨S50000, .f32⟩
  | 44 => ⟨S100000, .f32⟩
  | 45 => ⟨S_, .i32⟩
  | 46 => ⟨S50000, .i32⟩
  | 47 => ⟨S50000, .i1⟩
  | 48 => ⟨S_, .i32⟩
  | 49 => ⟨S50000, .i32⟩
  | 50 => ⟨S50000, .i32⟩
  | 51 => ⟨S50000, .i32⟩
  | 52 => ⟨S50000x1, .i32⟩
  | 53 => ⟨S50000, .f32⟩
  | 54 => ⟨S50000, .f32⟩
  | 55 => ⟨S50000x1, .f32⟩
  | 56 => ⟨S1x32, .f32⟩
  | 57 => ⟨S50000x32, .f32⟩
  | 58 => ⟨S50000x32, .f32⟩
  | 59 => ⟨S50000x32, .f32⟩
  | 60 => ⟨S1x32, .f32⟩
  | 61 => ⟨S50000x32, .f32⟩
  | 62 => ⟨S50000x32, .f32⟩
  | 63 => ⟨S50000x32, .f32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S50000, .f32⟩
  | 73 => ⟨S50000, .f32⟩
  | 74 => ⟨S50000x1, .f32⟩
  | 75 => ⟨S1x32, .f32⟩
  | 76 => ⟨S50000x32, .f32⟩
  | 77 => ⟨S50000x32, .f32⟩
  | 78 => ⟨S50000x32, .f32⟩
  | 79 => ⟨S1x32, .f32⟩
  | 80 => ⟨S50000x32, .f32⟩
  | 81 => ⟨S50000x32, .f32⟩
  | 82 => ⟨S50000x32, .f32⟩
  | 83 => ⟨S_, .i32⟩
  | 84 => ⟨S50000, .i32⟩
  | 85 => ⟨S50000, .i1⟩
  | 86 => ⟨S_, .i32⟩
  | 87 => ⟨S50000, .i32⟩
  | 88 => ⟨S50000, .i32⟩
  | 89 => ⟨S50000, .i32⟩
  | 90 => ⟨S50000x1, .i32⟩
  | 91 => ⟨S50000, .f32⟩
  | 92 => ⟨S50000, .f32⟩
  | 93 => ⟨S50000x1, .f32⟩
  | 94 => ⟨S1x32, .f32⟩
  | 95 => ⟨S50000x32, .f32⟩
  | 96 => ⟨S50000x32, .f32⟩
  | 97 => ⟨S50000x32, .f32⟩
  | 98 => ⟨S1x32, .f32⟩
  | 99 => ⟨S50000x32, .f32⟩
  | 100 => ⟨S50000x32, .f32⟩
  | 101 => ⟨S50000x32, .f32⟩
  | 102 => ⟨S50000x448, .f32⟩
  | 103 => ⟨S50000x480, .f32⟩
  | 104 => ⟨S50000x480, .f32⟩
  | 105 => ⟨S50000x480, .f32⟩
  | 106 => ⟨S_, .f32⟩
  | 107 => ⟨S100000x480, .f32⟩
  | 108 => ⟨S50000x1, .i32⟩
  | 109 => ⟨S100000x480, .f32⟩
  | 110 => ⟨S_, .f32⟩
  | 111 => ⟨S100000x480, .f32⟩
  | 112 => ⟨S50000x1, .i32⟩
  | 113 => ⟨S100000x480, .f32⟩
  | 114 => ⟨S_, .f32⟩
  | 115 => ⟨S100000x480, .f32⟩
  | 116 => ⟨S50000x1, .i32⟩
  | 117 => ⟨S100000x480, .f32⟩
  | 118 => ⟨S100000x480, .f32⟩
  | 119 => ⟨S100000x480, .f32⟩
  | 120 => ⟨S_, .f32⟩
  | 121 => ⟨S50000, .f32⟩
  | 122 => ⟨S_, .f32⟩
  | 123 => ⟨S100000, .f32⟩
  | 124 => ⟨S50000x1, .i32⟩
  | 125 => ⟨S100000, .f32⟩
  | 126 => ⟨S_, .f32⟩
  | 127 => ⟨S100000, .f32⟩
  | _ => ⟨S100000x640, .f32⟩

abbrev hbmTy0_1 (i : Nat) : BufTy := match i % 128 with
  | 0 => ⟨S50000x1, .i32⟩
  | 1 => ⟨S100000, .f32⟩
  | 2 => ⟨S_, .f32⟩
  | 3 => ⟨S100000, .f32⟩
  | 4 => ⟨S50000x1, .i32⟩
  | 5 => ⟨S100000, .f32⟩
  | 6 => ⟨S100000, .f32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x480, .f32⟩
  | 13 => ⟨S100000x480, .f32⟩
  | 14 => ⟨S100000x480, .bf16⟩
  | 15 => ⟨S_, .i32⟩
  | 16 => ⟨S100000, .i32⟩
  | 17 => ⟨S50000x1, .i32⟩
  | 18 => ⟨S100000, .i32⟩
  | 19 => ⟨S_, .i32⟩
  | 20 => ⟨S100000, .i32⟩
  | 21 => ⟨S50000x1, .i32⟩
  | 22 => ⟨S100000, .i32⟩
  | 23 => ⟨S_, .i32⟩
  | 24 => ⟨S100000, .i32⟩
  | 25 => ⟨S50000x1, .i32⟩
  | 26 => ⟨S100000, .i32⟩
  | 27 => ⟨S100000, .i32⟩
  | 28 => ⟨S100000, .i32⟩
  | 29 => ⟨S_, .f32⟩
  | 30 => ⟨S100000, .f32⟩
  | 31 => ⟨S100000, .i1⟩
  | 32 => ⟨S_, .i32⟩
  | 33 => ⟨S100000, .i32⟩
  | 34 => ⟨S100000, .i32⟩
  | 35 => ⟨S_, .i32⟩
  | 36 => ⟨S50000, .i32⟩
  | 37 => ⟨S50000, .i32⟩
  | 38 => ⟨S50000x1, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .f32⟩
  | 45 => ⟨S100000x512, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S_, .i32⟩
  | 54 => ⟨S50000, .i32⟩
  | 55 => ⟨S50000, .i1⟩
  | 56 => ⟨S_, .i32⟩
  | 57 => ⟨S50000, .i32⟩
  | 58 => ⟨S50000, .i32⟩
  | 59 => ⟨S50000, .i32⟩
  | 60 => ⟨S50000x1, .i32⟩
  | 61 => ⟨S50000x1, .i32⟩
  | 62 => ⟨S50000x2, .i32⟩
  | 63 => ⟨S100000x512, .f32⟩
  | 64 => ⟨S512x128, .f32⟩
  | 65 => ⟨S128x512, .f32⟩
  | 66 => ⟨S128x512, .f32⟩
  | 67 => ⟨S512x512, .f32⟩
  | 68 => ⟨S_, .f32⟩
  | 69 => ⟨S512x512, .f32⟩
  | 70 => ⟨S512x512, .f32⟩
  | 71 => ⟨S480x384, .f32⟩
  | 72 => ⟨S128x384, .f32⟩
  | 73 => ⟨S1x384, .f32⟩
  | 74 => ⟨S1x384, .f32⟩
  | 75 => ⟨S100000x640, .f32⟩
  | 76 => ⟨S1000x128, .f32⟩
  | 77 => ⟨S1000x1, .f32⟩
  | 78 => ⟨S1000, .f32⟩
  | 79 => ⟨S_, .f32⟩
  | 80 => ⟨S_, .f32⟩
  | 81 => ⟨S1000x1, .f32⟩
  | 82 => ⟨S1000, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .i32⟩
  | 95 => ⟨S50000, .i32⟩
  | 96 => ⟨S50000, .i32⟩
  | 97 => ⟨S_, .i32⟩
  | 98 => ⟨S50000, .i32⟩
  | 99 => ⟨S50000, .i1⟩
  | 100 => ⟨S_, .i32⟩
  | 101 => ⟨S50000, .i32⟩
  | 102 => ⟨S50000, .i32⟩
  | 103 => ⟨S50000, .i32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S50000x1, .i32⟩
  | 113 => ⟨S50000x2, .i32⟩
  | 114 => ⟨S100000x640, .f32⟩
  | _ => ⟨S100000x640, .f32⟩

abbrev hbmTy (i : Nat) : BufTy := match i / 128 with
  | 0 => hbmTy0_0 i
  | 1 => hbmTy0_1 i
  | _ => ⟨S100000x640, .f32⟩

abbrev bufTy : (tb : Table) → Fin (tcTables nBuf tb) → BufTy
  | .hbm, ⟨i, _⟩ => hbmTy i
  | .local _ .vmem, ⟨0, _⟩ => ⟨S800x640, .f32⟩
  | .local _ .vmem, ⟨1, _⟩ => ⟨S800x640, .f32⟩
  | .local _ .vmem, ⟨2, _⟩ => ⟨S800x480, .bf16⟩
  | .local _ .vmem, ⟨3, _⟩ => ⟨S800x480, .bf16⟩
  | .local _ .vmem, ⟨4, _⟩ => ⟨S800x512, .f32⟩
  | .local _ .vmem, ⟨5, _⟩ => ⟨S800x512, .f32⟩
  | .local _ .vmem, ⟨6, _⟩ => ⟨S480x384, .f32⟩
  | .local _ .vmem, ⟨7, _⟩ => ⟨S128x384, .f32⟩
  | .local _ .vmem, ⟨8, _⟩ => ⟨S1x384, .f32⟩
  | .local _ .vmem, ⟨9, _⟩ => ⟨S1x384, .f32⟩
  | .local _ .vmem, ⟨10, _⟩ => ⟨S512x512, .f32⟩
  | .local _ .vmem, ⟨11, _⟩ => ⟨S800x640, .f32⟩
  | .local _ .vmem, ⟨12, _⟩ => ⟨S800x640, .f32⟩
  | .local _ .vmem, ⟨13, _⟩ => ⟨S8x128, .f32⟩
  | .local _ .vmem, ⟨14, _⟩ => ⟨S8x128, .f32⟩
  | _, _ => ⟨S100000x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_11 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_12 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_13 : Ref sig .tc := ⟨.hbm, 120, rfl⟩
abbrev main_v91 : Ref sig .tc := ⟨.hbm, 121, rfl⟩
abbrev main_cst_14 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_15 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_16 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_17 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_c_18 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_c_19 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_20 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_21 : Ref sig .tc := ⟨.hbm, 157, rfl⟩
abbrev main_v120 : Ref sig .tc := ⟨.hbm, 158, rfl⟩
abbrev main_v121 : Ref sig .tc := ⟨.hbm, 159, rfl⟩
abbrev main_c_22 : Ref sig .tc := ⟨.hbm, 160, rfl⟩
abbrev main_v122 : Ref sig .tc := ⟨.hbm, 161, rfl⟩
abbrev main_v123 : Ref sig .tc := ⟨.hbm, 162, rfl⟩
abbrev main_c_23 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_24 : Ref sig .tc := ⟨.hbm, 168, rfl⟩
abbrev main_call1_v0 : Ref sig .tc := ⟨.hbm, 169, rfl⟩
abbrev main_call1_v1 : Ref sig .tc := ⟨.hbm, 170, rfl⟩
abbrev main_v128 : Ref sig .tc := ⟨.hbm, 171, rfl⟩
abbrev main_cst_25 : Ref sig .tc := ⟨.hbm, 172, rfl⟩
abbrev main_v129 : Ref sig .tc := ⟨.hbm, 173, rfl⟩
abbrev main_c_26 : Ref sig .tc := ⟨.hbm, 174, rfl⟩
abbrev main_v130 : Ref sig .tc := ⟨.hbm, 175, rfl⟩
abbrev main_v131 : Ref sig .tc := ⟨.hbm, 176, rfl⟩
abbrev main_c_27 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_c_28 : Ref sig .tc := ⟨.hbm, 181, rfl⟩
abbrev main_v135 : Ref sig .tc := ⟨.hbm, 182, rfl⟩
abbrev main_v136 : Ref sig .tc := ⟨.hbm, 183, rfl⟩
abbrev main_c_29 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_call2_cst : Ref sig .tc := ⟨.hbm, 196, rfl⟩
abbrev main_call2_v0 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153_0 : Ref sig .tc := ⟨.hbm, 203, rfl⟩
abbrev main_v153_1 : Ref sig .tc := ⟨.hbm, 204, rfl⟩
abbrev main_v154 : Ref sig .tc := ⟨.hbm, 205, rfl⟩
abbrev main_v155 : Ref sig .tc := ⟨.hbm, 206, rfl⟩
abbrev main_cst_30 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_31 : Ref sig .tc := ⟨.hbm, 211, rfl⟩
abbrev main_v159 : Ref sig .tc := ⟨.hbm, 212, rfl⟩
abbrev main_cst_32 : Ref sig .tc := ⟨.hbm, 213, rfl⟩
abbrev main_v160 : Ref sig .tc := ⟨.hbm, 214, rfl⟩
abbrev main_cst_33 : Ref sig .tc := ⟨.hbm, 215, rfl⟩
abbrev main_v161 : Ref sig .tc := ⟨.hbm, 216, rfl⟩
abbrev main_cst_34 : Ref sig .tc := ⟨.hbm, 217, rfl⟩
abbrev main_v162 : Ref sig .tc := ⟨.hbm, 218, rfl⟩
abbrev main_cst_35 : Ref sig .tc := ⟨.hbm, 219, rfl⟩
abbrev main_v163 : Ref sig .tc := ⟨.hbm, 220, rfl⟩
abbrev main_v164 : Ref sig .tc := ⟨.hbm, 221, rfl⟩
abbrev main_c_36 : Ref sig .tc := ⟨.hbm, 222, rfl⟩
abbrev main_v165 : Ref sig .tc := ⟨.hbm, 223, rfl⟩
abbrev main_v166 : Ref sig .tc := ⟨.hbm, 224, rfl⟩
abbrev main_c_37 : Ref sig .tc := ⟨.hbm, 225, rfl⟩
abbrev main_v167 : Ref sig .tc := ⟨.hbm, 226, rfl⟩
abbrev main_v168 : Ref sig .tc := ⟨.hbm, 227, rfl⟩
abbrev main_c_38 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_c_39 : Ref sig .tc := ⟨.hbm, 232, rfl⟩
abbrev main_v172 : Ref sig .tc := ⟨.hbm, 233, rfl⟩
abbrev main_v173 : Ref sig .tc := ⟨.hbm, 234, rfl⟩
abbrev main_c_40 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x480 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S480x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S800x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S100000x640_S100000x128_0_0 : S100000x640.Slices ![0, 0] S100000x128
  slices_S100000x640_S100000x512_0_128 : S100000x640.Slices ![0, 128] S100000x512
  bcast_S_S50000 : S_.BroadcastsInDim S50000 (![] : Fin 0 → Fin S50000.rank)
  bcast_S50000_S50000x1_0 : S50000.BroadcastsInDim S50000x1 (![0] : Fin 1 → Fin S50000x1.rank)
  bcast_S32_S1x32_1 : S32.BroadcastsInDim S1x32 (![1] : Fin 1 → Fin S1x32.rank)
  bcast_S50000x1_S50000x32_0_1 : S50000x1.BroadcastsInDim S50000x32 (![0, 1] : Fin 2 → Fin S50000x32.rank)
  bcast_S1x32_S50000x32_0_1 : S1x32.BroadcastsInDim S50000x32 (![0, 1] : Fin 2 → Fin S50000x32.rank)
  concatenates_S50000x128_S50000x128_S50000x128_S50000x64_S50000x448_d1 : Shape.Concatenates [S50000x128, S50000x128, S50000x128, S50000x64] S50000x448 1
  concatenates_S50000x448_S50000x32_S50000x480_d1 : Shape.Concatenates [S50000x448, S50000x32] S50000x480 1
  bcast_S_S100000x480 : S_.BroadcastsInDim S100000x480 (![] : Fin 0 → Fin S100000x480.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x480_0_1 : S100000x1.BroadcastsInDim S100000x480 (![0, 1] : Fin 2 → Fin S100000x480.rank)
  bitsLt_bf16_f32 : FTy.bits .bf16 < FTy.bits .f32
  slices_S50000x64_S50000x1_0_0 : S50000x64.Slices ![0, 0] S50000x1
  shapeCasts_S50000x1_S50000 : S50000x1.ShapeCasts S50000
  bcast_S_S100000x512 : S_.BroadcastsInDim S100000x512 (![] : Fin 0 → Fin S100000x512.rank)
  concatenates_S50000x1_S50000x1_S50000x2_d1 : Shape.Concatenates [S50000x1, S50000x1] S50000x2 1
  slices_S100000x128_S512x128_99488_0 : S100000x128.Slices ![99488, 0] S512x128
  transposes_S512x128_S128x512_1_0 : S512x128.Transposes [1, 0] S128x512
  bcast_S_S512x512 : S_.BroadcastsInDim S512x512 (![] : Fin 0 → Fin S512x512.rank)
  transposes_S384x480_S480x384_1_0 : S384x480.Transposes [1, 0] S480x384
  transposes_S384x128_S128x384_1_0 : S384x128.Transposes [1, 0] S128x384
  shapeCasts_S384_S1x384 : S384.ShapeCasts S1x384
  inb_S800x640_S800x128_0_0 : ∀ a, (![0, 0] : Fin 2 → Nat) a + S800x128.size a ≤ S800x640.size a
  h_S800x128 : 0 < S800x128.numel
  inb_S800x640_S800x512_0_128 : ∀ a, (![0, 128] : Fin 2 → Nat) a + S800x512.size a ≤ S800x640.size a
  h_S800x512 : 0 < S800x512.numel
  inb_S800x480_S800x480_0_0 : ∀ a, (![0, 0] : Fin 2 → Nat) a + S800x480.size a ≤ S800x480.size a
  h_S800x480 : 0 < S800x480.numel
  shapeCasts_S800x480_S800x480 : S800x480.ShapeCasts S800x480
  inb_S480x384_S480x384_0_0 : ∀ a, (![0, 0] : Fin 2 → Nat) a + S480x384.size a ≤ S480x384.size a
  h_S480x384 : 0 < S480x384.numel
  shapeCasts_S480x384_S480x384 : S480x384.ShapeCasts S480x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S800x384 : S1x384.Broadcasts S800x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S800x384_o0_0_S800x128 : S800x384.Slices ![0, 0] S800x128
  slices_S800x384_o0_128_S800x128 : S800x384.Slices ![0, 128] S800x128
  slices_S800x384_o0_256_S800x128 : S800x384.Slices ![0, 256] S800x128
  inb_S800x512_S800x512_0_0 : ∀ a, (![0, 0] : Fin 2 → Nat) a + S800x512.size a ≤ S800x512.size a
  shapeCasts_S800x512_S800x512 : S800x512.ShapeCasts S800x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S800x512_S800 : S800x512.Reduces [1] S800
  shapeCasts_S800_S800x1 : S800.ShapeCasts S800x1
  reduces_S800x1_S1 : S800x1.Reduces [0] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  slices_S1000x128_S1000x1_0_0 : S1000x128.Slices ![0, 0] S1000x1
  shapeCasts_S1000x1_S1000 : S1000x1.ShapeCasts S1000
  reducesTo_S1000_S_d0 : S1000.ReducesTo [0] S_
  h_S_ : 0 < S_.numel
  slices_S1000x128_S1000x1_0_1 : S1000x128.Slices ![0, 1] S1000x1
  gather_S100000x128_S50000x1_S50000x128_1_0_n_n_0_1_1128_wf : GatherDims.WF S100000x128 S50000x1 S50000x128 [1] [0] [] [0] [] 1 ![1, 128]
  gather_S100000_S50000x1_S50000_n_0_n_n_0_1_1_wf : GatherDims.WF S100000 S50000x1 S50000 [] [0] [] [0] [] 1 ![1]
  scatter_S100000x480_S50000x1_S50000x480_1_0_0_1_wf : ScatterDims.WF S100000x480 S50000x1 S50000x480 [1] [0] [0] 1
  scatter_S100000_S50000x1_S50000_n_0_0_1_wf : ScatterDims.WF S100000 S50000x1 S50000 [] [0] [0] 1
  scatter_S100000x512_S50000x2_S50000_n_01_01_1_wf : ScatterDims.WF S100000x512 S50000x2 S50000 [] [0, 1] [0, 1] 1
  dot_S128x128_S128x512_S128x512_1_0_0_1_n_n_wf : DotDims.WF S128x128 S128x512 S128x512 [1] [0] [0] [1] [] []
  dot_S512x128_S128x512_S512x512_1_0_0_1_n_n_wf : DotDims.WF S512x128 S128x512 S512x512 [1] [0] [0] [1] [] []
  dot_S800x480_S480x384_S800x384_1_0_0_1_n_n_wf : DotDims.WF S800x480 S480x384 S800x384 [1] [0] [0] [1] [] []
  dot_S800x128_S128x384_S800x384_1_0_0_1_n_n_wf : DotDims.WF S800x128 S128x384 S800x384 [1] [0] [0] [1] [] []
  dot_S800x512_S512x512_S800x512_1_0_0_1_n_n_wf : DotDims.WF S800x512 S512x512 S800x512 [1] [0] [0] [1] [] []
  scatter_S100000x640_S50000x2_S50000_n_01_01_1_wf : ScatterDims.WF S100000x640 S50000x2 S50000 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x640.size a ≤ S100000x640.size a
  hwx0_0 : ∀ i : grid0.Coords, EltTy.bits .f32 = 32 ∨ (Rect.block (s := S100000x640) S800x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x480.size a ≤ S100000x480.size a
  hwx0_1 : ∀ i : grid0.Coords, EltTy.bits .bf16 = 32 ∨ (Rect.block (s := S100000x480) S800x480.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x512.size a ≤ S100000x512.size a
  hwx0_2 : ∀ i : grid0.Coords, EltTy.bits .f32 = 32 ∨ (Rect.block (s := S100000x512) S800x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S480x384.size a ≤ S480x384.size a
  hwx0_3 : ∀ i : grid0.Coords, EltTy.bits .f32 = 32 ∨ (Rect.block (s := S480x384) S480x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .f32 = 32 ∨ (Rect.block (s := S128x384) S128x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S800x640.size a ≤ S100000x640.size a
  hwx0_8 : ∀ i : grid0.Coords, EltTy.bits .f32 = 32 ∨ (Rect.block (s := S100000x640) S800x640.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S1000x128.size a
  hwx0_9 : ∀ i : grid0.Coords, EltTy.bits .f32 = 32 ∨ (Rect.block (s := S1000x128) S8x128.size (cc0_transform_9 i) (hinb0_9 i)).WholeWords (EltTy.packing .f32)

variable [Facts₀]

def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def gather_S100000_S50000x1_S50000_n_0_n_n_0_1_1 : GatherDims S100000 S50000x1 S50000 where
  offsetDims := []
  collapsedSliceDims := [0]
  operandBatchingDims := []
  startIndicesBatchingDims := []
  startIndexMap := [0]
  indexVectorDim := 1
  sliceSizes := ![1]
  wf := gather_S100000_S50000x1_S50000_n_0_n_n_0_1_1_wf
def scatter_S100000x480_S50000x1_S50000x480_1_0_0_1 : ScatterDims S100000x480 S50000x1 S50000x480 where
  updateWindowDims := [1]
  insertedWindowDims := [0]
  scatterDimsToOperandDims := [0]
  indexVectorDim := 1
  wf := scatter_S100000x480_S50000x1_S50000x480_1_0_0_1_wf
def scatter_S100000_S50000x1_S50000_n_0_0_1 : ScatterDims S100000 S50000x1 S50000 where
  updateWindowDims := []
  insertedWindowDims := [0]
  scatterDimsToOperandDims := [0]
  indexVectorDim := 1
  wf := scatter_S100000_S50000x1_S50000_n_0_0_1_wf
def scatter_S100000x512_S50000x2_S50000_n_01_01_1 : ScatterDims S100000x512 S50000x2 S50000 where
  updateWindowDims := []
  insertedWindowDims := [0, 1]
  scatterDimsToOperandDims := [0, 1]
  indexVectorDim := 1
  wf := scatter_S100000x512_S50000x2_S50000_n_01_01_1_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S800x480_S480x384_S800x384_1_0_0_1_n_n : DotDims S800x480 S480x384 S800x384 where
  lhsContracting := [1]
  rhsContracting := [0]
  lhsNonContracting := [0]
  rhsNonContracting := [1]
  lhsBatch := []
  rhsBatch := []
  wf := dot_S800x480_S480x384_S800x384_1_0_0_1_n_n_wf
def dot_S800x128_S128x384_S800x384_1_0_0_1_n_n : DotDims S800x128 S128x384 S800x384 where
  lhsContracting := [1]
  rhsContracting := [0]
  lhsNonContracting := [0]
  rhsNonContracting := [1]
  lhsBatch := []
  rhsBatch := []
  wf := dot_S800x128_S128x384_S800x384_1_0_0_1_n_n_wf
def dot_S800x512_S512x512_S800x512_1_0_0_1_n_n : DotDims S800x512 S512x512 S800x512 where
  lhsContracting := [1]
  rhsContracting := [0]
  lhsNonContracting := [0]
  rhsNonContracting := [1]
  lhsBatch := []
  rhsBatch := []
  wf := dot_S800x512_S512x512_S800x512_1_0_0_1_n_n_wf
def scatter_S100000x640_S50000x2_S50000_n_01_01_1 : ScatterDims S100000x640 S50000x2 S50000 where
  updateWindowDims := []
  insertedWindowDims := [0, 1]
  scatterDimsToOperandDims := [0, 1]
  indexVectorDim := 1
  wf := scatter_S100000x640_S50000x2_S50000_n_01_01_1_wf

abbrev win0_0 : Pipeline.Window sig grid0 :=
  Pipeline.Window.ofSpec (Memref.whole main_arg0) S800x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v108) S800x480.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v143) S800x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v149) S480x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v150) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v151) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v152) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v148) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v153_0) S800x640.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v153_1) S8x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x640 : Shape := ⟨2, ![100000, 640]⟩
abbrev S50000x64 : Shape := ⟨2, ![50000, 64]⟩
abbrev S32 : Shape := ⟨1, ![32]⟩
abbrev S384x480 : Shape := ⟨2, ![384, 480]⟩
abbrev S384x128 : Shape := ⟨2, ![384, 128]⟩
abbrev S384 : Shape := ⟨1, ![384]⟩
abbrev S128x128 : Shape := ⟨2, ![128, 128]⟩
abbrev S50000 : Shape := ⟨1, ![50000]⟩
abbrev S100000 : Shape := ⟨1, ![100000]⟩
abbrev S100000x128 : Shape := ⟨2, ![100000, 128]⟩
abbrev S100000x512 : Shape := ⟨2, ![100000, 512]⟩
abbrev S_ : Shape := ⟨0, ![]⟩
abbrev S50000x1 : Shape := ⟨2, ![50000, 1]⟩
abbrev S50000x128 : Shape := ⟨2, ![50000, 128]⟩
abbrev S50000x448 : Shape := ⟨2, ![50000, 448]⟩
abbrev S1x32 : Shape := ⟨2, ![1, 32]⟩
abbrev S50000x32 : Shape := ⟨2, ![50000, 32]⟩
abbrev S50000x480 : Shape := ⟨2, ![50000, 480]⟩
abbrev S150000x480 : Shape := ⟨2, ![150000, 480]⟩
abbrev S150000 : Shape := ⟨1, ![150000]⟩
abbrev S100000x480 : Shape := ⟨2, ![100000, 480]⟩
abbrev S150000x1 : Shape := ⟨2, ![150000, 1]⟩
abbrev S100000x1 : Shape := ⟨2, ![100000, 1]⟩
abbrev S480x384 : Shape := ⟨2, ![480, 384]⟩
abbrev S100000x384 : Shape := ⟨2, ![100000, 384]⟩
abbrev S1x384 : Shape := ⟨2, ![1, 384]⟩
abbrev S128x384 : Shape := ⟨2, ![128, 384]⟩
abbrev S1x50000 : Shape := ⟨2, ![1, 50000]⟩
abbrev S3x50000 : Shape := ⟨2, ![3, 50000]⟩
abbrev S50000x2 : Shape := ⟨2, ![50000, 2]⟩
abbrev S512x128 : Shape := ⟨2, ![512, 128]⟩
abbrev S128x512 : Shape := ⟨2, ![128, 512]⟩
abbrev S512x512 : Shape := ⟨2, ![512, 512]⟩

abbrev nBuf : Space → Nat
  | .hbm => 258
  | .vmem => 0
  | .smem => 0
  | _ => 0

abbrev hbmTy0_0 (i : Nat) : BufTy := match i % 128 with
  | 0 => ⟨S100000x640, .f32⟩
  | 1 => ⟨S50000x64, .f32⟩
  | 2 => ⟨S32, .f32⟩
  | 3 => ⟨S32, .f32⟩
  | 4 => ⟨S384x480, .f32⟩
  | 5 => ⟨S384x128, .f32⟩
  | 6 => ⟨S384, .f32⟩
  | 7 => ⟨S384, .f32⟩
  | 8 => ⟨S128x128, .f32⟩
  | 9 => ⟨S50000, .i32⟩
  | 10 => ⟨S50000, .i32⟩
  | 11 => ⟨S50000, .i32⟩
  | 12 => ⟨S50000, .i32⟩
  | 13 => ⟨S100000, .i32⟩
  | 14 => ⟨S100000x128, .f32⟩
  | 15 => ⟨S100000x512, .f32⟩
  | 16 => ⟨S50000, .f32⟩
  | 17 => ⟨S100000, .f32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x128, .f32⟩
  | 27 => ⟨S_, .i32⟩
  | 28 => ⟨S50000, .i32⟩
  | 29 => ⟨S50000, .i1⟩
  | 30 => ⟨S_, .i32⟩
  | 31 => ⟨S50000, .i32⟩
  | 32 => ⟨S50000, .i32⟩
  | 33 => ⟨S50000, .i32⟩
  | 34 => ⟨S50000x1, .i32⟩
  | 35 => ⟨S50000x128, .f32⟩
  | 36 => ⟨S_, .i32⟩
  | 37 => ⟨S50000, .i32⟩
  | 38 => ⟨S50000, .i1⟩
  | 39 => ⟨S_, .i32⟩
  | 40 => ⟨S50000, .i32⟩
  | 41 => ⟨S50000, .i32⟩
  | 42 => ⟨S50000, .i32⟩
  | 43 => ⟨S50000x1, .i32⟩
  | 44 => ⟨S50000x128, .f32⟩
  | 45 => ⟨S50000x448, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S50000, .f32⟩
  | 55 => ⟨S50000, .f32⟩
  | 56 => ⟨S50000x1, .f32⟩
  | 57 => ⟨S1x32, .f32⟩
  | 58 => ⟨S50000x32, .f32⟩
  | 59 => ⟨S50000x32, .f32⟩
  | 60 => ⟨S50000x32, .f32⟩
  | 61 => ⟨S1x32, .f32⟩
  | 62 => ⟨S50000x32, .f32⟩
  | 63 => ⟨S50000x32, .f32⟩
  | 64 => ⟨S50000x32, .f32⟩
  | 65 => ⟨S50000x480, .f32⟩
  | 66 => ⟨S_, .i32⟩
  | 67 => ⟨S50000, .i32⟩
  | 68 => ⟨S50000, .i1⟩
  | 69 => ⟨S_, .i32⟩
  | 70 => ⟨S50000, .i32⟩
  | 71 => ⟨S50000, .i32⟩
  | 72 => ⟨S50000, .i32⟩
  | 73 => ⟨S50000x1, .i32⟩
  | 74 => ⟨S50000, .f32⟩
  | 75 => ⟨S50000, .f32⟩
  | 76 => ⟨S50000x1, .f32⟩
  | 77 => ⟨S1x32, .f32⟩
  | 78 => ⟨S50000x32, .f32⟩
  | 79 => ⟨S50000x32, .f32⟩
  | 80 => ⟨S50000x32, .f32⟩
  | 81 => ⟨S1x32, .f32⟩
  | 82 => ⟨S50000x32, .f32⟩
  | 83 => ⟨S50000x32, .f32⟩
  | 84 => ⟨S50000x32, .f32⟩
  | 85 => ⟨S50000x480, .f32⟩
  | 86 => ⟨S_, .i32⟩
  | 87 => ⟨S50000, .i32⟩
  | 88 => ⟨S50000, .i1⟩
  | 89 => ⟨S_, .i32⟩
  | 90 => ⟨S50000, .i32⟩
  | 91 => ⟨S50000, .i32⟩
  | 92 => ⟨S50000, .i32⟩
  | 93 => ⟨S50000x1, .i32⟩
  | 94 => ⟨S50000, .f32⟩
  | 95 => ⟨S50000, .f32⟩
  | 96 => ⟨S50000x1, .f32⟩
  | 97 => ⟨S1x32, .f32⟩
  | 98 => ⟨S50000x32, .f32⟩
  | 99 => ⟨S50000x32, .f32⟩
  | 100 => ⟨S50000x32, .f32⟩
  | 101 => ⟨S1x32, .f32⟩
  | 102 => ⟨S50000x32, .f32⟩
  | 103 => ⟨S50000x32, .f32⟩
  | 104 => ⟨S50000x32, .f32⟩
  | 105 => ⟨S50000x480, .f32⟩
  | 106 => ⟨S150000x480, .f32⟩
  | 107 => ⟨S150000, .i32⟩
  | 108 => ⟨S_, .f32⟩
  | 109 => ⟨S100000x480, .f32⟩
  | 110 => ⟨S150000x1, .i32⟩
  | 111 => ⟨S100000x480, .f32⟩
  | 112 => ⟨S_, .f32⟩
  | 113 => ⟨S150000, .f32⟩
  | 114 => ⟨S_, .f32⟩
  | 115 => ⟨S100000, .f32⟩
  | 116 => ⟨S150000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x480, .f32⟩
  | 123 => ⟨S100000x480, .f32⟩
  | 124 => ⟨S480x384, .f32⟩
  | 125 => ⟨S100000x384, .f32⟩
  | 126 => ⟨S1x384, .f32⟩
  | 127 => ⟨S100000x384, .f32⟩
  | _ => ⟨S100000x640, .f32⟩

abbrev hbmTy0_1 (i : Nat) : BufTy := match i % 128 with
  | 0 => ⟨S100000x384, .f32⟩
  | 1 => ⟨S128x384, .f32⟩
  | 2 => ⟨S100000x384, .f32⟩
  | 3 => ⟨S1x384, .f32⟩
  | 4 => ⟨S100000x384, .f32⟩
  | 5 => ⟨S100000x384, .f32⟩
  | 6 => ⟨S100000x128, .f32⟩
  | 7 => ⟨S100000x128, .f32⟩
  | 8 => ⟨S100000x128, .f32⟩
  | 9 => ⟨S100000x128, .f32⟩
  | 10 => ⟨S100000x128, .f32⟩
  | 11 => ⟨S100000x128, .f32⟩
  | 12 => ⟨S100000x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x128, .f32⟩
  | 37 => ⟨S100000x128, .f32⟩
  | 38 => ⟨S100000x128, .f32⟩
  | 39 => ⟨S1x50000, .i32⟩
  | 40 => ⟨S3x50000, .i32⟩
  | 41 => ⟨S150000, .i32⟩
  | 42 => ⟨S_, .i32⟩
  | 43 => ⟨S100000, .i32⟩
  | 44 => ⟨S150000x1, .i32⟩
  | 45 => ⟨S100000, .i32⟩
  | 46 => ⟨S_, .f32⟩
  | 47 => ⟨S100000, .f32⟩
  | 48 => ⟨S100000, .i1⟩
  | 49 => ⟨S_, .i32⟩
  | 50 => ⟨S100000, .i32⟩
  | 51 => ⟨S100000, .i32⟩
  | 52 => ⟨S_, .i32⟩
  | 53 => ⟨S50000, .i32⟩
  | 54 => ⟨S50000, .i32⟩
  | 55 => ⟨S50000x1, .f32⟩
  | 56 => ⟨S50000, .f32⟩
  | 57 => ⟨S_, .f32⟩
  | 58 => ⟨S_, .f32⟩
  | 59 => ⟨S50000, .f32⟩
  | 60 => ⟨S50000, .f32⟩
  | 61 => ⟨S_, .f32⟩
  | 62 => ⟨S100000x512, .f32⟩
  | 63 => ⟨S_, .i32⟩
  | 64 => ⟨S50000, .i32⟩
  | 65 => ⟨S50000, .i1⟩
  | 66 => ⟨S_, .i32⟩
  | 67 => ⟨S50000, .i32⟩
  | 68 => ⟨S50000, .i32⟩
  | 69 => ⟨S50000, .i32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S50000x1, .i32⟩
  | 79 => ⟨S50000x2, .i32⟩
  | 80 => ⟨S100000x512, .f32⟩
  | 81 => ⟨S_, .f32⟩
  | 82 => ⟨S100000x512, .f32⟩
  | 83 => ⟨S_, .i32⟩
  | 84 => ⟨S50000, .i32⟩
  | 85 => ⟨S50000, .i1⟩
  | 86 => ⟨S_, .i32⟩
  | 87 => ⟨S50000, .i32⟩
  | 88 => ⟨S50000, .i32⟩
  | 89 => ⟨S50000, .i32⟩
  | 90 => ⟨S_, .i32⟩
  | 91 => ⟨S50000, .i32⟩
  | 92 => ⟨S50000, .i1⟩
  | 93 => ⟨S_, .i32⟩
  | 94 => ⟨S50000, .i32⟩
  | 95 => ⟨S50000, .i32⟩
  | 96 => ⟨S50000, .i32⟩
  | 97 => ⟨S50000x1, .i32⟩
  | 98 => ⟨S50000x1, .i32⟩
  | 99 => ⟨S50000x2, .i32⟩
  | 100 => ⟨S100000x512, .f32⟩
  | 101 => ⟨S512x128, .f32⟩
  | 102 => ⟨S128x512, .f32⟩
  | 103 => ⟨S128x512, .f32⟩
  | 104 => ⟨S512x512, .f32⟩
  | 105 => ⟨S_, .f32⟩
  | 106 => ⟨S512x512, .f32⟩
  | 107 => ⟨S512x512, .f32⟩
  | 108 => ⟨S100000x512, .f32⟩
  | 109 => ⟨S100000x512, .f32⟩
  | 110 => ⟨S_, .f32⟩
  | 111 => ⟨S100000x512, .f32⟩
  | 112 => ⟨S100000x512, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S100000x512, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S100000x512, .f32⟩
  | _ => ⟨S100000x640, .f32⟩

abbrev hbmTy0_2 (i : Nat) : BufTy := match i % 128 with
  | 0 => ⟨S100000x512, .f32⟩
  | 1 => ⟨S100000x640, .f32⟩
  | _ => ⟨S100000x640, .f32⟩

abbrev hbmTy (i : Nat) : BufTy := match i / 128 with
  | 0 => hbmTy0_0 i
  | 1 => hbmTy0_1 i
  | 2 => hbmTy0_2 i
  | _ => ⟨S100000x640, .f32⟩

abbrev bufTy : (tb : Table) → Fin (tcTables nBuf tb) → BufTy
  | .hbm, ⟨i, _⟩ => hbmTy i
  | _, _ => ⟨S100000x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_9 : Ref sig .tc := ⟨.hbm, 86, rfl⟩
abbrev main_v62 : Ref sig .tc := ⟨.hbm, 87, rfl⟩
abbrev main_v63 : Ref sig .tc := ⟨.hbm, 88, rfl⟩
abbrev main_c_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_11 : Ref sig .tc := ⟨.hbm, 112, rfl⟩
abbrev main_v85 : Ref sig .tc := ⟨.hbm, 113, rfl⟩
abbrev main_cst_12 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_13 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_14 : Ref sig .tc := ⟨.hbm, 143, rfl⟩
abbrev main_v113 : Ref sig .tc := ⟨.hbm, 144, rfl⟩
abbrev main_v114 : Ref sig .tc := ⟨.hbm, 145, rfl⟩
abbrev main_cst_15 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_16 : Ref sig .tc := ⟨.hbm, 152, rfl⟩
abbrev main_v120 : Ref sig .tc := ⟨.hbm, 153, rfl⟩
abbrev main_v121 : Ref sig .tc := ⟨.hbm, 154, rfl⟩
abbrev main_cst_17 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_18 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_c_19 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_20 : Ref sig .tc := ⟨.hbm, 174, rfl⟩
abbrev main_v138 : Ref sig .tc := ⟨.hbm, 175, rfl⟩
abbrev main_v139 : Ref sig .tc := ⟨.hbm, 176, rfl⟩
abbrev main_c_21 : Ref sig .tc := ⟨.hbm, 177, rfl⟩
abbrev main_v140 : Ref sig .tc := ⟨.hbm, 178, rfl⟩
abbrev main_v141 : Ref sig .tc := ⟨.hbm, 179, rfl⟩
abbrev main_c_22 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_23 : Ref sig .tc := ⟨.hbm, 185, rfl⟩
abbrev main_call1_v0 : Ref sig .tc := ⟨.hbm, 186, rfl⟩
abbrev main_call1_v1 : Ref sig .tc := ⟨.hbm, 187, rfl⟩
abbrev main_v146 : Ref sig .tc := ⟨.hbm, 188, rfl⟩
abbrev main_cst_24 : Ref sig .tc := ⟨.hbm, 189, rfl⟩
abbrev main_v147 : Ref sig .tc := ⟨.hbm, 190, rfl⟩
abbrev main_c_25 : Ref sig .tc := ⟨.hbm, 191, rfl⟩
abbrev main_v148 : Ref sig .tc := ⟨.hbm, 192, rfl⟩
abbrev main_v149 : Ref sig .tc := ⟨.hbm, 193, rfl⟩
abbrev main_c_26 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_c_27 : Ref sig .tc := ⟨.hbm, 198, rfl⟩
abbrev main_v153 : Ref sig .tc := ⟨.hbm, 199, rfl⟩
abbrev main_v154 : Ref sig .tc := ⟨.hbm, 200, rfl⟩
abbrev main_c_28 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_29 : Ref sig .tc := ⟨.hbm, 209, rfl⟩
abbrev main_v162 : Ref sig .tc := ⟨.hbm, 210, rfl⟩
abbrev main_c_30 : Ref sig .tc := ⟨.hbm, 211, rfl⟩
abbrev main_v163 : Ref sig .tc := ⟨.hbm, 212, rfl⟩
abbrev main_v164 : Ref sig .tc := ⟨.hbm, 213, rfl⟩
abbrev main_c_31 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_c_32 : Ref sig .tc := ⟨.hbm, 218, rfl⟩
abbrev main_v168 : Ref sig .tc := ⟨.hbm, 219, rfl⟩
abbrev main_v169 : Ref sig .tc := ⟨.hbm, 220, rfl⟩
abbrev main_c_33 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_call2_cst : Ref sig .tc := ⟨.hbm, 233, rfl⟩
abbrev main_call2_v0 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_call3_cst : Ref sig .tc := ⟨.hbm, 238, rfl⟩
abbrev main_call3_v0 : Ref sig .tc := ⟨.hbm, 239, rfl⟩
abbrev main_v184 : Ref sig .tc := ⟨.hbm, 240, rfl⟩
abbrev main_cst_34 : Ref sig .tc := ⟨.hbm, 241, rfl⟩
abbrev main_v185 : Ref sig .tc := ⟨.hbm, 242, rfl⟩
abbrev main_cst_35 : Ref sig .tc := ⟨.hbm, 243, rfl⟩
abbrev main_v186 : Ref sig .tc := ⟨.hbm, 244, rfl⟩
abbrev main_cst_36 : Ref sig .tc := ⟨.hbm, 245, rfl⟩
abbrev main_v187 : Ref sig .tc := ⟨.hbm, 246, rfl⟩
abbrev main_v188 : Ref sig .tc := ⟨.hbm, 247, rfl⟩
abbrev main_cst_37 : Ref sig .tc := ⟨.hbm, 248, rfl⟩
abbrev main_v189 : Ref sig .tc := ⟨.hbm, 249, rfl⟩
abbrev main_cst_38 : Ref sig .tc := ⟨.hbm, 250, rfl⟩
abbrev main_v190 : Ref sig .tc := ⟨.hbm, 251, rfl⟩
abbrev main_cst_39 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩

abbrev nD : Nat := 1
abbrev τ : Topo := Topo.v7x

variable {F : FTy → Type} [FloatOps F]

class Facts₀ : Prop where
  slices_S100000x640_S100000x128_0_0 : S100000x640.Slices ![0, 0] S100000x128
  slices_S100000x640_S100000x512_0_128 : S100000x640.Slices ![0, 128] S100000x512
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x128_S50000x128_S50000x64_S50000x448_d1 : Shape.Concatenates [S50000x128, S50000x128, S50000x128, S50000x64] S50000x448 1
  bcast_S32_S1x32_1 : S32.BroadcastsInDim S1x32 (![1] : Fin 1 → Fin S1x32.rank)
  bcast_S50000x1_S50000x32_0_1 : S50000x1.BroadcastsInDim S50000x32 (![0, 1] : Fin 2 → Fin S50000x32.rank)
  bcast_S1x32_S50000x32_0_1 : S1x32.BroadcastsInDim S50000x32 (![0, 1] : Fin 2 → Fin S50000x32.rank)
  concatenates_S50000x448_S50000x32_S50000x480_d1 : Shape.Concatenates [S50000x448, S50000x32] S50000x480 1
  concatenates_S50000x480_S50000x480_S50000x480_S150000x480_d0 : Shape.Concatenates [S50000x480, S50000x480, S50000x480] S150000x480 0
  concatenates_S50000_S50000_S50000_S150000_d0 : Shape.Concatenates [S50000, S50000, S50000] S150000 0
  bcast_S_S100000x480 : S_.BroadcastsInDim S100000x480 (![] : Fin 0 → Fin S100000x480.rank)
  bcast_S150000_S150000x1_0 : S150000.BroadcastsInDim S150000x1 (![0] : Fin 1 → Fin S150000x1.rank)
  bcast_S_S150000 : S_.BroadcastsInDim S150000 (![] : Fin 0 → Fin S150000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x480_0_1 : S100000x1.BroadcastsInDim S100000x480 (![0, 1] : Fin 2 → Fin S100000x480.rank)
  transposes_S384x480_S480x384_1_0 : S384x480.Transposes [1, 0] S480x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  transposes_S384x128_S128x384_1_0 : S384x128.Transposes [1, 0] S128x384
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S100000x128 : S_.BroadcastsInDim S100000x128 (![] : Fin 0 → Fin S100000x128.rank)
  shapeCasts_S50000_S1x50000 : S50000.ShapeCasts S1x50000
  bcast_S1x50000_S3x50000_0_1 : S1x50000.BroadcastsInDim S3x50000 (![0, 1] : Fin 2 → Fin S3x50000.rank)
  shapeCasts_S3x50000_S150000 : S3x50000.ShapeCasts S150000
  slices_S50000x64_S50000x1_0_0 : S50000x64.Slices ![0, 0] S50000x1
  shapeCasts_S50000x1_S50000 : S50000x1.ShapeCasts S50000
  bcast_S_S100000x512 : S_.BroadcastsInDim S100000x512 (![] : Fin 0 → Fin S100000x512.rank)
  concatenates_S50000x1_S50000x1_S50000x2_d1 : Shape.Concatenates [S50000x1, S50000x1] S50000x2 1
  slices_S100000x128_S512x128_99488_0 : S100000x128.Slices ![99488, 0] S512x128
  transposes_S512x128_S128x512_1_0 : S512x128.Transposes [1, 0] S128x512
  bcast_S_S512x512 : S_.BroadcastsInDim S512x512 (![] : Fin 0 → Fin S512x512.rank)
  reducesTo_S100000x512_S_d0_1 : S100000x512.ReducesTo [0, 1] S_
  h_S_ : 0 < S_.numel
  concatenates_S100000x128_S100000x512_S100000x640_d1 : Shape.Concatenates [S100000x128, S100000x512] S100000x640 1
  gather_S100000x128_S50000x1_S50000x128_1_0_n_n_0_1_1128_wf : GatherDims.WF S100000x128 S50000x1 S50000x128 [1] [0] [] [0] [] 1 ![1, 128]
  gather_S100000_S50000x1_S50000_n_0_n_n_0_1_1_wf : GatherDims.WF S100000 S50000x1 S50000 [] [0] [] [0] [] 1 ![1]
  scatter_S100000x480_S150000x1_S150000x480_1_0_0_1_wf : ScatterDims.WF S100000x480 S150000x1 S150000x480 [1] [0] [0] 1
  scatter_S100000_S150000x1_S150000_n_0_0_1_wf : ScatterDims.WF S100000 S150000x1 S150000 [] [0] [0] 1
  dot_S100000x480_S480x384_S100000x384_1_0_0_1_n_n_wf : DotDims.WF S100000x480 S480x384 S100000x384 [1] [0] [0] [1] [] []
  dot_S100000x128_S128x384_S100000x384_1_0_0_1_n_n_wf : DotDims.WF S100000x128 S128x384 S100000x384 [1] [0] [0] [1] [] []
  scatter_S100000x512_S50000x2_S50000_n_01_01_1_wf : ScatterDims.WF S100000x512 S50000x2 S50000 [] [0, 1] [0, 1] 1
  dot_S128x128_S128x512_S128x512_1_0_0_1_n_n_wf : DotDims.WF S128x128 S128x512 S128x512 [1] [0] [0] [1] [] []
  dot_S512x128_S128x512_S512x512_1_0_0_1_n_n_wf : DotDims.WF S512x128 S128x512 S512x512 [1] [0] [0] [1] [] []
  dot_S100000x512_S512x512_S100000x512_1_0_0_1_n_n_wf : DotDims.WF S100000x512 S512x512 S100000x512 [1] [0] [0] [1] [] []

variable [Facts₀]

def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def gather_S100000_S50000x1_S50000_n_0_n_n_0_1_1 : GatherDims S100000 S50000x1 S50000 where
  offsetDims := []
  collapsedSliceDims := [0]
  operandBatchingDims := []
  startIndicesBatchingDims := []
  startIndexMap := [0]
  indexVectorDim := 1
  sliceSizes := ![1]
  wf := gather_S100000_S50000x1_S50000_n_0_n_n_0_1_1_wf
def scatter_S100000x480_S150000x1_S150000x480_1_0_0_1 : ScatterDims S100000x480 S150000x1 S150000x480 where
  updateWindowDims := [1]
  insertedWindowDims := [0]
  scatterDimsToOperandDims := [0]
  indexVectorDim := 1
  wf := scatter_S100000x480_S150000x1_S150000x480_1_0_0_1_wf
def scatter_S100000_S150000x1_S150000_n_0_0_1 : ScatterDims S100000 S150000x1 S150000 where
  updateWindowDims := []
  insertedWindowDims := [0]
  scatterDimsToOperandDims := [0]
  indexVectorDim := 1
  wf := scatter_S100000_S150000x1_S150000_n_0_0_1_wf
def dot_S100000x480_S480x384_S100000x384_1_0_0_1_n_n : DotDims S100000x480 S480x384 S100000x384 where
  lhsContracting := [1]
  rhsContracting := [0]
  lhsNonContracting := [0]
  rhsNonContracting := [1]
  lhsBatch := []
  rhsBatch := []
  wf := dot_S100000x480_S480x384_S100000x384_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S100000x512_S50000x2_S50000_n_01_01_1 : ScatterDims S100000x512 S50000x2 S50000 where
  updateWindowDims := []
  insertedWindowDims := [0, 1]
  scatterDimsToOperandDims := [0, 1]
  indexVectorDim := 1
  wf := scatter_S100000x512_S50000x2_S50000_n_01_01_1_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.KBlocks.lean ====
import proofs.«115542_j63840393888431_2_alg».proof.Proof.Gen.Kernel.Launch
import proofs.«115542_j63840393888431_2_alg».proof.Proof.Gen.Kernel.Skeleton
import proofs.«115542_j63840393888431_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The definitions the frame certificate and the value proof share: the buffers' contents when the region is
    entered, each window's block at a grid point, the rectangles the kernel body loads and stores through, and what
    the body leaves in the two output windows' staging buffers as a function of the eight input blocks. -/

-- membership in a rectangle of production extents: the elaborator's structural look recurses once per
-- coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Entry

variable (m : (ℓ : Loc nD τ sig) → Buf (Elt F) ℓ)

/-- Core `c`'s TensorCore buffer contents when the region is entered, as a valuation: after the seven stretches of host
    operations before the region. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Entry

/-! ## The body's accesses -/

/-- Columns 0:128 of the 800×640 block (the state columns). -/
abbrev r0_0 : Rect S800x640 := Rect.unit (s := S800x640) ![0, 0] S800x128.size inb_S800x640_S800x128_0_0
/-- Columns 128:640 of the 800×640 block (the inventory columns). -/
abbrev r0_1 : Rect S800x640 := Rect.unit (s := S800x640) ![0, 128] S800x512.size inb_S800x640_S800x512_0_128
abbrev r0_2 : Rect S800x480 := Rect.unit (s := S800x480) ![0, 0] S800x480.size inb_S800x480_S800x480_0_0
abbrev r0_3 : Rect S480x384 := Rect.unit (s := S480x384) ![0, 0] S480x384.size inb_S480x384_S480x384_0_0
abbrev r0_4 : Rect S1x384 := Rect.unit (s := S1x384) ![0, 0] S1x384.size inb_S1x384_S1x384_0_0
abbrev r0_5 : Rect S128x384 := Rect.unit (s := S128x384) ![0, 0] S128x384.size inb_S128x384_S128x384_0_0
abbrev r0_6 : Rect S800x512 := Rect.unit (s := S800x512) ![0, 0] S800x512.size inb_S800x512_S800x512_0_0
abbrev r0_7 : Rect S512x512 := Rect.unit (s := S512x512) ![0, 0] S512x512.size inb_S512x512_S512x512_0_0
abbrev r0_8 : Rect S8x128 := Rect.unit (s := S8x128) ![0, 0] S8x128.size inb_S8x128_S8x128_0_0

/-! ## What the body leaves in each output window's buffer -/

/-- Window 8's staging buffer after the body, from the input windows' blocks: its two stores as pieces, LAST
    FIRST — columns 128:640 hold the second payload, columns 0:128 the first. -/
def out0_8 (x0 : Vec F S800x640 .f32) (x1 : Vec F S800x480 .bf16) (x2 : Vec F S800x512 .f32) (x3 : Vec F S480x384 .f32)
    (x4 : Vec F S128x384 .f32) (x5 : Vec F S1x384 .f32) (x6 : Vec F S1x384 .f32) (x7 : Vec F S512x512 .f32) : Vec F S800x640 .f32 :=
  View.canon [⟨r0_1, k0_pay4 (View.ld x0 r0_1) (View.ld x2 r0_6) (View.ld x7 r0_7)⟩,
    ⟨r0_0, k0_pay1 (View.ld x0 r0_0) (View.ld x1 r0_2) (View.ld x3 r0_3) (View.ld x5 r0_4) (View.ld x4 r0_5) (View.ld x6 r0_4)⟩]

/-- Window 9's staging buffer after the body: its one store. -/
def out0_9 (x0 : Vec F S800x640 .f32) (x1 : Vec F S800x480 .bf16) (x2 : Vec F S800x512 .f32) (x3 : Vec F S480x384 .f32)
    (x4 : Vec F S128x384 .f32) (x5 : Vec F S1x384 .f32) (x6 : Vec F S1x384 .f32) (x7 : Vec F S512x512 .f32) : Vec F S8x128 .f32 :=
  View.canon [⟨r0_8, k0_pay3 (View.ld x0 r0_1) (View.ld x2 r0_6) (View.ld x7 r0_7)⟩]

/-- The two stores into window 8's buffer — 128 columns, then 512 — cut into 800×128 blocks tile it, so they cover it. -/
theorem cover0_8 (p0 : Vec F S800x512 .f32) (p1 : Vec F S800x128 .f32) (y : S800x640.Idx) :
    ∃ pc ∈ ([⟨r0_1, p0⟩, ⟨r0_0, p1⟩] : List (View.Piece (Elt F) S800x640 .f32)), y ∈ pc.1.set :=
  View.cover_of_tiledBy [⟨r0_1, p0⟩, ⟨r0_0, p1⟩] ![800, 128] (by sl_kernel_rfl) y

/-- Window 9's one store is of the whole buffer. -/
theorem cover0_9 (p0 : Vec F S8x128 .f32) (y : S8x128.Idx) :
    ∃ pc ∈ ([⟨r0_8, p0⟩] : List (View.Piece (Elt F) S8x128 .f32)), y ∈ pc.1.set :=
  View.cover_of_tiled [⟨r0_8, p0⟩] S8x128.size (by rfl) y

end Cert.Kernel.Frm

end
-- ==== Proof.KFrame.lean ====
import proofs.«115542_j63840393888431_2_alg».proof.Proof.KBlocks
import proofs.«115542_j63840393888431_2_alg».proof.Proof.Gen.Kernel.Launch
import proofs.«115542_j63840393888431_2_alg».proof.Proof.Gen.Kernel.Skeleton
import proofs.«115542_j63840393888431_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame certificate of the program: @main — seven stretches of host operations, one pipelined kernel region
    over a grid of 125 points, one more stretch of host operations — terminates without fault from any memory, and its
    fourteen argument arrays end as launched. The kernel body loads its eight input blocks through literal
    rectangles, computes, and stores the two output blocks through literal rectangles that cover them; so the
    contents each output's staging buffer holds after the body is a closed function of the input blocks
    (`out0_8`, `out0_9`), which is also what the value proof reads off the run (`run_main`). -/

-- membership in a rectangle of production extents: the elaborator's structural look recurses once per
-- coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host stretches before it, the region, the host stretch after it: it reduces to the
    region CONTINUED BY the later stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · revert op
    refine List.forall_iff_forall_mem.mp ?_
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals intro w; fin_cases w <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`, and no window stages it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg13`, and no window stages it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-! ## The windows' blocks -/

/-- Input window 0's current staging buffer holds its block at every point, fetched there or not, for ANY proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents, a run to the library's
    `FramePost` read at the argument arrays — the staged input `main_arg0` by `Dat.arrAt_in`, the thirteen arrays no
    window stages by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c))⟩) h

/-! ## The body's triple -/

set_option maxHeartbeats 4000000 in
/-- The kernel body on whole staging memrefs, the inputs' at read contents `xW` and the outputs' at anything, runs to
    the continuation holding the inputs' as they were and each output's at `out0_W` of the inputs'. The body reads the
    output buffers before it stores into them; what it reads there is never used, and the stores cover both buffers. -/
theorem sound_kernel (c : Dev nD) (E : Set ℕ) (i : grid0.Coords)
    (arg1 : Memref sig .tc .vmem S800x640 .f32) (harg1 : arg1.IsWhole) (arg2 : Memref sig .tc .vmem S800x480 .bf16) (harg2 : arg2.IsWhole) (arg3 : Memref sig .tc .vmem S800x512 .f32) (harg3 : arg3.IsWhole) (arg4 : Memref sig .tc .vmem S480x384 .f32) (harg4 : arg4.IsWhole) (arg5 : Memref sig .tc .vmem S128x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S512x512 .f32) (harg8 : arg8.IsWhole) (arg9 : Memref sig .tc .vmem S800x640 .f32) (harg9 : arg9.IsWhole) (arg10 : Memref sig .tc .vmem S8x128 .f32) (harg10 : arg10.IsWhole)
    (x0 : Vec F S800x640 .f32) (x1 : Vec F S800x480 .bf16) (x2 : Vec F S800x512 .f32) (x3 : Vec F S480x384 .f32)
    (x4 : Vec F S128x384 .f32) (x5 : Vec F S1x384 .f32) (x6 : Vec F S1x384 .f32) (x7 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7) ∗ owns (c : Thread nD τ) arg10 fullShare (out0_9 x0 x1 x2 x3 x4 x5 x6 x7)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _ _)
  iexists _; isplitr
  swap; · iexact H9
  ipureintro
  exact View.read_writes_eq_canon _ _ _ (cover0_9 _)

/-! ## The pipeline's proof data -/

/-- The proof data of the one pipeline on core `c`: the arrays as the region finds them (`V`); after the body at
    point `t` each input's buffer at its block and each output's at `out0_W` of the input blocks; the invariant the
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents: the definition projected, so that `V` — a fold over
    @main's long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks (`before0_W`), so `sound_kernel` applies; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the frame claim's statement at any `F`: @main terminates without fault and the fourteen argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frm

end
-- ==== Proof.KIBlocks.lean ====
import proofs.«115542_j63840393888431_2_alg».proof.Proof.Gen.KernelIdeal.Launch
import proofs.«115542_j63840393888431_2_alg».proof.Proof.Gen.KernelIdeal.Skeleton
import proofs.«115542_j63840393888431_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The definitions the frame certificate and the value proof share: the buffers' contents when the region is
    entered, each window's block at a grid point, the rectangles the kernel body loads and stores through, and what
    the body leaves in the two output windows' staging buffers as a function of the eight input blocks. -/

-- membership in a rectangle of production extents: the elaborator's structural look recurses once per
-- coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Entry

variable (m : (ℓ : Loc nD τ sig) → Buf (Elt F) ℓ)

/-- Core `c`'s TensorCore buffer contents when the region is entered, as a valuation: after the seven stretches of host
    operations before the region. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Entry

/-! ## The body's accesses -/

/-- Columns 0:128 of the 800×640 block (the state columns). -/
abbrev r0_0 : Rect S800x640 := Rect.unit (s := S800x640) ![0, 0] S800x128.size inb_S800x640_S800x128_0_0
/-- Columns 128:640 of the 800×640 block (the inventory columns). -/
abbrev r0_1 : Rect S800x640 := Rect.unit (s := S800x640) ![0, 128] S800x512.size inb_S800x640_S800x512_0_128
abbrev r0_2 : Rect S800x480 := Rect.unit (s := S800x480) ![0, 0] S800x480.size inb_S800x480_S800x480_0_0
abbrev r0_3 : Rect S480x384 := Rect.unit (s := S480x384) ![0, 0] S480x384.size inb_S480x384_S480x384_0_0
abbrev r0_4 : Rect S1x384 := Rect.unit (s := S1x384) ![0, 0] S1x384.size inb_S1x384_S1x384_0_0
abbrev r0_5 : Rect S128x384 := Rect.unit (s := S128x384) ![0, 0] S128x384.size inb_S128x384_S128x384_0_0
abbrev r0_6 : Rect S800x512 := Rect.unit (s := S800x512) ![0, 0] S800x512.size inb_S800x512_S800x512_0_0
abbrev r0_7 : Rect S512x512 := Rect.unit (s := S512x512) ![0, 0] S512x512.size inb_S512x512_S512x512_0_0
abbrev r0_8 : Rect S8x128 := Rect.unit (s := S8x128) ![0, 0] S8x128.size inb_S8x128_S8x128_0_0

/-! ## What the body leaves in each output window's buffer -/

/-- Window 8's staging buffer after the body, from the input windows' blocks: its two stores as pieces, LAST
    FIRST — columns 128:640 hold the second payload, columns 0:128 the first. -/
def out0_8 (x0 : Vec F S800x640 .f32) (x1 : Vec F S800x480 .bf16) (x2 : Vec F S800x512 .f32) (x3 : Vec F S480x384 .f32)
    (x4 : Vec F S128x384 .f32) (x5 : Vec F S1x384 .f32) (x6 : Vec F S1x384 .f32) (x7 : Vec F S512x512 .f32) : Vec F S800x640 .f32 :=
  View.canon [⟨r0_1, k0_pay4 (View.ld x0 r0_1) (View.ld x2 r0_6) (View.ld x7 r0_7)⟩,
    ⟨r0_0, k0_pay1 (View.ld x0 r0_0) (View.ld x1 r0_2) (View.ld x3 r0_3) (View.ld x5 r0_4) (View.ld x4 r0_5) (View.ld x6 r0_4)⟩]

/-- Window 9's staging buffer after the body: its one store. -/
def out0_9 (x0 : Vec F S800x640 .f32) (x1 : Vec F S800x480 .bf16) (x2 : Vec F S800x512 .f32) (x3 : Vec F S480x384 .f32)
    (x4 : Vec F S128x384 .f32) (x5 : Vec F S1x384 .f32) (x6 : Vec F S1x384 .f32) (x7 : Vec F S512x512 .f32) : Vec F S8x128 .f32 :=
  View.canon [⟨r0_8, k0_pay3 (View.ld x0 r0_1) (View.ld x2 r0_6) (View.ld x7 r0_7)⟩]

/-- The two stores into window 8's buffer — 128 columns, then 512 — cut into 800×128 blocks tile it, so they cover it. -/
theorem cover0_8 (p0 : Vec F S800x512 .f32) (p1 : Vec F S800x128 .f32) (y : S800x640.Idx) :
    ∃ pc ∈ ([⟨r0_1, p0⟩, ⟨r0_0, p1⟩] : List (View.Piece (Elt F) S800x640 .f32)), y ∈ pc.1.set :=
  View.cover_of_tiledBy [⟨r0_1, p0⟩, ⟨r0_0, p1⟩] ![800, 128] (by sl_kernel_rfl) y

/-- Window 9's one store is of the whole buffer. -/
theorem cover0_9 (p0 : Vec F S8x128 .f32) (y : S8x128.Idx) :
    ∃ pc ∈ ([⟨r0_8, p0⟩] : List (View.Piece (Elt F) S8x128 .f32)), y ∈ pc.1.set :=
  View.cover_of_tiled [⟨r0_8, p0⟩] S8x128.size (by rfl) y

end Cert.KernelIdeal.Frm

end
-- ==== Proof.KIFrame.lean ====
import proofs.«115542_j63840393888431_2_alg».proof.Proof.KIBlocks
import proofs.«115542_j63840393888431_2_alg».proof.Proof.Gen.KernelIdeal.Launch
import proofs.«115542_j63840393888431_2_alg».proof.Proof.Gen.KernelIdeal.Skeleton
import proofs.«115542_j63840393888431_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame certificate of the program: @main — seven stretches of host operations, one pipelined kernel region
    over a grid of 125 points, one more stretch of host operations — terminates without fault from any memory, and its
    fourteen argument arrays end as launched. The kernel body loads its eight input blocks through literal
    rectangles, computes, and stores the two output blocks through literal rectangles that cover them; so the
    contents each output's staging buffer holds after the body is a closed function of the input blocks
    (`out0_8`, `out0_9`), which is also what the value proof reads off the run (`run_main`). -/

-- membership in a rectangle of production extents: the elaborator's structural look recurses once per
-- coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host stretches before it, the region, the host stretch after it: it reduces to the
    region CONTINUED BY the later stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · revert op
    refine List.forall_iff_forall_mem.mp ?_
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals intro w; fin_cases w <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`, and no window stages it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg13`, and no window stages it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-! ## The windows' blocks -/

/-- Input window 0's current staging buffer holds its block at every point, fetched there or not, for ANY proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents, a run to the library's
    `FramePost` read at the argument arrays — the staged input `main_arg0` by `Dat.arrAt_in`, the thirteen arrays no
    window stages by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c))⟩) h

/-! ## The body's triple -/

set_option maxHeartbeats 4000000 in
/-- The kernel body on whole staging memrefs, the inputs' at read contents `xW` and the outputs' at anything, runs to
    the continuation holding the inputs' as they were and each output's at `out0_W` of the inputs'. The body reads the
    output buffers before it stores into them; what it reads there is never used, and the stores cover both buffers. -/
theorem sound_kernel (c : Dev nD) (E : Set ℕ) (i : grid0.Coords)
    (arg1 : Memref sig .tc .vmem S800x640 .f32) (harg1 : arg1.IsWhole) (arg2 : Memref sig .tc .vmem S800x480 .bf16) (harg2 : arg2.IsWhole) (arg3 : Memref sig .tc .vmem S800x512 .f32) (harg3 : arg3.IsWhole) (arg4 : Memref sig .tc .vmem S480x384 .f32) (harg4 : arg4.IsWhole) (arg5 : Memref sig .tc .vmem S128x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S512x512 .f32) (harg8 : arg8.IsWhole) (arg9 : Memref sig .tc .vmem S800x640 .f32) (harg9 : arg9.IsWhole) (arg10 : Memref sig .tc .vmem S8x128 .f32) (harg10 : arg10.IsWhole)
    (x0 : Vec F S800x640 .f32) (x1 : Vec F S800x480 .bf16) (x2 : Vec F S800x512 .f32) (x3 : Vec F S480x384 .f32)
    (x4 : Vec F S128x384 .f32) (x5 : Vec F S1x384 .f32) (x6 : Vec F S1x384 .f32) (x7 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7) ∗ owns (c : Thread nD τ) arg10 fullShare (out0_9 x0 x1 x2 x3 x4 x5 x6 x7)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _ _)
  iexists _; isplitr
  swap; · iexact H9
  ipureintro
  exact View.read_writes_eq_canon _ _ _ (cover0_9 _)

/-! ## The pipeline's proof data -/

/-- The proof data of the one pipeline on core `c`: the arrays as the region finds them (`V`); after the body at
    point `t` each input's buffer at its block and each output's at `out0_W` of the input blocks; the invariant the
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents: the definition projected, so that `V` — a fold over
    @main's long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks (`before0_W`), so `sound_kernel` applies; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the frame claim's statement at any `F`: @main terminates without fault and the fourteen argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frm

end
-- ==== Proof.KHost.lean ====
/-
  What the buffers the kernel region reads hold when the region is entered, at the ideal values: each is the composed
  term of the host operations that precede the region, applied to the argument arrays as launched.
-/
import proofs.«115542_j63840393888431_2_alg».proof.Proof.KIBlocks
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KHost

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ)

/-- The simp set that spells the seven stretches out as one list. -/
macro "open_stretches" : tactic =>
  `(tactic| (dsimp only [Frm.V, Frm.V0]
             simp only [hostOps0, hostOps0_1, hostOps0_2, hostOps0_3, hostOps0_4, hostOps0_5, hostOps0_6, List.flatten_cons,
               List.flatten_nil, List.append_nil, List.cons_append, List.nil_append]))

/-! ## The operations' composed terms, of the argument arrays -/

/-- The scalar `c` broadcast over the 50000 events (an i32 splat). -/
abbrev splat50000 (c : BitVec 32) : IVec S50000 32 :=
  broadcastInDim S50000 ![] bcast_S_S50000 (constantI S_ 32 c)

/-- An index array with its negative entries wrapped by the extent `n`: `select (x < 0) (x + n) x`. -/
def wrap (n : BitVec 32) (x : IVec S50000 32) : IVec S50000 32 :=
  select (cmpi .slt x (splat50000 0#32)) (addi x (splat50000 n)) x

/-- The product index of each event relative to the first product row: `prod − 99488`. -/
def pIdx (x11 : IVec S50000 32) : IVec S50000 32 :=
  subi x11 (splat50000 99488#32)

/-- The amount of each event: column 0 of the event features, clipped below at one. -/
def amt (x1 : FVec Ideal S50000x64 .f32) : FVec Ideal S50000 .f32 :=
  maximumf (broadcastInDim S50000 ![] bcast_S_S50000 (id (constant (F := Ideal) S_ .f32 0x3F800000#32)))
    (shapeCast S50000 (extractStridedSlice S50000x1 ![0, 0] x1 slices_S50000x64_S50000x1_0_0) shapeCasts_S50000x1_S50000)

/-- The (row, column) pairs the amounts are added at: the wrapped source node and the wrapped relative product. -/
def supIdx (x9 x11 : IVec S50000 32) : IVec S50000x2 32 :=
  concatenate S50000x2 1 [⟨S50000x1, broadcastInDim S50000x1 ![0] bcast_S50000_S50000x1_0 (wrap 100000#32 x9)⟩,
    ⟨S50000x1, broadcastInDim S50000x1 ![0] bcast_S50000_S50000x1_0 (wrap 512#32 (pIdx x11))⟩] concatenates_S50000x1_S50000x1_S50000x2_d1

/-- The supplied amounts: the events' amounts added into a zero [100000,512] array at those pairs. -/
def supplied (x1 : FVec Ideal S50000x64 .f32) (x9 x11 : IVec S50000 32) :
    FVec Ideal S100000x512 .f32 :=
  Host.scatterAdd scatter_S100000x512_S50000x2_S50000_n_01_01_1
    (broadcastInDim S100000x512 ![] bcast_S_S100000x512 (constant (F := Ideal) S_ .f32 0x00000000#32)) (supIdx x9 x11) (amt x1)

/-- The state columns of the node memory: columns 0:128 of argument 0. -/
def state0 (x0 : FVec Ideal S100000x640 .f32) : FVec Ideal S100000x128 .f32 :=
  extractStridedSlice S100000x128 ![0, 0] x0 slices_S100000x640_S100000x128_0_0

/-- The states of the 512 product nodes: rows 99488:100000 of the state columns. -/
def prodState (x0 : FVec Ideal S100000x640 .f32) : FVec Ideal S512x128 .f32 :=
  extractStridedSlice S512x128 ![99488, 0] (state0 x0) slices_S100000x128_S512x128_99488_0

/-- The attention matrix among the products: `max (P · (W · Pᵀ)) 0`. -/
def att (x0 : FVec Ideal S100000x640 .f32) (x8 : FVec Ideal S128x128 .f32) :
    FVec Ideal S512x512 .f32 :=
  maximumf (Host.dotGeneral dot_S512x128_S128x512_S512x512_1_0_0_1_n_n none (prodState x0)
      (Host.dotGeneral dot_S128x128_S128x512_S128x512_1_0_0_1_n_n none x8
        (transpose S128x512 [1, 0] (prodState x0) transposes_S512x128_S128x512_1_0)))
    (broadcastInDim S512x512 ![] bcast_S_S512x512 (constant (F := Ideal) S_ .f32 0x00000000#32))

/-! ## The four weight arrays the region reads -/

/-- The transposed input weights: one transpose of argument 4. -/
theorem V_main_v149 (c : Dev nD) :
    (V m c main_v149 : S480x384.Idx → EReal)
      = transpose S480x384 [1, 0] (m ((c : Thread nD τ).loc main_arg4) : S384x480.Idx → EReal) transposes_S384x480_S480x384_1_0 := by
  open_stretches
  after_results_simp <;> rfl

/-- The transposed state weights: one transpose of argument 5. -/
theorem V_main_v150 (c : Dev nD) :
    (V m c main_v150 : S128x384.Idx → EReal)
      = transpose S128x384 [1, 0] (m ((c : Thread nD τ).loc main_arg5) : S384x128.Idx → EReal) transposes_S384x128_S128x384_1_0 := by
  open_stretches
  after_results_simp <;> rfl

/-- The input bias as a row: argument 6 reshaped to [1,384]. -/
theorem V_main_v151 (c : Dev nD) :
    (V m c main_v151 : S1x384.Idx → EReal)
      = shapeCast S1x384 (m ((c : Thread nD τ).loc main_arg6) : S384.Idx → EReal) shapeCasts_S384_S1x384 := by
  open_stretches
  after_results_simp <;> rfl

/-- The state bias as a row: argument 7 reshaped to [1,384]. -/
theorem V_main_v152 (c : Dev nD) :
    (V m c main_v152 : S1x384.Idx → EReal)
      = shapeCast S1x384 (m ((c : Thread nD τ).loc main_arg7) : S384.Idx → EReal) shapeCasts_S384_S1x384 := by
  open_stretches
  after_results_simp <;> rfl

/-- The transposed input weights at (k, j): argument 4 at (j, k). -/
theorem V_main_v149_apply (c : Dev nD) (k : Fin 480) (j : Fin 384) :
    (V m c main_v149 : S480x384.Idx → EReal) (ix2 k j) = (m ((c : Thread nD τ).loc main_arg4) : S384x480.Idx → EReal) (ix2 j k) := by
  rw [V_main_v149]
  exact transpose_ix2_apply _ _ k j

/-- The transposed state weights at (k, j): argument 5 at (j, k). -/
theorem V_main_v150_apply (c : Dev nD) (k : Fin 128) (j : Fin 384) :
    (V m c main_v150 : S128x384.Idx → EReal) (ix2 k j) = (m ((c : Thread nD τ).loc main_arg5) : S384x128.Idx → EReal) (ix2 j k) := by
  rw [V_main_v150]
  exact transpose_ix2_apply _ _ k j

/-- The input bias row at (0, j): argument 6 at j. -/
theorem V_main_v151_apply (c : Dev nD) (j : Fin 384) :
    (V m c main_v151 : S1x384.Idx → EReal) (ix2 (0 : Fin 1) j) = (m ((c : Thread nD τ).loc main_arg6) : S384.Idx → EReal) (ix1 j) := by
  rw [V_main_v151]
  exact shapeCast_a_1a_apply _ _ (0 : Fin 1) j

/-- The state bias row at (0, j): argument 7 at j. -/
theorem V_main_v152_apply (c : Dev nD) (j : Fin 384) :
    (V m c main_v152 : S1x384.Idx → EReal) (ix2 (0 : Fin 1) j) = (m ((c : Thread nD τ).loc main_arg7) : S384.Idx → EReal) (ix1 j) := by
  rw [V_main_v152]
  exact shapeCast_a_1a_apply _ _ (0 : Fin 1) j

/-! ## The tail's inputs, the supplied amounts and the attention matrix at the region's entry -/

/-- The relative product index. -/
theorem V_main_v125 (c : Dev nD) :
    (V m c main_v125 : S50000.Idx → BitVec 32) = pIdx (m ((c : Thread nD τ).loc main_arg11)) := by
  open_stretches
  after_results_simp <;> rfl

/-- The clipped amounts. -/
theorem V_main_v128 (c : Dev nD) :
    (V m c main_v128 : S50000.Idx → EReal) = amt (m ((c : Thread nD τ).loc main_arg1)) := by
  open_stretches
  after_results_simp <;> rfl

/-- The supplied amounts. -/
theorem V_main_v143 (c : Dev nD) :
    (V m c main_v143 : S100000x512.Idx → EReal)
      = supplied (m ((c : Thread nD τ).loc main_arg1)) (m ((c : Thread nD τ).loc main_arg9)) (m ((c : Thread nD τ).loc main_arg11)) := by
  open_stretches
  after_results_simp <;> rfl

/-- The attention matrix. -/
theorem V_main_v148 (c : Dev nD) :
    (V m c main_v148 : S512x512.Idx → EReal) = att (m ((c : Thread nD τ).loc main_arg0)) (m ((c : Thread nD τ).loc main_arg8)) := by
  open_stretches
  after_results_simp <;> rfl

end Cert.KernelIdeal.KHost

end
-- ==== Proof.LibScatterAddVec.lean ====
/-
  ACCUMULATING SCATTER INTO A VECTOR READ AT AN INDEX: a general fact about `stablehlo.scatter` with an `add` body.

  Adding scalar updates into the entries of a vector `x : [N]`, with the entry numbers given as an integer column
  `idx : [M, 1]` and the updates `upd : [M]` (what `x.at[idx].add(upd)` and a segment sum of scalars lower to), is a
  scatter with update_window_dims `[]`, inserted_window_dims `[0]`, scatter_dims_to_operand_dims `[0]` and
  index_vector_dim `1` (`vecScatterDims`).

  The operand index an update index `e` lands at is `start + window coordinate` on the operand's one axis
  (`ScatterDims.resultIdx?`): the start is the entry number `idx[e, 0]`, read as a SIGNED integer and NOT clamped, and
  the window coordinate is `0` (axis 0 is an inserted window axis; the updates have no window axis at all).

  So update `e` lands at `idx[e, 0]` when `0 ≤ idx[e, 0] < N`, and is dropped otherwise (`resultIdx?_vec`). Hence the
  scatter's value at `n` is the operand's entry plus the sum, over the updates `e` whose entry number is `n`, of
  `upd[e]` (`scatterAdd_vec_apply`): the sum over the rank-1 update indices is re-indexed along `e ↦ (e)`.
-/
import Idealize.ShloMosaic.PureOps.Ideal
import Idealize.ShloMosaic.Lib.ValueIdx

noncomputable section

namespace Cert.Lib

open Idealize.ShloMosaic Idealize.ShloMosaic.ValueIdx

/-- The dimension numbers of a scatter of scalars into a vector: operand `[N]`, scatter indices `[M, 1]` (one entry
    number per update), updates `[M]`; update_window_dims `[]`, inserted_window_dims `[0]`,
    scatter_dims_to_operand_dims `[0]`, index_vector_dim `1`. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Summands
variable {N M w : Nat} (wf : ScatterDims.WF ⟨1, ![N]⟩ ⟨2, ![M, 1]⟩ ⟨1, ![M]⟩ [] [0] [0] 1)

/-- On the operand's one axis the window of update `e` starts at the entry number `idx[e, 0]`, read signed. -/
theorem scatter_vec_start0 (idx : IVec ⟨2, ![M, 1]⟩ w) (e : Fin M) :
    (vecScatterDims N M wf).start (ix1 e) idx 0 = (idx (ix2 e (0 : Fin 1))).toInt := by
  unfold ScatterDims.start
  rw [dif_pos (show (0 : Fin 1) ∈ (vecScatterDims N M wf).scatterDimsToOperandDims from
    List.mem_singleton.mpr rfl)]
  have hsi : (vecScatterDims N M wf).siIdx (ix1 e)
      ⟨List.idxOf (0 : Fin 1) (vecScatterDims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: its window coordinate is `0`. -/
theorem scatter_vec_window0 (e : Fin M) :
    (vecScatterDims N M wf).window (ix1 e) 0 = 0 := by
  unfold ScatterDims.window
  rw [dif_neg]
  intro h
  have := (List.mem_filter.mp h).2
  simp at this

end Summands

/-! ## Where an update lands -/

section Lands
variable {N M w : Nat} (wf : ScatterDims.WF ⟨1, ![N]⟩ ⟨2, ![M, 1]⟩ ⟨1, ![M]⟩ [] [0] [0] 1)

/-- Update `e` lands at operand index `n` exactly when its entry number `idx[e, 0]`, read signed, is `n`; an update
    whose entry number is outside `[0, N)` lands nowhere. -/
theorem resultIdx?_vec (idx : IVec ⟨2, ![M, 1]⟩ w) (e : Fin M) (n : Fin N) :
    (vecScatterDims N M wf).resultIdx? (ix1 e) idx = some (ix1 n)
      ↔ (idx (ix2 e (0 : Fin 1))).toInt = (n.val : Int) := by
  have hs0 := scatter_vec_start0 (N := N) wf idx e
  have hw0 := scatter_vec_window0 (N := N) wf e
  unfold ScatterDims.resultIdx?
  split
  · rename_i h
    constructor
    · intro heq
      have hf := Option.some.inj heq
      have h0 := congrArg (fun f => (f 0).val) hf
      simp only [hs0, hw0] at h0
      have hh0 := (h 0).1
      rw [hs0, hw0] at hh0
      have e0 : ((ix1 n : (⟨1, ![N]⟩ : Shape).Idx) 0).val = n.val := rfl
      rw [e0] at h0
      omega
    · intro hn
      congr 1
      funext a
      refine Fin.ext ?_
      match a with
      | ⟨0, _⟩ =>
        show ((vecScatterDims N M wf).start (ix1 e) idx 0
          + ((vecScatterDims N M wf).window (ix1 e) 0 : Int)).toNat = n.val
        rw [hs0, hw0, hn]; omega
  · rename_i h
    constructor
    · intro heq; exact absurd heq (by simp)
    · intro hn
      exfalso
      apply h
      intro a
      match a with
      | ⟨0, _⟩ =>
        show 0 ≤ (vecScatterDims N M wf).start (ix1 e) idx 0
            + ((vecScatterDims N M wf).window (ix1 e) 0 : Int)
          ∧ (vecScatterDims N M wf).start (ix1 e) idx 0
            + ((vecScatterDims N M wf).window (ix1 e) 0 : Int) < (N : Int)
        rw [hs0, hw0, hn]
        have := n.isLt
        omega

end Lands

/-! ## The scatter read at an index -/

/-- THE ACCUMULATING VECTOR SCATTER READ AT `n`: the operand's entry plus the sum, over the updates `e` whose entry
    number `idx[e, 0]` (read as a SIGNED integer, not clamped) is `n`, of the update `upd[e]`. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatterDims N M wf) x idx upd (ix1 n)
      = x (ix1 n) + ∑ e ∈ Finset.univ.filter (fun e : Fin M => (idx (ix2 e (0 : Fin 1))).toInt = (n.val : Int)), upd (ix1 e) := by
  unfold Ideal.hostScatterAdd
  congr 1
  -- every update index is `(e)`; it lands at `n` iff `idx[e, 0] = n`
  have hland : ∀ J : (⟨1, ![M]⟩ : Shape).Idx,
      (vecScatterDims N M wf).resultIdx? J idx = some (ix1 n)
        ↔ (idx (ix2 (J 0 : Fin M) (0 : Fin 1))).toInt = (n.val : Int) := by
    intro J
    obtain ⟨a, rfl⟩ : ∃ (a : Fin M), J = ix1 a := ⟨J 0, eq_ix1 J⟩
    exact resultIdx?_vec wf idx a n
  refine Finset.sum_nbij' (fun J => (J 0 : Fin M)) (fun e => ix1 e) ?_ ?_ ?_ ?_ ?_
  · intro J hJ
    rw [Finset.mem_filter] at hJ
    exact Finset.mem_filter.mpr ⟨Finset.mem_univ _, (hland J).mp hJ.2⟩
  · intro e he
    rw [Finset.mem_filter] at he
    exact Finset.mem_filter.mpr ⟨Finset.mem_univ _, (resultIdx?_vec wf idx e n).mpr he.2⟩
  · intro J _
    exact (eq_ix1 J).symm
  · intro e _
    rfl
  · intro J _
    exact congrArg upd (eq_ix1 J)

end Cert.Lib

end
-- ==== Proof.LibScatterMaxVec.lean ====
/-
  A SCATTER WITH AN ASSOCIATIVE AND COMMUTATIVE BODY READ AT AN INDEX, and a fold over pieces laid end to end.

  `Host.scatter d f x idx upd` is the left fold, over the update indices in row-major order, of the step "if the update
  index lands on the operand index `i₁` replace the element there by `f (old element) (the update's element)`"; an
  update index that lands nowhere is dropped. Read at ONE operand index `i`, only the update indices that land on `i`
  matter, and the element is the left fold of `f` from the operand's element `x i` over the updates of those indices,
  in row-major order (`scatter_apply_eq_foldl`). When `f` is associative and commutative (an integer maximum, minimum or
  sum) the order is immaterial, and the element is the fold of `f` over the SET of update indices that land on `i`
  (`scatter_apply_eq_fold`) — a maximum over that set when `f` is a maximum.

  For the scatter of scalars into a vector (`vecScatterDims`: operand `[N]`, entry numbers `[M, 1]`, updates `[M]`,
  what a segment maximum lowers to) update `e` lands on `n` exactly when its entry number `idx[e, 0]`, read signed
  and not clamped, is `n`; so the element at `n` is the fold of `f`, from `x[n]`, over the updates `e : Fin M` whose entry
  number is `n` (`scatter_vec_apply`).

  Last, two facts about `Finset.fold` of such an `f` from a start `b` with `f b b = b` (the neutral element of a maximum,
  the zero of a sum): the fold over a set is `f` of the folds over the part where a predicate holds and the part where
  it fails (`fold_filter_split`), and hence the fold over the positions `a < M₁ + M₂ + M₃` that satisfy a predicate,
  the three stretches `[0, M₁)`, `[M₁, M₁ + M₂)`, `[M₁ + M₂, M₁ + M₂ + M₃)` carrying three given predicates and three
  given functions, is `f` of the three folds (`fold_filter_concat3`): a maximum over three index arrays laid end to end
  is the maximum of the three maxima, and a sum over them the sum of the three sums.
-/
import Idealize.ShloMosaic.PureOps.ShapeOps
import Idealize.ShloMosaic.Lib.ValueIdx
import proofs.«115542_j63840393888431_2_alg».proof.Proof.LibScatterAddVec

noncomputable section

namespace Cert.Lib

open Idealize.ShloMosaic Idealize.ShloMosaic.ValueIdx

/-! ## A fold of steps on functions, read at a point -/

/-- A left fold of steps `g` on functions, read at a point `i`: if a step whose index fails `P` leaves the value at `i`
    alone and a step whose index satisfies `P` replaces it by `v` of the old value and the index, the value at `i` is
    the left fold of `v`, from the start's value at `i`, over the indices of the list that satisfy `P`, in order. -/
private theorem foldl_apply_eq_foldl_filter {β ι κ : Type} (g : (κ → β) → ι → (κ → β)) (i : κ) (P : ι → Prop)
    [DecidablePred P] (v : β → ι → β) (hmiss : ∀ r n, ¬ P n → g r n i = r i) (hhit : ∀ r n, P n → g r n i = v (r i) n) :
    ∀ (l : List ι) (r : κ → β), l.foldl g r i = (l.filter fun n => P n).foldl v (r i) := by
  intro l
  induction l with
  | nil => intro r; rfl
  | cons n l ih =>
    intro r
    rw [List.foldl_cons, ih (g r n)]
    by_cases hP : P n
    · rw [List.filter_cons_of_pos (by simpa using hP), List.foldl_cons, hhit r n hP]
    · rw [List.filter_cons_of_neg (by simpa using hP), hmiss r n hP]

variable {s si u : Shape} {w : Nat} {α : Type}

/-- One step of the scatter's fold leaves the element at `i` alone when its update index does not land on `i`. -/
private theorem step_of_ne (d : ScatterDims s si u) (f : α → α → α) (idx : IVec si w) (upd : u.Idx → α) (i : s.Idx)
    (r : s.Idx → α) (n : Fin u.numel) (h : ¬ d.resultIdx? (u.rowMajor.symm n) idx = some i) :
    (match d.resultIdx? (u.rowMajor.symm n) idx with
      | some i₁ => fun i' => if i' = i₁ then f (r i₁) (upd (u.rowMajor.symm n)) else r i'
      | none => r) i = r i := by
  generalize d.resultIdx? (u.rowMajor.symm n) idx = o at h ⊢
  cases o with
  | none => rfl
  | some i₁ =>
    have hne : i ≠ i₁ := fun e => h (by rw [e])
    exact if_neg hne

/-- One step of the scatter's fold combines the element at `i` with the update's when its update index lands on `i`. -/
private theorem step_of_eq (d : ScatterDims s si u) (f : α → α → α) (idx : IVec si w) (upd : u.Idx → α) (i : s.Idx)
    (r : s.Idx → α) (n : Fin u.numel) (h : d.resultIdx? (u.rowMajor.symm n) idx = some i) :
    (match d.resultIdx? (u.rowMajor.symm n) idx with
      | some i₁ => fun i' => if i' = i₁ then f (r i₁) (upd (u.rowMajor.symm n)) else r i'
      | none => r) i = f (r i) (upd (u.rowMajor.symm n)) := by
  generalize d.resultIdx? (u.rowMajor.symm n) idx = o at h ⊢
  subst h
  exact if_pos rfl

/-! ## The scatter read at an operand index -/

/-- A SCATTER READ AT AN OPERAND INDEX `i`, whatever the body `f`: the left fold of `f`, from the operand's element
    `x i`, over the updates whose update index lands on `i`, in row-major order of the update indices. -/
theorem scatter_apply_eq_foldl (d : ScatterDims s si u) (f : α → α → α) (x : s.Idx → α) (idx : IVec si w)
    (upd : u.Idx → α) (i : s.Idx) :
    Host.scatter d f x idx upd i
      = ((List.finRange u.numel).filter fun n => d.resultIdx? (u.rowMajor.symm n) idx = some i).foldl
          (fun r n => f r (upd (u.rowMajor.symm n))) (x i) := by
  unfold Host.scatter
  exact foldl_apply_eq_foldl_filter _ i (fun n => d.resultIdx? (u.rowMajor.symm n) idx = some i)
    (fun r n => f r (upd (u.rowMajor.symm n)))
    (fun r n hn => step_of_ne d f idx upd i r n hn) (fun r n hn => step_of_eq d f idx upd i r n hn)
    (List.finRange u.numel) x

/-- A left fold of an associative and commutative `f` over the row-major positions of `u` whose index satisfies
    `P`, reading `x` at that index, is the fold over the SET of indices that satisfy `P`: the positions are listed
    without repeats, and the order is immaterial. -/
theorem foldl_filter_rowMajor_eq_fold (P : u.Idx → Prop) [DecidablePred P] (f : α → α → α) [Std.Commutative f]
    [Std.Associative f] (init : α) (x : u.Idx → α) :
    ((List.finRange u.numel).filter fun n => P (u.rowMajor.symm n)).foldl (fun r n => f r (x (u.rowMajor.symm n))) init
      = (Finset.univ.filter P).fold f init x := by
  have h1 : ((List.finRange u.numel).filter fun n => P (u.rowMajor.symm n)).foldl
        (fun r n => f r (x (u.rowMajor.symm n))) init
      = (((List.finRange u.numel).map u.rowMajor.symm).filter fun i => P i).foldl (fun r i => f r (x i)) init := by
    rw [List.filter_map, List.foldl_map]; rfl
  rw [h1]
  generalize hl : (((List.finRange u.numel).map u.rowMajor.symm).filter fun i => P i) = l
  have hn : l.Nodup := hl ▸ ((List.nodup_finRange _).map u.rowMajor.symm.injective).filter _
  have hs : (Finset.univ.filter P) = l.toFinset := by
    ext i
    simp only [Finset.mem_filter, Finset.mem_univ, true_and, ← hl, List.mem_toFinset, List.mem_filter,
      List.mem_map, List.mem_finRange, decide_eq_true_eq, iff_and_self]
    exact fun _ => ⟨u.rowMajor i, by simp⟩
  rw [hs, Finset.fold, List.toFinset_val, hn.dedup, Multiset.map_coe, Multiset.coe_fold_l, List.foldl_map]

/-- A SCATTER WITH AN ASSOCIATIVE AND COMMUTATIVE BODY READ AT AN OPERAND INDEX `i`: the fold of the body, from the
    operand's element `x i`, over the set of update indices that land on `i` — for a maximum body, the maximum of
    `x i` and the updates that land on `i`. -/
theorem scatter_apply_eq_fold (d : ScatterDims s si u) (f : α → α → α) [Std.Commutative f] [Std.Associative f]
    (x : s.Idx → α) (idx : IVec si w) (upd : u.Idx → α) (i : s.Idx) :
    Host.scatter d f x idx upd i
      = (Finset.univ.filter fun j : u.Idx => d.resultIdx? j idx = some i).fold f (x i) upd := by
  rw [scatter_apply_eq_foldl]
  exact foldl_filter_rowMajor_eq_fold (fun j : u.Idx => d.resultIdx? j idx = some i) f (x i) upd

/-- THE VECTOR SCATTER WITH AN ASSOCIATIVE AND COMMUTATIVE BODY READ AT `n`: the fold of the body, from the operand's entry
    `x[n]`, over the updates `e` whose entry number `idx[e, 0]` (read as a SIGNED integer, not clamped) is `n`. -/
theorem scatter_vec_apply {N M : Nat} (wf : ScatterDims.WF ⟨1, ![N]⟩ ⟨2, ![M, 1]⟩ ⟨1, ![M]⟩ [] [0] [0] 1)
    (f : α → α → α) [Std.Commutative f] [Std.Associative f] (x : (⟨1, ![N]⟩ : Shape).Idx → α)
    (idx : IVec ⟨2, ![M, 1]⟩ w) (upd : (⟨1, ![M]⟩ : Shape).Idx → α) (n : Fin N) :
    Host.scatter (vecScatterDims N M wf) f x idx upd (ix1 n)
      = (Finset.univ.filter fun e : Fin M => (idx (ix2 e (0 : Fin 1))).toInt = (n.val : Int)).fold f (x (ix1 n))
          (fun e => upd (ix1 e)) := by
  rw [scatter_apply_eq_fold]
  have hinj : Function.Injective (fun e : Fin M => (ix1 e : (⟨1, ![M]⟩ : Shape).Idx)) := fun a b h => congrFun h 0
  have hset : (Finset.univ.filter fun J : (⟨1, ![M]⟩ : Shape).Idx =>
        (vecScatterDims N M wf).resultIdx? J idx = some (ix1 n))
      = (Finset.univ.filter fun e : Fin M => (idx (ix2 e (0 : Fin 1))).toInt = (n.val : Int)).map ⟨_, hinj⟩ := by
    ext J
    obtain ⟨a, rfl⟩ : ∃ a : Fin M, J = ix1 a := ⟨J 0, eq_ix1 J⟩
    simp only [Finset.mem_filter, Finset.mem_univ, true_and, Finset.mem_map, Function.Embedding.coeFn_mk]
    constructor
    · intro h
      exact ⟨a, (resultIdx?_vec wf idx a n).mp h, rfl⟩
    · rintro ⟨e, he, hJ⟩
      have hea : e = a := hinj hJ
      subst hea
      exact (resultIdx?_vec wf idx e n).mpr he
  rw [hset, Finset.fold_map]
  rfl

/-! ## Folds over a set in two parts, and over three stretches laid end to end -/

section Split
variable {ι : Type} [DecidableEq ι]

/-- The fold of an associative and commutative `f` over a set, from a start `b` with `f b b = b`, is `f` of the fold over
    the members that satisfy `q` and the fold over those that do not. -/
theorem fold_filter_split (f : α → α → α) [Std.Commutative f] [Std.Associative f] (b : α) (hb : f b b = b)
    (S : Finset ι) (q : ι → Prop) [DecidablePred q] (g : ι → α) :
    S.fold f b g = f ((S.filter q).fold f b g) ((S.filter fun a => ¬ q a).fold f b g) := by
  have hd : Disjoint (S.filter q) (S.filter fun a => ¬ q a) := Finset.disjoint_filter_filter_not S S q
  have h := Finset.fold_disjUnion (op := f) (f := g) (b₁ := b) (b₂ := b) hd
  rw [hb, Finset.disjUnion_eq_union, Finset.filter_union_filter_not_eq] at h
  exact h

/-- A fold over a set `S` is the fold over a set `S'` of another type, when an injection `emb` of the second type into the
    first carries `S'` onto `S` and the function `g'` to `g`. -/
theorem fold_reindex {κ : Type} (f : α → α → α) [Std.Commutative f] [Std.Associative f] (b : α) (emb : κ → ι)
    (hinj : Function.Injective emb) (S : Finset ι) (S' : Finset κ) (g : ι → α) (g' : κ → α)
    (hmem : ∀ e, emb e ∈ S ↔ e ∈ S') (hg : ∀ e, g (emb e) = g' e) (hsurj : ∀ a ∈ S, ∃ e, emb e = a) :
    S.fold f b g = S'.fold f b g' := by
  have hset : S = S'.map ⟨emb, hinj⟩ := by
    ext a
    simp only [Finset.mem_map, Function.Embedding.coeFn_mk]
    constructor
    · intro ha
      obtain ⟨e, rfl⟩ := hsurj a ha
      exact ⟨e, (hmem e).mp ha, rfl⟩
    · rintro ⟨e, he, rfl⟩
      exact (hmem e).mpr he
  rw [hset, Finset.fold_map]
  exact Finset.fold_congr fun e _ => hg e

end Split

/-- A FOLD OVER THREE STRETCHES LAID END TO END. Let `f` be associative and commutative and `f b b = b`. Over the positions
    `a < M`, `M = M₁ + M₂ + M₃`, let the predicate `P` and the function `g` be, on the first `M₁` positions, `P₁` and
    `g₁`; on the next `M₂`, `P₂` and `g₂` (of the position less `M₁`); on the last `M₃`, `P₃` and `g₃` (of the position
    less `M₁ + M₂`). Then the fold of `g` over the positions that satisfy `P` is `f` of the three folds. -/
theorem fold_filter_concat3 (f : α → α → α) [Std.Commutative f] [Std.Associative f] (b : α) (hb : f b b = b)
    {M₁ M₂ M₃ M : Nat} (hM : M₁ + M₂ + M₃ = M) (P : Fin M → Prop) [DecidablePred P] (g : Fin M → α)
    (P₁ : Fin M₁ → Prop) [DecidablePred P₁] (g₁ : Fin M₁ → α) (P₂ : Fin M₂ → Prop) [DecidablePred P₂] (g₂ : Fin M₂ → α)
    (P₃ : Fin M₃ → Prop) [DecidablePred P₃] (g₃ : Fin M₃ → α)
    (h₁ : ∀ (e : Fin M₁) (a : Fin M), a.val = e.val → (P a ↔ P₁ e) ∧ g a = g₁ e)
    (h₂ : ∀ (e : Fin M₂) (a : Fin M), a.val = M₁ + e.val → (P a ↔ P₂ e) ∧ g a = g₂ e)
    (h₃ : ∀ (e : Fin M₃) (a : Fin M), a.val = M₁ + M₂ + e.val → (P a ↔ P₃ e) ∧ g a = g₃ e) :
    (Finset.univ.filter P).fold f b g
      = f (f ((Finset.univ.filter P₁).fold f b g₁) ((Finset.univ.filter P₂).fold f b g₂))
          ((Finset.univ.filter P₃).fold f b g₃) := by
  rw [fold_filter_split f b hb (Finset.univ.filter P) (fun a => a.val < M₁ + M₂) g,
    fold_filter_split f b hb ((Finset.univ.filter P).filter fun a => a.val < M₁ + M₂) (fun a => a.val < M₁) g]
  congr 1
  · congr 1
    · -- the first stretch
      refine fold_reindex f b (fun e : Fin M₁ => (⟨e.val, by have := e.isLt; omega⟩ : Fin M))
        (fun a c h => Fin.ext (by simpa using congrArg Fin.val h)) _ _ g g₁ (fun e => ?_) (fun e => ?_) (fun a ha => ?_)
      · have hP := (h₁ e ⟨e.val, by have := e.isLt; omega⟩ rfl).1
        have he := e.isLt
        simp only [Finset.mem_filter, Finset.mem_univ, true_and]
        constructor
        · intro h; exact hP.mp h.1.1
        · intro h; exact ⟨⟨hP.mpr h, by omega⟩, he⟩
      · exact (h₁ e ⟨e.val, by have := e.isLt; omega⟩ rfl).2
      · simp only [Finset.mem_filter, Finset.mem_univ, true_and] at ha
        exact ⟨⟨a.val, ha.2⟩, Fin.ext rfl⟩
    · -- the second stretch
      refine fold_reindex f b (fun e : Fin M₂ => (⟨M₁ + e.val, by have := e.isLt; omega⟩ : Fin M))
        (fun a c h => Fin.ext (by have := congrArg Fin.val h; simp at this; omega)) _ _ g g₂ (fun e => ?_) (fun e => ?_)
        (fun a ha => ?_)
      · have hP := (h₂ e ⟨M₁ + e.val, by have := e.isLt; omega⟩ rfl).1
        have he := e.isLt
        simp only [Finset.mem_filter, Finset.mem_univ, true_and]
        constructor
        · intro h; exact hP.mp h.1.1
        · intro h; exact ⟨⟨hP.mpr h, by omega⟩, by omega⟩
      · exact (h₂ e ⟨M₁ + e.val, by have := e.isLt; omega⟩ rfl).2
      · simp only [Finset.mem_filter, Finset.mem_univ, true_and] at ha
        have h1 : a.val < M₁ + M₂ := ha.1.2
        have h2 : ¬ a.val < M₁ := ha.2
        exact ⟨⟨a.val - M₁, by omega⟩, Fin.ext (by show M₁ + (a.val - M₁) = a.val; omega)⟩
  · -- the third stretch
    refine fold_reindex f b (fun e : Fin M₃ => (⟨M₁ + M₂ + e.val, by have := e.isLt; omega⟩ : Fin M))
      (fun a c h => Fin.ext (by have := congrArg Fin.val h; simp at this; omega)) _ _ g g₃ (fun e => ?_) (fun e => ?_)
      (fun a ha => ?_)
    · have hP := (h₃ e ⟨M₁ + M₂ + e.val, by have := e.isLt; omega⟩ rfl).1
      simp only [Finset.mem_filter, Finset.mem_univ, true_and]
      constructor
      · intro h; exact hP.mp h.1
      · intro h; exact ⟨hP.mpr h, by omega⟩
    · exact (h₃ e ⟨M₁ + M₂ + e.val, by have := e.isLt; omega⟩ rfl).2
    · simp only [Finset.mem_filter, Finset.mem_univ, true_and] at ha
      have h2 : ¬ a.val < M₁ + M₂ := ha.2
      have h3 := a.isLt
      exact ⟨⟨a.val - (M₁ + M₂), by omega⟩, Fin.ext (by show M₁ + M₂ + (a.val - (M₁ + M₂)) = a.val; omega)⟩

end Cert.Lib

end
-- ==== Proof.LastUpdate.lean ====
/-
  THE SECOND RESULT, new_last_update, IS THE SAME FUNCTION OF THE FOUR INTEGER ARGUMENTS IN BOTH PROGRAMS.

  With E = 50000 events and N = 100000 nodes, t : i32[E] the event times and src, dst, prod : i32[E] three arrays of
  node numbers:

    kernel:     lu  = max (max (segmax t src) (segmax t dst)) (segmax t prod)
                cnt = (segsum 1 src + segsum 1 dst) + segsum 1 prod
                result = where (cnt > 0) lu 0
    reference:  idx3 = src ++ dst ++ prod : [3E],  t3 = t ++ t ++ t : [3E]   (t as one row, the row three times, flattened)
                result = where (segsum 1 idx3 > 0) (segmax t3 idx3) 0

  segmax t idx at node n is the signed maximum of INT_MIN and the times t[e] of the events e with idx[e] = n (a scatter
  with a maximum body into a fill of INT_MIN, read at n: a fold of the maximum over the SET of those events, the order
  immaterial since the maximum is associative and commutative); segsum 1 idx at n is 0 plus one unit per such event.

  Position a < 3E of idx3 is src[a], dst[a - E] or prod[a - 2E] by the stretch a lies in, and t3[a] is t at the same
  offset into its stretch. So the events of the reference that land on n are, stretch by stretch, the events of the
  kernel's three scatters that land on n, with the same times: the maximum over the three stretches is the maximum of
  the three maxima (INT_MIN, the start, satisfies max INT_MIN INT_MIN = INT_MIN), and the count over them is the sum of
  the three counts (0 + 0 = 0). Both results agree at every node.
-/
import proofs.«115542_j63840393888431_2_alg».proof.KernelIdeal
import proofs.«115542_j63840393888431_2_alg».proof.ReferenceIdeal
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«115542_j63840393888431_2_alg».proof.Proof.LibScatterAddVec
import proofs.«115542_j63840393888431_2_alg».proof.Proof.LibScatterMaxVec

noncomputable section

namespace Cert.LastUpdate

open Idealize.ShloMosaic Idealize.ShloMosaic.ValueIdx Cert.Lib

/-- The signed maximum of a word with itself is the word. -/
theorem maxsi_self {w : Nat} (x : BitVec w) : IntOp.maxsi x x = x := by
  unfold IntOp.maxsi
  split <;> rfl

/-! ## The kernel's terms -/

section Kernel
open Cert.KernelIdeal Cert.KernelIdeal.Facts₀
variable [Cert.KernelIdeal.Facts₀]

/-- The kernel's count of the events at each node: the three accumulating scatters of ones into zeros, added. -/
def kernelCnt (x9 x10 x11 : IVec S50000 32) : FVec Ideal S100000 .f32 :=
  addf
    (addf
      (Host.scatterAdd scatter_S100000_S50000x1_S50000_n_0_0_1
        (broadcastInDim S100000 ![] bcast_S_S100000 (constant (F := Ideal) S_ .f32 0x00000000#32))
        (broadcastInDim S50000x1 ![0] bcast_S50000_S50000x1_0 x9)
        (broadcastInDim S50000 ![] bcast_S_S50000 (constant (F := Ideal) S_ .f32 0x3F800000#32)))
      (Host.scatterAdd scatter_S100000_S50000x1_S50000_n_0_0_1
        (broadcastInDim S100000 ![] bcast_S_S100000 (constant (F := Ideal) S_ .f32 0x00000000#32))
        (broadcastInDim S50000x1 ![0] bcast_S50000_S50000x1_0 x10)
        (broadcastInDim S50000 ![] bcast_S_S50000 (constant (F := Ideal) S_ .f32 0x3F800000#32))))
    (Host.scatterAdd scatter_S100000_S50000x1_S50000_n_0_0_1
      (broadcastInDim S100000 ![] bcast_S_S100000 (constant (F := Ideal) S_ .f32 0x00000000#32))
      (broadcastInDim S50000x1 ![0] bcast_S50000_S50000x1_0 x11)
      (broadcastInDim S50000 ![] bcast_S_S50000 (constant (F := Ideal) S_ .f32 0x3F800000#32)))

/-- The kernel's latest event time at each node: the three maximum scatters into INT_MIN, their maximum. -/
def kernelMax (x9 x10 x11 x12 : IVec S50000 32) : IVec S100000 32 :=
  maxsi
    (maxsi
      (Host.scatter scatter_S100000_S50000x1_S50000_n_0_0_1 IntOp.maxsi
        (broadcastInDim S100000 ![] bcast_S_S100000 (constantI S_ 32 2147483648#32))
        (broadcastInDim S50000x1 ![0] bcast_S50000_S50000x1_0 x9) x12)
      (Host.scatter scatter_S100000_S50000x1_S50000_n_0_0_1 IntOp.maxsi
        (broadcastInDim S100000 ![] bcast_S_S100000 (constantI S_ 32 2147483648#32))
        (broadcastInDim S50000x1 ![0] bcast_S50000_S50000x1_0 x10) x12))
    (Host.scatter scatter_S100000_S50000x1_S50000_n_0_0_1 IntOp.maxsi
      (broadcastInDim S100000 ![] bcast_S_S100000 (constantI S_ 32 2147483648#32))
      (broadcastInDim S50000x1 ![0] bcast_S50000_S50000x1_0 x11) x12)

/-- The kernel's second result: where the count is positive the latest event time, elsewhere zero. -/
def kernelLU (x9 x10 x11 x12 : IVec S50000 32) : IVec S100000 32 :=
  select
    (cmpf (F := Ideal) .ogt (kernelCnt x9 x10 x11)
      (broadcastInDim S100000 ![] bcast_S_S100000 (constant (F := Ideal) S_ .f32 0x00000000#32)))
    (kernelMax x9 x10 x11 x12)
    (broadcastInDim S100000 ![] bcast_S_S100000 (constantI S_ 32 0#32))

/-- An array of node numbers as a column, read at a row: the array's entry. -/
theorem colK_apply (x : IVec S50000 32) (e : Fin 50000) :
    broadcastInDim S50000x1 ![0] bcast_S50000_S50000x1_0 x (ix2 e (0 : Fin 1)) = x (ix1 e) :=
  broadcastInDim_apply _ bcast_S50000_S50000x1_0 x (ix2 e (0 : Fin 1)) (ix1 e) (fun a => match a with
    | ⟨0, _⟩ => by show e.val = if (50000 : Nat) = 1 then 0 else e.val; rw [if_neg (by decide)])

/-- One of the kernel's maximum scatters read at node `n`: the maximum of INT_MIN and the times of the events whose
    node number is `n`. -/
theorem kernelSegmax_apply (x x12 : IVec S50000 32) (n : Fin 100000) :
    Host.scatter scatter_S100000_S50000x1_S50000_n_0_0_1 IntOp.maxsi
        (broadcastInDim S100000 ![] bcast_S_S100000 (constantI S_ 32 2147483648#32))
        (broadcastInDim S50000x1 ![0] bcast_S50000_S50000x1_0 x) x12 (ix1 n)
      = (Finset.univ.filter fun e : Fin 50000 => (x (ix1 e)).toInt = (n.val : Int)).fold IntOp.maxsi
          (2147483648#32) (fun e => x12 (ix1 e)) := by
  refine (scatter_vec_apply (N := 100000) (M := 50000) scatter_S100000_S50000x1_S50000_n_0_0_1_wf IntOp.maxsi
    _ _ _ n).trans ?_
  exact congrArg (Finset.fold IntOp.maxsi (2147483648#32) (fun e : Fin 50000 => x12 (ix1 e)))
    (Finset.filter_congr fun e _ => by rw [colK_apply])

/-- One of the kernel's counting scatters read at node `n`: one unit per event whose node number is `n`. -/
theorem kernelSegsum_apply (x : IVec S50000 32) (n : Fin 100000) :
    Host.scatterAdd scatter_S100000_S50000x1_S50000_n_0_0_1
        (broadcastInDim S100000 ![] bcast_S_S100000 (constant (F := Ideal) S_ .f32 0x00000000#32))
        (broadcastInDim S50000x1 ![0] bcast_S50000_S50000x1_0 x)
        (broadcastInDim S50000 ![] bcast_S_S50000 (constant (F := Ideal) S_ .f32 0x3F800000#32)) (ix1 n)
      = Finset.fold (β := EReal) (· + ·) 0 (fun _ : Fin 50000 => Ideal.ofBits .f32 0x3F800000#32)
          (Finset.univ.filter fun e : Fin 50000 => (x (ix1 e)).toInt = (n.val : Int)) := by
  refine (scatterAdd_vec_apply (N := 100000) (M := 50000) scatter_S100000_S50000x1_S50000_n_0_0_1_wf
    _ _ _ n).trans ?_
  rw [Finset.sum_eq_fold]
  show Ideal.ofBits .f32 0x00000000#32
      + Finset.fold (β := EReal) (· + ·) 0 (fun _ : Fin 50000 => Ideal.ofBits .f32 0x3F800000#32) _ = _
  rw [Ideal.ofBits_zero_f32, zero_add]
  exact congrArg (Finset.fold (β := EReal) (· + ·) 0 (fun _ : Fin 50000 => Ideal.ofBits .f32 0x3F800000#32))
    (Finset.filter_congr fun e _ => by rw [colK_apply])

end Kernel

/-! ## The reference's terms -/

section Reference
open Cert.ReferenceIdeal Cert.ReferenceIdeal.Facts₀
variable [Cert.ReferenceIdeal.Facts₀]

/-- The reference's node numbers, the three arrays laid end to end, as a column. -/
def refCol (x9 x10 x11 : IVec S50000 32) : IVec S150000x1 32 :=
  broadcastInDim S150000x1 ![0] bcast_S150000_S150000x1_0
    (concatenate S150000 0 [⟨S50000, x9⟩, ⟨S50000, x10⟩, ⟨S50000, x11⟩] concatenates_S50000_S50000_S50000_S150000_d0)

/-- The reference's event times, the array three times over. -/
def refTimes (x12 : IVec S50000 32) : IVec S150000 32 :=
  shapeCast _ (broadcastInDim S3x50000 ![0, 1] bcast_S1x50000_S3x50000_0_1 (shapeCast _ x12 shapeCasts_S50000_S1x50000))
    shapeCasts_S3x50000_S150000

/-- The column of node numbers read at row `a` of stretch `k` (`a = 50000 k + e`): entry `e` of the `k`-th array. -/
theorem refCol_apply (x9 x10 x11 x : IVec S50000 32) (k : Nat) (hk : k < 3)
    (hx : ([⟨S50000, x9⟩, ⟨S50000, x10⟩, ⟨S50000, x11⟩] : List ((s : Shape) × (s.Idx → BitVec 32)))[k]'hk = ⟨S50000, x⟩)
    (hpre : (((([⟨S50000, x9⟩, ⟨S50000, x10⟩, ⟨S50000, x11⟩] : List ((s : Shape) × (s.Idx → BitVec 32))).take k).map (·.1)).map
      (fun s : Shape => if h : s.rank = S150000.rank then s.size ((0 : Fin S150000.rank).cast h.symm) else 0)).sum = 50000 * k)
    (e : Fin 50000) (a : Fin 150000) (ha : a.val = 50000 * k + e.val) :
    refCol x9 x10 x11 (ix2 a (0 : Fin 1)) = x (ix1 e) := by
  unfold refCol
  refine (broadcastInDim_apply _ bcast_S150000_S150000x1_0 _ (ix2 a (0 : Fin 1)) (ix1 a) (fun b => match b with
    | ⟨0, _⟩ => by show a.val = if (150000 : Nat) = 1 then 0 else a.val; rw [if_neg (by decide)])).trans ?_
  exact concatenate_apply_piece (0 : Fin S150000.rank) [⟨S50000, x9⟩, ⟨S50000, x10⟩, ⟨S50000, x11⟩]
    concatenates_S50000_S50000_S50000_S150000_d0 (ix1 a) k hk S50000 x hx rfl
    (50000 * k) hpre (ix1 e)
    (fun b hb => absurd (Fin.ext (by have hb1 : b.val < 1 := b.isLt; show b.val = 0; omega)) hb)
    (by show 50000 * k + e.val = a.val; omega)

/-- The times read at position `a` of stretch `c` (`a = 50000 c + e`): the time of event `e`. -/
theorem refTimes_apply (x12 : IVec S50000 32) (c : Fin 3) (e : Fin 50000) (a : Fin 150000) (ha : a.val = 50000 * c.val + e.val) :
    refTimes x12 (ix1 a) = x12 (ix1 e) := by
  unfold refTimes
  refine (shapeCast_apply _ shapeCasts_S3x50000_S150000 (ix1 a) (ix2 c e)
    (by rewrite [Shape.rowMajor_val_two, Shape.rowMajor_val_one]; show c.val * 50000 + e.val = a.val; omega)).trans ?_
  refine (broadcastInDim_apply _ bcast_S1x50000_S3x50000_0_1 _ (ix2 c e) (ix2 (0 : Fin 1) e) (fun b => match b with
    | ⟨0, _⟩ => by show 0 = if (1 : Nat) = 1 then 0 else c.val; rw [if_pos rfl]
    | ⟨1, _⟩ => by show e.val = if (50000 : Nat) = 1 then 0 else e.val; rw [if_neg (by decide)])).trans ?_
  exact shapeCast_apply x12 shapeCasts_S50000_S1x50000 (ix2 (0 : Fin 1) e) (ix1 e)
    (by rewrite [Shape.rowMajor_val_one, Shape.rowMajor_val_two]; show e.val = 0 * 50000 + e.val; omega)

/-- The reference's maximum scatter read at node `n`: the maximum of INT_MIN and the times at the positions of the
    three stretches whose node number is `n`. -/
theorem refSegmax_apply (x9 x10 x11 x12 : IVec S50000 32) (n : Fin 100000) :
    Host.scatter scatter_S100000_S150000x1_S150000_n_0_0_1 IntOp.maxsi
        (broadcastInDim S100000 ![] bcast_S_S100000 (constantI S_ 32 2147483648#32)) (refCol x9 x10 x11) (refTimes x12) (ix1 n)
      = (Finset.univ.filter fun a : Fin 150000 => (refCol x9 x10 x11 (ix2 a (0 : Fin 1))).toInt = (n.val : Int)).fold
          IntOp.maxsi (2147483648#32) (fun a => refTimes x12 (ix1 a)) :=
  scatter_vec_apply (N := 100000) (M := 150000) scatter_S100000_S150000x1_S150000_n_0_0_1_wf IntOp.maxsi _ _ _ n

/-- The reference's counting scatter read at node `n`: one unit per position of the three stretches whose node number
    is `n`. -/
theorem refSegsum_apply (x9 x10 x11 : IVec S50000 32) (n : Fin 100000) :
    Host.scatterAdd scatter_S100000_S150000x1_S150000_n_0_0_1
        (broadcastInDim S100000 ![] bcast_S_S100000 (constant (F := Ideal) S_ .f32 0x00000000#32)) (refCol x9 x10 x11)
        (broadcastInDim S150000 ![] bcast_S_S150000 (constant (F := Ideal) S_ .f32 0x3F800000#32)) (ix1 n)
      = Finset.fold (β := EReal) (· + ·) 0 (fun _ : Fin 150000 => Ideal.ofBits .f32 0x3F800000#32)
          (Finset.univ.filter fun a : Fin 150000 => (refCol x9 x10 x11 (ix2 a (0 : Fin 1))).toInt = (n.val : Int)) := by
  refine (scatterAdd_vec_apply (N := 100000) (M := 150000) scatter_S100000_S150000x1_S150000_n_0_0_1_wf
    _ _ _ n).trans ?_
  rw [Finset.sum_eq_fold]
  show Ideal.ofBits .f32 0x00000000#32
      + Finset.fold (β := EReal) (· + ·) 0 (fun _ : Fin 150000 => Ideal.ofBits .f32 0x3F800000#32) _ = _
  rw [Ideal.ofBits_zero_f32, zero_add]

end Reference

/-! ## The two programs agree -/

section Agree
open Cert.ReferenceIdeal Cert.ReferenceIdeal.Facts₀
variable [Cert.KernelIdeal.Facts₀] [Cert.ReferenceIdeal.Facts₀]

/-- On each stretch the reference's node number and time at a position are the kernel's at the offset into the stretch. -/
theorem stretch (x9 x10 x11 x12 x : IVec S50000 32) (k : Nat) (hk : k < 3)
    (hx : ([⟨S50000, x9⟩, ⟨S50000, x10⟩, ⟨S50000, x11⟩] : List ((s : Shape) × (s.Idx → BitVec 32)))[k]'hk = ⟨S50000, x⟩)
    (hpre : (((([⟨S50000, x9⟩, ⟨S50000, x10⟩, ⟨S50000, x11⟩] : List ((s : Shape) × (s.Idx → BitVec 32))).take k).map (·.1)).map
      (fun s : Shape => if h : s.rank = S150000.rank then s.size ((0 : Fin S150000.rank).cast h.symm) else 0)).sum = 50000 * k)
    (n : Fin 100000) (e : Fin 50000) (a : Fin 150000) (ha : a.val = 50000 * k + e.val) :
    ((refCol x9 x10 x11 (ix2 a (0 : Fin 1))).toInt = (n.val : Int) ↔ (x (ix1 e)).toInt = (n.val : Int))
      ∧ refTimes x12 (ix1 a) = x12 (ix1 e) := by
  constructor
  · rw [refCol_apply x9 x10 x11 x k hk hx hpre e a ha]
  · exact refTimes_apply x12 ⟨k, hk⟩ e a ha

/-- THE LATEST EVENT TIME AGREES: the reference's maximum over the three stretches is the maximum of the kernel's three. -/
theorem max_eq (x9 x10 x11 x12 : IVec S50000 32) (n : Fin 100000) :
    Host.scatter scatter_S100000_S150000x1_S150000_n_0_0_1 IntOp.maxsi
        (broadcastInDim S100000 ![] bcast_S_S100000 (constantI S_ 32 2147483648#32)) (refCol x9 x10 x11) (refTimes x12) (ix1 n)
      = kernelMax x9 x10 x11 x12 (ix1 n) := by
  refine (refSegmax_apply x9 x10 x11 x12 n).trans ?_
  refine Eq.trans ?_ (congrArg₂ IntOp.maxsi (congrArg₂ IntOp.maxsi (kernelSegmax_apply x9 x12 n)
    (kernelSegmax_apply x10 x12 n)) (kernelSegmax_apply x11 x12 n)).symm
  exact fold_filter_concat3 IntOp.maxsi (2147483648#32) (maxsi_self _) (M₁ := 50000) (M₂ := 50000) (M₃ := 50000)
    (M := 150000) rfl _ _ _ _ _ _ _ _
    (fun e a ha => (stretch x9 x10 x11 x12 x9 0 (by decide) rfl rfl n e a (by omega)))
    (fun e a ha => (stretch x9 x10 x11 x12 x10 1 (by decide) rfl rfl n e a (by omega)))
    (fun e a ha => (stretch x9 x10 x11 x12 x11 2 (by decide) rfl rfl n e a (by omega)))

/-- THE COUNT AGREES: the reference's count over the three stretches is the sum of the kernel's three. -/
theorem cnt_eq (x9 x10 x11 : IVec S50000 32) (n : Fin 100000) :
    Host.scatterAdd scatter_S100000_S150000x1_S150000_n_0_0_1
        (broadcastInDim S100000 ![] bcast_S_S100000 (constant (F := Ideal) S_ .f32 0x00000000#32)) (refCol x9 x10 x11)
        (broadcastInDim S150000 ![] bcast_S_S150000 (constant (F := Ideal) S_ .f32 0x3F800000#32)) (ix1 n)
      = kernelCnt x9 x10 x11 (ix1 n) := by
  refine (refSegsum_apply x9 x10 x11 n).trans ?_
  refine Eq.trans ?_ (congrArg₂ (fun a b : EReal => a + b) (congrArg₂ (fun a b : EReal => a + b) (kernelSegsum_apply x9 n)
    (kernelSegsum_apply x10 n)) (kernelSegsum_apply x11 n)).symm
  exact fold_filter_concat3 (α := EReal) (· + ·) 0 (zero_add 0) (M₁ := 50000) (M₂ := 50000) (M₃ := 50000)
    (M := 150000) rfl _ _ _ _ _ _ _ _
    (fun e a ha => ⟨(stretch x9 x10 x11 x9 x9 0 (by decide) rfl rfl n e a (by omega)).1, rfl⟩)
    (fun e a ha => ⟨(stretch x9 x10 x11 x9 x10 1 (by decide) rfl rfl n e a (by omega)).1, rfl⟩)
    (fun e a ha => ⟨(stretch x9 x10 x11 x9 x11 2 (by decide) rfl rfl n e a (by omega)).1, rfl⟩)

/-- **The second result agrees.** The reference's term for new_last_update (the left side, as the reference's value
    module prints it, at the ideal instance) is the kernel's (`kernelLU`, a definition of this file that spells the
    kernel's operations out), as functions of the four integer arguments. -/
theorem result_eq (x9 x10 x11 x12 : IVec Cert.KernelIdeal.S50000 32) :
    select (cmpf (F := Ideal) .ogt (Host.scatterAdd scatter_S100000_S150000x1_S150000_n_0_0_1 (broadcastInDim S100000 ![] bcast_S_S100000 (constant S_ .f32 0x00000000#32)) (broadcastInDim S150000x1 ![0] bcast_S150000_S150000x1_0 (concatenate S150000 0 [⟨S50000, (x9)⟩, ⟨S50000, (x10)⟩, ⟨S50000, (x11)⟩] concatenates_S50000_S50000_S50000_S150000_d0)) (broadcastInDim S150000 ![] bcast_S_S150000 (constant S_ .f32 0x3F800000#32))) (broadcastInDim S100000 ![] bcast_S_S100000 (constant S_ .f32 0x00000000#32))) (Host.scatter scatter_S100000_S150000x1_S150000_n_0_0_1 IntOp.maxsi (broadcastInDim S100000 ![] bcast_S_S100000 (constantI S_ 32 2147483648#32)) (broadcastInDim S150000x1 ![0] bcast_S150000_S150000x1_0 (concatenate S150000 0 [⟨S50000, (x9)⟩, ⟨S50000, (x10)⟩, ⟨S50000, (x11)⟩] concatenates_S50000_S50000_S50000_S150000_d0)) (shapeCast _ (broadcastInDim S3x50000 ![0, 1] bcast_S1x50000_S3x50000_0_1 (shapeCast _ (x12) shapeCasts_S50000_S1x50000)) shapeCasts_S3x50000_S150000)) (broadcastInDim S100000 ![] bcast_S_S100000 (constantI S_ 32 0#32))
      = kernelLU x9 x10 x11 x12 := by
  have hc : Host.scatterAdd scatter_S100000_S150000x1_S150000_n_0_0_1
        (broadcastInDim S100000 ![] bcast_S_S100000 (constant (F := Ideal) S_ .f32 0x00000000#32)) (refCol x9 x10 x11)
        (broadcastInDim S150000 ![] bcast_S_S150000 (constant (F := Ideal) S_ .f32 0x3F800000#32))
      = kernelCnt x9 x10 x11 := by
    funext i
    obtain ⟨n, rfl⟩ : ∃ n : Fin 100000, i = ix1 n := ⟨i 0, eq_ix1 i⟩
    exact cnt_eq x9 x10 x11 n
  have hm : Host.scatter scatter_S100000_S150000x1_S150000_n_0_0_1 IntOp.maxsi
        (broadcastInDim S100000 ![] bcast_S_S100000 (constantI S_ 32 2147483648#32)) (refCol x9 x10 x11) (refTimes x12)
      = kernelMax x9 x10 x11 x12 := by
    funext i
    obtain ⟨n, rfl⟩ : ∃ n : Fin 100000, i = ix1 n := ⟨i 0, eq_ix1 i⟩
    exact max_eq x9 x10 x11 x12 n
  show select (cmpf (F := Ideal) .ogt (Host.scatterAdd scatter_S100000_S150000x1_S150000_n_0_0_1
        (broadcastInDim S100000 ![] bcast_S_S100000 (constant (F := Ideal) S_ .f32 0x00000000#32)) (refCol x9 x10 x11)
        (broadcastInDim S150000 ![] bcast_S_S150000 (constant (F := Ideal) S_ .f32 0x3F800000#32)))
      (broadcastInDim S100000 ![] bcast_S_S100000 (constant (F := Ideal) S_ .f32 0x00000000#32)))
    (Host.scatter scatter_S100000_S150000x1_S150000_n_0_0_1 IntOp.maxsi
        (broadcastInDim S100000 ![] bcast_S_S100000 (constantI S_ 32 2147483648#32)) (refCol x9 x10 x11) (refTimes x12))
    (broadcastInDim S100000 ![] bcast_S_S100000 (constantI S_ 32 0#32)) = kernelLU x9 x10 x11 x12
  rw [hc, hm]
  rfl

end Agree

end Cert.LastUpdate

end
-- ==== Proof.KHostLU.lean ====
/-
  The second result's array at the region's entry — for each node the time of its latest event where it has one, zero
  elsewhere — as the composed term of the host operations before the region.
-/
import proofs.«115542_j63840393888431_2_alg».proof.Proof.KHost
import proofs.«115542_j63840393888431_2_alg».proof.Proof.LastUpdate

noncomputable section

namespace Cert.KernelIdeal.KHost

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ)

set_option maxHeartbeats 4000000 in
/-- The last-update array: where the count of events at a node is positive the latest of their times, elsewhere zero. -/
theorem V_main_v123 (c : Dev nD) :
    (V m c main_v123 : IVec S100000 32)
      = Cert.LastUpdate.kernelLU (m ((c : Thread nD τ).loc main_arg9)) (m ((c : Thread nD τ).loc main_arg10))
          (m ((c : Thread nD τ).loc main_arg11)) (m ((c : Thread nD τ).loc main_arg12)) := by
  open_stretches
  after_results_simp
  -- the outlined call's typed references carry their contents along an equation of buffer types that is an identity
  simp only [StableHlo.TRef.toBuf, StableHlo.TRef.ofBuf, cast_eq]
  rfl

end Cert.KernelIdeal.KHost

end
-- ==== Proof.KIndex.lean ====
/-
  Where the blocks of the region's windows sit in their arrays. The grid has 125 points; at point `t` the windows of the
  memory bank, the mean messages, the supplied amounts and the two outputs hold block `t` along the rows (800 rows each; 8 for the
  loss partials) and the whole width, and the five weight windows hold their whole array. So the element `(r, j)` of such a
  block is the element `(800·t + r, j)` of its array (`(8·t + r, j)` for the partials), and of a weight window `(r, j)` itself.
-/
import proofs.«115542_j63840393888431_2_alg».proof.Proof.KIBlocks
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat Cfg Window)

/-- The printed index maps, decided once over the grid: block row `t`, block column 0 for the five row-blocked windows;
    block (0, 0) for the five whole-array windows. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The grid has 125 points. -/
theorem t_lt (t : Fin cfg0.N) : t.val < 125 := by
  have h := t.isLt; have hN : cfg0.N = 125 := N_0; omega

variable {F : FTy → Type} [FloatOps F] (m : (ℓ : Loc nD τ sig) → Buf (Elt F) ℓ)

/-- An element of window 0's block at point `t` is the element of its array 800·t rows further down. -/
theorem iblk0_apply (c : Dev nD) (t : Fin cfg0.N) (r : Fin 800) (j : Fin 640) :
    iblk m c 0 t (ix2 r j) = (V m c main_arg0 : S100000x640.Idx → Elt F .f32) (ix2 ⟨800 * t.val + r.val, by have := t_lt t; have := r.isLt; omega⟩ j) := by
  show (V m c main_arg0 : S100000x640.Idx → Elt F .f32) (((cfg0.win 0).blk t).view.emb (ix2 r j)) = _
  refine congrArg _ ?_
  obtain ⟨⟨e0, e1⟩, -, -, -, -, -, -, -, -, -⟩ := idx_facts t
  funext a; apply Fin.ext
  match a with
  | ⟨0, _⟩ => show win0_0.index t (0 : Fin 2) * 800 + 1 * r.val = 800 * t.val + r.val; omega
  | ⟨1, _⟩ => show win0_0.index t (1 : Fin 2) * 640 + 1 * j.val = j.val; omega

/-- An element of window 1's block at point `t` is the element of its array 800·t rows further down. -/
theorem iblk1_apply (c : Dev nD) (t : Fin cfg0.N) (r : Fin 800) (j : Fin 480) :
    iblk m c 1 t (ix2 r j) = (V m c main_v108 : S100000x480.Idx → Elt F .bf16) (ix2 ⟨800 * t.val + r.val, by have := t_lt t; have := r.isLt; omega⟩ j) := by
  show (V m c main_v108 : S100000x480.Idx → Elt F .bf16) (((cfg0.win 1).blk t).view.emb (ix2 r j)) = _
  refine congrArg _ ?_
  obtain ⟨-, ⟨e0, e1⟩, -, -, -, -, -, -, -, -⟩ := idx_facts t
  funext a; apply Fin.ext
  match a with
  | ⟨0, _⟩ => show win0_1.index t (0 : Fin 2) * 800 + 1 * r.val = 800 * t.val + r.val; omega
  | ⟨1, _⟩ => show win0_1.index t (1 : Fin 2) * 480 + 1 * j.val = j.val; omega

/-- An element of window 2's block at point `t` is the element of its array 800·t rows further down. -/
theorem iblk2_apply (c : Dev nD) (t : Fin cfg0.N) (r : Fin 800) (j : Fin 512) :
    iblk m c 2 t (ix2 r j) = (V m c main_v143 : S100000x512.Idx → Elt F .f32) (ix2 ⟨800 * t.val + r.val, by have := t_lt t; have := r.isLt; omega⟩ j) := by
  show (V m c main_v143 : S100000x512.Idx → Elt F .f32) (((cfg0.win 2).blk t).view.emb (ix2 r j)) = _
  refine congrArg _ ?_
  obtain ⟨-, -, ⟨e0, e1⟩, -, -, -, -, -, -, -⟩ := idx_facts t
  funext a; apply Fin.ext
  match a with
  | ⟨0, _⟩ => show win0_2.index t (0 : Fin 2) * 800 + 1 * r.val = 800 * t.val + r.val; omega
  | ⟨1, _⟩ => show win0_2.index t (1 : Fin 2) * 512 + 1 * j.val = j.val; omega

/-- An element of window 3's block at point `t` is the element of its array at the same place. -/
theorem iblk3_apply (c : Dev nD) (t : Fin cfg0.N) (r : Fin 480) (j : Fin 384) :
    iblk m c 3 t (ix2 r j) = (V m c main_v149 : S480x384.Idx → Elt F .f32) (ix2 r j) := by
  show (V m c main_v149 : S480x384.Idx → Elt F .f32) (((cfg0.win 3).blk t).view.emb (ix2 r j)) = _
  refine congrArg _ ?_
  obtain ⟨-, -, -, ⟨e0, e1⟩, -, -, -, -, -, -⟩ := idx_facts t
  funext a; apply Fin.ext
  match a with
  | ⟨0, _⟩ => show win0_3.index t (0 : Fin 2) * 480 + 1 * r.val = r.val; omega
  | ⟨1, _⟩ => show win0_3.index t (1 : Fin 2) * 384 + 1 * j.val = j.val; omega

/-- An element of window 4's block at point `t` is the element of its array at the same place. -/
theorem iblk4_apply (c : Dev nD) (t : Fin cfg0.N) (r : Fin 128) (j : Fin 384) :
    iblk m c 4 t (ix2 r j) = (V m c main_v150 : S128x384.Idx → Elt F .f32) (ix2 r j) := by
  show (V m c main_v150 : S128x384.Idx → Elt F .f32) (((cfg0.win 4).blk t).view.emb (ix2 r j)) = _
  refine congrArg _ ?_
  obtain ⟨-, -, -, -, ⟨e0, e1⟩, -, -, -, -, -⟩ := idx_facts t
  funext a; apply Fin.ext
  match a with
  | ⟨0, _⟩ => show win0_4.index t (0 : Fin 2) * 128 + 1 * r.val = r.val; omega
  | ⟨1, _⟩ => show win0_4.index t (1 : Fin 2) * 384 + 1 * j.val = j.val; omega

/-- An element of window 5's block at point `t` is the element of its array at the same place. -/
theorem iblk5_apply (c : Dev nD) (t : Fin cfg0.N) (r : Fin 1) (j : Fin 384) :
    iblk m c 5 t (ix2 r j) = (V m c main_v151 : S1x384.Idx → Elt F .f32) (ix2 r j) := by
  show (V m c main_v151 : S1x384.Idx → Elt F .f32) (((cfg0.win 5).blk t).view.emb (ix2 r j)) = _
  refine congrArg _ ?_
  obtain ⟨-, -, -, -, -, ⟨e0, e1⟩, -, -, -, -⟩ := idx_facts t
  funext a; apply Fin.ext
  match a with
  | ⟨0, _⟩ => show win0_5.index t (0 : Fin 2) * 1 + 1 * r.val = r.val; omega
  | ⟨1, _⟩ => show win0_5.index t (1 : Fin 2) * 384 + 1 * j.val = j.val; omega

/-- An element of window 6's block at point `t` is the element of its array at the same place. -/
theorem iblk6_apply (c : Dev nD) (t : Fin cfg0.N) (r : Fin 1) (j : Fin 384) :
    iblk m c 6 t (ix2 r j) = (V m c main_v152 : S1x384.Idx → Elt F .f32) (ix2 r j) := by
  show (V m c main_v152 : S1x384.Idx → Elt F .f32) (((cfg0.win 6).blk t).view.emb (ix2 r j)) = _
  refine congrArg _ ?_
  obtain ⟨-, -, -, -, -, -, ⟨e0, e1⟩, -, -, -⟩ := idx_facts t
  funext a; apply Fin.ext
  match a with
  | ⟨0, _⟩ => show win0_6.index t (0 : Fin 2) * 1 + 1 * r.val = r.val; omega
  | ⟨1, _⟩ => show win0_6.index t (1 : Fin 2) * 384 + 1 * j.val = j.val; omega

/-- An element of window 7's block at point `t` is the element of its array at the same place. -/
theorem iblk7_apply (c : Dev nD) (t : Fin cfg0.N) (r : Fin 512) (j : Fin 512) :
    iblk m c 7 t (ix2 r j) = (V m c main_v148 : S512x512.Idx → Elt F .f32) (ix2 r j) := by
  show (V m c main_v148 : S512x512.Idx → Elt F .f32) (((cfg0.win 7).blk t).view.emb (ix2 r j)) = _
  refine congrArg _ ?_
  obtain ⟨-, -, -, -, -, -, -, ⟨e0, e1⟩, -, -⟩ := idx_facts t
  funext a; apply Fin.ext
  match a with
  | ⟨0, _⟩ => show win0_7.index t (0 : Fin 2) * 512 + 1 * r.val = r.val; omega
  | ⟨1, _⟩ => show win0_7.index t (1 : Fin 2) * 512 + 1 * j.val = j.val; omega

end Cert.KernelIdeal.KValue

end
-- ==== Proof.Spec.lean ====
/-
  The one formula both programs share entry by entry: a GRU cell's new state from the six gate pre-activations of the
  entry's row and column and the old state,
      new = (1 − z) · g + z · s,   r = σ(i_r + h_r),   z = σ(i_z + h_z),   g = tanh(i_g + r · h_g),
  on the extended reals, with σ x = 1 / (1 + e^(−x)) (`Ideal.logistic`) and the constant one passed as it is spelt.
-/
import Idealize.ShloMosaic.PureOps.Ideal

noncomputable section

namespace Cert.Spec

open Idealize.ShloMosaic

/-- The GRU cell's new state at one entry, from the input-side and hidden-side pre-activations of the reset, update and
    candidate gates at that entry and the old state `s`. -/
def gru (one i_r h_r i_z h_z i_g h_g s : EReal) : EReal :=
  (one - Ideal.logistic (i_z + h_z)) * Ideal.tanh (i_g + Ideal.logistic (i_r + h_r) * h_g) + Ideal.logistic (i_z + h_z) * s

end Cert.Spec

end
-- ==== Proof.BodyValueGru.lean ====
/-
  The recurrent half of the kernel body read at an index, at the ideal values (extended reals, every operation exact;
  a format change and a same-shape cast are the identity).  On an 800-row block the body is one GRU cell:
  gi = aggr · W_ih^T + b_ih and gh = state · W_hh^T + b_hh are matrix products into a zero accumulator plus a bias
  row broadcast down the rows; the three gates read the column ranges [0,128), [128,256), [256,384) of both;
  r = logistic(gi_r + gh_r), z = logistic(gi_z + gh_z), g = tanh(gi_g + r · gh_g), and the new state is
  (1 − z) · g + z · state.
-/
import proofs.«115542_j63840393888431_2_alg».proof.Proof.Gen.KernelIdeal.Skeleton
import proofs.«115542_j63840393888431_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen

/-- The input-side pre-activation at row `r`, column `j` of the 384: row `r` of the aggregated block times column `j`
    of the (transposed) input weights, plus the bias. -/
def gi (v2 : Vec Ideal S800x480 .bf16) (v4 : Vec Ideal S480x384 .f32) (v8 : Vec Ideal S1x384 .f32) (r : Fin 800) (j : Fin 384) : EReal :=
  (∑ k : Fin 480, v2 (ix2 r k) * v4 (ix2 k j)) + v8 (ix2 (0 : Fin 1) j)

/-- The state-side pre-activation at row `r`, column `j` of the 384. -/
def gh (v0 : Vec Ideal S800x128 .f32) (v13 : Vec Ideal S128x384 .f32) (v17 : Vec Ideal S1x384 .f32) (r : Fin 800) (j : Fin 384) : EReal :=
  (∑ k : Fin 128, v0 (ix2 r k) * v13 (ix2 k j)) + v17 (ix2 (0 : Fin 1) j)

/-! ## The two products into a zero accumulator, at an index -/

theorem lhs480_0 (i : S800x384.Idx) (q : dot_S800x480_S480x384_S800x384_1_0_0_1_n_n.contr.Idx) :
    (dot_S800x480_S480x384_S800x384_1_0_0_1_n_n.lhsIdx i q 0).val = (i 0).val := by
  unfold DotDims.lhsIdx
  rw [dif_neg (show ¬(0 : Fin S800x480.rank) ∈ dot_S800x480_S480x384_S800x384_1_0_0_1_n_n.lhsBatch by decide),
    dif_pos (show (0 : Fin S800x480.rank) ∈ dot_S800x480_S480x384_S800x384_1_0_0_1_n_n.lhsNonContracting by decide)]
  rfl
theorem lhs480_1 (i : S800x384.Idx) (q : dot_S800x480_S480x384_S800x384_1_0_0_1_n_n.contr.Idx) :
    (dot_S800x480_S480x384_S800x384_1_0_0_1_n_n.lhsIdx i q 1).val = (q ⟨0, by decide⟩).val :=
  dot_S800x480_S480x384_S800x384_1_0_0_1_n_n.lhsIdx_val_of_single rfl i q
theorem rhs480_0 (i : S800x384.Idx) (q : dot_S800x480_S480x384_S800x384_1_0_0_1_n_n.contr.Idx) :
    (dot_S800x480_S480x384_S800x384_1_0_0_1_n_n.rhsIdx i q 0).val = (q ⟨0, by decide⟩).val :=
  dot_S800x480_S480x384_S800x384_1_0_0_1_n_n.rhsIdx_val_of_single rfl i q
theorem rhs480_1 (i : S800x384.Idx) (q : dot_S800x480_S480x384_S800x384_1_0_0_1_n_n.contr.Idx) :
    (dot_S800x480_S480x384_S800x384_1_0_0_1_n_n.rhsIdx i q 1).val = (i 1).val := by
  unfold DotDims.rhsIdx
  rw [dif_neg (show ¬(1 : Fin S480x384.rank) ∈ dot_S800x480_S480x384_S800x384_1_0_0_1_n_n.rhsBatch by decide),
    dif_pos (show (1 : Fin S480x384.rank) ∈ dot_S800x480_S480x384_S800x384_1_0_0_1_n_n.rhsNonContracting by decide)]
  rfl

/-- The product into a zero accumulator at (r, j) is the sum over the one contracted coordinate. -/
theorem matmul480_apply (x : FVec Ideal S800x480 .bf16) (w : FVec Ideal S480x384 .bf16) (r : Fin 800) (j : Fin 384) :
    matmul dot_S800x480_S480x384_S800x384_1_0_0_1_n_n none x w (constant (F := Ideal) S800x384 .f32 0x00000000#32) (ix2 r j)
      = ∑ k : Fin 480, x (ix2 r k) * w (ix2 k j) := by
  refine (Ideal.matmul_constant_zero_apply _ none x w (ix2 r j)).trans ?_
  rw [← Equiv.sum_comp (contrEquiv1 dot_S800x480_S480x384_S800x384_1_0_0_1_n_n 480 rfl rfl).symm]
  refine Finset.sum_congr rfl fun k _ => ?_
  have hk := contrEquiv1_symm_val dot_S800x480_S480x384_S800x384_1_0_0_1_n_n 480 rfl rfl k
  have el : dot_S800x480_S480x384_S800x384_1_0_0_1_n_n.lhsIdx (ix2 r j)
      ((contrEquiv1 dot_S800x480_S480x384_S800x384_1_0_0_1_n_n 480 rfl rfl).symm k) = ix2 r k :=
    funext fun a => Fin.ext (by
      match a with
      | ⟨0, _⟩ => exact lhs480_0 _ _
      | ⟨1, _⟩ => exact (lhs480_1 _ _).trans hk)
  have er : dot_S800x480_S480x384_S800x384_1_0_0_1_n_n.rhsIdx (ix2 r j)
      ((contrEquiv1 dot_S800x480_S480x384_S800x384_1_0_0_1_n_n 480 rfl rfl).symm k) = ix2 k j :=
    funext fun a => Fin.ext (by
      match a with
      | ⟨0, _⟩ => exact (rhs480_0 _ _).trans hk
      | ⟨1, _⟩ => exact rhs480_1 _ _)
  rw [el, er]

theorem lhs128_0 (i : S800x384.Idx) (q : dot_S800x128_S128x384_S800x384_1_0_0_1_n_n.contr.Idx) :
    (dot_S800x128_S128x384_S800x384_1_0_0_1_n_n.lhsIdx i q 0).val = (i 0).val := by
  unfold DotDims.lhsIdx
  rw [dif_neg (show ¬(0 : Fin S800x128.rank) ∈ dot_S800x128_S128x384_S800x384_1_0_0_1_n_n.lhsBatch by decide),
    dif_pos (show (0 : Fin S800x128.rank) ∈ dot_S800x128_S128x384_S800x384_1_0_0_1_n_n.lhsNonContracting by decide)]
  rfl
theorem lhs128_1 (i : S800x384.Idx) (q : dot_S800x128_S128x384_S800x384_1_0_0_1_n_n.contr.Idx) :
    (dot_S800x128_S128x384_S800x384_1_0_0_1_n_n.lhsIdx i q 1).val = (q ⟨0, by decide⟩).val :=
  dot_S800x128_S128x384_S800x384_1_0_0_1_n_n.lhsIdx_val_of_single rfl i q
theorem rhs128_0 (i : S800x384.Idx) (q : dot_S800x128_S128x384_S800x384_1_0_0_1_n_n.contr.Idx) :
    (dot_S800x128_S128x384_S800x384_1_0_0_1_n_n.rhsIdx i q 0).val = (q ⟨0, by decide⟩).val :=
  dot_S800x128_S128x384_S800x384_1_0_0_1_n_n.rhsIdx_val_of_single rfl i q
theorem rhs128_1 (i : S800x384.Idx) (q : dot_S800x128_S128x384_S800x384_1_0_0_1_n_n.contr.Idx) :
    (dot_S800x128_S128x384_S800x384_1_0_0_1_n_n.rhsIdx i q 1).val = (i 1).val := by
  unfold DotDims.rhsIdx
  rw [dif_neg (show ¬(1 : Fin S128x384.rank) ∈ dot_S800x128_S128x384_S800x384_1_0_0_1_n_n.rhsBatch by decide),
    dif_pos (show (1 : Fin S128x384.rank) ∈ dot_S800x128_S128x384_S800x384_1_0_0_1_n_n.rhsNonContracting by decide)]
  rfl

/-- The product into a zero accumulator at (r, j) is the sum over the one contracted coordinate. -/
theorem matmul128_apply (x : FVec Ideal S800x128 .bf16) (w : FVec Ideal S128x384 .bf16) (r : Fin 800) (j : Fin 384) :
    matmul dot_S800x128_S128x384_S800x384_1_0_0_1_n_n none x w (constant (F := Ideal) S800x384 .f32 0x00000000#32) (ix2 r j)
      = ∑ k : Fin 128, x (ix2 r k) * w (ix2 k j) := by
  refine (Ideal.matmul_constant_zero_apply _ none x w (ix2 r j)).trans ?_
  rw [← Equiv.sum_comp (contrEquiv1 dot_S800x128_S128x384_S800x384_1_0_0_1_n_n 128 rfl rfl).symm]
  refine Finset.sum_congr rfl fun k _ => ?_
  have hk := contrEquiv1_symm_val dot_S800x128_S128x384_S800x384_1_0_0_1_n_n 128 rfl rfl k
  have el : dot_S800x128_S128x384_S800x384_1_0_0_1_n_n.lhsIdx (ix2 r j)
      ((contrEquiv1 dot_S800x128_S128x384_S800x384_1_0_0_1_n_n 128 rfl rfl).symm k) = ix2 r k :=
    funext fun a => Fin.ext (by
      match a with
      | ⟨0, _⟩ => exact lhs128_0 _ _
      | ⟨1, _⟩ => exact (lhs128_1 _ _).trans hk)
  have er : dot_S800x128_S128x384_S800x384_1_0_0_1_n_n.rhsIdx (ix2 r j)
      ((contrEquiv1 dot_S800x128_S128x384_S800x384_1_0_0_1_n_n 128 rfl rfl).symm k) = ix2 k j :=
    funext fun a => Fin.ext (by
      match a with
      | ⟨0, _⟩ => exact (rhs128_0 _ _).trans hk
      | ⟨1, _⟩ => exact rhs128_1 _ _)
  rw [el, er]

/-! ## The elementwise transcendentals at an index -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## The two pre-activation arrays at an index -/

/-- gi at (r, c): the product plus the broadcast bias row. -/
theorem gi_apply (v2 : FVec Ideal S800x480 .bf16) (v4 : FVec Ideal S480x384 .f32) (v8 : FVec Ideal S1x384 .f32) (r : Fin 800) (c : Fin 384) :
    addf (matmul dot_S800x480_S480x384_S800x384_1_0_0_1_n_n none v2 (truncf .bf16 v4 bitsLt_bf16_f32) (constant (F := Ideal) S800x384 .f32 0x00000000#32))
      (broadcastTo S800x384 v8 broadcasts_S1x384_S800x384) (ix2 r c) = gi v2 v4 v8 r c := by
  unfold gi
  refine (addf_apply _ _ _).trans ?_
  rw [matmul480_apply, broadcastTo_1b_ab_apply]
  rfl

/-- gh at (r, c). -/
theorem gh_apply (v0 : FVec Ideal S800x128 .f32) (v13 : FVec Ideal S128x384 .f32) (v17 : FVec Ideal S1x384 .f32) (r : Fin 800) (c : Fin 384) :
    addf (matmul dot_S800x128_S128x384_S800x384_1_0_0_1_n_n none (truncf .bf16 v0 bitsLt_bf16_f32) (truncf .bf16 v13 bitsLt_bf16_f32) (constant (F := Ideal) S800x384 .f32 0x00000000#32))
      (broadcastTo S800x384 v17 broadcasts_S1x384_S800x384) (ix2 r c) = gh v0 v13 v17 r c := by
  unfold gh
  refine (addf_apply _ _ _).trans ?_
  rw [matmul128_apply, broadcastTo_1b_ab_apply]
  rfl

/-! ## The payload -/

/-- The new state at (r, j): the GRU update of the six pre-activations at columns j, 128 + j, 256 + j and the old
    state at (r, j). -/
theorem pay1_apply (v0 : Vec Ideal S800x128 .f32) (v2 : Vec Ideal S800x480 .bf16) (v4 : Vec Ideal S480x384 .f32)
    (v8 : Vec Ideal S1x384 .f32) (v13 : Vec Ideal S128x384 .f32) (v17 : Vec Ideal S1x384 .f32) (r : Fin 800) (j : Fin 128) :
    k0_pay1 (F := Ideal) v0 v2 v4 v8 v13 v17 (ix2 r j)
      = Cert.Spec.gru (Ideal.ofBits .f32 0x3F800000#32)
          (gi v2 v4 v8 r ⟨j.val, by omega⟩) (gh v0 v13 v17 r ⟨j.val, by omega⟩)
          (gi v2 v4 v8 r ⟨128 + j.val, by omega⟩) (gh v0 v13 v17 r ⟨128 + j.val, by omega⟩)
          (gi v2 v4 v8 r ⟨256 + j.val, by omega⟩) (gh v0 v13 v17 r ⟨256 + j.val, by omega⟩)
          (v0 (ix2 r j)) := by
  unfold k0_pay1 Cert.Spec.gru
  simp only [shapeCast_self]
  simp only [addf_apply, mulf_apply, subf_apply, broadcast_apply, logistic_apply, tanh_apply]
  rw [slice2_axis1_apply 0 _ slices_S800x384_o0_0_S800x128 r j ⟨j.val, by omega⟩ (Nat.zero_add _).symm,
    slice2_axis1_apply 0 _ slices_S800x384_o0_0_S800x128 r j ⟨j.val, by omega⟩ (Nat.zero_add _).symm,
    slice2_axis1_apply 128 _ slices_S800x384_o0_128_S800x128 r j ⟨128 + j.val, by omega⟩ rfl,
    slice2_axis1_apply 128 _ slices_S800x384_o0_128_S800x128 r j ⟨128 + j.val, by omega⟩ rfl,
    slice2_axis1_apply 256 _ slices_S800x384_o0_256_S800x128 r j ⟨256 + j.val, by omega⟩ rfl,
    slice2_axis1_apply 256 _ slices_S800x384_o0_256_S800x128 r j ⟨256 + j.val, by omega⟩ rfl]
  simp only [gi_apply, gh_apply]
  rfl

end Cert.KernelIdeal.BodyValue

end
-- ==== Proof.BodyValueInv.lean ====
/-
  The inventory half of the kernel body read at an index, at the ideal values (extended reals, every operation exact;
  a format change and a same-shape cast are the identity).  `consumed = supplied · att` is one matrix product into a
  zero accumulator, so at (r, j) it is the sum over k of supplied (r, k) · att (k, j); the new inventory at (r, j) is the
  old one minus that sum.
-/
import proofs.«115542_j63840393888431_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen

/-- The consumed amount at row `r`, column `j`: the product of the supplied block's row `r` with column `j` of the
    attention matrix. -/
def cons (v39 : Vec Ideal S800x512 .f32) (v42 : Vec Ideal S512x512 .f32) (r : Fin 800) (j : Fin 512) : EReal :=
  ∑ k : Fin 512, v39 (ix2 r k) * v42 (ix2 k j)

/-! ## The [800,512] × [512,512] product into a zero accumulator, at an index -/

theorem lhs512_0 (i : S800x512.Idx) (q : dot_S800x512_S512x512_S800x512_1_0_0_1_n_n.contr.Idx) :
    (dot_S800x512_S512x512_S800x512_1_0_0_1_n_n.lhsIdx i q 0).val = (i 0).val := by
  unfold DotDims.lhsIdx
  rw [dif_neg (show ¬(0 : Fin S800x512.rank) ∈ dot_S800x512_S512x512_S800x512_1_0_0_1_n_n.lhsBatch by decide),
    dif_pos (show (0 : Fin S800x512.rank) ∈ dot_S800x512_S512x512_S800x512_1_0_0_1_n_n.lhsNonContracting by decide)]
  rfl
theorem lhs512_1 (i : S800x512.Idx) (q : dot_S800x512_S512x512_S800x512_1_0_0_1_n_n.contr.Idx) :
    (dot_S800x512_S512x512_S800x512_1_0_0_1_n_n.lhsIdx i q 1).val = (q ⟨0, by decide⟩).val :=
  dot_S800x512_S512x512_S800x512_1_0_0_1_n_n.lhsIdx_val_of_single rfl i q
theorem rhs512_0 (i : S800x512.Idx) (q : dot_S800x512_S512x512_S800x512_1_0_0_1_n_n.contr.Idx) :
    (dot_S800x512_S512x512_S800x512_1_0_0_1_n_n.rhsIdx i q 0).val = (q ⟨0, by decide⟩).val :=
  dot_S800x512_S512x512_S800x512_1_0_0_1_n_n.rhsIdx_val_of_single rfl i q
theorem rhs512_1 (i : S800x512.Idx) (q : dot_S800x512_S512x512_S800x512_1_0_0_1_n_n.contr.Idx) :
    (dot_S800x512_S512x512_S800x512_1_0_0_1_n_n.rhsIdx i q 1).val = (i 1).val := by
  unfold DotDims.rhsIdx
  rw [dif_neg (show ¬(1 : Fin S512x512.rank) ∈ dot_S800x512_S512x512_S800x512_1_0_0_1_n_n.rhsBatch by decide),
    dif_pos (show (1 : Fin S512x512.rank) ∈ dot_S800x512_S512x512_S800x512_1_0_0_1_n_n.rhsNonContracting by decide)]
  rfl

/-- The product at (r, j) is the sum over the one contracted coordinate. -/
theorem matmul512_apply (x : FVec Ideal S800x512 .bf16) (w : FVec Ideal S512x512 .bf16) (r : Fin 800) (j : Fin 512) :
    matmul dot_S800x512_S512x512_S800x512_1_0_0_1_n_n none x w (constant (F := Ideal) S800x512 .f32 0x00000000#32) (ix2 r j)
      = ∑ k : Fin 512, x (ix2 r k) * w (ix2 k j) := by
  refine (Ideal.matmul_constant_zero_apply _ none x w (ix2 r j)).trans ?_
  rw [← Equiv.sum_comp (contrEquiv1 dot_S800x512_S512x512_S800x512_1_0_0_1_n_n 512 rfl rfl).symm]
  refine Finset.sum_congr rfl fun k _ => ?_
  have hk := contrEquiv1_symm_val dot_S800x512_S512x512_S800x512_1_0_0_1_n_n 512 rfl rfl k
  have el : dot_S800x512_S512x512_S800x512_1_0_0_1_n_n.lhsIdx (ix2 r j)
      ((contrEquiv1 dot_S800x512_S512x512_S800x512_1_0_0_1_n_n 512 rfl rfl).symm k) = ix2 r k :=
    funext fun a => Fin.ext (by
      match a with
      | ⟨0, _⟩ => exact lhs512_0 _ _
      | ⟨1, _⟩ => exact (lhs512_1 _ _).trans hk)
  have er : dot_S800x512_S512x512_S800x512_1_0_0_1_n_n.rhsIdx (ix2 r j)
      ((contrEquiv1 dot_S800x512_S512x512_S800x512_1_0_0_1_n_n 512 rfl rfl).symm k) = ix2 k j :=
    funext fun a => Fin.ext (by
      match a with
      | ⟨0, _⟩ => exact (rhs512_0 _ _).trans hk
      | ⟨1, _⟩ => exact rhs512_1 _ _)
  rw [el, er]

/-! ## The two payloads -/

/-- `consumed` at (r, j). -/
theorem pay2_apply (v39 : Vec Ideal S800x512 .f32) (v42 : Vec Ideal S512x512 .f32) (r : Fin 800) (j : Fin 512) :
    k0_pay2 (F := Ideal) v39 v42 (ix2 r j) = cons v39 v42 r j := by
  unfold k0_pay2 cons
  simp only [shapeCast_self]
  exact matmul512_apply _ _ r j

/-- The new inventory at (r, j): the old one minus what was consumed. -/
theorem pay4_apply (v1 : Vec Ideal S800x512 .f32) (v39 : Vec Ideal S800x512 .f32) (v42 : Vec Ideal S512x512 .f32)
    (r : Fin 800) (j : Fin 512) :
    k0_pay4 (F := Ideal) v1 v39 v42 (ix2 r j) = v1 (ix2 r j) - cons v39 v42 r j := by
  unfold k0_pay4
  refine (subf_apply _ _ _).trans ?_
  rw [pay2_apply]

end Cert.KernelIdeal.BodyValue

end
-- ==== Proof.BodyValueLoss.lean ====
/-
  The loss tile of the kernel body read at an index, at the ideal values (extended reals, every operation exact).
  The body sums max(consumed − inventory, 0) and min(consumed, inventory) over the whole [800,512] block — along the
  lanes first, then, with the unit axis kept, down the rows — and writes the two totals into an otherwise zero (8,128)
  tile: the first at (0,0), the second at (0,1).
-/
import proofs.«115542_j63840393888431_2_alg».proof.Proof.Gen.KernelIdeal.Skeleton
import proofs.«115542_j63840393888431_2_alg».proof.Proof.BodyValueInv
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen

/-! ## The layout steps of a whole-block total, each at an index -/

section Layout
variable {α : Type}

/-- An `[a]` array cast to `[a, 1]` (the unit axis kept) reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The element a `vector.extract [0, 0]` of a [1,1] array takes is the one at (0, 0). -/
theorem extractAt_00 (x : S1x1.Idx → α) (h : ∀ a, (![0, 0] : Fin 2 → Nat) a < S1x1.size a) :
    extractAt ![0, 0] x h = x (ix2 (0 : Fin 1) (0 : Fin 1)) := by
  unfold extractAt
  exact congrArg x (funext fun a => by
    match a with
    | ⟨0, _⟩ => rfl
    | ⟨1, _⟩ => rfl)

end Layout

/-- A sum along the lanes of an [800,512] array, at row `r`. -/
theorem laneSum_apply (src : FVec Ideal S800x512 .f32) (h : S800x512.Reduces [1] S800) (hφ : FKind.Formats .f32)
    (hacc : (0x00000000#32 : BitVec 32) = 0x00000000#32) (r : Fin 800) :
    multiReduction (F := Ideal) .add [1] S800 src 0x00000000#32 h hφ hacc (ix1 r) = ∑ c : Fin 512, src (ix2 r c) := by
  refine (Ideal.multiReduction_add_single src 0x00000000#32 h hφ hacc (ix1 r)).trans ?_
  exact Finset.sum_congr rfl fun c _ => congrArg src (funext fun a => Fin.ext (by
    match a with
    | ⟨0, _⟩ => rfl
    | ⟨1, _⟩ => rfl))

/-- A sum down the rows of an [800,1] array, at its one column. -/
theorem colSum_apply (src : FVec Ideal S800x1 .f32) (h : S800x1.Reduces [0] S1) (hφ : FKind.Formats .f32)
    (hacc : (0x00000000#32 : BitVec 32) = 0x00000000#32) (u : Fin 1) :
    multiReduction (F := Ideal) .add [0] S1 src 0x00000000#32 h hφ hacc (ix1 u) = ∑ r : Fin 800, src (ix2 r u) := by
  refine (Ideal.multiReduction_add_single src 0x00000000#32 h hφ hacc (ix1 u)).trans ?_
  exact Finset.sum_congr rfl fun r _ => congrArg src (funext fun a => Fin.ext (by
    match a with
    | ⟨0, _⟩ => rfl
    | ⟨1, _⟩ => rfl))

/-- The whole chain — lane sums, the unit axis kept, the sum down the rows, the cast to [1,1] and the extraction of
    its one element — is the double sum over the block. -/
theorem total_apply (src : FVec Ideal S800x512 .f32) :
    extractAt ![0, 0] (shapeCast S1x1 (multiReduction (F := Ideal) .add [0] S1
        (shapeCast S800x1 (multiReduction (F := Ideal) .add [1] S800 src 0x00000000#32 reduces_S800x512_S800 (.inl rfl) rfl)
          shapeCasts_S800_S800x1) 0x00000000#32 reduces_S800x1_S1 (.inl rfl) rfl) shapeCasts_S1_S1x1) inpos_S1x1_p0_0
      = ∑ r : Fin 800, ∑ c : Fin 512, src (ix2 r c) := by
  refine (extractAt_00 _ _).trans ?_
  refine (shapeCast_a_1a_apply _ _ (0 : Fin 1) (0 : Fin 1)).trans ?_
  refine (colSum_apply _ _ _ _ (0 : Fin 1)).trans ?_
  refine Finset.sum_congr rfl fun r _ => ?_
  refine (shapeCast_a_a1_apply _ _ r (0 : Fin 1)).trans ?_
  exact laneSum_apply _ _ _ _ r

/-! ## The tile's two conditions -/

/-- Comparing two 32-bit words of small naturals for equality compares the naturals. -/
theorem cmpi_eq_ofNat (n m : Nat) (hn : n < 2 ^ 32) (hm : m < 2 ^ 32) :
    IntOp.cmpi .eq (BitVec.ofNat 32 n) (BitVec.ofNat 32 m) = if n = m then 1#1 else 0#1 := by
  unfold IntOp.cmpi
  by_cases h : n = m
  · subst h; simp
  · have hne : BitVec.ofNat 32 n ≠ BitVec.ofNat 32 m := fun e => h (by
      have := congrArg BitVec.toNat e
      rw [BitVec.toNat_ofNat, BitVec.toNat_ofNat, Nat.mod_eq_of_lt hn, Nat.mod_eq_of_lt hm] at this
      exact this)
    rw [beq_eq_false_iff_ne.mpr hne, if_neg h]
    rfl

/-- A select on "row coordinate is 0 and column coordinate is c" is the `if` on the two coordinates. -/
theorem select_and_eq {β : Type} (a b c : Nat) (ha : a < 2 ^ 32) (hb : b < 2 ^ 32) (hc : c < 2 ^ 32) (X Y : β) :
    Scalar.select (IntOp.andi (IntOp.cmpi .eq (BitVec.ofNat 32 a) 0#32) (IntOp.cmpi .eq (BitVec.ofNat 32 b) (BitVec.ofNat 32 c))) X Y
      = if a = 0 ∧ b = c then X else Y := by
  rw [cmpi_eq_ofNat a 0 ha (by decide), cmpi_eq_ofNat b c hb hc]
  by_cases h1 : a = 0 <;> by_cases h2 : b = c <;> simp [h1, h2, Scalar.select, IntOp.andi]

/-- The (8,128) tile: `Y` at (0,1), `X` at (0,0), `Z` elsewhere. -/
theorem tile_apply {β : Type} (X Y Z : β) (a : Fin 8) (b : Fin 128) :
    select (andi (cmpi .eq (iota .tc S8x128 32 [0] iota_S8x128_d0_w32) (broadcast S8x128 0#32))
                 (cmpi .eq (iota .tc S8x128 32 [1] iota_S8x128_d1_w32) (broadcast S8x128 1#32)))
        (broadcast S8x128 Y)
        (select (andi (cmpi .eq (iota .tc S8x128 32 [0] iota_S8x128_d0_w32) (broadcast S8x128 0#32))
                      (cmpi .eq (iota .tc S8x128 32 [1] iota_S8x128_d1_w32) (broadcast S8x128 0#32)))
          (broadcast S8x128 X) (broadcast S8x128 Z)) (ix2 a b)
      = if a.val = 0 ∧ b.val = 1 then Y else if a.val = 0 ∧ b.val = 0 then X else Z := by
  have e0 : iota .tc S8x128 32 [0] iota_S8x128_d0_w32 (ix2 a b) = BitVec.ofNat 32 a.val :=
    iota_single_apply .tc S8x128 32 0 _ (ix2 a b)
  have e1 : iota .tc S8x128 32 [1] iota_S8x128_d1_w32 (ix2 a b) = BitVec.ofNat 32 b.val :=
    iota_single_apply .tc S8x128 32 1 _ (ix2 a b)
  show Scalar.select (IntOp.andi (IntOp.cmpi .eq (iota .tc S8x128 32 [0] iota_S8x128_d0_w32 (ix2 a b)) 0#32)
          (IntOp.cmpi .eq (iota .tc S8x128 32 [1] iota_S8x128_d1_w32 (ix2 a b)) 1#32)) Y
        (Scalar.select (IntOp.andi (IntOp.cmpi .eq (iota .tc S8x128 32 [0] iota_S8x128_d0_w32 (ix2 a b)) 0#32)
          (IntOp.cmpi .eq (iota .tc S8x128 32 [1] iota_S8x128_d1_w32 (ix2 a b)) 0#32)) X Z) = _
  rw [e0, e1]
  rw [select_and_eq a.val b.val 1 (by omega) (by omega) (by decide), select_and_eq a.val b.val 0 (by omega) (by omega) (by decide)]

/-! ## The payload -/

/-- The loss tile at (a, b). -/
theorem pay3_apply (v1 : Vec Ideal S800x512 .f32) (v39 : Vec Ideal S800x512 .f32) (v42 : Vec Ideal S512x512 .f32)
    (a : Fin 8) (b : Fin 128) :
    k0_pay3 (F := Ideal) v1 v39 v42 (ix2 a b)
      = if a.val = 0 ∧ b.val = 1 then ∑ r : Fin 800, ∑ j : Fin 512, min (cons v39 v42 r j) (v1 (ix2 r j))
        else if a.val = 0 ∧ b.val = 0 then ∑ r : Fin 800, ∑ j : Fin 512, max (cons v39 v42 r j - v1 (ix2 r j)) 0
        else 0 := by
  unfold k0_pay3
  refine (tile_apply _ _ _ a b).trans ?_
  rw [total_apply, total_apply]
  simp only [minimumf_apply, maximumf_apply, subf_apply, broadcast_apply, pay2_apply, Ideal.ofBits_def, Ideal.ofBits_zero_f32]

end Cert.KernelIdeal.BodyValue

end
-- ==== Proof.BodyValue.lean ====
/-
  The kernel body's four payloads read at an index, at the ideal values: the recurrent update (BodyValueGru), the
  consumed amount and the new inventory (BodyValueInv), and the loss tile (BodyValueLoss), gathered under one import.
-/
import proofs.«115542_j63840393888431_2_alg».proof.Proof.BodyValueGru
import proofs.«115542_j63840393888431_2_alg».proof.Proof.BodyValueInv
import proofs.«115542_j63840393888431_2_alg».proof.Proof.BodyValueLoss
-- ==== Proof.KSpec.lean ====
/-
  What the region leaves in its two output arrays, as whole-array functions of the eight arrays its windows stage.

  The memory bank `a0 : [100000, 640]` holds a 128-wide state and a 512-wide inventory per node; `a1 : [100000, 480]` is the
  mean message per node, `a2 : [100000, 512]` the supplied amounts, `a3 : [480, 384]`, `a4 : [128, 384]` the two transposed GRU
  weight matrices, `a5, a6 : [1, 384]` their biases, `a7 : [512, 512]` the attention matrix.

  * The new memory bank (`newMem`): in the state columns `c < 128` the GRU cell's new state, from the gate pre-activations
    `gI n j = ∑ₖ a1[n,k]·a3[k,j] + a5[0,j]` and `gH n j = ∑ₖ a0[n,k]·a4[k,j] + a6[0,j]` (`k` over the 128 state columns) at the
    columns `c`, `128 + c`, `256 + c`; in the inventory columns `c ≥ 128` the old inventory less what was consumed,
    `a0[n,c] − ∑ₖ a2[n,k]·a7[k,c−128]`.
  * The loss partials (`partials : [1000, 128]`): one 8 × 128 tile per block of 800 nodes; the tile's entry (0,0) is the
    block's sum of `max(consumed − inventory, 0)`, its entry (0,1) the block's sum of `min(consumed, inventory)`, every
    other entry zero.
-/
import proofs.«115542_j63840393888431_2_alg».proof.Proof.Spec
import Idealize.ShloMosaic.Lib.ValueIdx

noncomputable section

namespace Cert.KSpec

open Idealize.ShloMosaic Idealize.ShloMosaic.ValueIdx

abbrev A640 : Shape := ⟨2, ![100000, 640]⟩
abbrev A480 : Shape := ⟨2, ![100000, 480]⟩
abbrev A512 : Shape := ⟨2, ![100000, 512]⟩
abbrev W480 : Shape := ⟨2, ![480, 384]⟩
abbrev W128 : Shape := ⟨2, ![128, 384]⟩
abbrev B384 : Shape := ⟨2, ![1, 384]⟩
abbrev T512 : Shape := ⟨2, ![512, 512]⟩
abbrev P128 : Shape := ⟨2, ![1000, 128]⟩

/-- The input-side gate pre-activation of node `n` at gate column `j`. -/
def gI (a1 : A480.Idx → EReal) (a3 : W480.Idx → EReal) (a5 : B384.Idx → EReal) (n : Fin 100000) (j : Fin 384) : EReal :=
  (∑ k : Fin 480, a1 (ix2 n k) * a3 (ix2 k j)) + a5 (ix2 (0 : Fin 1) j)

/-- The hidden-side gate pre-activation of node `n` at gate column `j`: the node's state row against the weights. -/
def gH (a0 : A640.Idx → EReal) (a4 : W128.Idx → EReal) (a6 : B384.Idx → EReal) (n : Fin 100000) (j : Fin 384) : EReal :=
  (∑ k : Fin 128, a0 (ix2 n ⟨k.val, by have := k.isLt; omega⟩) * a4 (ix2 k j)) + a6 (ix2 (0 : Fin 1) j)

/-- What node `n` consumes of product `j`: its supplied row against the attention matrix's column. -/
def cons (a2 : A512.Idx → EReal) (a7 : T512.Idx → EReal) (n : Fin 100000) (j : Fin 512) : EReal :=
  ∑ k : Fin 512, a2 (ix2 n k) * a7 (ix2 k j)

/-- The inventory entry of node `n`, product `j`: column `128 + j` of the memory bank. -/
def inv (a0 : A640.Idx → EReal) (n : Fin 100000) (j : Fin 512) : EReal :=
  a0 (ix2 n ⟨128 + j.val, by have := j.isLt; omega⟩)

/-- The new memory bank, entry by entry. -/
def newMem (one : EReal) (a0 : A640.Idx → EReal) (a1 : A480.Idx → EReal) (a2 : A512.Idx → EReal) (a3 : W480.Idx → EReal)
    (a4 : W128.Idx → EReal) (a5 a6 : B384.Idx → EReal) (a7 : T512.Idx → EReal) (n : Fin 100000) (c : Fin 640) : EReal :=
  if h : c.val < 128 then
    Cert.Spec.gru one
      (gI a1 a3 a5 n ⟨c.val, by omega⟩) (gH a0 a4 a6 n ⟨c.val, by omega⟩)
      (gI a1 a3 a5 n ⟨128 + c.val, by omega⟩) (gH a0 a4 a6 n ⟨128 + c.val, by omega⟩)
      (gI a1 a3 a5 n ⟨256 + c.val, by omega⟩) (gH a0 a4 a6 n ⟨256 + c.val, by omega⟩)
      (a0 (ix2 n c))
  else
    a0 (ix2 n c) - cons a2 a7 n ⟨c.val - 128, by have := c.isLt; omega⟩

/-- The loss partials, entry by entry: row `q` of the [1000, 128] array is row `q % 8` of the tile of block `q / 8`. -/
def partials (a0 : A640.Idx → EReal) (a2 : A512.Idx → EReal) (a7 : T512.Idx → EReal) (q : Fin 1000) (b : Fin 128) : EReal :=
  if q.val % 8 = 0 ∧ b.val = 1 then
    ∑ r : Fin 800, ∑ j : Fin 512,
      min (cons a2 a7 ⟨800 * (q.val / 8) + r.val, by have := q.isLt; have := r.isLt; omega⟩ j)
          (inv a0 ⟨800 * (q.val / 8) + r.val, by have := q.isLt; have := r.isLt; omega⟩ j)
  else if q.val % 8 = 0 ∧ b.val = 0 then
    ∑ r : Fin 800, ∑ j : Fin 512,
      max (cons a2 a7 ⟨800 * (q.val / 8) + r.val, by have := q.isLt; have := r.isLt; omega⟩ j
            - inv a0 ⟨800 * (q.val / 8) + r.val, by have := q.isLt; have := r.isLt; omega⟩ j) 0
  else 0

end Cert.KSpec

end
-- ==== Proof.KValue8.lean ====
/-
  The region's first output array, the new memory bank, as one function of the arrays the region finds.

  At grid point `t` the body holds rows 800·t … 800·t + 799 of the memory bank, of the mean messages and of the supplied amounts,
  and the whole weight, bias and attention arrays; it stores the GRU cell's new state into the 128 state columns of its block and
  the old inventory less the consumption into the 512 inventory columns. Both stores are column ranges of ONE function of the
  block index — block `t` of `G8`, the new memory bank `Cert.KSpec.newMem` of the eight arrays (`piece_lo`, `piece_hi`, `blk8`):
  a block entry is the array entry 800·t rows further down, a matrix product's row is the node's row, the weights are read
  whole. The 125 blocks tile the array (`cover8`), so after the region the array is `G8` (`final8`).
-/
import proofs.«115542_j63840393888431_2_alg».proof.Proof.KIndex
import proofs.«115542_j63840393888431_2_alg».proof.Proof.BodyValue
import proofs.«115542_j63840393888431_2_alg».proof.Proof.KSpec

set_option maxRecDepth 16384

noncomputable section

namespace Cert.KernelIdeal.KValue

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat Cfg Window)
open Idealize.ShloMosaic.Rounds

variable (m : (ℓ : Loc nD τ sig) → Buf (Elt Ideal) ℓ)

/-- Two zero offsets, however spelt. -/
theorem hz : (![0, 0] : Fin 2 → Nat) = fun _ => 0 := funext fun a => by fin_cases a <;> rfl

/-- The eight arrays the windows stage, as the region finds them. -/
abbrev a0 (c : Dev nD) : S100000x640.Idx → EReal := V m c main_arg0
abbrev a1 (c : Dev nD) : S100000x480.Idx → EReal := V m c main_v108
abbrev a2 (c : Dev nD) : S100000x512.Idx → EReal := V m c main_v143
abbrev a3 (c : Dev nD) : S480x384.Idx → EReal := V m c main_v149
abbrev a4 (c : Dev nD) : S128x384.Idx → EReal := V m c main_v150
abbrev a5 (c : Dev nD) : S1x384.Idx → EReal := V m c main_v151
abbrev a6 (c : Dev nD) : S1x384.Idx → EReal := V m c main_v152
abbrev a7 (c : Dev nD) : S512x512.Idx → EReal := V m c main_v148

/-- The new memory bank as a function of the array index. -/
def G8 (c : Dev nD) : S100000x640.Idx → EReal := fun i =>
  Cert.KSpec.newMem (Ideal.ofBits .f32 0x3F800000#32) (a0 m c) (a1 m c) (a2 m c) (a3 m c) (a4 m c) (a5 m c) (a6 m c) (a7 m c)
    ⟨(i 0).val, (i 0).isLt⟩ ⟨(i 1).val, (i 1).isLt⟩

/-- Block `t` of it, as a function of the block index. -/
def G8blk (c : Dev nD) (t : Fin cfg0.N) : S800x640.Idx → EReal := fun y =>
  Cert.KSpec.newMem (Ideal.ofBits .f32 0x3F800000#32) (a0 m c) (a1 m c) (a2 m c) (a3 m c) (a4 m c) (a5 m c) (a6 m c) (a7 m c)
    ⟨800 * t.val + (y 0).val, by have := t_lt t; have h : (y 0).val < 800 := (y 0).isLt; omega⟩ ⟨(y 1).val, (y 1).isLt⟩

/-- The consumption of a block row is the consumption of its node. -/
theorem cons_blk (c : Dev nD) (t : Fin cfg0.N) (r : Fin 800) (j : Fin 512) :
    BodyValue.cons (iblk m c 2 t) (iblk m c 7 t) r j
      = Cert.KSpec.cons (a2 m c) (a7 m c) ⟨800 * t.val + r.val, by have := t_lt t; have := r.isLt; omega⟩ j := by
  unfold BodyValue.cons Cert.KSpec.cons
  refine Finset.sum_congr rfl fun k _ => ?_
  rw [iblk2_apply, iblk7_apply]

/-- In an inventory column the new memory bank is the old entry less the node's consumption of that product. -/
theorem newMem_hi (one : EReal) (b0 : Cert.KSpec.A640.Idx → EReal) (b1 : Cert.KSpec.A480.Idx → EReal) (b2 : Cert.KSpec.A512.Idx → EReal)
    (b3 : Cert.KSpec.W480.Idx → EReal) (b4 : Cert.KSpec.W128.Idx → EReal) (b5 b6 : Cert.KSpec.B384.Idx → EReal) (b7 : Cert.KSpec.T512.Idx → EReal)
    (n : Fin 100000) (cc : Fin 640) (j : Fin 512) (hc : cc.val = 128 + j.val) :
    Cert.KSpec.newMem one b0 b1 b2 b3 b4 b5 b6 b7 n cc = b0 (ix2 n cc) - Cert.KSpec.cons b2 b7 n j := by
  unfold Cert.KSpec.newMem
  rw [dif_neg (by omega)]
  have : (⟨cc.val - 128, by have := cc.isLt; omega⟩ : Fin 512) = j := Fin.ext (by show cc.val - 128 = j.val; omega)
  rw [this]

/-- The body's second store, read at a block index of the inventory columns, is the new memory bank there. -/
theorem piece_hi (c : Dev nD) (t : Fin cfg0.N) (x : r0_1.shape.Idx) :
    k0_pay4 (F := Ideal) (View.ld (iblk m c 0 t) r0_1) (View.ld (iblk m c 2 t) r0_6) (View.ld (iblk m c 7 t) r0_7) x
      = G8blk m c t (r0_1.emb x) := by
  obtain ⟨r, j, rfl⟩ : ∃ (r : Fin 800) (j : Fin 512), x = ix2 r j := ⟨x 0, x 1, eq_ix2 x⟩
  have e0 : ((r0_1.emb (ix2 r j)) 0).val = r.val := by show 0 + 1 * r.val = r.val; omega
  have e1 : ((r0_1.emb (ix2 r j)) 1).val = 128 + j.val := by show 128 + 1 * j.val = 128 + j.val; omega
  rw [BodyValue.pay4_apply]
  simp only [View.ld_unit_zero (S := S800x512) hz, View.ld_unit_zero (S := S512x512) hz]
  rw [cons_blk]
  have hi : r0_1.idx (ix2 r j) = ix2 r (⟨128 + j.val, by have := j.isLt; omega⟩ : Fin 640) := by
    funext a; apply Fin.ext
    match a with
    | ⟨0, _⟩ => show 0 + 1 * r.val = r.val; omega
    | ⟨1, _⟩ => show 128 + 1 * j.val = 128 + j.val; omega
  have h1 : View.ld (iblk m c 0 t) r0_1 (ix2 r j)
      = a0 m c (ix2 ⟨800 * t.val + r.val, by have := t_lt t; have := r.isLt; omega⟩ (⟨128 + j.val, by have := j.isLt; omega⟩ : Fin 640)) := by
    show iblk m c 0 t (r0_1.idx (ix2 r j)) = _
    rw [hi, iblk0_apply]
  rw [h1]
  unfold G8blk
  simp only [e0, e1]
  rw [newMem_hi _ _ _ _ _ _ _ _ _ _ _ j rfl]

/-- In a state column the new memory bank is the GRU cell of the node's gate pre-activations and its old state. -/
theorem newMem_lo (one : EReal) (b0 : Cert.KSpec.A640.Idx → EReal) (b1 : Cert.KSpec.A480.Idx → EReal) (b2 : Cert.KSpec.A512.Idx → EReal)
    (b3 : Cert.KSpec.W480.Idx → EReal) (b4 : Cert.KSpec.W128.Idx → EReal) (b5 b6 : Cert.KSpec.B384.Idx → EReal) (b7 : Cert.KSpec.T512.Idx → EReal)
    (n : Fin 100000) (cc : Fin 640) (j : Fin 128) (hc : cc.val = j.val) :
    Cert.KSpec.newMem one b0 b1 b2 b3 b4 b5 b6 b7 n cc
      = Cert.Spec.gru one (Cert.KSpec.gI b1 b3 b5 n ⟨j.val, by omega⟩) (Cert.KSpec.gH b0 b4 b6 n ⟨j.val, by omega⟩)
          (Cert.KSpec.gI b1 b3 b5 n ⟨128 + j.val, by omega⟩) (Cert.KSpec.gH b0 b4 b6 n ⟨128 + j.val, by omega⟩)
          (Cert.KSpec.gI b1 b3 b5 n ⟨256 + j.val, by omega⟩) (Cert.KSpec.gH b0 b4 b6 n ⟨256 + j.val, by omega⟩)
          (b0 (ix2 n cc)) := by
  unfold Cert.KSpec.newMem
  rw [dif_pos (by omega)]
  simp only [hc]

/-- The input-side pre-activation of a block row is that of its node. -/
theorem gi_blk (c : Dev nD) (t : Fin cfg0.N) (r : Fin 800) (j : Fin 384) :
    BodyValue.gi (iblk m c 1 t) (iblk m c 3 t) (iblk m c 5 t) r j
      = Cert.KSpec.gI (a1 m c) (a3 m c) (a5 m c) ⟨800 * t.val + r.val, by have := t_lt t; have := r.isLt; omega⟩ j := by
  unfold BodyValue.gi Cert.KSpec.gI
  simp only [iblk1_apply, iblk3_apply, iblk5_apply]

/-- Where the state columns of the memory bank's block sit. -/
theorem r00_idx (r : Fin 800) (k : Fin 128) :
    r0_0.idx (ix2 r k) = ix2 r (⟨k.val, by have := k.isLt; omega⟩ : Fin 640) := by
  funext a; apply Fin.ext
  match a with
  | ⟨0, _⟩ => show 0 + 1 * r.val = r.val; omega
  | ⟨1, _⟩ => show 0 + 1 * k.val = k.val; omega

/-- The hidden-side pre-activation of a block row is that of its node. -/
theorem gh_blk (c : Dev nD) (t : Fin cfg0.N) (r : Fin 800) (j : Fin 384) :
    BodyValue.gh (View.ld (iblk m c 0 t) r0_0) (iblk m c 4 t) (iblk m c 6 t) r j
      = Cert.KSpec.gH (a0 m c) (a4 m c) (a6 m c) ⟨800 * t.val + r.val, by have := t_lt t; have := r.isLt; omega⟩ j := by
  unfold BodyValue.gh Cert.KSpec.gH
  have h0 : ∀ k : Fin 128, View.ld (iblk m c 0 t) r0_0 (ix2 r k)
      = a0 m c (ix2 ⟨800 * t.val + r.val, by have := t_lt t; have := r.isLt; omega⟩ (⟨k.val, by have := k.isLt; omega⟩ : Fin 640)) := fun k => by
    show iblk m c 0 t (r0_0.idx (ix2 r k)) = _
    rw [r00_idx, iblk0_apply]
  simp only [h0, iblk4_apply, iblk6_apply]

/-- The body's first store, read at a block index of the state columns, is the new memory bank there. -/
theorem piece_lo (c : Dev nD) (t : Fin cfg0.N) (x : r0_0.shape.Idx) :
    k0_pay1 (F := Ideal) (View.ld (iblk m c 0 t) r0_0) (View.ld (iblk m c 1 t) r0_2) (View.ld (iblk m c 3 t) r0_3)
        (View.ld (iblk m c 5 t) r0_4) (View.ld (iblk m c 4 t) r0_5) (View.ld (iblk m c 6 t) r0_4) x
      = G8blk m c t (r0_0.emb x) := by
  obtain ⟨r, j, rfl⟩ : ∃ (r : Fin 800) (j : Fin 128), x = ix2 r j := ⟨x 0, x 1, eq_ix2 x⟩
  have e0 : ((r0_0.emb (ix2 r j)) 0).val = r.val := by show 0 + 1 * r.val = r.val; omega
  have e1 : ((r0_0.emb (ix2 r j)) 1).val = j.val := by show 0 + 1 * j.val = j.val; omega
  rw [BodyValue.pay1_apply]
  simp only [View.ld_unit_zero (S := S800x480) hz, View.ld_unit_zero (S := S480x384) hz, View.ld_unit_zero (S := S1x384) hz,
    View.ld_unit_zero (S := S128x384) hz]
  simp only [gi_blk, gh_blk]
  have h1 : View.ld (iblk m c 0 t) r0_0 (ix2 r j)
      = a0 m c (ix2 ⟨800 * t.val + r.val, by have := t_lt t; have := r.isLt; omega⟩ (⟨j.val, by have := j.isLt; omega⟩ : Fin 640)) := by
    show iblk m c 0 t (r0_0.idx (ix2 r j)) = _
    rw [r00_idx, iblk0_apply]
  rw [h1]
  unfold G8blk
  simp only [e0, e1]
  rw [newMem_lo _ _ _ _ _ _ _ _ _ _ _ j rfl]

/-- THE BLOCK the body leaves in window 8's buffer at point `t` is block `t` of the new memory bank: its two stores are
    the two column ranges of one function of the block index. -/
theorem blk8 (c : Dev nD) (t : Fin cfg0.N) (y : S800x640.Idx) :
    out0_8 (iblk m c 0 t) (iblk m c 1 t) (iblk m c 2 t) (iblk m c 3 t) (iblk m c 4 t) (iblk m c 5 t) (iblk m c 6 t) (iblk m c 7 t) y
      = G8blk m c t y := by
  unfold out0_8
  refine View.canon_apply_of_pieces (Val := Elt Ideal) (e := .f32) (G8blk m c t) _ ?_ y (cover0_8 _ _ y)
  intro p hp x
  simp only [List.mem_cons, List.mem_nil_iff, or_false] at hp
  rcases hp with rfl | rfl
  · exact piece_hi m c t x
  · exact piece_lo m c t x

/-- WHAT POINT `t` WRITES BACK is block `t` of the new memory bank, for any proof data whose window-8 buffer after the body
    is the body's block of the point's input blocks. -/
theorem flushed8_eq (c : Dev nD) (dat : Dat τ (Elt Ideal) Unit ℕ (UR sig nD τ) ℕ cfg0 c)
    (h8 : ∀ t, dat.after 8 t = out0_8 (iblk m c 0 t) (iblk m c 1 t) (iblk m c 2 t) (iblk m c 3 t) (iblk m c 4 t) (iblk m c 5 t) (iblk m c 6 t) (iblk m c 7 t))
    (t : Fin cfg0.N) :
    dat.flushed 8 t = ((cfg0.win 8).blk t).view.read (Elt Ideal) (G8 m c) := by
  show (cfg0.win 8).cut (grid0.coords t) (dat.after 8 t) = _
  rw [h8]
  funext y
  show out0_8 (iblk m c 0 t) (iblk m c 1 t) (iblk m c 2 t) (iblk m c 3 t) (iblk m c 4 t) (iblk m c 5 t) (iblk m c 6 t) (iblk m c 7 t) y
    = G8 m c (((cfg0.win 8).blk t).view.emb y)
  rw [blk8]
  obtain ⟨-, -, -, -, -, -, -, -, ⟨f0, f1⟩, -⟩ := idx_facts t
  have e0 : ((((cfg0.win 8).blk t).view.emb y) 0).val = 800 * t.val + (y 0).val := by
    show win0_8.index t (0 : Fin 2) * 800 + 1 * (y 0).val = _; omega
  have e1 : ((((cfg0.win 8).blk t).view.emb y) 1).val = (y 1).val := by
    show win0_8.index t (1 : Fin 2) * 640 + 1 * (y 1).val = _; omega
  unfold G8blk G8
  simp only [e0, e1]

/-- An index of the array is in point `t`'s block iff each coordinate is in the block's range on its axis. -/
theorem mem_blk8 (t : Fin cfg0.N) (i : S100000x640.Idx) :
    i ∈ ((cfg0.win 8).blk t).view.set ↔ ∀ a : Fin 2, win0_8.index t a * S800x640.size a ≤ (i a).val ∧ (i a).val < win0_8.index t a * S800x640.size a + S800x640.size a := by
  show i ∈ ((View.whole main_v153_0).slice (win0_8.rect t)).set ↔ _
  rw [View.set_slice_whole, Rect.mem_set_unit]
  exact Iff.rfl

/-- Every row of the array lies in the block of the point numbered by the row's block of 800. -/
theorem cover8 (i : S100000x640.Idx) : ∃ t : Fin cfg0.N, (cfg0.win 8).flush t = true ∧ i ∈ ((cfg0.win 8).blk t).view.set := by
  have hi0 : (i 0).val < 100000 := (i 0).isLt
  have hi1 : (i 1).val < 640 := (i 1).isLt
  have hN : cfg0.N = 125 := N_0
  have ht : (i 0).val / 800 < cfg0.N := by omega
  refine ⟨⟨(i 0).val / 800, ht⟩, flush0_8 _, ?_⟩
  rw [mem_blk8]
  obtain ⟨-, -, -, -, -, -, -, -, ⟨f0, f1⟩, -⟩ := idx_facts ⟨(i 0).val / 800, ht⟩
  intro a
  match a with
  | ⟨0, _⟩ =>
    show win0_8.index ⟨(i 0).val / 800, ht⟩ (0 : Fin 2) * 800 ≤ (i 0).val ∧ (i 0).val < win0_8.index ⟨(i 0).val / 800, ht⟩ (0 : Fin 2) * 800 + 800
    have : win0_8.index ⟨(i 0).val / 800, ht⟩ (0 : Fin 2) = (i 0).val / 800 := f0
    omega
  | ⟨1, _⟩ =>
    show win0_8.index ⟨(i 0).val / 800, ht⟩ (1 : Fin 2) * 640 ≤ (i 1).val ∧ (i 1).val < win0_8.index ⟨(i 0).val / 800, ht⟩ (1 : Fin 2) * 640 + 640
    omega

/-- THE ARRAY after the region: the new memory bank, entry by entry. -/
theorem final8 (c : Dev nD) (dat : Dat τ (Elt Ideal) Unit ℕ (UR sig nD τ) ℕ cfg0 c)
    (h8 : ∀ t, dat.after 8 t = out0_8 (iblk m c 0 t) (iblk m c 1 t) (iblk m c 2 t) (iblk m c 3 t) (iblk m c 4 t) (iblk m c 5 t) (iblk m c 6 t) (iblk m c 7 t)) :
    dat.arrAt 8 cfg0.N = G8 m c :=
  dat.arrAt_eq_of_cover 8 (G8 m c) (fun t _ => flushed8_eq m c dat h8 t) cover8

end Cert.KernelIdeal.KValue

end
-- ==== Proof.KValue9.lean ====
/-
  The region's second output array, from blocks to the whole array.

  Window 9 of the pipeline is the [1000, 128] array of loss partials, cut into 125 blocks of 8 rows; grid point `t` holds block
  `t` and writes it back.  What the body leaves in the block is its loss tile of the point's input blocks: the two block sums
  of `min(consumed, inventory)` and `max(consumed − inventory, 0)` at (0, 1) and (0, 0), zero elsewhere.  The input blocks at
  point `t` are rows `800·t … 800·t + 799` of the memory bank and of the supplied amounts, and the whole attention matrix, so
  the tile at `(a, b)` is row `8·t + a`, column `b` of the partials of the arrays the region found (`(8·t + a) % 8 = a`,
  `(8·t + a) / 8 = t`).  Every row `q` of the array lies in the block of point `q / 8`, so the blocks cover the array and it
  ends holding those partials.
-/
import proofs.«115542_j63840393888431_2_alg».proof.Proof.KIndex
import proofs.«115542_j63840393888431_2_alg».proof.Proof.BodyValue
import proofs.«115542_j63840393888431_2_alg».proof.Proof.KSpec
import Idealize.ShloMosaic.Lib.Pipeline.Value
import Idealize.ShloMosaic.Lib.ValueIdx

set_option maxRecDepth 16384

noncomputable section

namespace Cert.KernelIdeal.KValue9

open Cert.KernelIdeal Cert.KernelIdeal.Gen Cert.KernelIdeal.Frm Cert.KernelIdeal.KValue
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The consumed amount of a block is the consumed amount of the arrays at the block's nodes. -/
theorem cons_blk (c : Dev nD) (t : Fin cfg0.N) (r : Fin 800) (j : Fin 512) :
    BodyValue.cons (View.ld (iblk m c 2 t) r0_6) (View.ld (iblk m c 7 t) r0_7) r j
      = Cert.KSpec.cons (V m c main_v143 : S100000x512.Idx → EReal) (V m c main_v148 : S512x512.Idx → EReal)
          ⟨800 * t.val + r.val, by have := t_lt t; have := r.isLt; omega⟩ j := by
  rw [View.ld_unit_zero (S := S800x512) hz, View.ld_unit_zero (S := S512x512) hz]
  unfold BodyValue.cons Cert.KSpec.cons
  refine Finset.sum_congr rfl fun k _ => ?_
  rw [iblk2_apply, iblk7_apply]

/-- The inventory columns of a block are the inventory of the array at the block's nodes. -/
theorem inv_blk (c : Dev nD) (t : Fin cfg0.N) (r : Fin 800) (j : Fin 512) :
    View.ld (iblk m c 0 t) r0_1 (ix2 r j)
      = Cert.KSpec.inv (V m c main_arg0 : S100000x640.Idx → EReal)
          ⟨800 * t.val + r.val, by have := t_lt t; have := r.isLt; omega⟩ j := by
  show iblk m c 0 t (r0_1.idx (ix2 r j)) = _
  have hidx : r0_1.idx (ix2 r j) = ix2 r (⟨128 + j.val, by have := j.isLt; omega⟩ : Fin 640) := by
    funext a; apply Fin.ext
    match a with
    | ⟨0, _⟩ => show 0 + 1 * r.val = r.val; omega
    | ⟨1, _⟩ => show 128 + 1 * j.val = 128 + j.val; omega
  rw [hidx, iblk0_apply]
  rfl

/-- Row `8·t + a` of the loss partials: only `a = 0` carries block `t`'s two sums, over the nodes `800·t + r`. -/
theorem partials_row (a0 : Cert.KSpec.A640.Idx → EReal) (a2 : Cert.KSpec.A512.Idx → EReal) (a7 : Cert.KSpec.T512.Idx → EReal)
    (t : Nat) (ht : t < 125) (a : Fin 8) (b : Fin 128) :
    Cert.KSpec.partials a0 a2 a7 ⟨8 * t + a.val, by have := a.isLt; omega⟩ b
      = if a.val = 0 ∧ b.val = 1 then
          ∑ r : Fin 800, ∑ j : Fin 512,
            min (Cert.KSpec.cons a2 a7 ⟨800 * t + r.val, by have := r.isLt; omega⟩ j)
                (Cert.KSpec.inv a0 ⟨800 * t + r.val, by have := r.isLt; omega⟩ j)
        else if a.val = 0 ∧ b.val = 0 then
          ∑ r : Fin 800, ∑ j : Fin 512,
            max (Cert.KSpec.cons a2 a7 ⟨800 * t + r.val, by have := r.isLt; omega⟩ j
                  - Cert.KSpec.inv a0 ⟨800 * t + r.val, by have := r.isLt; omega⟩ j) 0
        else 0 := by
  have ha := a.isLt
  have hm : (8 * t + a.val) % 8 = 0 ↔ a.val = 0 := by omega
  have hd : (8 * t + a.val) / 8 = t := by omega
  unfold Cert.KSpec.partials
  simp only [hm, hd]

/-- The loss tile the body leaves at point `t`, at `(a, b)`: row `8·t + a` of the partials of the arrays the region found. -/
theorem tile_apply (c : Dev nD) (t : Fin cfg0.N) (a : Fin 8) (b : Fin 128) :
    out0_9 (iblk m c 0 t) (iblk m c 1 t) (iblk m c 2 t) (iblk m c 3 t) (iblk m c 4 t) (iblk m c 5 t) (iblk m c 6 t)
        (iblk m c 7 t) (ix2 a b)
      = Cert.KSpec.partials (V m c main_arg0 : S100000x640.Idx → EReal) (V m c main_v143 : S100000x512.Idx → EReal)
          (V m c main_v148 : S512x512.Idx → EReal) ⟨8 * t.val + a.val, by have := t_lt t; have := a.isLt; omega⟩ b := by
  rw [partials_row _ _ _ t.val (t_lt t) a b]
  unfold out0_9
  rw [View.canon_unit_zero hz, BodyValue.pay3_apply]
  refine if_congr Iff.rfl ?_ (if_congr Iff.rfl ?_ rfl)
  · exact Finset.sum_congr rfl fun r _ => Finset.sum_congr rfl fun j _ =>
      congrArg₂ min (cons_blk m c t r j) (inv_blk m c t r j)
  · exact Finset.sum_congr rfl fun r _ => Finset.sum_congr rfl fun j _ =>
      congrArg (fun x => max x 0) (congrArg₂ (· - ·) (cons_blk m c t r j) (inv_blk m c t r j))

/-- What the window's array ends holding: the loss partials of the arrays the region found. -/
abbrev G9 (c : Dev nD) : S1000x128.Idx → EReal := fun i =>
  Cert.KSpec.partials (V m c main_arg0 : S100000x640.Idx → EReal) (V m c main_v143 : S100000x512.Idx → EReal)
    (V m c main_v148 : S512x512.Idx → EReal) ⟨(i 0).val, (i 0).isLt⟩ ⟨(i 1).val, (i 1).isLt⟩

/-- What point `t` writes back is block `t` of the partials, for any proof data whose window-9 buffer after the body is the
    body's tile of the point's input blocks. -/
theorem flushed9_eq (c : Dev nD) (dat : Dat τ (Elt Ideal) Unit ℕ (UR sig nD τ) ℕ cfg0 c)
    (h9 : ∀ t, dat.after 9 t = out0_9 (iblk m c 0 t) (iblk m c 1 t) (iblk m c 2 t) (iblk m c 3 t) (iblk m c 4 t)
      (iblk m c 5 t) (iblk m c 6 t) (iblk m c 7 t)) (t : Fin cfg0.N) :
    dat.flushed 9 t = ((cfg0.win 9).blk t).view.read (Elt Ideal) (G9 m c) := by
  show (cfg0.win 9).cut (grid0.coords t) (dat.after 9 t) = _
  rw [h9]
  funext y
  obtain ⟨-, -, -, -, -, -, -, -, -, ⟨e0, e1⟩⟩ := idx_facts t
  have hy : y = ix2 (n0 := 8) (n1 := 128) (y 0) (y 1) := eq_ix2 y
  rw [hy]
  generalize (y 0 : Fin 8) = a
  generalize (y 1 : Fin 128) = b
  refine (tile_apply m c t a b).trans ?_
  show _ = G9 m c (((cfg0.win 9).blk t).view.emb (ix2 a b))
  unfold G9
  congr 1
  · apply Fin.ext
    show 8 * t.val + a.val = win0_9.index t (0 : Fin 2) * 8 + 1 * a.val
    omega
  · apply Fin.ext
    show b.val = win0_9.index t (1 : Fin 2) * 128 + 1 * b.val
    omega

/-- An index of the array is in point `t`'s block iff each coordinate is in the block's range on its axis. -/
theorem mem_blk9 (t : Fin cfg0.N) (i : S1000x128.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v153_1).slice (win0_9.rect t)).set ↔ _
  rw [View.set_slice_whole, Rect.mem_set_unit]
  exact Iff.rfl

/-- Every row `q` of the array is in the block of the point `q / 8`, and every point writes back. -/
theorem cover9 (i : S1000x128.Idx) :
    ∃ t : Fin cfg0.N, (cfg0.win 9).flush t = true ∧ i ∈ ((cfg0.win 9).blk t).view.set := by
  have hi0 : (i 0).val < 1000 := (i 0).isLt
  have hi1 : (i 1).val < 128 := (i 1).isLt
  have hN : cfg0.N = 125 := N_0
  let t : Fin cfg0.N := ⟨(i 0).val / 8, by rw [hN]; omega⟩
  have htv : t.val = (i 0).val / 8 := rfl
  obtain ⟨-, -, -, -, -, -, -, -, -, ⟨e0, e1⟩⟩ := idx_facts t
  refine ⟨t, flush0_9 t, ?_⟩
  rw [mem_blk9]
  intro a
  match a with
  | ⟨0, _⟩ => show win0_9.index t (0 : Fin 2) * 8 ≤ (i 0).val ∧ (i 0).val < win0_9.index t (0 : Fin 2) * 8 + 8; omega
  | ⟨1, _⟩ => show win0_9.index t (1 : Fin 2) * 128 ≤ (i 1).val ∧ (i 1).val < win0_9.index t (1 : Fin 2) * 128 + 128; omega

/-- The array of window 9 after the region: the loss partials of the arrays the region found. -/
theorem final9 (c : Dev nD) (dat : Dat τ (Elt Ideal) Unit ℕ (UR sig nD τ) ℕ cfg0 c)
    (h9 : ∀ t, dat.after 9 t = out0_9 (iblk m c 0 t) (iblk m c 1 t) (iblk m c 2 t) (iblk m c 3 t) (iblk m c 4 t)
      (iblk m c 5 t) (iblk m c 6 t) (iblk m c 7 t)) :
    dat.arrAt 9 cfg0.N = (fun i => Cert.KSpec.partials (V m c main_arg0 : S100000x640.Idx → EReal)
      (V m c main_v143 : S100000x512.Idx → EReal) (V m c main_v148 : S512x512.Idx → EReal)
      ⟨(i 0).val, (i 0).isLt⟩ ⟨(i 1).val, (i 1).isLt⟩) :=
  dat.arrAt_eq_of_cover 9 (G9 m c) (fun t _ => flushed9_eq m c dat h9 t) cover9

end Cert.KernelIdeal.KValue9

end
-- ==== Proof.KHostMsg.lean ====
/-
  The three message arrays of the host operations before the region — for each event its source, destination and
  product states, its features, and a time encoding cos((t − last_update[node]) · w + b) of one of the three nodes —
  as composed terms of the argument arrays, and the buffers that hold them when the region is entered.
-/
import proofs.«115542_j63840393888431_2_alg».proof.Proof.KHost

noncomputable section

namespace Cert.KernelIdeal.KHost

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ)

/-! ## The terms -/

/-- A node-index array, wrapped, as the one-column index array a gather takes. -/
def colW (x : IVec S50000 32) : IVec S50000x1 32 :=
  broadcastInDim S50000x1 ![0] bcast_S50000_S50000x1_0 (wrap 100000#32 x)

/-- The time encoding of the events relative to the last update of node `x` of each event. -/
def timeEnc (x2 x3 : FVec Ideal S32 .f32) (x12 : IVec S50000 32) (x13 : IVec S100000 32) (x : IVec S50000 32) :
    FVec Ideal S50000x32 .f32 :=
  Host.cos
    (addf
      (mulf
        (broadcastInDim S50000x32 ![0, 1] bcast_S50000x1_S50000x32_0_1
          (broadcastInDim S50000x1 ![0] bcast_S50000_S50000x1_0
            (subf (sitofp .f32 x12 : FVec Ideal S50000 .f32)
              (Host.gather gather_S100000_S50000x1_S50000_n_0_n_n_0_1_1 (sitofp .f32 x13 : FVec Ideal S100000 .f32) (colW x)))))
        (broadcastInDim S50000x32 ![0, 1] bcast_S1x32_S50000x32_0_1 (broadcastInDim S1x32 ![1] bcast_S32_S1x32_1 x2)))
      (broadcastInDim S50000x32 ![0, 1] bcast_S1x32_S50000x32_0_1 (broadcastInDim S1x32 ![1] bcast_S32_S1x32_1 x3)))

/-- The part all three messages share: the three gathered states and the event features, side by side. -/
def feat (x0 : FVec Ideal S100000x640 .f32) (x1 : FVec Ideal S50000x64 .f32) (x9 x10 x11 : IVec S50000 32) :
    FVec Ideal S50000x448 .f32 :=
  concatenate S50000x448 1
    [⟨S50000x128, Host.gather gather_S100000x128_S50000x1_S50000x128_1_0_n_n_0_1_1128 (state0 x0) (colW x9)⟩,
      ⟨S50000x128, Host.gather gather_S100000x128_S50000x1_S50000x128_1_0_n_n_0_1_1128 (state0 x0) (colW x10)⟩,
      ⟨S50000x128, Host.gather gather_S100000x128_S50000x1_S50000x128_1_0_n_n_0_1_1128 (state0 x0) (colW x11)⟩,
      ⟨S50000x64, x1⟩]
    concatenates_S50000x128_S50000x128_S50000x128_S50000x64_S50000x448_d1

/-- A message array: the shared part and the time encoding relative to node `x`. -/
def msgOf (x0 : FVec Ideal S100000x640 .f32) (x1 : FVec Ideal S50000x64 .f32) (x2 x3 : FVec Ideal S32 .f32)
    (x9 x10 x11 x12 : IVec S50000 32) (x13 : IVec S100000 32) (x : IVec S50000 32) : FVec Ideal S50000x480 .f32 :=
  concatenate S50000x480 1 [⟨S50000x448, feat x0 x1 x9 x10 x11⟩, ⟨S50000x32, timeEnc x2 x3 x12 x13 x⟩]
    concatenates_S50000x448_S50000x32_S50000x480_d1

/-- The messages to the source nodes. -/
def msgS (x0 : FVec Ideal S100000x640 .f32) (x1 : FVec Ideal S50000x64 .f32) (x2 x3 : FVec Ideal S32 .f32)
    (x9 x10 x11 x12 : IVec S50000 32) (x13 : IVec S100000 32) : FVec Ideal S50000x480 .f32 :=
  msgOf x0 x1 x2 x3 x9 x10 x11 x12 x13 x9
/-- The messages to the destination nodes. -/
def msgD (x0 : FVec Ideal S100000x640 .f32) (x1 : FVec Ideal S50000x64 .f32) (x2 x3 : FVec Ideal S32 .f32)
    (x9 x10 x11 x12 : IVec S50000 32) (x13 : IVec S100000 32) : FVec Ideal S50000x480 .f32 :=
  msgOf x0 x1 x2 x3 x9 x10 x11 x12 x13 x10
/-- The messages to the product nodes. -/
def msgP (x0 : FVec Ideal S100000x640 .f32) (x1 : FVec Ideal S50000x64 .f32) (x2 x3 : FVec Ideal S32 .f32)
    (x9 x10 x11 x12 : IVec S50000 32) (x13 : IVec S100000 32) : FVec Ideal S50000x480 .f32 :=
  msgOf x0 x1 x2 x3 x9 x10 x11 x12 x13 x11

/-! ## The buffers at the region's entry -/

/-- The messages to the source nodes. -/
theorem V_main_v77 (c : Dev nD) :
    (V m c main_v77 : S50000x480.Idx → EReal)
      = msgS (m ((c : Thread nD τ).loc main_arg0)) (m ((c : Thread nD τ).loc main_arg1)) (m ((c : Thread nD τ).loc main_arg2))
          (m ((c : Thread nD τ).loc main_arg3)) (m ((c : Thread nD τ).loc main_arg9)) (m ((c : Thread nD τ).loc main_arg10))
          (m ((c : Thread nD τ).loc main_arg11)) (m ((c : Thread nD τ).loc main_arg12)) (m ((c : Thread nD τ).loc main_arg13)) := by
  open_stretches
  after_results_simp <;> rfl

/-- The messages to the destination nodes. -/
theorem V_main_v78 (c : Dev nD) :
    (V m c main_v78 : S50000x480.Idx → EReal)
      = msgD (m ((c : Thread nD τ).loc main_arg0)) (m ((c : Thread nD τ).loc main_arg1)) (m ((c : Thread nD τ).loc main_arg2))
          (m ((c : Thread nD τ).loc main_arg3)) (m ((c : Thread nD τ).loc main_arg9)) (m ((c : Thread nD τ).loc main_arg10))
          (m ((c : Thread nD τ).loc main_arg11)) (m ((c : Thread nD τ).loc main_arg12)) (m ((c : Thread nD τ).loc main_arg13)) := by
  open_stretches
  after_results_simp <;> rfl

/-- The messages to the product nodes. -/
theorem V_main_v79 (c : Dev nD) :
    (V m c main_v79 : S50000x480.Idx → EReal)
      = msgP (m ((c : Thread nD τ).loc main_arg0)) (m ((c : Thread nD τ).loc main_arg1)) (m ((c : Thread nD τ).loc main_arg2))
          (m ((c : Thread nD τ).loc main_arg3)) (m ((c : Thread nD τ).loc main_arg9)) (m ((c : Thread nD τ).loc main_arg10))
          (m ((c : Thread nD τ).loc main_arg11)) (m ((c : Thread nD τ).loc main_arg12)) (m ((c : Thread nD τ).loc main_arg13)) := by
  open_stretches
  after_results_simp <;> rfl

end Cert.KernelIdeal.KHost

end
-- ==== Proof.LibScatterAddRows.lean ====
/-
  ROW-WISE ACCUMULATING SCATTER READ AT AN INDEX: a general fact about `stablehlo.scatter` with an `add` body.

  Adding update rows into the rows of a matrix `x : [N, D]`, with the row numbers given as an integer column
  `idx : [M, 1]` and the updates `upd : [M, D]` (what `x.at[idx].add(upd)` and a segment sum lower to), is a scatter
  with update_window_dims `[1]`, inserted_window_dims `[0]`, scatter_dims_to_operand_dims `[0]` and
  index_vector_dim `1` (`rowsScatterDims`).

  The operand index an update index `(e, j)` lands at is, per operand axis, `start + window coordinate`
  (`ScatterDims.resultIdx?`):

  * on operand axis 0, the start is the row number `idx[e, 0]`, read as a SIGNED integer and NOT clamped, and the
    window coordinate is `0` (axis 0 is an inserted window axis);
  * on operand axis 1, the start is `0` (the axis is not named by scatter_dims_to_operand_dims) and the window
    coordinate is `j` (axis 1 is the operand's one kept axis, read by the updates' one window axis).

  So update `(e, j)` lands at `(idx[e, 0], j)` when `0 ≤ idx[e, 0] < N`, and is dropped otherwise
  (`resultIdx?_rows`). Hence the scatter's value at `(n, k)` is the operand's entry plus the sum, over the update rows
  `e` whose row number is `n`, of `upd[e, k]` (`scatterAdd_rows_apply`): the sum over the two-dimensional update
  indices that land at `(n, k)` is re-indexed along `e ↦ (e, k)`.
-/
import Idealize.ShloMosaic.PureOps.Ideal
import Idealize.ShloMosaic.Lib.ValueIdx

noncomputable section

namespace Cert.Lib

open Idealize.ShloMosaic Idealize.ShloMosaic.ValueIdx

/-- The dimension numbers of a row-wise scatter: operand `[N, D]`, scatter indices `[M, 1]` (one row number per update
    row), updates `[M, D]`; update_window_dims `[1]`, inserted_window_dims `[0]`, scatter_dims_to_operand_dims `[0]`,
    index_vector_dim `1`. -/
abbrev rowsScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- In `Fin 2`, `1 ≠ 0`. -/
theorem scatter_fin2_one_ne_zero : (1 : Fin 2) ≠ 0 := by decide

section Summands
variable {N D M w : Nat} (wf : ScatterDims.WF ⟨2, ![N, D]⟩ ⟨2, ![M, 1]⟩ ⟨2, ![M, D]⟩ [1] [0] [0] 1)

/-- On operand axis 0 the window of update `(e, j)` starts at the row number `idx[e, 0]`, read signed. -/
theorem scatter_rows_start0 (idx : IVec ⟨2, ![M, 1]⟩ w) (e : Fin M) (j : Fin D) :
    (rowsScatterDims N D M wf).start (ix2 e j) idx 0 = (idx (ix2 e (0 : Fin 1))).toInt := by
  unfold ScatterDims.start
  rw [dif_pos (show (0 : Fin 2) ∈ (rowsScatterDims N D M wf).scatterDimsToOperandDims from
    List.mem_singleton.mpr rfl)]
  have hsi : (rowsScatterDims N D M wf).siIdx (ix2 e j)
      ⟨List.idxOf (0 : Fin 2) (rowsScatterDims N D M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the scatter does not index, the window starts at `0`. -/
theorem scatter_rows_start1 (idx : IVec ⟨2, ![M, 1]⟩ w) (e : Fin M) (j : Fin D) :
    (rowsScatterDims N D M wf).start (ix2 e j) idx 1 = 0 := by
  unfold ScatterDims.start
  rw [dif_neg (fun h => scatter_fin2_one_ne_zero (List.mem_singleton.mp h))]

/-- Operand axis 0 is an inserted window axis: its window coordinate is `0`. -/
theorem scatter_rows_window0 (e : Fin M) (j : Fin D) :
    (rowsScatterDims N D M wf).window (ix2 e j) 0 = 0 := by
  unfold ScatterDims.window
  rw [dif_neg]
  intro h
  have := (List.mem_filter.mp h).2
  simp at this

/-- Operand axis 1 is the one kept axis: its window coordinate is the update's column `j`. -/
theorem scatter_rows_window1 (e : Fin M) (j : Fin D) :
    (rowsScatterDims N D M wf).window (ix2 e j) 1 = j.val := by
  have hk : (1 : Fin 2) ∈ (rowsScatterDims N D M wf).sKept := by
    refine List.mem_filter.mpr ⟨List.mem_finRange _, ?_⟩
    simpa using scatter_fin2_one_ne_zero
  unfold ScatterDims.window
  rw [dif_pos hk]
  rfl

end Summands

/-! ## Where an update lands -/

section Lands
variable {N D M w : Nat} (wf : ScatterDims.WF ⟨2, ![N, D]⟩ ⟨2, ![M, 1]⟩ ⟨2, ![M, D]⟩ [1] [0] [0] 1)

/-- Update `(e, j)` lands at operand index `(n, k)` exactly when its row number `idx[e, 0]`, read signed, is `n` and
    its column `j` is `k`; an update whose row number is outside `[0, N)` lands nowhere. -/
theorem resultIdx?_rows (idx : IVec ⟨2, ![M, 1]⟩ w) (e : Fin M) (j : Fin D) (n : Fin N) (k : Fin D) :
    (rowsScatterDims N D M wf).resultIdx? (ix2 e j) idx = some (ix2 n k)
      ↔ (idx (ix2 e (0 : Fin 1))).toInt = (n.val : Int) ∧ j = k := by
  have hs0 := scatter_rows_start0 (N := N) wf idx e j
  have hs1 := scatter_rows_start1 (N := N) wf idx e j
  have hw0 := scatter_rows_window0 (N := N) wf e j
  have hw1 := scatter_rows_window1 (N := N) wf e j
  unfold ScatterDims.resultIdx?
  split
  · rename_i h
    constructor
    · intro heq
      have hf := Option.some.inj heq
      have h0 := congrArg (fun f => (f 0).val) hf
      have h1 := congrArg (fun f => (f 1).val) hf
      simp only [hs0, hs1, hw0, hw1] at h0 h1
      have hh0 := (h 0).1
      rw [hs0, hw0] at hh0
      have e0 : ((ix2 n k : (⟨2, ![N, D]⟩ : Shape).Idx) 0).val = n.val := rfl
      have e1 : ((ix2 n k : (⟨2, ![N, D]⟩ : Shape).Idx) 1).val = k.val := rfl
      rw [e0] at h0
      rw [e1] at h1
      refine ⟨by omega, Fin.ext (by omega)⟩
    · rintro ⟨hn, rfl⟩
      congr 1
      funext a
      refine Fin.ext ?_
      match a with
      | ⟨0, _⟩ =>
        show ((rowsScatterDims N D M wf).start (ix2 e j) idx 0
          + ((rowsScatterDims N D M wf).window (ix2 e j) 0 : Int)).toNat = n.val
        rw [hs0, hw0, hn]; omega
      | ⟨1, _⟩ =>
        show ((rowsScatterDims N D M wf).start (ix2 e j) idx 1
          + ((rowsScatterDims N D M wf).window (ix2 e j) 1 : Int)).toNat = j.val
        rw [hs1, hw1]; omega
  · rename_i h
    constructor
    · intro heq; exact absurd heq (by simp)
    · rintro ⟨hn, rfl⟩
      exfalso
      apply h
      intro a
      match a with
      | ⟨0, _⟩ =>
        show 0 ≤ (rowsScatterDims N D M wf).start (ix2 e j) idx 0
            + ((rowsScatterDims N D M wf).window (ix2 e j) 0 : Int)
          ∧ (rowsScatterDims N D M wf).start (ix2 e j) idx 0
            + ((rowsScatterDims N D M wf).window (ix2 e j) 0 : Int) < (N : Int)
        rw [hs0, hw0, hn]
        have := n.isLt
        omega
      | ⟨1, _⟩ =>
        show 0 ≤ (rowsScatterDims N D M wf).start (ix2 e j) idx 1
            + ((rowsScatterDims N D M wf).window (ix2 e j) 1 : Int)
          ∧ (rowsScatterDims N D M wf).start (ix2 e j) idx 1
            + ((rowsScatterDims N D M wf).window (ix2 e j) 1 : Int) < (D : Int)
        rw [hs1, hw1]
        have := j.isLt
        omega

end Lands

/-! ## The scatter read at an index -/

/-- THE ACCUMULATING ROW SCATTER READ AT `(n, k)`: the operand's entry plus the sum, over the update rows `e` whose row
    number `idx[e, 0]` (read as a SIGNED integer, not clamped) is `n`, of the update's entry `(e, k)`. -/
theorem scatterAdd_rows_apply {N D M w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (k : Fin D) :
    Ideal.hostScatterAdd (rowsScatterDims N D M wf) x idx upd (ix2 n k)
      = x (ix2 n k) + ∑ e ∈ Finset.univ.filter (fun e : Fin M => (idx (ix2 e (0 : Fin 1))).toInt = (n.val : Int)), upd (ix2 e k) := by
  unfold Ideal.hostScatterAdd
  congr 1
  -- every update index is `(e, j)`; it lands at `(n, k)` iff `idx[e, 0] = n` and `j = k`
  have hland : ∀ J : (⟨2, ![M, D]⟩ : Shape).Idx,
      (rowsScatterDims N D M wf).resultIdx? J idx = some (ix2 n k)
        ↔ (idx (ix2 (J 0 : Fin M) (0 : Fin 1))).toInt = (n.val : Int) ∧ (J 1 : Fin D) = k := by
    intro J
    obtain ⟨a, b, rfl⟩ : ∃ (a : Fin M) (b : Fin D), J = ix2 a b := ⟨J 0, J 1, eq_ix2 J⟩
    exact resultIdx?_rows wf idx a b n k
  refine Finset.sum_nbij' (fun J => (J 0 : Fin M)) (fun e => ix2 e k) ?_ ?_ ?_ ?_ ?_
  · intro J hJ
    rw [Finset.mem_filter] at hJ
    exact Finset.mem_filter.mpr ⟨Finset.mem_univ _, ((hland J).mp hJ.2).1⟩
  · intro e he
    rw [Finset.mem_filter] at he
    exact Finset.mem_filter.mpr ⟨Finset.mem_univ _, (resultIdx?_rows wf idx e k n k).mpr ⟨he.2, rfl⟩⟩
  · intro J hJ
    rw [Finset.mem_filter] at hJ
    have hk := ((hland J).mp hJ.2).2
    obtain ⟨a, b, rfl⟩ : ∃ (a : Fin M) (b : Fin D), J = ix2 a b := ⟨J 0, J 1, eq_ix2 J⟩
    have hb : b = k := hk
    subst hb
    rfl
  · intro e _
    rfl
  · intro J hJ
    rw [Finset.mem_filter] at hJ
    have hk := ((hland J).mp hJ.2).2
    obtain ⟨a, b, rfl⟩ : ∃ (a : Fin M) (b : Fin D), J = ix2 a b := ⟨J 0, J 1, eq_ix2 J⟩
    have hb : b = k := hk
    subst hb
    rfl

end Cert.Lib

end
-- ==== Proof.LibScatterAddSplit.lean ====
/-
  ONE ACCUMULATING SCATTER OVER THREE CONCATENATED UPDATE LISTS IS THE SUM OF THREE SCATTERS.

  A segment sum adds, into entry `n`, the updates whose index is `n`. When the index array and the update array are
  each the concatenation (along the update axis) of three pieces of `E` entries, an update position `e < E + E + E` lies
  in exactly one piece: it is `e'`, `E + e'` or `E + E + e'` for one `e' < E`. So the sum over the selected positions of
  the long array splits into the three sums over the selected positions of the pieces (`sum_filter_concat3`): pure
  finite-sum algebra in a commutative monoid; no scatter and no finiteness is involved (the extended reals' addition is
  commutative and associative, and `0 + s = s` there).

  Read through the "scatter at an index" lemmas this says: one scatter-add of the concatenated updates at the
  concatenated indices into an all-zero operand is, entry by entry, the sum `(A + B) + C` of the three scatter-adds of
  the pieces into all-zero operands — for a row scatter into a matrix (`scatterAdd_rows_concat3`) and for a scatter of
  scalars into a vector (`scatterAdd_vec_concat3`). How the long arrays read on each of the three blocks of positions is
  asked as plain pointwise equations, which a concatenation read at an index supplies.
-/
import proofs.«115542_j63840393888431_2_alg».proof.Proof.LibScatterAddRows
import proofs.«115542_j63840393888431_2_alg».proof.Proof.LibScatterAddVec
import Mathlib.Algebra.BigOperators.Fin

noncomputable section

namespace Cert.Lib

open Idealize.ShloMosaic Idealize.ShloMosaic.ValueIdx

/-! ## The finite-sum fact -/

/-- A sum over the positions `e < E + E + E` selected by `p` is the sum over the selected positions of the first block
    (`e`), plus that of the second block (`E + e`), plus that of the third block (`E + E + e`), grouped `(A + B) + C`. -/
theorem sum_filter_concat3 {β : Type*} [AddCommMonoid β] {E M : Nat} (hM : M = E + E + E)
    (p : Fin M → Prop) [DecidablePred p] (f : Fin M → β) :
    ∑ e ∈ Finset.univ.filter p, f e
      = ((∑ e ∈ Finset.univ.filter (fun e : Fin E => p ⟨e.val, by have := e.isLt; omega⟩),
              f ⟨e.val, by have := e.isLt; omega⟩)
          + ∑ e ∈ Finset.univ.filter (fun e : Fin E => p ⟨E + e.val, by have := e.isLt; omega⟩),
              f ⟨E + e.val, by have := e.isLt; omega⟩)
        + ∑ e ∈ Finset.univ.filter (fun e : Fin E => p ⟨E + E + e.val, by have := e.isLt; omega⟩),
              f ⟨E + E + e.val, by have := e.isLt; omega⟩ := by
  subst hM
  simp only [Finset.sum_filter]
  rw [Fin.sum_univ_add, Fin.sum_univ_add]
  rfl

/-- The same with the three blocks' positions written `e`, `E + e`, `E₂ + e` for a given `E₂ = E + E` (so that with
    numerals the third block's offset is one numeral). -/
theorem sum_filter_concat3' {β : Type*} [AddCommMonoid β] {E E₂ M : Nat} (hE₂ : E₂ = E + E) (hM : M = E + E + E)
    (p : Fin M → Prop) [DecidablePred p] (f : Fin M → β) :
    ∑ e ∈ Finset.univ.filter p, f e
      = ((∑ e ∈ Finset.univ.filter (fun e : Fin E => p ⟨e.val, by have := e.isLt; omega⟩),
              f ⟨e.val, by have := e.isLt; omega⟩)
          + ∑ e ∈ Finset.univ.filter (fun e : Fin E => p ⟨E + e.val, by have := e.isLt; omega⟩),
              f ⟨E + e.val, by have := e.isLt; omega⟩)
        + ∑ e ∈ Finset.univ.filter (fun e : Fin E => p ⟨E₂ + e.val, by have := e.isLt; omega⟩),
              f ⟨E₂ + e.val, by have := e.isLt; omega⟩ := by
  subst hE₂
  exact sum_filter_concat3 hM p f

/-! ## Row scatter into a matrix -/

/-- A row scatter-add of `E + E + E` update rows into an all-zero `[N, D]` matrix, whose row numbers and update rows
    read, on the three blocks of positions `e`, `E + e`, `E₂ + e` (`E₂ = E + E`), as those of three pieces `A`, `B`, `C`
    of `E` rows each, is at every entry the sum `(A + B) + C` of the three pieces' scatter-adds into all-zero
    matrices. -/
theorem scatterAdd_rows_concat3 {N D E E₂ M w : Nat} (hE₂ : E₂ = E + E) (hM : M = E + E + E)
    (wf3 : ScatterDims.WF ⟨2, ![N, D]⟩ ⟨2, ![M, 1]⟩ ⟨2, ![M, D]⟩ [1] [0] [0] 1)
    (wf1 : ScatterDims.WF ⟨2, ![N, D]⟩ ⟨2, ![E, 1]⟩ ⟨2, ![E, D]⟩ [1] [0] [0] 1)
    (x3 xA xB xC : (⟨2, ![N, D]⟩ : Shape).Idx → EReal)
    (hx3 : ∀ i, x3 i = 0) (hxA : ∀ i, xA i = 0) (hxB : ∀ i, xB i = 0) (hxC : ∀ i, xC i = 0)
    (idx3 : IVec ⟨2, ![M, 1]⟩ w) (idxA idxB idxC : IVec ⟨2, ![E, 1]⟩ w)
    (upd3 : (⟨2, ![M, D]⟩ : Shape).Idx → EReal) (updA updB updC : (⟨2, ![E, D]⟩ : Shape).Idx → EReal)
    (hiA : ∀ (e : Fin E) (h : e.val < M), idx3 (ix2 ⟨e.val, h⟩ (0 : Fin 1)) = idxA (ix2 e (0 : Fin 1)))
    (hiB : ∀ (e : Fin E) (h : E + e.val < M), idx3 (ix2 ⟨E + e.val, h⟩ (0 : Fin 1)) = idxB (ix2 e (0 : Fin 1)))
    (hiC : ∀ (e : Fin E) (h : E₂ + e.val < M), idx3 (ix2 ⟨E₂ + e.val, h⟩ (0 : Fin 1)) = idxC (ix2 e (0 : Fin 1)))
    (huA : ∀ (e : Fin E) (h : e.val < M) (k : Fin D), upd3 (ix2 ⟨e.val, h⟩ k) = updA (ix2 e k))
    (huB : ∀ (e : Fin E) (h : E + e.val < M) (k : Fin D), upd3 (ix2 ⟨E + e.val, h⟩ k) = updB (ix2 e k))
    (huC : ∀ (e : Fin E) (h : E₂ + e.val < M) (k : Fin D), upd3 (ix2 ⟨E₂ + e.val, h⟩ k) = updC (ix2 e k))
    (n : Fin N) (k : Fin D) :
    Ideal.hostScatterAdd (rowsScatterDims N D M wf3) x3 idx3 upd3 (ix2 n k)
      = (Ideal.hostScatterAdd (rowsScatterDims N D E wf1) xA idxA updA (ix2 n k)
          + Ideal.hostScatterAdd (rowsScatterDims N D E wf1) xB idxB updB (ix2 n k))
        + Ideal.hostScatterAdd (rowsScatterDims N D E wf1) xC idxC updC (ix2 n k) := by
  rw [scatterAdd_rows_apply wf3 x3 idx3 upd3 n k, scatterAdd_rows_apply wf1 xA idxA updA n k,
    scatterAdd_rows_apply wf1 xB idxB updB n k, scatterAdd_rows_apply wf1 xC idxC updC n k,
    hx3, hxA, hxB, hxC, zero_add, zero_add, zero_add, zero_add,
    sum_filter_concat3' hE₂ hM]
  simp only [hiA, hiB, hiC, huA, huB, huC]

/-! ## Scatter of scalars into a vector -/

/-- A scatter-add of `E + E + E` scalar updates into an all-zero vector `[N]`, whose entry numbers and updates read, on
    the three blocks of positions `e`, `E + e`, `E₂ + e` (`E₂ = E + E`), as those of three pieces `A`, `B`, `C` of `E`
    updates each, is at every entry the sum `(A + B) + C` of the three pieces' scatter-adds into all-zero vectors. -/
theorem scatterAdd_vec_concat3 {N E E₂ M w : Nat} (hE₂ : E₂ = E + E) (hM : M = E + E + E)
    (wf3 : ScatterDims.WF ⟨1, ![N]⟩ ⟨2, ![M, 1]⟩ ⟨1, ![M]⟩ [] [0] [0] 1)
    (wf1 : ScatterDims.WF ⟨1, ![N]⟩ ⟨2, ![E, 1]⟩ ⟨1, ![E]⟩ [] [0] [0] 1)
    (x3 xA xB xC : (⟨1, ![N]⟩ : Shape).Idx → EReal)
    (hx3 : ∀ i, x3 i = 0) (hxA : ∀ i, xA i = 0) (hxB : ∀ i, xB i = 0) (hxC : ∀ i, xC i = 0)
    (idx3 : IVec ⟨2, ![M, 1]⟩ w) (idxA idxB idxC : IVec ⟨2, ![E, 1]⟩ w)
    (upd3 : (⟨1, ![M]⟩ : Shape).Idx → EReal) (updA updB updC : (⟨1, ![E]⟩ : Shape).Idx → EReal)
    (hiA : ∀ (e : Fin E) (h : e.val < M), idx3 (ix2 ⟨e.val, h⟩ (0 : Fin 1)) = idxA (ix2 e (0 : Fin 1)))
    (hiB : ∀ (e : Fin E) (h : E + e.val < M), idx3 (ix2 ⟨E + e.val, h⟩ (0 : Fin 1)) = idxB (ix2 e (0 : Fin 1)))
    (hiC : ∀ (e : Fin E) (h : E₂ + e.val < M), idx3 (ix2 ⟨E₂ + e.val, h⟩ (0 : Fin 1)) = idxC (ix2 e (0 : Fin 1)))
    (huA : ∀ (e : Fin E) (h : e.val < M), upd3 (ix1 ⟨e.val, h⟩) = updA (ix1 e))
    (huB : ∀ (e : Fin E) (h : E + e.val < M), upd3 (ix1 ⟨E + e.val, h⟩) = updB (ix1 e))
    (huC : ∀ (e : Fin E) (h : E₂ + e.val < M), upd3 (ix1 ⟨E₂ + e.val, h⟩) = updC (ix1 e))
    (n : Fin N) :
    Ideal.hostScatterAdd (vecScatterDims N M wf3) x3 idx3 upd3 (ix1 n)
      = (Ideal.hostScatterAdd (vecScatterDims N E wf1) xA idxA updA (ix1 n)
          + Ideal.hostScatterAdd (vecScatterDims N E wf1) xB idxB updB (ix1 n))
        + Ideal.hostScatterAdd (vecScatterDims N E wf1) xC idxC updC (ix1 n) := by
  rw [scatterAdd_vec_apply wf3 x3 idx3 upd3 n, scatterAdd_vec_apply wf1 xA idxA updA n,
    scatterAdd_vec_apply wf1 xB idxB updB n, scatterAdd_vec_apply wf1 xC idxC updC n,
    hx3, hxA, hxB, hxC, zero_add, zero_add, zero_add, zero_add,
    sum_filter_concat3' hE₂ hM]
  simp only [hiA, hiB, hiC, huA, huB, huC]

/-! ## The two instances at 150000 = 50000 + 50000 + 50000 updates into 100000 rows -/

/-- `scatterAdd_rows_concat3` at `N = 100000`, `D = 480`, three pieces of `50000` update rows: the blocks of positions
    are `e`, `50000 + e`, `100000 + e`. -/
theorem scatterAdd_rows_concat3_150000 {w : Nat}
    (wf3 : ScatterDims.WF ⟨2, ![100000, 480]⟩ ⟨2, ![150000, 1]⟩ ⟨2, ![150000, 480]⟩ [1] [0] [0] 1)
    (wf1 : ScatterDims.WF ⟨2, ![100000, 480]⟩ ⟨2, ![50000, 1]⟩ ⟨2, ![50000, 480]⟩ [1] [0] [0] 1)
    (x3 xA xB xC : (⟨2, ![100000, 480]⟩ : Shape).Idx → EReal)
    (hx3 : ∀ i, x3 i = 0) (hxA : ∀ i, xA i = 0) (hxB : ∀ i, xB i = 0) (hxC : ∀ i, xC i = 0)
    (idx3 : IVec ⟨2, ![150000, 1]⟩ w) (idxA idxB idxC : IVec ⟨2, ![50000, 1]⟩ w)
    (upd3 : (⟨2, ![150000, 480]⟩ : Shape).Idx → EReal) (updA updB updC : (⟨2, ![50000, 480]⟩ : Shape).Idx → EReal)
    (hiA : ∀ (e : Fin 50000) (h : e.val < 150000), idx3 (ix2 ⟨e.val, h⟩ (0 : Fin 1)) = idxA (ix2 e (0 : Fin 1)))
    (hiB : ∀ (e : Fin 50000) (h : 50000 + e.val < 150000),
      idx3 (ix2 ⟨50000 + e.val, h⟩ (0 : Fin 1)) = idxB (ix2 e (0 : Fin 1)))
    (hiC : ∀ (e : Fin 50000) (h : 100000 + e.val < 150000),
      idx3 (ix2 ⟨100000 + e.val, h⟩ (0 : Fin 1)) = idxC (ix2 e (0 : Fin 1)))
    (huA : ∀ (e : Fin 50000) (h : e.val < 150000) (k : Fin 480), upd3 (ix2 ⟨e.val, h⟩ k) = updA (ix2 e k))
    (huB : ∀ (e : Fin 50000) (h : 50000 + e.val < 150000) (k : Fin 480),
      upd3 (ix2 ⟨50000 + e.val, h⟩ k) = updB (ix2 e k))
    (huC : ∀ (e : Fin 50000) (h : 100000 + e.val < 150000) (k : Fin 480),
      upd3 (ix2 ⟨100000 + e.val, h⟩ k) = updC (ix2 e k))
    (n : Fin 100000) (k : Fin 480) :
    Ideal.hostScatterAdd (rowsScatterDims 100000 480 150000 wf3) x3 idx3 upd3 (ix2 n k)
      = (Ideal.hostScatterAdd (rowsScatterDims 100000 480 50000 wf1) xA idxA updA (ix2 n k)
          + Ideal.hostScatterAdd (rowsScatterDims 100000 480 50000 wf1) xB idxB updB (ix2 n k))
        + Ideal.hostScatterAdd (rowsScatterDims 100000 480 50000 wf1) xC idxC updC (ix2 n k) :=
  scatterAdd_rows_concat3 (E := 50000) (E₂ := 100000) (M := 150000) (by norm_num) (by norm_num) wf3 wf1
    x3 xA xB xC hx3 hxA hxB hxC idx3 idxA idxB idxC upd3 updA updB updC hiA hiB hiC huA huB huC n k

/-- `scatterAdd_vec_concat3` at `N = 100000`, three pieces of `50000` updates: the blocks of positions are `e`,
    `50000 + e`, `100000 + e`. -/
theorem scatterAdd_vec_concat3_150000 {w : Nat}
    (wf3 : ScatterDims.WF ⟨1, ![100000]⟩ ⟨2, ![150000, 1]⟩ ⟨1, ![150000]⟩ [] [0] [0] 1)
    (wf1 : ScatterDims.WF ⟨1, ![100000]⟩ ⟨2, ![50000, 1]⟩ ⟨1, ![50000]⟩ [] [0] [0] 1)
    (x3 xA xB xC : (⟨1, ![100000]⟩ : Shape).Idx → EReal)
    (hx3 : ∀ i, x3 i = 0) (hxA : ∀ i, xA i = 0) (hxB : ∀ i, xB i = 0) (hxC : ∀ i, xC i = 0)
    (idx3 : IVec ⟨2, ![150000, 1]⟩ w) (idxA idxB idxC : IVec ⟨2, ![50000, 1]⟩ w)
    (upd3 : (⟨1, ![150000]⟩ : Shape).Idx → EReal) (updA updB updC : (⟨1, ![50000]⟩ : Shape).Idx → EReal)
    (hiA : ∀ (e : Fin 50000) (h : e.val < 150000), idx3 (ix2 ⟨e.val, h⟩ (0 : Fin 1)) = idxA (ix2 e (0 : Fin 1)))
    (hiB : ∀ (e : Fin 50000) (h : 50000 + e.val < 150000),
      idx3 (ix2 ⟨50000 + e.val, h⟩ (0 : Fin 1)) = idxB (ix2 e (0 : Fin 1)))
    (hiC : ∀ (e : Fin 50000) (h : 100000 + e.val < 150000),
      idx3 (ix2 ⟨100000 + e.val, h⟩ (0 : Fin 1)) = idxC (ix2 e (0 : Fin 1)))
    (huA : ∀ (e : Fin 50000) (h : e.val < 150000), upd3 (ix1 ⟨e.val, h⟩) = updA (ix1 e))
    (huB : ∀ (e : Fin 50000) (h : 50000 + e.val < 150000), upd3 (ix1 ⟨50000 + e.val, h⟩) = updB (ix1 e))
    (huC : ∀ (e : Fin 50000) (h : 100000 + e.val < 150000), upd3 (ix1 ⟨100000 + e.val, h⟩) = updC (ix1 e))
    (n : Fin 100000) :
    Ideal.hostScatterAdd (vecScatterDims 100000 150000 wf3) x3 idx3 upd3 (ix1 n)
      = (Ideal.hostScatterAdd (vecScatterDims 100000 50000 wf1) xA idxA updA (ix1 n)
          + Ideal.hostScatterAdd (vecScatterDims 100000 50000 wf1) xB idxB updB (ix1 n))
        + Ideal.hostScatterAdd (vecScatterDims 100000 50000 wf1) xC idxC updC (ix1 n) :=
  scatterAdd_vec_concat3 (E := 50000) (E₂ := 100000) (M := 150000) (by norm_num) (by norm_num) wf3 wf1
    x3 xA xB xC hx3 hxA hxB hxC idx3 idxA idxB idxC upd3 updA updB updC hiA hiB hiC huA huB huC n

end Cert.Lib

end
-- ==== Proof.AggrBridge.lean ====
/-
  THE MEAN AGGREGATION IS THE SAME ARRAY IN THE KERNEL PROGRAM AND IN THE REFERENCE PROGRAM.

  Both programs compute `aggr[n, k] = seg[n, k] / max(cnt[n], 1)` from three index vectors `src, dst, prod : [50000]` and
  three message arrays `mS, mD, mP : [50000, 480]`:

  * the kernel program computes `seg` as three row scatter-adds into all-zero `[100000, 480]` matrices, added
    `(S(src, mS) + S(dst, mD)) + S(prod, mP)`, and `cnt` as three scatter-adds of ones `[50000]` into all-zero vectors
    `[100000]`, added the same way; it ends with a rounding to a narrower format, which at the ideal values is the
    identity;
  * the reference program concatenates the three index vectors into one of `150000` entries and the three message
    arrays into one of `150000` rows, and does ONE row scatter-add and ONE scatter-add of ones `[150000]`.

  At the ideal values an accumulating scatter at an entry is the operand's entry plus the sum of the updates that
  land there. Every position of a concatenated array lies in exactly one of the three pieces, so the long sum splits
  into the three pieces' sums; the operands are all zero, so `0 + s = s` regroups the rest. The extended reals' addition
  is commutative and associative: no finiteness is needed. The divisors are then equal entry by entry (`cnt_eq`), the
  dividends too, and so are the quotients (`aggr_eq`).
-/
import proofs.«115542_j63840393888431_2_alg».proof.KernelIdeal
import proofs.«115542_j63840393888431_2_alg».proof.ReferenceIdeal
import proofs.«115542_j63840393888431_2_alg».proof.Proof.LibScatterAddRows
import proofs.«115542_j63840393888431_2_alg».proof.Proof.LibScatterAddVec
import proofs.«115542_j63840393888431_2_alg».proof.Proof.LibScatterAddSplit
import Idealize.ShloMosaic.Lib.Pipeline.Value
import Idealize.ShloMosaic.Lib.IdealHost
import Idealize.ShloMosaic.Lib.ValueIdx

noncomputable section

namespace Cert.AggrBridge

open Idealize.ShloMosaic Idealize.ShloMosaic.ValueIdx
open Cert.Lib

/-! ## Layout operations read at an index -/

/-- A vector made a one-column matrix reads, at `(e, c)`, the vector's entry `e`. -/
theorem col_apply {α : Type} {M : Nat} (h : (⟨1, ![M]⟩ : Shape).BroadcastsInDim ⟨2, ![M, 1]⟩ ![0])
    (x : (⟨1, ![M]⟩ : Shape).Idx → α) (e : Fin M) (c : Fin 1) :
    broadcastInDim ⟨2, ![M, 1]⟩ ![0] h x (ix2 e c) = x (ix1 e) := by
  refine broadcastInDim_apply ![0] h x (ix2 e c) (ix1 e) (fun a => ?_)
  match a with
  | ⟨0, _⟩ =>
    show e.val = if M = 1 then 0 else e.val
    split_ifs with hM
    · subst hM; omega
    · rfl

/-- A one-column matrix broadcast along its unit axis to `D` columns reads, at `(n, k)`, the column's entry `n`. -/
theorem colBcast_apply {α : Type} {N D : Nat} (h : (⟨2, ![N, 1]⟩ : Shape).BroadcastsInDim ⟨2, ![N, D]⟩ ![0, 1])
    (x : (⟨2, ![N, 1]⟩ : Shape).Idx → α) (n : Fin N) (k : Fin D) :
    broadcastInDim ⟨2, ![N, D]⟩ ![0, 1] h x (ix2 n k) = x (ix2 n (0 : Fin 1)) := by
  refine broadcastInDim_apply ![0, 1] h x (ix2 n k) (ix2 n (0 : Fin 1)) (fun a => ?_)
  match a with
  | ⟨0, _⟩ =>
    show n.val = if N = 1 then 0 else n.val
    split_ifs with hN
    · subst hN; omega
    · rfl
  | ⟨1, _⟩ => rfl

/-- The concatenation of three vectors of `E` entries reads, at a position of the first block, the first vector. -/
theorem concat3_vec_apply0 {α : Type} {E M : Nat} (x₀ x₁ x₂ : (⟨1, ![E]⟩ : Shape).Idx → α)
    (h : Shape.Concatenates [(⟨1, ![E]⟩ : Shape), ⟨1, ![E]⟩, ⟨1, ![E]⟩] ⟨1, ![M]⟩ 0) (e : Fin E) (he : e.val < M) :
    concatenate ⟨1, ![M]⟩ 0 [⟨⟨1, ![E]⟩, x₀⟩, ⟨⟨1, ![E]⟩, x₁⟩, ⟨⟨1, ![E]⟩, x₂⟩] h (ix1 ⟨e.val, he⟩) = x₀ (ix1 e) := by
  refine concatenate_apply_piece (t := ⟨1, ![M]⟩) 0 [⟨⟨1, ![E]⟩, x₀⟩, ⟨⟨1, ![E]⟩, x₁⟩, ⟨⟨1, ![E]⟩, x₂⟩] h (ix1 ⟨e.val, he⟩)
    0 (by simp) ⟨1, ![E]⟩ x₀ rfl rfl 0 rfl (ix1 e) (fun b hb => ?_) ?_
  · match b with
    | ⟨0, _⟩ => exact absurd rfl hb
  · show 0 + e.val = e.val
    omega

/-- … at a position `E + e` of the second block, the second vector at `e`. -/
theorem concat3_vec_apply1 {α : Type} {E M : Nat} (x₀ x₁ x₂ : (⟨1, ![E]⟩ : Shape).Idx → α)
    (h : Shape.Concatenates [(⟨1, ![E]⟩ : Shape), ⟨1, ![E]⟩, ⟨1, ![E]⟩] ⟨1, ![M]⟩ 0) (e : Fin E) (he : E + e.val < M) :
    concatenate ⟨1, ![M]⟩ 0 [⟨⟨1, ![E]⟩, x₀⟩, ⟨⟨1, ![E]⟩, x₁⟩, ⟨⟨1, ![E]⟩, x₂⟩] h (ix1 ⟨E + e.val, he⟩) = x₁ (ix1 e) := by
  refine concatenate_apply_piece (t := ⟨1, ![M]⟩) 0 [⟨⟨1, ![E]⟩, x₀⟩, ⟨⟨1, ![E]⟩, x₁⟩, ⟨⟨1, ![E]⟩, x₂⟩] h (ix1 ⟨E + e.val, he⟩)
    1 (by simp) ⟨1, ![E]⟩ x₁ rfl rfl E ?_ (ix1 e) (fun b hb => ?_) rfl
  · simp
  · match b with
    | ⟨0, _⟩ => exact absurd rfl hb

/-- … at a position `E₂ + e` (`E₂ = E + E`) of the third block, the third vector at `e`. -/
theorem concat3_vec_apply2 {α : Type} {E E₂ M : Nat} (hE₂ : E₂ = E + E) (x₀ x₁ x₂ : (⟨1, ![E]⟩ : Shape).Idx → α)
    (h : Shape.Concatenates [(⟨1, ![E]⟩ : Shape), ⟨1, ![E]⟩, ⟨1, ![E]⟩] ⟨1, ![M]⟩ 0) (e : Fin E) (he : E₂ + e.val < M) :
    concatenate ⟨1, ![M]⟩ 0 [⟨⟨1, ![E]⟩, x₀⟩, ⟨⟨1, ![E]⟩, x₁⟩, ⟨⟨1, ![E]⟩, x₂⟩] h (ix1 ⟨E₂ + e.val, he⟩) = x₂ (ix1 e) := by
  refine concatenate_apply_piece (t := ⟨1, ![M]⟩) 0 [⟨⟨1, ![E]⟩, x₀⟩, ⟨⟨1, ![E]⟩, x₁⟩, ⟨⟨1, ![E]⟩, x₂⟩] h (ix1 ⟨E₂ + e.val, he⟩)
    2 (by simp) ⟨1, ![E]⟩ x₂ rfl rfl E₂ ?_ (ix1 e) (fun b hb => ?_) rfl
  · simp [hE₂]
  · match b with
    | ⟨0, _⟩ => exact absurd rfl hb

/-- The concatenation, along the rows, of three matrices of `E` rows reads, at a row of the first block, the first
    matrix. -/
theorem concat3_rows_apply0 {α : Type} {E D M : Nat} (x₀ x₁ x₂ : (⟨2, ![E, D]⟩ : Shape).Idx → α)
    (h : Shape.Concatenates [(⟨2, ![E, D]⟩ : Shape), ⟨2, ![E, D]⟩, ⟨2, ![E, D]⟩] ⟨2, ![M, D]⟩ 0)
    (e : Fin E) (he : e.val < M) (k : Fin D) :
    concatenate ⟨2, ![M, D]⟩ 0 [⟨⟨2, ![E, D]⟩, x₀⟩, ⟨⟨2, ![E, D]⟩, x₁⟩, ⟨⟨2, ![E, D]⟩, x₂⟩] h (ix2 ⟨e.val, he⟩ k)
      = x₀ (ix2 e k) := by
  refine concatenate_apply_piece (t := ⟨2, ![M, D]⟩) 0 [⟨⟨2, ![E, D]⟩, x₀⟩, ⟨⟨2, ![E, D]⟩, x₁⟩, ⟨⟨2, ![E, D]⟩, x₂⟩] h
    (ix2 ⟨e.val, he⟩ k) 0 (by simp) ⟨2, ![E, D]⟩ x₀ rfl rfl 0 rfl (ix2 e k) (fun b hb => ?_) ?_
  · match b with
    | ⟨0, _⟩ => exact absurd rfl hb
    | ⟨1, _⟩ => rfl
  · show 0 + e.val = e.val
    omega

/-- … at a row `E + e` of the second block, the second matrix at row `e`. -/
theorem concat3_rows_apply1 {α : Type} {E D M : Nat} (x₀ x₁ x₂ : (⟨2, ![E, D]⟩ : Shape).Idx → α)
    (h : Shape.Concatenates [(⟨2, ![E, D]⟩ : Shape), ⟨2, ![E, D]⟩, ⟨2, ![E, D]⟩] ⟨2, ![M, D]⟩ 0)
    (e : Fin E) (he : E + e.val < M) (k : Fin D) :
    concatenate ⟨2, ![M, D]⟩ 0 [⟨⟨2, ![E, D]⟩, x₀⟩, ⟨⟨2, ![E, D]⟩, x₁⟩, ⟨⟨2, ![E, D]⟩, x₂⟩] h (ix2 ⟨E + e.val, he⟩ k)
      = x₁ (ix2 e k) := by
  refine concatenate_apply_piece (t := ⟨2, ![M, D]⟩) 0 [⟨⟨2, ![E, D]⟩, x₀⟩, ⟨⟨2, ![E, D]⟩, x₁⟩, ⟨⟨2, ![E, D]⟩, x₂⟩] h
    (ix2 ⟨E + e.val, he⟩ k) 1 (by simp) ⟨2, ![E, D]⟩ x₁ rfl rfl E ?_ (ix2 e k) (fun b hb => ?_) rfl
  · simp
  · match b with
    | ⟨0, _⟩ => exact absurd rfl hb
    | ⟨1, _⟩ => rfl

/-- … at a row `E₂ + e` (`E₂ = E + E`) of the third block, the third matrix at row `e`. -/
theorem concat3_rows_apply2 {α : Type} {E E₂ D M : Nat} (hE₂ : E₂ = E + E) (x₀ x₁ x₂ : (⟨2, ![E, D]⟩ : Shape).Idx → α)
    (h : Shape.Concatenates [(⟨2, ![E, D]⟩ : Shape), ⟨2, ![E, D]⟩, ⟨2, ![E, D]⟩] ⟨2, ![M, D]⟩ 0)
    (e : Fin E) (he : E₂ + e.val < M) (k : Fin D) :
    concatenate ⟨2, ![M, D]⟩ 0 [⟨⟨2, ![E, D]⟩, x₀⟩, ⟨⟨2, ![E, D]⟩, x₁⟩, ⟨⟨2, ![E, D]⟩, x₂⟩] h (ix2 ⟨E₂ + e.val, he⟩ k)
      = x₂ (ix2 e k) := by
  refine concatenate_apply_piece (t := ⟨2, ![M, D]⟩) 0 [⟨⟨2, ![E, D]⟩, x₀⟩, ⟨⟨2, ![E, D]⟩, x₁⟩, ⟨⟨2, ![E, D]⟩, x₂⟩] h
    (ix2 ⟨E₂ + e.val, he⟩ k) 2 (by simp) ⟨2, ![E, D]⟩ x₂ rfl rfl E₂ ?_ (ix2 e k) (fun b hb => ?_) rfl
  · simp [hE₂]
  · match b with
    | ⟨0, _⟩ => exact absurd rfl hb
    | ⟨1, _⟩ => rfl

/-- A vector made a one-column matrix and then broadcast to `D` columns reads, at `(n, k)`, the vector's entry `n`. -/
theorem colBcast_col_apply {α : Type} {N D : Nat}
    (h₁ : (⟨1, ![N]⟩ : Shape).BroadcastsInDim ⟨2, ![N, 1]⟩ ![0])
    (h₂ : (⟨2, ![N, 1]⟩ : Shape).BroadcastsInDim ⟨2, ![N, D]⟩ ![0, 1])
    (x : (⟨1, ![N]⟩ : Shape).Idx → α) (n : Fin N) (k : Fin D) :
    broadcastInDim ⟨2, ![N, D]⟩ ![0, 1] h₂ (broadcastInDim ⟨2, ![N, 1]⟩ ![0] h₁ x) (ix2 n k) = x (ix1 n) :=
  (colBcast_apply h₂ _ n k).trans (col_apply h₁ x n 0)

/-! ## The two programs' terms -/

variable [KernelIdeal.Facts₀] [ReferenceIdeal.Facts₀]

/-- The kernel program's all-zero vector `[100000]`. -/
abbrev zN : FVec Ideal KernelIdeal.S100000 .f32 :=
  broadcastInDim KernelIdeal.S100000 ![] KernelIdeal.Facts₀.bcast_S_S100000 (constant (F := Ideal) KernelIdeal.S_ .f32 0x00000000#32)
/-- The kernel program's all-ones vector `[50000]`. -/
abbrev ones : FVec Ideal KernelIdeal.S50000 .f32 :=
  broadcastInDim KernelIdeal.S50000 ![] KernelIdeal.Facts₀.bcast_S_S50000 (constant (F := Ideal) KernelIdeal.S_ .f32 0x3F800000#32)
/-- The kernel program's all-ones vector `[100000]`. -/
abbrev onesN : FVec Ideal KernelIdeal.S100000 .f32 :=
  broadcastInDim KernelIdeal.S100000 ![] KernelIdeal.Facts₀.bcast_S_S100000 (constant (F := Ideal) KernelIdeal.S_ .f32 0x3F800000#32)
/-- An index vector `[50000]` as the kernel program's index column `[50000, 1]`. -/
abbrev colK (x : IVec KernelIdeal.S50000 32) : IVec KernelIdeal.S50000x1 32 :=
  broadcastInDim KernelIdeal.S50000x1 ![0] KernelIdeal.Facts₀.bcast_S50000_S50000x1_0 x

/-- The reference program's all-zero vector `[100000]`. -/
abbrev zN' : FVec Ideal ReferenceIdeal.S100000 .f32 :=
  broadcastInDim ReferenceIdeal.S100000 ![] ReferenceIdeal.Facts₀.bcast_S_S100000 (constant (F := Ideal) ReferenceIdeal.S_ .f32 0x00000000#32)
/-- The reference program's all-ones vector `[150000]`. -/
abbrev ones3 : FVec Ideal ReferenceIdeal.S150000 .f32 :=
  broadcastInDim ReferenceIdeal.S150000 ![] ReferenceIdeal.Facts₀.bcast_S_S150000 (constant (F := Ideal) ReferenceIdeal.S_ .f32 0x3F800000#32)
/-- The reference program's all-ones vector `[100000]`. -/
abbrev onesN' : FVec Ideal ReferenceIdeal.S100000 .f32 :=
  broadcastInDim ReferenceIdeal.S100000 ![] ReferenceIdeal.Facts₀.bcast_S_S100000 (constant (F := Ideal) ReferenceIdeal.S_ .f32 0x3F800000#32)
/-- The reference program's index column `[150000, 1]`: the three index vectors concatenated, as a column. -/
abbrev col3 (x9 x10 x11 : IVec ReferenceIdeal.S50000 32) : IVec ReferenceIdeal.S150000x1 32 :=
  broadcastInDim ReferenceIdeal.S150000x1 ![0] ReferenceIdeal.Facts₀.bcast_S150000_S150000x1_0
    (concatenate ReferenceIdeal.S150000 0 [⟨ReferenceIdeal.S50000, x9⟩, ⟨ReferenceIdeal.S50000, x10⟩, ⟨ReferenceIdeal.S50000, x11⟩]
      ReferenceIdeal.Facts₀.concatenates_S50000_S50000_S50000_S150000_d0)

/-- The kernel's count: three scatter-adds of ones at the three index vectors, added `(A + B) + C`. -/
abbrev kernelCnt (x9 x10 x11 : IVec KernelIdeal.S50000 32) : FVec Ideal KernelIdeal.S100000 .f32 :=
  addf (addf (Host.scatterAdd KernelIdeal.scatter_S100000_S50000x1_S50000_n_0_0_1 zN (colK x9) ones)
             (Host.scatterAdd KernelIdeal.scatter_S100000_S50000x1_S50000_n_0_0_1 zN (colK x10) ones))
       (Host.scatterAdd KernelIdeal.scatter_S100000_S50000x1_S50000_n_0_0_1 zN (colK x11) ones)

/-- The reference's count: one scatter-add of ones at the concatenated index vector. -/
abbrev refCnt (x9 x10 x11 : IVec ReferenceIdeal.S50000 32) : FVec Ideal ReferenceIdeal.S100000 .f32 :=
  Host.scatterAdd ReferenceIdeal.scatter_S100000_S150000x1_S150000_n_0_0_1 zN' (col3 x9 x10 x11) ones3

/-! ## Their pieces read at an index -/

theorem zN_apply (i : KernelIdeal.S100000.Idx) : zN i = 0 :=
  (broadcastInDim_scalar_apply _ _ i).trans Ideal.ofBits_zero_f32
theorem zN'_apply (i : ReferenceIdeal.S100000.Idx) : zN' i = 0 :=
  (broadcastInDim_scalar_apply _ _ i).trans Ideal.ofBits_zero_f32
theorem ones_apply (i : KernelIdeal.S50000.Idx) : ones i = 1 :=
  (broadcastInDim_scalar_apply _ _ i).trans Ideal.ofBits_one_f32
theorem ones3_apply (i : ReferenceIdeal.S150000.Idx) : ones3 i = 1 :=
  (broadcastInDim_scalar_apply _ _ i).trans Ideal.ofBits_one_f32

theorem col3_apply0 (x9 x10 x11 : IVec ReferenceIdeal.S50000 32) (e : Fin 50000) (h : e.val < 150000) :
    col3 x9 x10 x11 (ix2 ⟨e.val, h⟩ (0 : Fin 1)) = colK x9 (ix2 e (0 : Fin 1)) :=
  ((col_apply _ _ _ _).trans (concat3_vec_apply0 x9 x10 x11 _ e h)).trans (col_apply _ _ _ _).symm
theorem col3_apply1 (x9 x10 x11 : IVec ReferenceIdeal.S50000 32) (e : Fin 50000) (h : 50000 + e.val < 150000) :
    col3 x9 x10 x11 (ix2 ⟨50000 + e.val, h⟩ (0 : Fin 1)) = colK x10 (ix2 e (0 : Fin 1)) :=
  ((col_apply _ _ _ _).trans (concat3_vec_apply1 x9 x10 x11 _ e h)).trans (col_apply _ _ _ _).symm
theorem col3_apply2 (x9 x10 x11 : IVec ReferenceIdeal.S50000 32) (e : Fin 50000) (h : 100000 + e.val < 150000) :
    col3 x9 x10 x11 (ix2 ⟨100000 + e.val, h⟩ (0 : Fin 1)) = colK x11 (ix2 e (0 : Fin 1)) :=
  ((col_apply _ _ _ _).trans (concat3_vec_apply2 (by norm_num) x9 x10 x11 _ e h)).trans (col_apply _ _ _ _).symm

/-! ## The count -/

/-- THE COUNT IS THE SAME: the kernel's three scatter-adds of ones, added, are the reference's one scatter-add of ones at
    the concatenated indices — every position of the long index vector lies in exactly one of the three pieces, and the
    operands are all zero. -/
theorem cnt_eq (x9 x10 x11 : IVec KernelIdeal.S50000 32) (n : Fin 100000) :
    (addf (addf (Host.scatterAdd KernelIdeal.scatter_S100000_S50000x1_S50000_n_0_0_1 zN (colK x9) ones)
                (Host.scatterAdd KernelIdeal.scatter_S100000_S50000x1_S50000_n_0_0_1 zN (colK x10) ones))
          (Host.scatterAdd KernelIdeal.scatter_S100000_S50000x1_S50000_n_0_0_1 zN (colK x11) ones)) (ix1 n)
      = Host.scatterAdd ReferenceIdeal.scatter_S100000_S150000x1_S150000_n_0_0_1 zN' (col3 x9 x10 x11) ones3 (ix1 n) := by
  refine Eq.symm ?_
  refine (scatterAdd_vec_concat3_150000
    ReferenceIdeal.Facts₀.scatter_S100000_S150000x1_S150000_n_0_0_1_wf
    KernelIdeal.Facts₀.scatter_S100000_S50000x1_S50000_n_0_0_1_wf
    zN' zN zN zN zN'_apply zN_apply zN_apply zN_apply
    (col3 x9 x10 x11) (colK x9) (colK x10) (colK x11) ones3 ones ones ones
    (col3_apply0 x9 x10 x11) (col3_apply1 x9 x10 x11) (col3_apply2 x9 x10 x11)
    (fun e h => (ones3_apply _).trans (ones_apply _).symm)
    (fun e h => (ones3_apply _).trans (ones_apply _).symm)
    (fun e h => (ones3_apply _).trans (ones_apply _).symm) n).trans ?_
  rfl

/-! ## The aggregation -/

/-- The kernel program's all-zero matrix `[100000, 480]`. -/
abbrev z480 : FVec Ideal KernelIdeal.S100000x480 .f32 :=
  broadcastInDim KernelIdeal.S100000x480 ![] KernelIdeal.Facts₀.bcast_S_S100000x480 (constant (F := Ideal) KernelIdeal.S_ .f32 0x00000000#32)
/-- The reference program's all-zero matrix `[100000, 480]`. -/
abbrev z480' : FVec Ideal ReferenceIdeal.S100000x480 .f32 :=
  broadcastInDim ReferenceIdeal.S100000x480 ![] ReferenceIdeal.Facts₀.bcast_S_S100000x480 (constant (F := Ideal) ReferenceIdeal.S_ .f32 0x00000000#32)
/-- The reference program's update rows `[150000, 480]`: the three message arrays concatenated along the rows. -/
abbrev upd3 (mS mD mP : FVec Ideal ReferenceIdeal.S50000x480 .f32) : FVec Ideal ReferenceIdeal.S150000x480 .f32 :=
  concatenate ReferenceIdeal.S150000x480 0
    [⟨ReferenceIdeal.S50000x480, mS⟩, ⟨ReferenceIdeal.S50000x480, mD⟩, ⟨ReferenceIdeal.S50000x480, mP⟩]
    ReferenceIdeal.Facts₀.concatenates_S50000x480_S50000x480_S50000x480_S150000x480_d0

/-- The kernel's segment sums: three row scatter-adds into all-zero matrices, added `(A + B) + C`. -/
abbrev kernelSeg (mS mD mP : FVec Ideal KernelIdeal.S50000x480 .f32) (x9 x10 x11 : IVec KernelIdeal.S50000 32) :
    FVec Ideal KernelIdeal.S100000x480 .f32 :=
  addf (addf (Host.scatterAdd KernelIdeal.scatter_S100000x480_S50000x1_S50000x480_1_0_0_1 z480 (colK x9) mS)
             (Host.scatterAdd KernelIdeal.scatter_S100000x480_S50000x1_S50000x480_1_0_0_1 z480 (colK x10) mD))
       (Host.scatterAdd KernelIdeal.scatter_S100000x480_S50000x1_S50000x480_1_0_0_1 z480 (colK x11) mP)

/-- The reference's segment sum: one row scatter-add of the concatenated messages at the concatenated indices. -/
abbrev refSeg (mS mD mP : FVec Ideal ReferenceIdeal.S50000x480 .f32) (x9 x10 x11 : IVec ReferenceIdeal.S50000 32) :
    FVec Ideal ReferenceIdeal.S100000x480 .f32 :=
  Host.scatterAdd ReferenceIdeal.scatter_S100000x480_S150000x1_S150000x480_1_0_0_1 z480' (col3 x9 x10 x11) (upd3 mS mD mP)

/-- The kernel program's mean aggregation: the segment sums over the count floored at one, then the rounding to the
    narrower format. -/
def kernelAggr (mS mD mP : FVec Ideal KernelIdeal.S50000x480 .f32) (x9 x10 x11 : IVec KernelIdeal.S50000 32) :
    FVec Ideal KernelIdeal.S100000x480 .bf16 :=
  truncf .bf16
    (Host.divf
      (addf (addf (Host.scatterAdd KernelIdeal.scatter_S100000x480_S50000x1_S50000x480_1_0_0_1 z480 (colK x9) mS)
                  (Host.scatterAdd KernelIdeal.scatter_S100000x480_S50000x1_S50000x480_1_0_0_1 z480 (colK x10) mD))
            (Host.scatterAdd KernelIdeal.scatter_S100000x480_S50000x1_S50000x480_1_0_0_1 z480 (colK x11) mP))
      (broadcastInDim KernelIdeal.S100000x480 ![0, 1] KernelIdeal.Facts₀.bcast_S100000x1_S100000x480_0_1
        (broadcastInDim KernelIdeal.S100000x1 ![0] KernelIdeal.Facts₀.bcast_S100000_S100000x1_0
          (maximumf
            (addf (addf (Host.scatterAdd KernelIdeal.scatter_S100000_S50000x1_S50000_n_0_0_1 zN (colK x9) ones)
                        (Host.scatterAdd KernelIdeal.scatter_S100000_S50000x1_S50000_n_0_0_1 zN (colK x10) ones))
                  (Host.scatterAdd KernelIdeal.scatter_S100000_S50000x1_S50000_n_0_0_1 zN (colK x11) ones))
            onesN))))
    KernelIdeal.Facts₀.bitsLt_bf16_f32

/-- The reference program's mean aggregation: the one segment sum over the one count floored at one. -/
def refAggr (mS mD mP : FVec Ideal ReferenceIdeal.S50000x480 .f32) (x9 x10 x11 : IVec ReferenceIdeal.S50000 32) :
    FVec Ideal ReferenceIdeal.S100000x480 .f32 :=
  Host.divf
    (Host.scatterAdd ReferenceIdeal.scatter_S100000x480_S150000x1_S150000x480_1_0_0_1 z480' (col3 x9 x10 x11) (upd3 mS mD mP))
    (broadcastInDim ReferenceIdeal.S100000x480 ![0, 1] ReferenceIdeal.Facts₀.bcast_S100000x1_S100000x480_0_1
      (broadcastInDim ReferenceIdeal.S100000x1 ![0] ReferenceIdeal.Facts₀.bcast_S100000_S100000x1_0
        (maximumf
          (Host.scatterAdd ReferenceIdeal.scatter_S100000_S150000x1_S150000_n_0_0_1 zN' (col3 x9 x10 x11) ones3)
          onesN')))

theorem z480_apply (i : KernelIdeal.S100000x480.Idx) : z480 i = 0 :=
  (broadcastInDim_scalar_apply _ _ i).trans Ideal.ofBits_zero_f32
theorem z480'_apply (i : ReferenceIdeal.S100000x480.Idx) : z480' i = 0 :=
  (broadcastInDim_scalar_apply _ _ i).trans Ideal.ofBits_zero_f32
theorem onesN_apply (i : KernelIdeal.S100000.Idx) : onesN i = 1 :=
  (broadcastInDim_scalar_apply _ _ i).trans Ideal.ofBits_one_f32
theorem onesN'_apply (i : ReferenceIdeal.S100000.Idx) : onesN' i = 1 :=
  (broadcastInDim_scalar_apply _ _ i).trans Ideal.ofBits_one_f32

/-- THE SEGMENT SUMS ARE THE SAME: the kernel's three row scatter-adds, added, are the reference's one row scatter-add
    of the concatenated messages at the concatenated indices. -/
theorem seg_eq (mS mD mP : FVec Ideal KernelIdeal.S50000x480 .f32) (x9 x10 x11 : IVec KernelIdeal.S50000 32)
    (n : Fin 100000) (k : Fin 480) :
    kernelSeg mS mD mP x9 x10 x11 (ix2 n k) = refSeg mS mD mP x9 x10 x11 (ix2 n k) := by
  refine Eq.symm ?_
  refine (scatterAdd_rows_concat3_150000
    ReferenceIdeal.Facts₀.scatter_S100000x480_S150000x1_S150000x480_1_0_0_1_wf
    KernelIdeal.Facts₀.scatter_S100000x480_S50000x1_S50000x480_1_0_0_1_wf
    z480' z480 z480 z480 z480'_apply z480_apply z480_apply z480_apply
    (col3 x9 x10 x11) (colK x9) (colK x10) (colK x11) (upd3 mS mD mP) mS mD mP
    (col3_apply0 x9 x10 x11) (col3_apply1 x9 x10 x11) (col3_apply2 x9 x10 x11)
    (fun e h k => concat3_rows_apply0 mS mD mP _ e h k)
    (fun e h k => concat3_rows_apply1 mS mD mP _ e h k)
    (fun e h k => concat3_rows_apply2 (by norm_num) mS mD mP _ e h k) n k).trans ?_
  rfl

/-- THE MEAN AGGREGATION IS THE SAME ARRAY: entry by entry the kernel program's value (segment sums over the count
    floored at one; the final rounding is the identity at the ideal values) is the reference program's. -/
theorem aggr_eq (mS mD mP : FVec Ideal KernelIdeal.S50000x480 .f32) (x9 x10 x11 : IVec KernelIdeal.S50000 32)
    (n : Fin 100000) (k : Fin 480) :
    kernelAggr mS mD mP x9 x10 x11 (ix2 n k) = refAggr mS mD mP x9 x10 x11 (ix2 n k) := by
  have hden :
      (broadcastInDim KernelIdeal.S100000x480 ![0, 1] KernelIdeal.Facts₀.bcast_S100000x1_S100000x480_0_1
        (broadcastInDim KernelIdeal.S100000x1 ![0] KernelIdeal.Facts₀.bcast_S100000_S100000x1_0
          (maximumf (kernelCnt x9 x10 x11) onesN))) (ix2 n k)
      = (broadcastInDim ReferenceIdeal.S100000x480 ![0, 1] ReferenceIdeal.Facts₀.bcast_S100000x1_S100000x480_0_1
          (broadcastInDim ReferenceIdeal.S100000x1 ![0] ReferenceIdeal.Facts₀.bcast_S100000_S100000x1_0
            (maximumf (refCnt x9 x10 x11) onesN'))) (ix2 n k) := by
    refine (colBcast_col_apply _ _ _ n k).trans (Eq.trans ?_ (colBcast_col_apply _ _ _ n k).symm)
    exact congrArg₂ max (cnt_eq x9 x10 x11 n) ((onesN_apply _).trans (onesN'_apply _).symm)
  unfold kernelAggr refAggr
  rw [truncf_apply, hostDivf_apply, hostDivf_apply]
  exact congrArg₂ Ideal.div (seg_eq mS mD mP x9 x10 x11 n k) hden

end Cert.AggrBridge

end
-- ==== Proof.KHostAggr.lean ====
/-
  The aggregated messages the region reads — for each node the mean of the messages of the events it takes part in, as
  source, destination or product — as the composed term of the host operations before the region.
-/
import proofs.«115542_j63840393888431_2_alg».proof.Proof.KHostMsg
import proofs.«115542_j63840393888431_2_alg».proof.Proof.AggrBridge

noncomputable section

namespace Cert.KernelIdeal.KHost

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ)

set_option maxHeartbeats 4000000 in
/-- The aggregated messages: the three message arrays added into zeros at the three node-index arrays, divided by the
    number of events at each node floored at one, in the narrower format. -/
theorem V_main_v108 (c : Dev nD) :
    (V m c main_v108 : FVec Ideal S100000x480 .bf16)
      = Cert.AggrBridge.kernelAggr
          (msgS (m ((c : Thread nD τ).loc main_arg0)) (m ((c : Thread nD τ).loc main_arg1)) (m ((c : Thread nD τ).loc main_arg2))
            (m ((c : Thread nD τ).loc main_arg3)) (m ((c : Thread nD τ).loc main_arg9)) (m ((c : Thread nD τ).loc main_arg10))
            (m ((c : Thread nD τ).loc main_arg11)) (m ((c : Thread nD τ).loc main_arg12)) (m ((c : Thread nD τ).loc main_arg13)))
          (msgD (m ((c : Thread nD τ).loc main_arg0)) (m ((c : Thread nD τ).loc main_arg1)) (m ((c : Thread nD τ).loc main_arg2))
            (m ((c : Thread nD τ).loc main_arg3)) (m ((c : Thread nD τ).loc main_arg9)) (m ((c : Thread nD τ).loc main_arg10))
            (m ((c : Thread nD τ).loc main_arg11)) (m ((c : Thread nD τ).loc main_arg12)) (m ((c : Thread nD τ).loc main_arg13)))
          (msgP (m ((c : Thread nD τ).loc main_arg0)) (m ((c : Thread nD τ).loc main_arg1)) (m ((c : Thread nD τ).loc main_arg2))
            (m ((c : Thread nD τ).loc main_arg3)) (m ((c : Thread nD τ).loc main_arg9)) (m ((c : Thread nD τ).loc main_arg10))
            (m ((c : Thread nD τ).loc main_arg11)) (m ((c : Thread nD τ).loc main_arg12)) (m ((c : Thread nD τ).loc main_arg13)))
          (m ((c : Thread nD τ).loc main_arg9)) (m ((c : Thread nD τ).loc main_arg10)) (m ((c : Thread nD τ).loc main_arg11)) := by
  open_stretches
  after_results_simp <;> rfl

end Cert.KernelIdeal.KHost

end
-- ==== Proof.LossSum.lean ====
/-
  Re-indexing the loss partials.

  The [1000, 128] array of loss partials carries, in row `8·t` of columns 0 and 1, the sum over the 800 nodes
  `n = 800·t + r` of block `t` (125 blocks), and zero in every other row.  Summing a column over its 1000 rows therefore
  sums over all 100000 nodes: the rows `q = 8·t + s` are the pairs `(t, s) ∈ 125 × 8`, only `s = 0` contributes, and the
  nodes are the pairs `(t, r) ∈ 125 × 800`.  Addition of extended reals is a commutative monoid, so no finiteness is needed.
-/
import proofs.«115542_j63840393888431_2_alg».proof.Proof.KSpec
import Mathlib.Algebra.BigOperators.Fin
import Mathlib.Logic.Equiv.Fin.Basic

noncomputable section

namespace Cert.LossSum

open Idealize.ShloMosaic Idealize.ShloMosaic.ValueIdx

/-- A function on 1000 rows that vanishes off the rows `8·t` and holds there the block sum over `n = 800·t + r` of a function
    on 100000 nodes sums to that function's total. -/
theorem sum_blocks {M : Type*} [AddCommMonoid M] (f : Fin 100000 → M) :
    (∑ q : Fin 1000, (if q.val % 8 = 0 then
        ∑ r : Fin 800, f ⟨800 * (q.val / 8) + r.val, by have := q.isLt; have := r.isLt; omega⟩ else 0))
      = ∑ n : Fin 100000, f n := by
  -- rows as pairs (t, s) with q = s + 8·t
  have hL := (Equiv.sum_comp (finProdFinEquiv : Fin 125 × Fin 8 ≃ Fin 1000)
    (fun q : Fin 1000 => (if q.val % 8 = 0 then
        ∑ r : Fin 800, f ⟨800 * (q.val / 8) + r.val, by have := q.isLt; have := r.isLt; omega⟩ else 0))).symm
  -- nodes as pairs (t, r) with n = r + 800·t
  have hR := (Equiv.sum_comp (finProdFinEquiv : Fin 125 × Fin 800 ≃ Fin 100000) f).symm
  rw [Fintype.sum_prod_type] at hL hR
  refine hL.trans (Eq.trans ?_ hR.symm)
  refine Finset.sum_congr rfl fun t _ => ?_
  have ht := t.isLt
  -- only s = 0 contributes
  rw [Finset.sum_eq_single (0 : Fin 8)]
  · have h0 : ((finProdFinEquiv (t, (0 : Fin 8)) : Fin 1000).val) = 8 * t.val := by
      simp [finProdFinEquiv]
    have hm : (8 * t.val) % 8 = 0 := by omega
    have hd : (8 * t.val) / 8 = t.val := by omega
    simp only [h0, hm, if_true]
    refine Finset.sum_congr rfl fun r _ => congrArg f (Fin.ext ?_)
    have hv : ((finProdFinEquiv (t, r) : Fin 100000).val) = r.val + 800 * t.val := by
      simp [finProdFinEquiv]
    rw [hv]
    show 800 * (8 * t.val / 8) + r.val = r.val + 800 * t.val
    omega
  · intro s _ hs
    have hv : ((finProdFinEquiv (t, s) : Fin 1000).val) = s.val + 8 * t.val := by
      simp [finProdFinEquiv]
    have hs' : s.val ≠ 0 := fun h => hs (Fin.ext h)
    have hlt := s.isLt
    have : (s.val + 8 * t.val) % 8 ≠ 0 := by omega
    simp only [hv, this, if_false]
  · intro h; exact absurd (Finset.mem_univ _) h

open Cert.KSpec in
/-- Column 0 of the partials, summed over the 1000 rows, is the total of `max(consumed − inventory, 0)` over every node and
    product. -/
theorem sum_partials_col0 (a0 : A640.Idx → EReal) (a2 : A512.Idx → EReal) (a7 : T512.Idx → EReal) :
    (∑ q : Fin 1000, partials a0 a2 a7 q ⟨0, by omega⟩)
      = ∑ n : Fin 100000, ∑ j : Fin 512, max (cons a2 a7 n j - inv a0 n j) 0 := by
  rw [← sum_blocks (fun n => ∑ j : Fin 512, max (cons a2 a7 n j - inv a0 n j) 0)]
  refine Finset.sum_congr rfl fun q _ => ?_
  unfold partials
  -- at column 0 the column-1 branch is not taken
  have h1 : ¬ (q.val % 8 = 0 ∧ ((⟨0, by omega⟩ : Fin 128)).val = 1) := fun h => absurd h.2 (by decide)
  rw [if_neg h1]
  by_cases h : q.val % 8 = 0
  · rw [if_pos ⟨h, rfl⟩, if_pos h]
  · rw [if_neg (fun hh => h hh.1), if_neg h]

open Cert.KSpec in
/-- Column 1 of the partials, summed over the 1000 rows, is the total of `min(consumed, inventory)` over every node and
    product. -/
theorem sum_partials_col1 (a0 : A640.Idx → EReal) (a2 : A512.Idx → EReal) (a7 : T512.Idx → EReal) :
    (∑ q : Fin 1000, partials a0 a2 a7 q ⟨1, by omega⟩)
      = ∑ n : Fin 100000, ∑ j : Fin 512, min (cons a2 a7 n j) (inv a0 n j) := by
  rw [← sum_blocks (fun n => ∑ j : Fin 512, min (cons a2 a7 n j) (inv a0 n j))]
  refine Finset.sum_congr rfl fun q _ => ?_
  unfold partials
  -- at column 1 the first branch decides
  by_cases h : q.val % 8 = 0
  · rw [if_pos ⟨h, rfl⟩, if_pos h]
  · rw [if_neg (fun hh => h hh.1), if_neg (fun hh => h hh.1), if_neg h]

end Cert.LossSum

end
-- ==== Proof.LossTail.lean ====
/-
  The loss, from the array of loss partials.

  After the region the program takes column 0 and column 1 of the [1000, 128] array of partials (a slice [0:1000, c:c+1]
  and a reshape [1000, 1] → [1000]), sums each over its 1000 rows from the constant 0.0 (the host's float sum, at the
  extended reals the exact sum), divides each sum by the constant 5.12e7, and forms 5·(first) − 1·(second).  Read at its
  one index, that value is the same expression over the two column sums; with the partials the region leaves, the two
  column sums are the totals over every node and product of `max(consumed − inventory, 0)` and `min(consumed, inventory)`.
-/
import proofs.«115542_j63840393888431_2_alg».proof.KernelIdeal
import proofs.«115542_j63840393888431_2_alg».proof.Proof.LossSum
import Idealize.ShloMosaic.PureOps.Ideal
import Idealize.ShloMosaic.PureOps.Ideal.Laws
import Idealize.ShloMosaic.Lib.ValueIdx
import Idealize.ShloMosaic.Lib.Pipeline.Value

noncomputable section

namespace Cert.LossTail

open Idealize.ShloMosaic Idealize.ShloMosaic.ValueIdx
open Cert.KernelIdeal (S1000x128 S1000x1 S1000 S_ Facts₀)

/-- An index of a rank-1 shape is its one coordinate … -/
def idxEquiv1 {n : Nat} : (⟨1, ![n]⟩ : Shape).Idx ≃ Fin n where
  toFun i := i 0
  invFun q := ix1 q
  left_inv i := (eq_ix1 i).symm
  right_inv _ := rfl

/-- … so a sum over the indices of a rank-1 shape is the sum over the coordinate. -/
theorem sum_idx1 {M : Type*} [AddCommMonoid M] {n : Nat} (f : (⟨1, ![n]⟩ : Shape).Idx → M) :
    ∑ i, f i = ∑ q : Fin n, f (ix1 q) := by
  rw [← Equiv.sum_comp (idxEquiv1 (n := n)).symm f]
  rfl

variable [Facts₀]
open Cert.KernelIdeal.Facts₀

/-- The operations after the region that produce the loss, composed: the two column slices, their reshapes, the two sums from
    0.0, the two divisions by 5.12e7, the products by 5.0 and by 1.0, the difference. -/
def lossK (P : FVec Ideal S1000x128 .f32) : FVec Ideal S_ .f32 :=
  subf
    (mulf (constant S_ .f32 0x40A00000#32)
      (Host.divf
        (Host.reduceAdd
          (shapeCast S1000 (extractStridedSlice S1000x1 ![0, 0] P slices_S1000x128_S1000x1_0_0) shapeCasts_S1000x1_S1000)
          (constant S_ .f32 0x00000000#32) reducesTo_S1000_S_d0 h_S_)
        (constant S_ .f32 0x4C435000#32)))
    (mulf (constant S_ .f32 0x3F800000#32)
      (Host.divf
        (Host.reduceAdd
          (shapeCast S1000 (extractStridedSlice S1000x1 ![0, 1] P slices_S1000x128_S1000x1_0_1) shapeCasts_S1000x1_S1000)
          (constant S_ .f32 0x00000000#32) reducesTo_S1000_S_d0 h_S_)
        (constant S_ .f32 0x4C435000#32)))

/-- Column `c` of the array, reshaped to a vector, read at row `q`: the array at `(q, c)`. -/
theorem col_apply (P : FVec Ideal S1000x128 .f32) (c : Nat) (hc : c < 128) (hs : S1000x128.Slices ![0, c] S1000x1)
    (q : Fin 1000) :
    shapeCast S1000 (extractStridedSlice S1000x1 ![0, c] P hs) shapeCasts_S1000x1_S1000 (ix1 q) = P (ix2 q ⟨c, hc⟩) := by
  refine (shapeCast_apply _ shapeCasts_S1000x1_S1000 (ix1 q) (ix2 q (0 : Fin 1)) ?_).trans ?_
  · rewrite [Shape.rowMajor_val_two, Shape.rowMajor_val_one]
    show q.val * 1 + 0 = q.val
    omega
  · exact extractStridedSlice_apply ![0, c] P hs (ix2 q (0 : Fin 1)) (ix2 q ⟨c, hc⟩) (fun a => match a with
      | ⟨0, _⟩ => by show q.val = 0 + q.val; omega
      | ⟨1, _⟩ => by show c = c + 0; omega)

/-- The host's sum of column `c` over its 1000 rows from 0.0: the constant plus the sum of the array's entries `(q, c)`. -/
theorem colSum_apply (P : FVec Ideal S1000x128 .f32) (c : Nat) (hc : c < 128) (hs : S1000x128.Slices ![0, c] S1000x1) :
    Host.reduceAdd (shapeCast S1000 (extractStridedSlice S1000x1 ![0, c] P hs) shapeCasts_S1000x1_S1000)
        (constant (F := Ideal) S_ .f32 0x00000000#32) reducesTo_S1000_S_d0 h_S_ ix0
      = Ideal.ofBits .f32 0x00000000#32 + ∑ q : Fin 1000, P (ix2 q ⟨c, hc⟩) := by
  show Ideal.hostReduceAdd reducesTo_S1000_S_d0
      (shapeCast S1000 (extractStridedSlice S1000x1 ![0, c] P hs) shapeCasts_S1000x1_S1000)
      (Ideal.ofBits .f32 0x00000000#32) ix0 = _
  rw [Ideal.hostReduceAdd_total reducesTo_S1000_S_d0 (fun b => b.elim0), sum_idx1]
  exact congrArg _ (Finset.sum_congr rfl fun q _ => col_apply P c hc hs q)

/-- The loss read at its one index, over the two column sums of an arbitrary array of partials. -/
theorem lossK_apply (P : FVec Ideal S1000x128 .f32) :
    lossK P ix0
      = Ideal.ofBits .f32 0x40A00000#32
          * Ideal.div (Ideal.ofBits .f32 0x00000000#32 + ∑ q : Fin 1000, P (ix2 q ⟨0, by omega⟩)) (Ideal.ofBits .f32 0x4C435000#32)
        - Ideal.ofBits .f32 0x3F800000#32
          * Ideal.div (Ideal.ofBits .f32 0x00000000#32 + ∑ q : Fin 1000, P (ix2 q ⟨1, by omega⟩)) (Ideal.ofBits .f32 0x4C435000#32) := by
  have h0 := colSum_apply P 0 (by omega) slices_S1000x128_S1000x1_0_0
  have h1 := colSum_apply P 1 (by omega) slices_S1000x128_S1000x1_0_1
  show Ideal.ofBits .f32 0x40A00000#32
        * Ideal.div (Host.reduceAdd
            (shapeCast S1000 (extractStridedSlice S1000x1 ![0, 0] P slices_S1000x128_S1000x1_0_0) shapeCasts_S1000x1_S1000)
            (constant (F := Ideal) S_ .f32 0x00000000#32) reducesTo_S1000_S_d0 h_S_ ix0) (Ideal.ofBits .f32 0x4C435000#32)
      - Ideal.ofBits .f32 0x3F800000#32
        * Ideal.div (Host.reduceAdd
            (shapeCast S1000 (extractStridedSlice S1000x1 ![0, 1] P slices_S1000x128_S1000x1_0_1) shapeCasts_S1000x1_S1000)
            (constant (F := Ideal) S_ .f32 0x00000000#32) reducesTo_S1000_S_d0 h_S_ ix0) (Ideal.ofBits .f32 0x4C435000#32) = _
  rw [h0, h1]

open Cert.KSpec in
/-- The loss over the partials the region leaves: the two column sums are the totals over all nodes and products. -/
theorem lossK_partials (a0 : A640.Idx → EReal) (a2 : A512.Idx → EReal) (a7 : T512.Idx → EReal) :
    lossK (fun i => partials a0 a2 a7 ⟨(i 0).val, (i 0).isLt⟩ ⟨(i 1).val, (i 1).isLt⟩) ix0
      = Ideal.ofBits .f32 0x40A00000#32
          * Ideal.div (Ideal.ofBits .f32 0x00000000#32
              + ∑ n : Fin 100000, ∑ j : Fin 512, max (cons a2 a7 n j - inv a0 n j) 0) (Ideal.ofBits .f32 0x4C435000#32)
        - Ideal.ofBits .f32 0x3F800000#32
          * Ideal.div (Ideal.ofBits .f32 0x00000000#32
              + ∑ n : Fin 100000, ∑ j : Fin 512, min (cons a2 a7 n j) (inv a0 n j)) (Ideal.ofBits .f32 0x4C435000#32) := by
  rw [lossK_apply, ← Cert.LossSum.sum_partials_col0 a0 a2 a7, ← Cert.LossSum.sum_partials_col1 a0 a2 a7]

end Cert.LossTail

end
-- ==== Proof.KTail.lean ====
import proofs.«115542_j63840393888431_2_alg».proof.Proof.KIFrame
import proofs.«115542_j63840393888431_2_alg».proof.Proof.LossTail

/-! The program's three results, read off the frame run's post. After the region @main runs one more stretch of
    host operations over the buffers the region leaves: the pipeline's arrays at what the write-backs left, every
    other buffer at its contents when the region was entered. The new memory bank is the last operation's value, a
    scatter-add onto the first output array; the loss is a chain of slices, sums and scalings of the second output
    array; the new last-update vector was computed before the region and nothing after it writes it. -/

set_option maxRecDepth 16384

noncomputable section

namespace Cert.KernelIdeal.KTail

open Cert.KernelIdeal Cert.KernelIdeal.Gen Cert.KernelIdeal.Frm
open Idealize.ShloMosaic Idealize.ShloMosaic.TcCoe Idealize.ShloMosaic.Tactic
open Idealize.SL Idealize.SL.Sem
open Idealize.ShloMosaic.Pipeline (Dat Cfg Window)
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

/-- The [50000, 2] array of (row, column) pairs the scatter after the region takes, composed as the program's
    operations compose it from the destination nodes `dst` and the product columns `p`: the row is `dst` wrapped
    into [0, 100000) when negative; the column is `q = 128 + p` wrapped into [0, 640) when negative. -/
def idxTail (dst p : IVec S50000 32) : IVec S50000x2 32 :=
  concatenate S50000x2 1
    [⟨S50000x1, broadcastInDim S50000x1 ![0] Facts₀.bcast_S50000_S50000x1_0
        (select (cmpi .slt dst (broadcastInDim S50000 ![] Facts₀.bcast_S_S50000 (constantI S_ 32 0#32)))
          (addi dst (broadcastInDim S50000 ![] Facts₀.bcast_S_S50000 (constantI S_ 32 100000#32))) dst)⟩,
     ⟨S50000x1, broadcastInDim S50000x1 ![0] Facts₀.bcast_S50000_S50000x1_0
        (select
          (cmpi .slt (addi (broadcastInDim S50000 ![] Facts₀.bcast_S_S50000 (constantI S_ 32 128#32)) p)
            (broadcastInDim S50000 ![] Facts₀.bcast_S_S50000 (constantI S_ 32 0#32)))
          (addi (addi (broadcastInDim S50000 ![] Facts₀.bcast_S_S50000 (constantI S_ 32 128#32)) p)
            (broadcastInDim S50000 ![] Facts₀.bcast_S_S50000 (constantI S_ 32 640#32)))
          (addi (broadcastInDim S50000 ![] Facts₀.bcast_S_S50000 (constantI S_ 32 128#32)) p))⟩]
    Facts₀.concatenates_S50000x1_S50000x1_S50000x2_d1

/-- The three result buffers are unscoped and no window's array: the frame run's post reads them after the tail. -/
theorem mem_rest_v180 : main_v180 ∈ Pipeline.restRefs sig spec0 := Pipeline.mem_restRefs_of main_v180 (by decide) (by decide)
theorem mem_rest_v164 : main_v164 ∈ Pipeline.restRefs sig spec0 := Pipeline.mem_restRefs_of main_v164 (by decide) (by decide)
theorem mem_rest_v123 : main_v123 ∈ Pipeline.restRefs sig spec0 := Pipeline.mem_restRefs_of main_v123 (by decide) (by decide)

section Generic

variable {F : FTy → Type} [FloatOps F]
variable (m : (ℓ : Loc nD τ sig) → Buf (Elt F) ℓ)

set_option maxHeartbeats 4000000 in
/-- The new memory bank: the scatter-add of the amounts (computed before the region) at the (row, column) pairs onto
    window 8's array as the region leaves it. The pairs are composed after the region from two buffers written
    before it; none of the three is a window's array, so the region leaves them as it found them. -/
theorem tail_v180 (dats : (p : Fin 1) → (c : Dev nD) → Dat τ (Elt F) Unit ℕ (UR sig nD τ) ℕ (cfgs p) c) (c : Dev nD) :
    Pipeline.afterTail₀ cfgs dats 0 (V0 m) [hostOps1] c main_v180
      = Host.scatterAdd (F := F) (φ := .f32) scatter_S100000x640_S50000x2_S50000_n_01_01_1 ((dats 0 c).arrAt 8 cfg0.N)
        (idxTail (V m c main_arg10) (V m c main_v125)) (V m c main_v128) := by
  have e8 : Pipeline.withArrays (cfgs 0).spec c (V0 m c) (fun w => (dats 0 c).arrAt w (cfgs 0).N) (Proc.devRef .tc main_v153_0)
      = (dats 0 c).arrAt 8 cfg0.N := Pipeline.withArrays_arr spec0 launch0.win.arr_inj c _ _ 8
  have e10 := Pipeline.withArrays_of_ne (cfgs 0).spec c (V0 m c) (fun w => (dats 0 c).arrAt w (cfgs 0).N) main_arg10
    (by exact (by decide : ∀ w, Pipeline.arrRef spec0 w ≠ main_arg10))
  have e125 := Pipeline.withArrays_of_ne (cfgs 0).spec c (V0 m c) (fun w => (dats 0 c).arrAt w (cfgs 0).N) main_v125
    (by exact (by decide : ∀ w, Pipeline.arrRef spec0 w ≠ main_v125))
  have e128 := Pipeline.withArrays_of_ne (cfgs 0).spec c (V0 m c) (fun w => (dats 0 c).arrAt w (cfgs 0).N) main_v128
    (by exact (by decide : ∀ w, Pipeline.arrRef spec0 w ≠ main_v128))
  conv_lhs =>
    unfold Pipeline.afterTail₀
    simp only [List.flatten_cons, List.flatten_nil, List.append_nil]
  after_results
  rw [e8, e10, e125, e128]
  rfl

/-- The new last-update vector: written before the region, by no operation after it, and no window's array. -/
theorem tail_v123 (dats : (p : Fin 1) → (c : Dev nD) → Dat τ (Elt F) Unit ℕ (UR sig nD τ) ℕ (cfgs p) c) (c : Dev nD) :
    Pipeline.afterTail₀ cfgs dats 0 (V0 m) [hostOps1] c main_v123 = V m c main_v123 := by
  unfold Pipeline.afterTail₀
  rw [StableHlo.after_of_forall_not_mem (b := Proc.devRef .tc main_v123) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_v123 (by exact (by decide : ∀ w, Pipeline.arrRef spec0 w ≠ main_v123))]

/-- The frame run's post read at the fourteen argument arrays: each ends as launched — the staged input `main_arg0` by the
    library's fact that an input array is never written back, the thirteen arrays no window stages by the post's
    second clause. -/
theorem args_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  ⟨((h c).1 0).trans (((dats m 0 c).arrAt_in 0 rfl _).trans ((A_eq m c 0).trans (V_main_arg0 m c))),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c)),
    (((h c).2 main_arg7 (Pipeline.mem_restRefs_of main_arg7 (by decide) (by decide))).trans (W_main_arg7 m (dats m) c)),
    (((h c).2 main_arg8 (Pipeline.mem_restRefs_of main_arg8 (by decide) (by decide))).trans (W_main_arg8 m (dats m) c)),
    (((h c).2 main_arg9 (Pipeline.mem_restRefs_of main_arg9 (by decide) (by decide))).trans (W_main_arg9 m (dats m) c)),
    (((h c).2 main_arg10 (Pipeline.mem_restRefs_of main_arg10 (by decide) (by decide))).trans (W_main_arg10 m (dats m) c)),
    (((h c).2 main_arg11 (Pipeline.mem_restRefs_of main_arg11 (by decide) (by decide))).trans (W_main_arg11 m (dats m) c)),
    (((h c).2 main_arg12 (Pipeline.mem_restRefs_of main_arg12 (by decide) (by decide))).trans (W_main_arg12 m (dats m) c)),
    (((h c).2 main_arg13 (Pipeline.mem_restRefs_of main_arg13 (by decide) (by decide))).trans (W_main_arg13 m (dats m) c))⟩

end Generic

section AtIdeal

variable (m : (ℓ : Loc nD τ sig) → Buf (Elt Ideal) ℓ)

set_option maxHeartbeats 4000000 in
/-- The loss: the operations after the region that produce it, applied to window 9's array as the region leaves it. -/
theorem tail_v164 (dats : (p : Fin 1) → (c : Dev nD) → Dat τ (Elt Ideal) Unit ℕ (UR sig nD τ) ℕ (cfgs p) c) (c : Dev nD) :
    Pipeline.afterTail₀ cfgs dats 0 (V0 m) [hostOps1] c main_v164 = Cert.LossTail.lossK ((dats 0 c).arrAt 9 cfg0.N) := by
  have e9 : Pipeline.withArrays (cfgs 0).spec c (V0 m c) (fun w => (dats 0 c).arrAt w (cfgs 0).N) (Proc.devRef .tc main_v153_1)
      = (dats 0 c).arrAt 9 cfg0.N := Pipeline.withArrays_arr spec0 launch0.win.arr_inj c _ _ 9
  conv_lhs =>
    unfold Pipeline.afterTail₀
    simp only [List.flatten_cons, List.flatten_nil, List.append_nil]
  after_results
  rw [e9]
  rfl

/-- The three results at the end of a run to the frame run's post. -/
theorem results_of_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v180)
        = Host.scatterAdd (F := Ideal) (φ := .f32) scatter_S100000x640_S50000x2_S50000_n_01_01_1 ((dats m 0 c).arrAt 8 cfg0.N)
        (idxTail (V m c main_arg10) (V m c main_v125)) (V m c main_v128)
      ∧ r.2.mem ((c.tc : Thread nD τ).loc main_v123) = V m c main_v123
      ∧ r.2.mem ((c.tc : Thread nD τ).loc main_v164) = Cert.LossTail.lossK ((dats m 0 c).arrAt 9 cfg0.N) :=
  ⟨((h c).2 main_v180 mem_rest_v180).trans (tail_v180 m (dats m) c),
    ((h c).2 main_v123 mem_rest_v123).trans (tail_v123 m (dats m) c),
    ((h c).2 main_v164 mem_rest_v164).trans (tail_v164 m (dats m) c)⟩

end AtIdeal

end Cert.KernelIdeal.KTail

end
-- ==== Proof.SharedTerms.lean ====
/-
  The kernel program and the reference program print the same host operations over records of the same fields, each in
  its own namespace. The composed terms the two proofs read are therefore the same terms: stated here once, so that a
  value of one program can be carried to the other by rewriting.
-/
import proofs.«115542_j63840393888431_2_alg».proof.Proof.KHostMsg
import proofs.«115542_j63840393888431_2_alg».proof.Proof.RefRead

noncomputable section

namespace Cert.SharedTerms

open Idealize.ShloMosaic
open Cert.KernelIdeal (S100000x640 S50000x64 S128x128 S50000 S32 S100000)

/-- The clipped amounts are the reference's. -/
theorem amt_eq (x1 : FVec Ideal S50000x64 .f32) :
    Cert.KernelIdeal.KHost.amt x1 = Cert.ReferenceIdeal.ReadP.val_main_v146 (F := Ideal) x1 := rfl

/-- The supplied amounts are the reference's. -/
theorem supplied_eq (x1 : FVec Ideal S50000x64 .f32) (x9 x11 : IVec S50000 32) :
    Cert.KernelIdeal.KHost.supplied x1 x9 x11 = Cert.ReferenceIdeal.ReadP.val_main_v161 (F := Ideal) x1 x9 x11 := rfl

/-- The attention matrix is the reference's. -/
theorem att_eq (x0 : FVec Ideal S100000x640 .f32) (x8 : FVec Ideal S128x128 .f32) :
    Cert.KernelIdeal.KHost.att x0 x8 = Cert.ReferenceIdeal.ReadP.val_main_v181 (F := Ideal) x0 x8 := rfl

/-- The messages to the source nodes are the reference's. -/
theorem msgS_eq (x0 : FVec Ideal S100000x640 .f32) (x1 : FVec Ideal S50000x64 .f32) (x2 x3 : FVec Ideal S32 .f32)
    (x9 x10 x11 x12 : IVec S50000 32) (x13 : IVec S100000 32) :
    Cert.KernelIdeal.KHost.msgS x0 x1 x2 x3 x9 x10 x11 x12 x13
      = Cert.ReferenceIdeal.ReadP.val_main_v43 (F := Ideal) x0 x1 x2 x3 x9 x10 x11 x12 x13 := rfl

/-- The messages to the destination nodes are the reference's. -/
theorem msgD_eq (x0 : FVec Ideal S100000x640 .f32) (x1 : FVec Ideal S50000x64 .f32) (x2 x3 : FVec Ideal S32 .f32)
    (x9 x10 x11 x12 : IVec S50000 32) (x13 : IVec S100000 32) :
    Cert.KernelIdeal.KHost.msgD x0 x1 x2 x3 x9 x10 x11 x12 x13
      = Cert.ReferenceIdeal.ReadP.val_main_v61 (F := Ideal) x0 x1 x2 x3 x9 x10 x11 x12 x13 := rfl

/-- The messages to the product nodes are the reference's. -/
theorem msgP_eq (x0 : FVec Ideal S100000x640 .f32) (x1 : FVec Ideal S50000x64 .f32) (x2 x3 : FVec Ideal S32 .f32)
    (x9 x10 x11 x12 : IVec S50000 32) (x13 : IVec S100000 32) :
    Cert.KernelIdeal.KHost.msgP x0 x1 x2 x3 x9 x10 x11 x12 x13
      = Cert.ReferenceIdeal.ReadP.val_main_v79 (F := Ideal) x0 x1 x2 x3 x9 x10 x11 x12 x13 := rfl

end Cert.SharedTerms

end
-- ==== Proof.RefValueGru.lean ====
/-
  The reference's new state read at one entry. The reference forms the input-side pre-activations
      gi = aggr · W_ihᵀ + b_ih     (a [100000, 384] array)
  and the hidden-side ones
      gh = state · W_hhᵀ + b_hh,
  slices each into its reset, update and candidate thirds (columns j, 128 + j, 256 + j), and combines them entry by entry
  into  (1 − z) · g + z · s  with  r = σ(i_r + h_r),  z = σ(i_z + h_z),  g = tanh(i_g + r · h_g): the shared formula
  `Cert.Spec.gru`. The aggregated messages `aggr` (a scatter-add mean) stay the opaque stage of the read-at-an-index
  module.
-/
import proofs.«115542_j63840393888431_2_alg».proof.Proof.RefRead
import proofs.«115542_j63840393888431_2_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.ReadP

/-! ## Index equations: the composed index functions of the read-at-an-index module at `ix2` / `ix1` -/

/-- The state slice reads column `j` of the memory array. -/
theorem idx_v0_ix2 (n : Fin 100000) (j : Fin 128) :
    idx_main_v0 (ix2 n j) = ix2 n (⟨j.val, by have := j.isLt; omega⟩ : Fin 640) :=
  funext fun a => Fin.ext (by match a with | ⟨0, _⟩ => rfl | ⟨1, _⟩ => rfl)

/-- The transposed input weights at `(k, j')` are the weights at `(j', k)`. -/
theorem idx_v94_ix2 (k : Fin 480) (j' : Fin 384) : idx_main_v94 (ix2 k j') = ix2 j' k :=
  funext fun a => Fin.ext (by match a with | ⟨0, _⟩ => rfl | ⟨1, _⟩ => rfl)
theorem lidx_v95_ix2 (n : Fin 100000) (j' : Fin 384) (k : Fin 480) : lidx_main_v95 (ix2 n j') k = ix2 n k :=
  funext fun a => Fin.ext (by match a with | ⟨0, _⟩ => rfl | ⟨1, _⟩ => rfl)
theorem ridx_v95_ix2 (n : Fin 100000) (j' : Fin 384) (k : Fin 480) : ridx_main_v95 (ix2 n j') k = ix2 k j' :=
  funext fun a => Fin.ext (by match a with | ⟨0, _⟩ => rfl | ⟨1, _⟩ => rfl)
/-- The input bias broadcast over the rows reads the bias at the column. -/
theorem idx_v96_v97_ix2 (n : Fin 100000) (j' : Fin 384) : idx_main_v96 (idx_main_v97 (ix2 n j')) = ix1 j' :=
  funext fun a => Fin.ext (by match a with | ⟨0, _⟩ => rfl)

/-- The transposed hidden weights at `(k, j')` are the weights at `(j', k)`. -/
theorem idx_v99_ix2 (k : Fin 128) (j' : Fin 384) : idx_main_v99 (ix2 k j') = ix2 j' k :=
  funext fun a => Fin.ext (by match a with | ⟨0, _⟩ => rfl | ⟨1, _⟩ => rfl)
theorem lidx_v100_ix2 (n : Fin 100000) (j' : Fin 384) (k : Fin 128) : lidx_main_v100 (ix2 n j') k = ix2 n k :=
  funext fun a => Fin.ext (by match a with | ⟨0, _⟩ => rfl | ⟨1, _⟩ => rfl)
theorem ridx_v100_ix2 (n : Fin 100000) (j' : Fin 384) (k : Fin 128) : ridx_main_v100 (ix2 n j') k = ix2 k j' :=
  funext fun a => Fin.ext (by match a with | ⟨0, _⟩ => rfl | ⟨1, _⟩ => rfl)
/-- The hidden bias broadcast over the rows reads the bias at the column. -/
theorem idx_v101_v102_ix2 (n : Fin 100000) (j' : Fin 384) : idx_main_v101 (idx_main_v102 (ix2 n j')) = ix1 j' :=
  funext fun a => Fin.ext (by match a with | ⟨0, _⟩ => rfl)

/-- The three column slices of the input-side pre-activations: columns `j`, `128 + j`, `256 + j`. -/
theorem idx_v104_ix2 (n : Fin 100000) (j : Fin 128) :
    idx_main_v104 (ix2 n j) = ix2 n (⟨j.val, by have := j.isLt; omega⟩ : Fin 384) :=
  funext fun a => Fin.ext (by match a with | ⟨0, _⟩ => rfl | ⟨1, _⟩ => rfl)
theorem idx_v105_ix2 (n : Fin 100000) (j : Fin 128) :
    idx_main_v105 (ix2 n j) = ix2 n (⟨128 + j.val, by have := j.isLt; omega⟩ : Fin 384) :=
  funext fun a => Fin.ext (by match a with | ⟨0, _⟩ => rfl | ⟨1, _⟩ => rfl)
theorem idx_v106_ix2 (n : Fin 100000) (j : Fin 128) :
    idx_main_v106 (ix2 n j) = ix2 n (⟨256 + j.val, by have := j.isLt; omega⟩ : Fin 384) :=
  funext fun a => Fin.ext (by match a with | ⟨0, _⟩ => rfl | ⟨1, _⟩ => rfl)
/-- The three column slices of the hidden-side pre-activations. -/
theorem idx_v107_ix2 (n : Fin 100000) (j : Fin 128) :
    idx_main_v107 (ix2 n j) = ix2 n (⟨j.val, by have := j.isLt; omega⟩ : Fin 384) :=
  funext fun a => Fin.ext (by match a with | ⟨0, _⟩ => rfl | ⟨1, _⟩ => rfl)
theorem idx_v108_ix2 (n : Fin 100000) (j : Fin 128) :
    idx_main_v108 (ix2 n j) = ix2 n (⟨128 + j.val, by have := j.isLt; omega⟩ : Fin 384) :=
  funext fun a => Fin.ext (by match a with | ⟨0, _⟩ => rfl | ⟨1, _⟩ => rfl)
theorem idx_v109_ix2 (n : Fin 100000) (j : Fin 128) :
    idx_main_v109 (ix2 n j) = ix2 n (⟨256 + j.val, by have := j.isLt; omega⟩ : Fin 384) :=
  funext fun a => Fin.ext (by match a with | ⟨0, _⟩ => rfl | ⟨1, _⟩ => rfl)

section
variable (x0 : (⟨S100000x640, .f32⟩ : BufTy).Contents (Elt Ideal)) (x1 : (⟨S50000x64, .f32⟩ : BufTy).Contents (Elt Ideal))
  (x2 x3 : (⟨S32, .f32⟩ : BufTy).Contents (Elt Ideal)) (x4 : (⟨S384x480, .f32⟩ : BufTy).Contents (Elt Ideal))
  (x5 : (⟨S384x128, .f32⟩ : BufTy).Contents (Elt Ideal)) (x6 x7 : (⟨S384, .f32⟩ : BufTy).Contents (Elt Ideal))
  (x9 x10 x11 x12 : (⟨S50000, .i32⟩ : BufTy).Contents (Elt Ideal)) (x13 : (⟨S100000, .i32⟩ : BufTy).Contents (Elt Ideal))

/-- The input-side pre-activation at row `n`, gate column `j'`: the row of `aggr` against row `j'` of `W_ih`, plus the bias. -/
def GI (n : Fin 100000) (j' : Fin 384) : EReal :=
  (∑ k : Fin 480, val_main_v93 (F := Ideal) x0 x1 x2 x3 x9 x10 x11 x12 x13 (ix2 n k) * x4 (ix2 j' k)) + x6 (ix1 j')

/-- The hidden-side pre-activation at row `n`, gate column `j'`: the state row against row `j'` of `W_hh`, plus the bias. -/
def GH (n : Fin 100000) (j' : Fin 384) : EReal :=
  (∑ k : Fin 128, x0 (ix2 n (⟨k.val, by have := k.isLt; omega⟩ : Fin 640)) * x5 (ix2 j' k)) + x7 (ix1 j')

/-- The input-side pre-activations read at `(n, j')`. -/
theorem ref_gi_apply (n : Fin 100000) (j' : Fin 384) :
    val_main_v98 (F := Ideal) x0 x1 x2 x3 x4 x6 x9 x10 x11 x12 x13 (ix2 n j') = GI x0 x1 x2 x3 x4 x6 x9 x10 x11 x12 x13 n j' := by
  rw [val_main_v98_apply, val_main_v95_apply, val_main_v97_apply, val_main_v96_apply, idx_v96_v97_ix2]
  simp only [lidx_v95_ix2, ridx_v95_ix2, val_main_v94_apply, idx_v94_ix2]
  rfl

/-- The hidden-side pre-activations read at `(n, j')`. -/
theorem ref_gh_apply (n : Fin 100000) (j' : Fin 384) :
    val_main_v103 (F := Ideal) x0 x5 x7 (ix2 n j') = GH x0 x5 x7 n j' := by
  rw [val_main_v103_apply, val_main_v100_apply, val_main_v102_apply, val_main_v101_apply, idx_v101_v102_ix2]
  simp only [lidx_v100_ix2, ridx_v100_ix2, val_main_v99_apply, idx_v99_ix2, val_main_v0_apply, idx_v0_ix2]
  rfl

/-- The reference spells `σ x` as `one / (one + e^(−x))` with the literal word of 1.0, which denotes 1. -/
theorem sigma_literal (x : EReal) :
    Ideal.div (Ideal.ofBits .f32 0x3F800000#32) (Ideal.ofBits .f32 0x3F800000#32 + Ideal.exp (-x)) = Ideal.logistic x := by
  rw [Ideal.ofBits_one_f32]; rfl

/-- The new state at `(n, j)` is the shared GRU formula of the six pre-activations at columns `j`, `128 + j`,
    `256 + j` and the old state; the outer one of `1 − z` stays the literal word. -/
theorem ref_state_apply (n : Fin 100000) (j : Fin 128) :
    val_main_v131 (F := Ideal) x0 x1 x2 x3 x4 x5 x6 x7 x9 x10 x11 x12 x13 (ix2 n j)
      = Cert.Spec.gru (Ideal.ofBits .f32 0x3F800000#32)
          (GI x0 x1 x2 x3 x4 x6 x9 x10 x11 x12 x13 n (⟨j.val, by have := j.isLt; omega⟩ : Fin 384))
          (GH x0 x5 x7 n (⟨j.val, by have := j.isLt; omega⟩ : Fin 384))
          (GI x0 x1 x2 x3 x4 x6 x9 x10 x11 x12 x13 n (⟨128 + j.val, by have := j.isLt; omega⟩ : Fin 384))
          (GH x0 x5 x7 n (⟨128 + j.val, by have := j.isLt; omega⟩ : Fin 384))
          (GI x0 x1 x2 x3 x4 x6 x9 x10 x11 x12 x13 n (⟨256 + j.val, by have := j.isLt; omega⟩ : Fin 384))
          (GH x0 x5 x7 n (⟨256 + j.val, by have := j.isLt; omega⟩ : Fin 384))
          (x0 (ix2 n (⟨j.val, by have := j.isLt; omega⟩ : Fin 640))) := by
  simp only [val_main_v131_apply, val_main_v130_apply, val_main_v129_apply, val_main_v128_apply, val_main_v127_apply,
    val_main_v126_apply, val_main_v125_apply, val_main_v124_apply, val_main_v123_apply, val_main_v122_apply,
    val_main_v121_apply, val_main_v120_apply, val_main_v119_apply, val_main_v118_apply, val_main_v117_apply,
    val_main_v116_apply, val_main_v115_apply, val_main_v114_apply, val_main_v113_apply, val_main_v112_apply,
    val_main_v111_apply, val_main_v110_apply, val_main_v109_apply, val_main_v108_apply, val_main_v107_apply,
    val_main_v106_apply, val_main_v105_apply, val_main_v104_apply, val_main_v0_apply,
    val_main_cst_14_apply, val_main_cst_15_apply, val_main_cst_16_apply, val_main_cst_17_apply, val_main_cst_18_apply,
    idx_v0_ix2, idx_v104_ix2, idx_v105_ix2, idx_v106_ix2, idx_v107_ix2, idx_v108_ix2, idx_v109_ix2,
    ref_gi_apply, ref_gh_apply,
    Ideal.ofBits_def, Ideal.addf_def, Ideal.subf_def, Ideal.mulf_def, Ideal.hostDivf_def, Ideal.hostNegf_def, Ideal.negf_def,
    Ideal.hostUnary_exp_def, Ideal.hostUnary_tanh_def, sigma_literal]
  rfl

end

end Cert.ReferenceIdeal.RefValue

end
-- ==== Proof.RefValueInv.lean ====
/-
  The reference's inventory update read at one entry. At row `n` and inventory column `j` (column `128 + j` of the memory
  array) the reference writes
      (inventory − consumed) + bought,     consumed n j = ∑ k, supplied n k · att k j,
  where `supplied`, `bought` (scatter results) and `att` (the attention matrix) are kept as the opaque stages of the
  read-at-an-index module: they are compared elsewhere.
-/
import proofs.«115542_j63840393888431_2_alg».proof.Proof.RefRead
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.ReadP

/-! ## Index equations: the composed index functions of the read-at-an-index module at `ix2` -/

/-- The inventory slice reads column `128 + j` of the memory array. -/
theorem idx_v1_ix2 (n : Fin 100000) (j : Fin 512) :
    idx_main_v1 (ix2 n j) = ix2 n (⟨128 + j.val, by have := j.isLt; omega⟩ : Fin 640) :=
  funext fun a => Fin.ext (by match a with | ⟨0, _⟩ => rfl | ⟨1, _⟩ => rfl)

/-- The consumed product's left operand is read at row `n`, column `k`. -/
theorem lidx_v182_ix2 (n : Fin 100000) (j k : Fin 512) : lidx_main_v182 (ix2 n j) k = ix2 n k :=
  funext fun a => Fin.ext (by match a with | ⟨0, _⟩ => rfl | ⟨1, _⟩ => rfl)

/-- The consumed product's right operand is read at row `k`, column `j`. -/
theorem ridx_v182_ix2 (n : Fin 100000) (j k : Fin 512) : ridx_main_v182 (ix2 n j) k = ix2 k j :=
  funext fun a => Fin.ext (by match a with | ⟨0, _⟩ => rfl | ⟨1, _⟩ => rfl)

section
variable (x0 : (⟨S100000x640, .f32⟩ : BufTy).Contents (Elt Ideal)) (x1 : (⟨S50000x64, .f32⟩ : BufTy).Contents (Elt Ideal))
  (x8 : (⟨S128x128, .f32⟩ : BufTy).Contents (Elt Ideal)) (x9 x10 x11 : (⟨S50000, .i32⟩ : BufTy).Contents (Elt Ideal))

/-- The consumed amount at row `n`, inventory column `j`: the row of `supplied` against the column of `att`. -/
def CONS (n : Fin 100000) (j : Fin 512) : EReal :=
  ∑ k : Fin 512, val_main_v161 (F := Ideal) x1 x9 x11 (ix2 n k) * val_main_v181 (F := Ideal) x0 x8 (ix2 k j)

/-- The consumed product read at `(n, j)`. -/
theorem ref_cons_apply (n : Fin 100000) (j : Fin 512) :
    val_main_v182 (F := Ideal) x0 x1 x8 x9 x11 (ix2 n j) = CONS x0 x1 x8 x9 x11 n j := by
  rw [val_main_v182_apply]
  simp only [lidx_v182_ix2, ridx_v182_ix2]
  rfl

/-- The new inventory at `(n, j)`: the old inventory less what was consumed, plus what was bought. -/
theorem ref_inv_apply (n : Fin 100000) (j : Fin 512) :
    val_main_v194 (F := Ideal) x0 x1 x8 x9 x10 x11 (ix2 n j)
      = (x0 (ix2 n (⟨128 + j.val, by have := j.isLt; omega⟩ : Fin 640)) - CONS x0 x1 x8 x9 x11 n j)
          + val_main_v176 (F := Ideal) x1 x10 x11 (ix2 n j) := by
  rw [val_main_v194_apply, val_main_v193_apply, val_main_v1_apply, ref_cons_apply, idx_v1_ix2]
  rfl

end

end Cert.ReferenceIdeal.RefValue

end
-- ==== Proof.RefValueLoss.lean ====
/-
  The reference's loss. With  consumed = supplied · att  and the inventory read from the memory array, the reference
  computes
      5 · ( (0 + ∑ max(consumed − inventory, 0)) / 5.12e7 )  −  1 · ( (0 + ∑ min(consumed, inventory)) / 5.12e7 ),
  each sum over all 100000 × 512 entries, the constants spelt as their f32 words. The sums over a rank-2 index set are
  written as double sums over the row and the column.
-/
import proofs.«115542_j63840393888431_2_alg».proof.Proof.RefValueInv

noncomputable section

namespace Cert.ReferenceIdeal.RefValue

open Idealize.ShloMosaic Idealize.ShloMosaic.ValueIdx Cert.ReferenceIdeal Cert.ReferenceIdeal.ReadP

section
variable (x0 : (⟨S100000x640, .f32⟩ : BufTy).Contents (Elt Ideal)) (x1 : (⟨S50000x64, .f32⟩ : BufTy).Contents (Elt Ideal))
  (x8 : (⟨S128x128, .f32⟩ : BufTy).Contents (Elt Ideal)) (x9 x11 : (⟨S50000, .i32⟩ : BufTy).Contents (Elt Ideal))

/-- The shortfall `max(consumed − inventory, 0)` at `(n, j)`, the zero spelt as its word. -/
theorem ref_shortfall_apply (n : Fin 100000) (j : Fin 512) :
    val_main_v184 (F := Ideal) x0 x1 x8 x9 x11 (ix2 n j)
      = max (CONS x0 x1 x8 x9 x11 n j - x0 (ix2 n (⟨128 + j.val, by have := j.isLt; omega⟩ : Fin 640)))
          (Ideal.ofBits .f32 0x00000000#32) := by
  rw [val_main_v184_apply, val_main_v183_apply, val_main_call3_v0_apply, val_main_call3_cst_apply, ref_cons_apply,
    val_main_v1_apply, idx_v1_ix2]
  rfl

/-- The served amount `min(consumed, inventory)` at `(n, j)`. -/
theorem ref_served_apply (n : Fin 100000) (j : Fin 512) :
    val_main_v188 (F := Ideal) x0 x1 x8 x9 x11 (ix2 n j)
      = min (CONS x0 x1 x8 x9 x11 n j) (x0 (ix2 n (⟨128 + j.val, by have := j.isLt; omega⟩ : Fin 640))) := by
  rw [val_main_v188_apply, ref_cons_apply, val_main_v1_apply, idx_v1_ix2]
  rfl

/-- The total shortfall as a double sum over rows and columns. -/
theorem ref_shortfall_sum :
    ∑ i : S100000x512.Idx, val_main_v184 (F := Ideal) x0 x1 x8 x9 x11 i
      = ∑ n : Fin 100000, ∑ j : Fin 512,
          max (CONS x0 x1 x8 x9 x11 n j - x0 (ix2 n (⟨128 + j.val, by have := j.isLt; omega⟩ : Fin 640)))
            (Ideal.ofBits .f32 0x00000000#32) := by
  refine (sum_idx2 (n0 := 100000) (n1 := 512) _).trans ?_
  exact Finset.sum_congr rfl fun n _ => Finset.sum_congr rfl fun j _ => ref_shortfall_apply x0 x1 x8 x9 x11 n j

/-- The total served amount as a double sum over rows and columns. -/
theorem ref_served_sum :
    ∑ i : S100000x512.Idx, val_main_v188 (F := Ideal) x0 x1 x8 x9 x11 i
      = ∑ n : Fin 100000, ∑ j : Fin 512,
          min (CONS x0 x1 x8 x9 x11 n j) (x0 (ix2 n (⟨128 + j.val, by have := j.isLt; omega⟩ : Fin 640))) := by
  refine (sum_idx2 (n0 := 100000) (n1 := 512) _).trans ?_
  exact Finset.sum_congr rfl fun n _ => Finset.sum_congr rfl fun j _ => ref_served_apply x0 x1 x8 x9 x11 n j

/-- The loss: five times the mean shortfall less one times the mean served amount, every constant its literal word. -/
theorem ref_loss :
    val_main_v192 (F := Ideal) x0 x1 x8 x9 x11 ix0
      = Ideal.ofBits .f32 0x40A00000#32
          * Ideal.div (Ideal.ofBits .f32 0x00000000#32 + ∑ n : Fin 100000, ∑ j : Fin 512,
              max (CONS x0 x1 x8 x9 x11 n j - x0 (ix2 n (⟨128 + j.val, by have := j.isLt; omega⟩ : Fin 640)))
                (Ideal.ofBits .f32 0x00000000#32)) (Ideal.ofBits .f32 0x4C435000#32)
        - Ideal.ofBits .f32 0x3F800000#32
          * Ideal.div (Ideal.ofBits .f32 0x00000000#32 + ∑ n : Fin 100000, ∑ j : Fin 512,
              min (CONS x0 x1 x8 x9 x11 n j) (x0 (ix2 n (⟨128 + j.val, by have := j.isLt; omega⟩ : Fin 640))))
              (Ideal.ofBits .f32 0x4C435000#32) := by
  rw [val_main_v192_apply, val_main_v187_apply, val_main_v191_apply, val_main_v186_apply, val_main_v190_apply,
    val_main_v185_apply, val_main_v189_apply, ref_shortfall_sum, ref_served_sum]
  rfl

end

end Cert.ReferenceIdeal.RefValue

end
-- ==== Proof.RefValue.lean ====
/-
  The reference's results read at an index, on the extended reals: the new state (`ref_state_apply`, RefValueGru), the new
  inventory (`ref_inv_apply`, RefValueInv), the loss (`ref_loss`, RefValueLoss), and here the first result, the two
  joined along the columns: column `c < 128` of the new memory array is the new state's column `c`, column `c ≥ 128` the
  new inventory's column `c − 128`.
-/
import proofs.«115542_j63840393888431_2_alg».proof.Proof.RefValueGru
import proofs.«115542_j63840393888431_2_alg».proof.Proof.RefValueInv
import proofs.«115542_j63840393888431_2_alg».proof.Proof.RefValueLoss

noncomputable section

namespace Cert.ReferenceIdeal.RefValue

open Idealize.ShloMosaic Idealize.ShloMosaic.ValueIdx Cert.ReferenceIdeal Cert.ReferenceIdeal.ReadP

section
variable (x0 : (⟨S100000x640, .f32⟩ : BufTy).Contents (Elt Ideal)) (x1 : (⟨S50000x64, .f32⟩ : BufTy).Contents (Elt Ideal))
  (x2 x3 : (⟨S32, .f32⟩ : BufTy).Contents (Elt Ideal)) (x4 : (⟨S384x480, .f32⟩ : BufTy).Contents (Elt Ideal))
  (x5 : (⟨S384x128, .f32⟩ : BufTy).Contents (Elt Ideal)) (x6 x7 : (⟨S384, .f32⟩ : BufTy).Contents (Elt Ideal))
  (x8 : (⟨S128x128, .f32⟩ : BufTy).Contents (Elt Ideal))
  (x9 x10 x11 x12 : (⟨S50000, .i32⟩ : BufTy).Contents (Elt Ideal)) (x13 : (⟨S100000, .i32⟩ : BufTy).Contents (Elt Ideal))

/-- The new memory array at `(n, c)`: the new state left of column 128, the new inventory from column 128 on. -/
theorem ref_out0_apply (n : Fin 100000) (c : Fin 640) :
    val_main_v195 (F := Ideal) x0 x1 x2 x3 x4 x5 x6 x7 x8 x9 x10 x11 x12 x13 (ix2 n c)
      = if h : c.val < 128 then val_main_v131 (F := Ideal) x0 x1 x2 x3 x4 x5 x6 x7 x9 x10 x11 x12 x13 (ix2 n (⟨c.val, h⟩ : Fin 128))
        else val_main_v194 (F := Ideal) x0 x1 x8 x9 x10 x11
          (ix2 n (⟨c.val - 128, by have := c.isLt; omega⟩ : Fin 512)) := by
  unfold val_main_v195
  split
  · next h =>
    exact concatenate_pair_apply_left (t := S100000x640) (s₁ := S100000x128) (s₂ := S100000x512) 1 _ _ _ (ix2 n c) rfl
      (ix2 n (⟨c.val, h⟩ : Fin 128))
      (fun b => match b with | ⟨0, _⟩ => rfl | ⟨1, _⟩ => rfl)
  · next h =>
    exact concatenate_pair_apply_right (t := S100000x640) (s₁ := S100000x128) (s₂ := S100000x512) 1 _ _ _ (ix2 n c) rfl rfl
      (ix2 n (⟨c.val - 128, by have := c.isLt; omega⟩ : Fin 512))
      (fun b hb => match b, hb with | ⟨0, _⟩, _ => rfl | ⟨1, _⟩, hb => absurd rfl hb)
      (by show c.val - 128 + 128 = c.val; omega)

end

end Cert.ReferenceIdeal.RefValue

end
-- ==== Proof.Bridge.lean ====
/-
  Two pure bridges between the reference's entry-by-entry formulas and the whole-array functions the kernel side is stated
  in. No program runs here: both sides are functions of the argument arrays on the extended reals.

  * The new memory array. In a state column both sides are the GRU cell of the same six gate pre-activations and the same
    old state: the kernel side's pre-activations contract against the TRANSPOSED weight matrices and read the biases as
    one-row arrays, so they equal the reference's once the staged arrays are the transposes / the one-row copies (the
    hypotheses `h1` … `h6`). In an inventory column both sides are the old inventory less the consumed amount, and the
    reference adds what was bought.
  * The loss. Both sides are the same expression of the total shortfall and the total served amount; the reference spells
    the zero inside `max` as its f32 word, which denotes 0.
-/
import proofs.«115542_j63840393888431_2_alg».proof.Proof.RefValue
import proofs.«115542_j63840393888431_2_alg».proof.Proof.KSpec
import proofs.«115542_j63840393888431_2_alg».proof.Proof.Spec

noncomputable section

namespace Cert.Bridge

open Idealize.ShloMosaic Idealize.ShloMosaic.ValueIdx Cert.ReferenceIdeal Cert.ReferenceIdeal.ReadP Cert.ReferenceIdeal.RefValue

section
variable (x0 : (⟨S100000x640, .f32⟩ : BufTy).Contents (Elt Ideal)) (x1 : (⟨S50000x64, .f32⟩ : BufTy).Contents (Elt Ideal))
  (x2 x3 : (⟨S32, .f32⟩ : BufTy).Contents (Elt Ideal)) (x4 : (⟨S384x480, .f32⟩ : BufTy).Contents (Elt Ideal))
  (x5 : (⟨S384x128, .f32⟩ : BufTy).Contents (Elt Ideal)) (x6 x7 : (⟨S384, .f32⟩ : BufTy).Contents (Elt Ideal))
  (x8 : (⟨S128x128, .f32⟩ : BufTy).Contents (Elt Ideal))
  (x9 x10 x11 x12 : (⟨S50000, .i32⟩ : BufTy).Contents (Elt Ideal)) (x13 : (⟨S100000, .i32⟩ : BufTy).Contents (Elt Ideal))

/-- The consumed amount is one sum on both sides. -/
theorem cons_eq (n : Fin 100000) (j : Fin 512) :
    Cert.KSpec.cons (val_main_v161 (F := Ideal) x1 x9 x11) (val_main_v181 (F := Ideal) x0 x8) n j
      = CONS x0 x1 x8 x9 x11 n j := rfl

/-- The input-side pre-activation: the contraction against the transposed weights is the contraction against the weights
    with the indices exchanged, and the one-row bias array reads the bias. -/
theorem gI_eq (a1 : Cert.KSpec.A480.Idx → EReal) (a3 : Cert.KSpec.W480.Idx → EReal) (a5 : Cert.KSpec.B384.Idx → EReal)
    (h1 : ∀ (n : Fin 100000) (k : Fin 480), a1 (ix2 n k) = val_main_v93 (F := Ideal) x0 x1 x2 x3 x9 x10 x11 x12 x13 (ix2 n k))
    (h3 : ∀ (k : Fin 480) (j : Fin 384), a3 (ix2 k j) = x4 (ix2 j k))
    (h5 : ∀ j : Fin 384, a5 (ix2 (0 : Fin 1) j) = x6 (ix1 j))
    (n : Fin 100000) (j' : Fin 384) :
    Cert.KSpec.gI a1 a3 a5 n j' = GI x0 x1 x2 x3 x4 x6 x9 x10 x11 x12 x13 n j' := by
  unfold Cert.KSpec.gI GI
  rw [h5]
  exact congrArg (· + x6 (ix1 j')) (Finset.sum_congr rfl fun k _ => by rw [h1, h3])

/-- The hidden-side pre-activation, likewise. -/
theorem gH_eq (a4 : Cert.KSpec.W128.Idx → EReal) (a6 : Cert.KSpec.B384.Idx → EReal)
    (h4 : ∀ (k : Fin 128) (j : Fin 384), a4 (ix2 k j) = x5 (ix2 j k))
    (h6 : ∀ j : Fin 384, a6 (ix2 (0 : Fin 1) j) = x7 (ix1 j))
    (n : Fin 100000) (j' : Fin 384) :
    Cert.KSpec.gH x0 a4 a6 n j' = GH x0 x5 x7 n j' := by
  unfold Cert.KSpec.gH GH
  rw [h6]
  exact congrArg (· + x7 (ix1 j')) (Finset.sum_congr rfl fun k _ => by rw [h4])

/-- The new memory array: the kernel side's whole-array function, with what was bought added in the inventory columns, is
    the reference's first result entry by entry. -/
theorem mem_eq (a1 : Cert.KSpec.A480.Idx → EReal) (a3 : Cert.KSpec.W480.Idx → EReal) (a4 : Cert.KSpec.W128.Idx → EReal)
    (a5 a6 : Cert.KSpec.B384.Idx → EReal)
    (h1 : ∀ (n : Fin 100000) (k : Fin 480), a1 (ix2 n k) = val_main_v93 (F := Ideal) x0 x1 x2 x3 x9 x10 x11 x12 x13 (ix2 n k))
    (h3 : ∀ (k : Fin 480) (j : Fin 384), a3 (ix2 k j) = x4 (ix2 j k))
    (h4 : ∀ (k : Fin 128) (j : Fin 384), a4 (ix2 k j) = x5 (ix2 j k))
    (h5 : ∀ j : Fin 384, a5 (ix2 (0 : Fin 1) j) = x6 (ix1 j))
    (h6 : ∀ j : Fin 384, a6 (ix2 (0 : Fin 1) j) = x7 (ix1 j))
    (n : Fin 100000) (c : Fin 640) :
    (if h : c.val < 128 then
        Cert.KSpec.newMem (Ideal.ofBits .f32 0x3F800000#32) x0 a1 (val_main_v161 (F := Ideal) x1 x9 x11) a3 a4 a5 a6
          (val_main_v181 (F := Ideal) x0 x8) n c
      else
        Cert.KSpec.newMem (Ideal.ofBits .f32 0x3F800000#32) x0 a1 (val_main_v161 (F := Ideal) x1 x9 x11) a3 a4 a5 a6
          (val_main_v181 (F := Ideal) x0 x8) n c
          + val_main_v176 (F := Ideal) x1 x10 x11 (ix2 n (⟨c.val - 128, by have := c.isLt; omega⟩ : Fin 512)))
      = val_main_v195 (F := Ideal) x0 x1 x2 x3 x4 x5 x6 x7 x8 x9 x10 x11 x12 x13 (ix2 n c) := by
  rw [ref_out0_apply]
  by_cases h : c.val < 128
  · rw [dif_pos h, dif_pos h, ref_state_apply]
    unfold Cert.KSpec.newMem
    rw [dif_pos h]
    simp only [gI_eq x0 x1 x2 x3 x4 x6 x9 x10 x11 x12 x13 a1 a3 a5 h1 h3 h5, gH_eq x0 x5 x7 a4 a6 h4 h6]
  · rw [dif_neg h, dif_neg h, ref_inv_apply]
    unfold Cert.KSpec.newMem
    rw [dif_neg h, cons_eq]
    exact congrArg (· + val_main_v176 (F := Ideal) x1 x10 x11 (ix2 n (⟨c.val - 128, by have := c.isLt; omega⟩ : Fin 512)))
      (congrArg (· - CONS x0 x1 x8 x9 x11 n (⟨c.val - 128, by have := c.isLt; omega⟩ : Fin 512))
        (congrArg x0 (congrArg (ix2 n) (Fin.ext (by show c.val = 128 + (c.val - 128); omega)))))

/-- The total shortfall on the kernel side's terms is the reference's (whose zero inside `max` is the word of 0). -/
theorem shortfall_eq :
    (∑ n : Fin 100000, ∑ j : Fin 512,
        max (Cert.KSpec.cons (val_main_v161 (F := Ideal) x1 x9 x11) (val_main_v181 (F := Ideal) x0 x8) n j
              - Cert.KSpec.inv x0 n j) 0)
      = ∑ n : Fin 100000, ∑ j : Fin 512,
          max (CONS x0 x1 x8 x9 x11 n j - x0 (ix2 n (⟨128 + j.val, by have := j.isLt; omega⟩ : Fin 640)))
            (Ideal.ofBits .f32 0x00000000#32) :=
  Finset.sum_congr rfl fun n _ => Finset.sum_congr rfl fun j _ => by rw [Ideal.ofBits_zero_f32]; rfl

/-- The total served amount on the kernel side's terms is the reference's. -/
theorem served_eq :
    (∑ n : Fin 100000, ∑ j : Fin 512,
        min (Cert.KSpec.cons (val_main_v161 (F := Ideal) x1 x9 x11) (val_main_v181 (F := Ideal) x0 x8) n j)
          (Cert.KSpec.inv x0 n j))
      = ∑ n : Fin 100000, ∑ j : Fin 512,
          min (CONS x0 x1 x8 x9 x11 n j) (x0 (ix2 n (⟨128 + j.val, by have := j.isLt; omega⟩ : Fin 640))) :=
  Finset.sum_congr rfl fun n _ => Finset.sum_congr rfl fun j _ => rfl

/-- The loss: five times the mean shortfall less one times the mean served amount, on the kernel side's terms, is the
    reference's third result. -/
theorem loss_eq :
    Ideal.ofBits .f32 0x40A00000#32
        * Ideal.div (Ideal.ofBits .f32 0x00000000#32 + ∑ n : Fin 100000, ∑ j : Fin 512,
            max (Cert.KSpec.cons (val_main_v161 (F := Ideal) x1 x9 x11) (val_main_v181 (F := Ideal) x0 x8) n j
                  - Cert.KSpec.inv x0 n j) 0) (Ideal.ofBits .f32 0x4C435000#32)
      - Ideal.ofBits .f32 0x3F800000#32
        * Ideal.div (Ideal.ofBits .f32 0x00000000#32 + ∑ n : Fin 100000, ∑ j : Fin 512,
            min (Cert.KSpec.cons (val_main_v161 (F := Ideal) x1 x9 x11) (val_main_v181 (F := Ideal) x0 x8) n j)
              (Cert.KSpec.inv x0 n j)) (Ideal.ofBits .f32 0x4C435000#32)
      = val_main_v192 (F := Ideal) x0 x1 x8 x9 x11 ix0 := by
  rw [ref_loss, shortfall_eq, served_eq]

end

end Cert.Bridge

end
-- ==== Proof.LibScatterAddPoint.lean ====
/-
  POINTWISE ACCUMULATING SCATTER INTO A MATRIX READ AT AN INDEX: a general fact about `stablehlo.scatter` with an `add`
  body.

  Adding scalar updates into the entries of a matrix `x : [N, D]`, with the position of each update given as a
  (row, column) pair in an integer array `idx : [M, 2]` and the updates `upd : [M]` (what `x.at[rows, cols].add(upd)`
  lowers to), is a scatter with update_window_dims `[]`, inserted_window_dims `[0, 1]`, scatter_dims_to_operand_dims
  `[0, 1]` and index_vector_dim `1` (`pointScatterDims`).

  The operand index an update index `e` lands at is, per operand axis, `start + window coordinate`
  (`ScatterDims.resultIdx?`):

  * on operand axis 0, the start is the row number `idx[e, 0]`, on operand axis 1 the column number `idx[e, 1]`, each
    read as a SIGNED integer and NOT clamped;
  * both operand axes are inserted window axes (the updates have no window axis at all), so both window coordinates
    are `0`.

  So update `e` lands at `(idx[e, 0], idx[e, 1])` when `0 ≤ idx[e, 0] < N` and `0 ≤ idx[e, 1] < D`, and is dropped
  otherwise (`resultIdx?_point`). Hence the scatter's value at `(n, k)` is the operand's entry plus the sum, over the
  updates `e` whose pair is `(n, k)`, of `upd[e]` (`scatterAdd_point_apply`).
-/
import Idealize.ShloMosaic.PureOps.Ideal
import Idealize.ShloMosaic.Lib.ValueIdx

noncomputable section

namespace Cert.Lib

open Idealize.ShloMosaic Idealize.ShloMosaic.ValueIdx

/-- The dimension numbers of a pointwise scatter into a matrix: operand `[N, D]`, scatter indices `[M, 2]` (one
    (row, column) pair per update), updates `[M]`; update_window_dims `[]`, inserted_window_dims `[0, 1]`,
    scatter_dims_to_operand_dims `[0, 1]`, index_vector_dim `1`. -/
abbrev pointScatterDims (N D M : Nat)
    (wf : ScatterDims.WF ⟨2, ![N, D]⟩ ⟨2, ![M, 2]⟩ ⟨1, ![M]⟩ [] [0, 1] [0, 1] 1) :
    ScatterDims ⟨2, ![N, D]⟩ ⟨2, ![M, 2]⟩ ⟨1, ![M]⟩ where
  updateWindowDims := []
  insertedWindowDims := [0, 1]
  scatterDimsToOperandDims := [0, 1]
  indexVectorDim := 1
  wf := wf

/-- `0` is one of the two operand axes `[0, 1]`. -/
theorem scatter_point_mem0 : (0 : Fin 2) ∈ ([0, 1] : List (Fin 2)) := by decide
/-- `1` is one of the two operand axes `[0, 1]`. -/
theorem scatter_point_mem1 : (1 : Fin 2) ∈ ([0, 1] : List (Fin 2)) := by decide

section Summands
variable {N D M w : Nat} (wf : ScatterDims.WF ⟨2, ![N, D]⟩ ⟨2, ![M, 2]⟩ ⟨1, ![M]⟩ [] [0, 1] [0, 1] 1)

/-- On operand axis 0 the window of update `e` starts at the row number `idx[e, 0]`, read signed. -/
theorem scatter_point_start0 (idx : IVec ⟨2, ![M, 2]⟩ w) (e : Fin M) :
    (pointScatterDims N D M wf).start (ix1 e) idx 0 = (idx (ix2 e (0 : Fin 2))).toInt := by
  unfold ScatterDims.start
  rw [dif_pos (show (0 : Fin 2) ∈ (pointScatterDims N D M wf).scatterDimsToOperandDims from scatter_point_mem0)]
  have hsi : (pointScatterDims N D M wf).siIdx (ix1 e)
      ⟨List.idxOf (0 : Fin 2) (pointScatterDims N D M wf).scatterDimsToOperandDims,
        List.idxOf_lt_length_iff.2 scatter_point_mem0⟩ = ix2 e (0 : Fin 2) := by
    funext b; refine Fin.ext ?_
    match b with
    | ⟨0, _⟩ => rfl
    | ⟨1, _⟩ => rfl
  rw [hsi]

/-- On operand axis 1 the window of update `e` starts at the column number `idx[e, 1]`, read signed. -/
theorem scatter_point_start1 (idx : IVec ⟨2, ![M, 2]⟩ w) (e : Fin M) :
    (pointScatterDims N D M wf).start (ix1 e) idx 1 = (idx (ix2 e (1 : Fin 2))).toInt := by
  unfold ScatterDims.start
  rw [dif_pos (show (1 : Fin 2) ∈ (pointScatterDims N D M wf).scatterDimsToOperandDims from scatter_point_mem1)]
  have hsi : (pointScatterDims N D M wf).siIdx (ix1 e)
      ⟨List.idxOf (1 : Fin 2) (pointScatterDims N D M wf).scatterDimsToOperandDims,
        List.idxOf_lt_length_iff.2 scatter_point_mem1⟩ = ix2 e (1 : Fin 2) := by
    funext b; refine Fin.ext ?_
    match b with
    | ⟨0, _⟩ => rfl
    | ⟨1, _⟩ => rfl
  rw [hsi]

/-- Both operand axes are inserted window axes: every window coordinate is `0`. -/
theorem scatter_point_window (e : Fin M) (a : Fin 2) :
    (pointScatterDims N D M wf).window (ix1 e) a = 0 := by
  unfold ScatterDims.window
  rw [dif_neg]
  intro h
  have h2 := (List.mem_filter.mp h).2
  match a with
  | ⟨0, _⟩ => simp at h2
  | ⟨1, _⟩ => simp at h2

end Summands

/-! ## Where an update lands -/

section Lands
variable {N D M w : Nat} (wf : ScatterDims.WF ⟨2, ![N, D]⟩ ⟨2, ![M, 2]⟩ ⟨1, ![M]⟩ [] [0, 1] [0, 1] 1)

/-- Update `e` lands at operand index `(n, k)` exactly when its row number `idx[e, 0]` is `n` and its column number
    `idx[e, 1]` is `k`, both read signed; an update with either number out of range lands nowhere. -/
theorem resultIdx?_point (idx : IVec ⟨2, ![M, 2]⟩ w) (e : Fin M) (n : Fin N) (k : Fin D) :
    (pointScatterDims N D M wf).resultIdx? (ix1 e) idx = some (ix2 n k)
      ↔ (idx (ix2 e (0 : Fin 2))).toInt = (n.val : Int) ∧ (idx (ix2 e (1 : Fin 2))).toInt = (k.val : Int) := by
  have hs0 := scatter_point_start0 (N := N) (D := D) wf idx e
  have hs1 := scatter_point_start1 (N := N) (D := D) wf idx e
  have hw0 := scatter_point_window (N := N) (D := D) wf e 0
  have hw1 := scatter_point_window (N := N) (D := D) wf e 1
  unfold ScatterDims.resultIdx?
  split
  · rename_i h
    constructor
    · intro heq
      have hf := Option.some.inj heq
      have h0 := congrArg (fun f => (f 0).val) hf
      have h1 := congrArg (fun f => (f 1).val) hf
      simp only [hs0, hs1, hw0, hw1] at h0 h1
      have hh0 := (h 0).1
      have hh1 := (h 1).1
      rw [hs0, hw0] at hh0
      rw [hs1, hw1] at hh1
      have e0 : ((ix2 n k : (⟨2, ![N, D]⟩ : Shape).Idx) 0).val = n.val := rfl
      have e1 : ((ix2 n k : (⟨2, ![N, D]⟩ : Shape).Idx) 1).val = k.val := rfl
      rw [e0] at h0
      rw [e1] at h1
      refine ⟨by omega, by omega⟩
    · rintro ⟨hn, hk⟩
      congr 1
      funext a
      refine Fin.ext ?_
      match a with
      | ⟨0, _⟩ =>
        show ((pointScatterDims N D M wf).start (ix1 e) idx 0
          + ((pointScatterDims N D M wf).window (ix1 e) 0 : Int)).toNat = n.val
        rw [hs0, hw0, hn]; omega
      | ⟨1, _⟩ =>
        show ((pointScatterDims N D M wf).start (ix1 e) idx 1
          + ((pointScatterDims N D M wf).window (ix1 e) 1 : Int)).toNat = k.val
        rw [hs1, hw1, hk]; omega
  · rename_i h
    constructor
    · intro heq; exact absurd heq (by simp)
    · rintro ⟨hn, hk⟩
      exfalso
      apply h
      intro a
      match a with
      | ⟨0, _⟩ =>
        show 0 ≤ (pointScatterDims N D M wf).start (ix1 e) idx 0
            + ((pointScatterDims N D M wf).window (ix1 e) 0 : Int)
          ∧ (pointScatterDims N D M wf).start (ix1 e) idx 0
            + ((pointScatterDims N D M wf).window (ix1 e) 0 : Int) < (N : Int)
        rw [hs0, hw0, hn]
        have := n.isLt
        omega
      | ⟨1, _⟩ =>
        show 0 ≤ (pointScatterDims N D M wf).start (ix1 e) idx 1
            + ((pointScatterDims N D M wf).window (ix1 e) 1 : Int)
          ∧ (pointScatterDims N D M wf).start (ix1 e) idx 1
            + ((pointScatterDims N D M wf).window (ix1 e) 1 : Int) < (D : Int)
        rw [hs1, hw1, hk]
        have := k.isLt
        omega

end Lands

/-! ## The scatter read at an index -/

/-- THE ACCUMULATING POINTWISE SCATTER READ AT `(n, k)`: the operand's entry plus the sum, over the updates `e` whose
    (row, column) pair `(idx[e, 0], idx[e, 1])` (each read as a SIGNED integer, not clamped) is `(n, k)`, of the update
    `upd[e]`. -/
theorem scatterAdd_point_apply {N D M w : Nat}
    (wf : ScatterDims.WF ⟨2, ![N, D]⟩ ⟨2, ![M, 2]⟩ ⟨1, ![M]⟩ [] [0, 1] [0, 1] 1)
    (x : (⟨2, ![N, D]⟩ : Shape).Idx → EReal) (idx : IVec ⟨2, ![M, 2]⟩ w) (upd : (⟨1, ![M]⟩ : Shape).Idx → EReal)
    (n : Fin N) (k : Fin D) :
    Ideal.hostScatterAdd (pointScatterDims N D M wf) x idx upd (ix2 n k)
      = x (ix2 n k) + ∑ e ∈ Finset.univ.filter (fun e : Fin M =>
          (idx (ix2 e (0 : Fin 2))).toInt = (n.val : Int) ∧ (idx (ix2 e (1 : Fin 2))).toInt = (k.val : Int)), upd (ix1 e) := by
  unfold Ideal.hostScatterAdd
  congr 1
  -- every update index is `(e)`; it lands at `(n, k)` iff `idx[e, 0] = n` and `idx[e, 1] = k`
  have hland : ∀ J : (⟨1, ![M]⟩ : Shape).Idx,
      (pointScatterDims N D M wf).resultIdx? J idx = some (ix2 n k)
        ↔ (idx (ix2 (J 0 : Fin M) (0 : Fin 2))).toInt = (n.val : Int)
          ∧ (idx (ix2 (J 0 : Fin M) (1 : Fin 2))).toInt = (k.val : Int) := by
    intro J
    obtain ⟨a, rfl⟩ : ∃ (a : Fin M), J = ix1 a := ⟨J 0, eq_ix1 J⟩
    exact resultIdx?_point wf idx a n k
  refine Finset.sum_nbij' (fun J => (J 0 : Fin M)) (fun e => ix1 e) ?_ ?_ ?_ ?_ ?_
  · intro J hJ
    rw [Finset.mem_filter] at hJ
    exact Finset.mem_filter.mpr ⟨Finset.mem_univ _, (hland J).mp hJ.2⟩
  · intro e he
    rw [Finset.mem_filter] at he
    exact Finset.mem_filter.mpr ⟨Finset.mem_univ _, (resultIdx?_point wf idx e n k).mpr he.2⟩
  · intro J _
    exact (eq_ix1 J).symm
  · intro e _
    rfl
  · intro J _
    exact congrArg upd (eq_ix1 J)

end Cert.Lib

end
-- ==== Proof.BoughtBridge.lean ====
/-
  THE BOUGHT AMOUNTS: THE KERNEL'S LAST SCATTER ADDS, AT INVENTORY COLUMN c - 128, WHAT THE REFERENCE'S SCATTER ADDS.

  E = 50000 events, N = 100000 nodes. For event e let

    p[e]    = prod[e] - 99488                         (32-bit words)
    amt[e]  = max(1.0, raw_msg[e, 0])
    dstN[e] = dst[e] + 100000 if dst[e] < 0 else dst[e]

  The kernel adds amt[e] into entry (dstN[e], colK[e]) of a [100000, 640] array B, where q[e] = 128 + p[e] and
  colK[e] = q[e] + 640 if q[e] < 0 else q[e]. The reference adds amt[e] into entry (dstN[e], colR[e]) of a
  [100000, 512] array of zeros, where colR[e] = p[e] + 512 if p[e] < 0 else p[e]. Both are pointwise accumulating
  scatters: the value at (n, k) is the operand's entry plus the sum of amt[e] over the events e whose (row, column)
  pair, read as signed integers, is (n, k).

  Under 99488 <= prod[e] < 100000 (signed) for every e:
    * prod[e] - 99488 lies in [0, 512), so the 32-bit subtraction does not wrap and p[e], read signed, is that number;
    * 128 + p[e] lies in [128, 640), so the 32-bit addition does not wrap either;
    * neither p[e] nor q[e] is negative, so both selects keep the unshifted word: colR[e] = p[e], colK[e] = 128 + p[e].
  Hence colK[e] = c exactly when c >= 128 and colR[e] = c - 128, and no event has colK[e] < 128. The row numbers and
  the amounts are the same operations of the same arguments in both programs. So at (n, c) the kernel's scatter is
  B[n, c] when c < 128, and B[n, c] + (0 + the reference's sum at (n, c - 128)) otherwise.

  Without the bound the statement is false: p[e] = -1 sends the kernel's update to column 127 and the reference's to
  column 511.
-/
import proofs.«115542_j63840393888431_2_alg».proof.KernelIdeal
import proofs.«115542_j63840393888431_2_alg».proof.ReferenceIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.WordArith
import Idealize.ShloMosaic.Lib.Affine
import proofs.«115542_j63840393888431_2_alg».proof.Proof.LibScatterAddPoint

noncomputable section

namespace Cert.BoughtBridge

open Idealize.ShloMosaic Idealize.ShloMosaic.ValueIdx Idealize.ShloMosaic.WordArith Cert.Lib

/-! ## One product word

  `w` is one entry of prod, with 99488 <= w < 100000 read signed. -/

section Words

/-- The literal 99488 read signed. -/
theorem toInt_lit_99488 : (99488#32 : BitVec 32).toInt = 99488 := toInt_ofNat_small 99488 (by norm_num)
/-- The literal 128 read signed. -/
theorem toInt_lit_128 : (128#32 : BitVec 32).toInt = 128 := toInt_ofNat_small 128 (by norm_num)
/-- The literal 0 read signed. -/
theorem toInt_lit_0 : (0#32 : BitVec 32).toInt = 0 := toInt_ofNat_small 0 (by norm_num)

variable (w : BitVec 32) (h : (99488 : Int) ≤ w.toInt ∧ w.toInt < 100000)
include h

/-- `w - 99488` does not wrap: the difference lies in [0, 512). -/
theorem toInt_p : (IntOp.subi w 99488#32).toInt = w.toInt - 99488 := by
  unfold IntOp.subi
  have e := toInt_lit_99488
  refine (toInt_sub_of_bounds w 99488#32 ?_ ?_).trans ?_
  · rw [e]; omega
  · rw [e]; omega
  · rw [e]

/-- `w - 99488` is not negative, so the reference's wrap of a negative column index keeps it. -/
theorem select_p :
    Scalar.select (IntOp.cmpi .slt (IntOp.subi w 99488#32) 0#32) (IntOp.addi (IntOp.subi w 99488#32) 512#32)
      (IntOp.subi w 99488#32) = IntOp.subi w 99488#32 := by
  have hc : ¬ IntOp.cmpi .slt (IntOp.subi w 99488#32) 0#32 = 1#1 := by
    rw [IntOp.cmpi_slt, toInt_p w h, toInt_lit_0]; omega
  rw [eq_zero_of_ne_one hc, select_zero]

/-- `128 + (w - 99488)` does not wrap: the sum lies in [128, 640). -/
theorem toInt_q : (IntOp.addi 128#32 (IntOp.subi w 99488#32)).toInt = 128 + (w.toInt - 99488) := by
  have ep := toInt_p w h
  have e := toInt_lit_128
  unfold IntOp.addi
  refine (toInt_add_of_bounds 128#32 (IntOp.subi w 99488#32) ?_ ?_).trans ?_
  · rw [e, ep]; omega
  · rw [e, ep]; omega
  · rw [e, ep]

/-- `128 + (w - 99488)` is not negative, so the kernel's wrap of a negative column index keeps it. -/
theorem select_q :
    Scalar.select (IntOp.cmpi .slt (IntOp.addi 128#32 (IntOp.subi w 99488#32)) 0#32)
      (IntOp.addi (IntOp.addi 128#32 (IntOp.subi w 99488#32)) 640#32)
      (IntOp.addi 128#32 (IntOp.subi w 99488#32)) = IntOp.addi 128#32 (IntOp.subi w 99488#32) := by
  have hc : ¬ IntOp.cmpi .slt (IntOp.addi 128#32 (IntOp.subi w 99488#32)) 0#32 = 1#1 := by
    rw [IntOp.cmpi_slt, toInt_q w h, toInt_lit_0]; omega
  rw [eq_zero_of_ne_one hc, select_zero]

end Words

/-! ## The kernel's terms -/

section Kernel
open Cert.KernelIdeal Cert.KernelIdeal.Facts₀
variable [Cert.KernelIdeal.Facts₀]

/-- The kernel's amounts: column 0 of raw_msg, as a vector, clipped below at 1.0. -/
def amtK (x1 : FVec Ideal S50000x64 .f32) : FVec Ideal S50000 .f32 :=
  maximumf (broadcastInDim S50000 ![] bcast_S_S50000 (id (constant (F := Ideal) S_ .f32 0x3F800000#32)))
    (shapeCast S50000 (extractStridedSlice S50000x1 ![0, 0] x1 slices_S50000x64_S50000x1_0_0) shapeCasts_S50000x1_S50000)

/-- The kernel's (row, column) pairs: the column dstN beside the column colK, where q = 128 + (prod - 99488) and
    colK = q + 640 if q < 0 else q. -/
def idxK (x10 x11 : IVec S50000 32) : IVec S50000x2 32 :=
  concatenate S50000x2 1
    [⟨S50000x1, broadcastInDim S50000x1 ![0] bcast_S50000_S50000x1_0
        (select (cmpi .slt x10 (broadcastInDim S50000 ![] bcast_S_S50000 (constantI S_ 32 0#32)))
          (addi x10 (broadcastInDim S50000 ![] bcast_S_S50000 (constantI S_ 32 100000#32))) x10)⟩,
     ⟨S50000x1, broadcastInDim S50000x1 ![0] bcast_S50000_S50000x1_0
        (select
          (cmpi .slt
            (addi (broadcastInDim S50000 ![] bcast_S_S50000 (constantI S_ 32 128#32))
              (subi x11 (broadcastInDim S50000 ![] bcast_S_S50000 (constantI S_ 32 99488#32))))
            (broadcastInDim S50000 ![] bcast_S_S50000 (constantI S_ 32 0#32)))
          (addi
            (addi (broadcastInDim S50000 ![] bcast_S_S50000 (constantI S_ 32 128#32))
              (subi x11 (broadcastInDim S50000 ![] bcast_S_S50000 (constantI S_ 32 99488#32))))
            (broadcastInDim S50000 ![] bcast_S_S50000 (constantI S_ 32 640#32)))
          (addi (broadcastInDim S50000 ![] bcast_S_S50000 (constantI S_ 32 128#32))
            (subi x11 (broadcastInDim S50000 ![] bcast_S_S50000 (constantI S_ 32 99488#32)))))⟩]
    concatenates_S50000x1_S50000x1_S50000x2_d1

/-- A vector as a one-column matrix, read at a row: the vector's entry. -/
theorem colK_apply (x : IVec S50000 32) (e : Fin 50000) :
    broadcastInDim S50000x1 ![0] bcast_S50000_S50000x1_0 x (ix2 e (0 : Fin 1)) = x (ix1 e) :=
  broadcastInDim_apply _ bcast_S50000_S50000x1_0 x (ix2 e (0 : Fin 1)) (ix1 e) (fun a => match a with
    | ⟨0, _⟩ => by show e.val = if (50000 : Nat) = 1 then 0 else e.val; rw [if_neg (by decide)])

/-- The kernel's row number of event `e`: dst[e], shifted by 100000 when negative. -/
theorem idxK_row (x10 x11 : IVec S50000 32) (e : Fin 50000) :
    idxK x10 x11 (ix2 e (0 : Fin 2))
      = Scalar.select (IntOp.cmpi .slt (x10 (ix1 e)) 0#32) (IntOp.addi (x10 (ix1 e)) 100000#32) (x10 (ix1 e)) := by
  unfold idxK
  refine (concatenate_pair_apply_left _ _ _ concatenates_S50000x1_S50000x1_S50000x2_d1 (ix2 e (0 : Fin 2)) rfl
    (ix2 e (0 : Fin 1)) ?_).trans ?_
  · intro b
    match b with
    | ⟨0, _⟩ => rfl
    | ⟨1, _⟩ => rfl
  · refine (colK_apply _ e).trans ?_
    rfl

/-- The kernel's column number of event `e`: q = 128 + (prod[e] - 99488), shifted by 640 when negative. -/
theorem idxK_col (x10 x11 : IVec S50000 32) (e : Fin 50000) :
    idxK x10 x11 (ix2 e (1 : Fin 2))
      = Scalar.select (IntOp.cmpi .slt (IntOp.addi 128#32 (IntOp.subi (x11 (ix1 e)) 99488#32)) 0#32)
          (IntOp.addi (IntOp.addi 128#32 (IntOp.subi (x11 (ix1 e)) 99488#32)) 640#32)
          (IntOp.addi 128#32 (IntOp.subi (x11 (ix1 e)) 99488#32)) := by
  unfold idxK
  refine (concatenate_pair_apply_right _ _ _ concatenates_S50000x1_S50000x1_S50000x2_d1 (ix2 e (1 : Fin 2)) rfl rfl
    (ix2 e (0 : Fin 1)) ?_ ?_).trans ?_
  · intro b hb
    match b with
    | ⟨0, _⟩ => rfl
    | ⟨1, _⟩ => exact absurd rfl hb
  · rfl
  · refine (colK_apply _ e).trans ?_
    rfl

end Kernel

/-! ## The reference's terms -/

section Reference
open Cert.ReferenceIdeal Cert.ReferenceIdeal.Facts₀
variable [Cert.ReferenceIdeal.Facts₀]

/-- The reference's amounts: column 0 of raw_msg, as a vector, clipped below at 1.0. -/
def amtR (x1 : FVec Ideal S50000x64 .f32) : FVec Ideal S50000 .f32 :=
  maximumf (broadcastInDim S50000 ![] bcast_S_S50000 (id (constant (F := Ideal) S_ .f32 0x3F800000#32)))
    (shapeCast S50000 (extractStridedSlice S50000x1 ![0, 0] x1 slices_S50000x64_S50000x1_0_0) shapeCasts_S50000x1_S50000)

/-- The reference's (row, column) pairs: the column dstN beside the column colR, where p = prod - 99488 and
    colR = p + 512 if p < 0 else p. -/
def idxR (x10 x11 : IVec S50000 32) : IVec S50000x2 32 :=
  concatenate S50000x2 1
    [⟨S50000x1, broadcastInDim S50000x1 ![0] bcast_S50000_S50000x1_0
        (select (cmpi .slt x10 (broadcastInDim S50000 ![] bcast_S_S50000 (constantI S_ 32 0#32)))
          (addi x10 (broadcastInDim S50000 ![] bcast_S_S50000 (constantI S_ 32 100000#32))) x10)⟩,
     ⟨S50000x1, broadcastInDim S50000x1 ![0] bcast_S50000_S50000x1_0
        (select
          (cmpi .slt (subi x11 (broadcastInDim S50000 ![] bcast_S_S50000 (constantI S_ 32 99488#32)))
            (broadcastInDim S50000 ![] bcast_S_S50000 (constantI S_ 32 0#32)))
          (addi (subi x11 (broadcastInDim S50000 ![] bcast_S_S50000 (constantI S_ 32 99488#32)))
            (broadcastInDim S50000 ![] bcast_S_S50000 (constantI S_ 32 512#32)))
          (subi x11 (broadcastInDim S50000 ![] bcast_S_S50000 (constantI S_ 32 99488#32))))⟩]
    concatenates_S50000x1_S50000x1_S50000x2_d1

/-- The [100000, 512] array of zeros the reference scatters into. -/
def Z512 : FVec Ideal S100000x512 .f32 :=
  broadcastInDim S100000x512 ![] bcast_S_S100000x512 (constant (F := Ideal) S_ .f32 0x00000000#32)

/-- Every entry of the array of zeros is 0. -/
theorem Z512_apply (j : S100000x512.Idx) : Z512 j = 0 := by
  show Ideal.ofBits .f32 0x00000000#32 = 0
  exact Ideal.ofBits_zero_f32

/-- A vector as a one-column matrix, read at a row: the vector's entry. -/
theorem colR_apply (x : IVec S50000 32) (e : Fin 50000) :
    broadcastInDim S50000x1 ![0] bcast_S50000_S50000x1_0 x (ix2 e (0 : Fin 1)) = x (ix1 e) :=
  broadcastInDim_apply _ bcast_S50000_S50000x1_0 x (ix2 e (0 : Fin 1)) (ix1 e) (fun a => match a with
    | ⟨0, _⟩ => by show e.val = if (50000 : Nat) = 1 then 0 else e.val; rw [if_neg (by decide)])

/-- The reference's row number of event `e`: dst[e], shifted by 100000 when negative. -/
theorem idxR_row (x10 x11 : IVec S50000 32) (e : Fin 50000) :
    idxR x10 x11 (ix2 e (0 : Fin 2))
      = Scalar.select (IntOp.cmpi .slt (x10 (ix1 e)) 0#32) (IntOp.addi (x10 (ix1 e)) 100000#32) (x10 (ix1 e)) := by
  unfold idxR
  refine (concatenate_pair_apply_left _ _ _ concatenates_S50000x1_S50000x1_S50000x2_d1 (ix2 e (0 : Fin 2)) rfl
    (ix2 e (0 : Fin 1)) ?_).trans ?_
  · intro b
    match b with
    | ⟨0, _⟩ => rfl
    | ⟨1, _⟩ => rfl
  · refine (colR_apply _ e).trans ?_
    rfl

/-- The reference's column number of event `e`: p = prod[e] - 99488, shifted by 512 when negative. -/
theorem idxR_col (x10 x11 : IVec S50000 32) (e : Fin 50000) :
    idxR x10 x11 (ix2 e (1 : Fin 2))
      = Scalar.select (IntOp.cmpi .slt (IntOp.subi (x11 (ix1 e)) 99488#32) 0#32)
          (IntOp.addi (IntOp.subi (x11 (ix1 e)) 99488#32) 512#32)
          (IntOp.subi (x11 (ix1 e)) 99488#32) := by
  unfold idxR
  refine (concatenate_pair_apply_right _ _ _ concatenates_S50000x1_S50000x1_S50000x2_d1 (ix2 e (1 : Fin 2)) rfl rfl
    (ix2 e (0 : Fin 1)) ?_ ?_).trans ?_
  · intro b hb
    match b with
    | ⟨0, _⟩ => rfl
    | ⟨1, _⟩ => exact absurd rfl hb
  · rfl
  · refine (colR_apply _ e).trans ?_
    rfl

/-- The reference's scatter into zeros read at `(n, j)`: the sum of the amounts of the events whose (row, column) pair,
    read signed, is `(n, j)`. -/
theorem bought_ref_apply (x1 : FVec Ideal S50000x64 .f32) (x10 x11 : IVec S50000 32) (n : Fin 100000) (j : Fin 512) :
    Host.scatterAdd (F := Ideal) scatter_S100000x512_S50000x2_S50000_n_01_01_1 Z512 (idxR x10 x11) (amtR x1) (ix2 n j)
      = ∑ e ∈ Finset.univ.filter (fun e : Fin 50000 =>
          (idxR x10 x11 (ix2 e (0 : Fin 2))).toInt = (n.val : Int) ∧ (idxR x10 x11 (ix2 e (1 : Fin 2))).toInt = (j.val : Int)),
          amtR x1 (ix1 e) := by
  refine (scatterAdd_point_apply (N := 100000) (D := 512) (M := 50000)
    scatter_S100000x512_S50000x2_S50000_n_01_01_1_wf Z512 (idxR x10 x11) (amtR x1) n j).trans ?_
  rw [Z512_apply, zero_add]

end Reference

/-! ## The bridge -/

section Bridge
variable [Cert.KernelIdeal.Facts₀] [Cert.ReferenceIdeal.Facts₀]

/-- The two programs' amounts are the same operations of raw_msg. -/
theorem amt_eq (x1 : FVec Ideal Cert.KernelIdeal.S50000x64 .f32) : amtK x1 = amtR x1 := rfl

/-- The two programs' row numbers are the same operations of dst. -/
theorem idx_row_eq (x10 x11 : IVec Cert.KernelIdeal.S50000 32) (e : Fin 50000) :
    idxK x10 x11 (ix2 e (0 : Fin 2)) = idxR x10 x11 (ix2 e (0 : Fin 2)) :=
  (idxK_row x10 x11 e).trans (idxR_row x10 x11 e).symm

/-- Under the bound on prod, the kernel's column number of event `e`, read signed, is 128 + (prod[e] - 99488). -/
theorem idxK_col_toInt (x10 x11 : IVec Cert.KernelIdeal.S50000 32)
    (hp : ∀ e : Cert.KernelIdeal.S50000.Idx, (99488 : Int) ≤ (x11 e).toInt ∧ (x11 e).toInt < 100000) (e : Fin 50000) :
    (idxK x10 x11 (ix2 e (1 : Fin 2))).toInt = 128 + ((x11 (ix1 e)).toInt - 99488) := by
  rw [idxK_col, select_q _ (hp (ix1 e)), toInt_q _ (hp (ix1 e))]

/-- Under the bound on prod, the reference's column number of event `e`, read signed, is prod[e] - 99488. -/
theorem idxR_col_toInt (x10 x11 : IVec Cert.KernelIdeal.S50000 32)
    (hp : ∀ e : Cert.KernelIdeal.S50000.Idx, (99488 : Int) ≤ (x11 e).toInt ∧ (x11 e).toInt < 100000) (e : Fin 50000) :
    (idxR x10 x11 (ix2 e (1 : Fin 2))).toInt = (x11 (ix1 e)).toInt - 99488 := by
  rw [idxR_col, select_p _ (hp (ix1 e)), toInt_p _ (hp (ix1 e))]

/-- THE BOUGHT AMOUNTS. Under 99488 <= prod[e] < 100000 for every event, the kernel's scatter into `B` read at
    `(n, c)` is `B[n, c]` on the state columns `c < 128`, and on an inventory column `c >= 128` it is `B[n, c]` plus the
    reference's scatter into zeros read at `(n, c - 128)`. -/
theorem bought_eq (x1 : FVec Ideal Cert.KernelIdeal.S50000x64 .f32) (x10 x11 : IVec Cert.KernelIdeal.S50000 32)
    (hp : ∀ e : Cert.KernelIdeal.S50000.Idx, (99488 : Int) ≤ (x11 e).toInt ∧ (x11 e).toInt < 100000)
    (B : FVec Ideal Cert.KernelIdeal.S100000x640 .f32) (n : Fin 100000) (c : Fin 640) :
    Host.scatterAdd (F := Ideal) Cert.KernelIdeal.scatter_S100000x640_S50000x2_S50000_n_01_01_1 B (idxK x10 x11) (amtK x1)
        (ix2 n c)
      = if h : c.val < 128 then B (ix2 n c)
        else B (ix2 n c)
          + Host.scatterAdd (F := Ideal) Cert.ReferenceIdeal.scatter_S100000x512_S50000x2_S50000_n_01_01_1 Z512
              (idxR x10 x11) (amtR x1) (ix2 n (⟨c.val - 128, by have := c.isLt; have := h; omega⟩ : Fin 512)) := by
  refine (scatterAdd_point_apply (N := 100000) (D := 640) (M := 50000)
    Cert.KernelIdeal.Facts₀.scatter_S100000x640_S50000x2_S50000_n_01_01_1_wf B (idxK x10 x11) (amtK x1) n c).trans ?_
  split
  · -- a state column: no event's column number is below 128
    rename_i hc
    rw [Finset.sum_eq_zero, add_zero]
    intro e he
    have h1 := (Finset.mem_filter.mp he).2.2
    rw [idxK_col_toInt x10 x11 hp e] at h1
    have := hp (ix1 e)
    omega
  · -- an inventory column: the events landing at (n, c) are those the reference lands at (n, c - 128)
    rename_i hc
    refine congrArg (B (ix2 n c) + ·) ?_
    refine Eq.trans ?_ (bought_ref_apply x1 x10 x11 n (⟨c.val - 128, by have := c.isLt; omega⟩ : Fin 512)).symm
    refine Finset.sum_congr (Finset.filter_congr fun e _ => ?_) (fun e _ => congrFun (amt_eq x1) (ix1 e))
    rw [idx_row_eq x10 x11 e, idxK_col_toInt x10 x11 hp e, idxR_col_toInt x10 x11 hp e]
    have := hp (ix1 e)
    dsimp only
    constructor
    · rintro ⟨a, b⟩; exact ⟨a, by omega⟩
    · rintro ⟨a, b⟩; exact ⟨a, by omega⟩

end Bridge

end Cert.BoughtBridge

end
-- ==== Proof.MemResult.lean ====
/-
  The kernel's first result, as a pure function of the arguments, is the reference's.

  The kernel side leaves, before its last scatter, the whole-array function `Cert.KSpec.newMem` (the GRU cell's new state
  in the state columns, the old inventory less the consumed amounts in the inventory columns), and then adds the bought
  amounts by a scatter into all 640 columns. Under the bound on the product numbers that scatter leaves the state
  columns alone and adds, at inventory column `c`, what the reference's scatter into a [100000, 512] array of zeros
  holds at column `c − 128` (`Cert.BoughtBridge.bought_eq`); the reference's scatter term is the stage of its
  read-at-an-index module by unfolding (`bought_is_v176`); and entry by entry the sum is the reference's first result
  (`Cert.Bridge.mem_eq`).
-/
import proofs.«115542_j63840393888431_2_alg».proof.Proof.Bridge
import proofs.«115542_j63840393888431_2_alg».proof.Proof.BoughtBridge

noncomputable section

namespace Cert.MemResult

open Idealize.ShloMosaic Idealize.ShloMosaic.ValueIdx Cert.ReferenceIdeal Cert.ReferenceIdeal.ReadP

/-- The reference's scatter of the bought amounts into zeros is, term for term, the stage of the read-at-an-index module:
    the row numbers, the column numbers, the amounts and the array of zeros are the same operations of the same arguments. -/
theorem bought_is_v176 [Cert.ReferenceIdeal.Facts₀] (x1 : (⟨S50000x64, .f32⟩ : BufTy).Contents (Elt Ideal))
    (x10 x11 : (⟨S50000, .i32⟩ : BufTy).Contents (Elt Ideal)) :
    Host.scatterAdd (F := Ideal) Cert.ReferenceIdeal.scatter_S100000x512_S50000x2_S50000_n_01_01_1 Cert.BoughtBridge.Z512
        (Cert.BoughtBridge.idxR x10 x11) (Cert.BoughtBridge.amtR x1)
      = val_main_v176 (F := Ideal) x1 x10 x11 := rfl

section
variable [Cert.KernelIdeal.Facts₀] [Cert.ReferenceIdeal.Facts₀]
variable (x0 : (⟨S100000x640, .f32⟩ : BufTy).Contents (Elt Ideal)) (x1 : (⟨S50000x64, .f32⟩ : BufTy).Contents (Elt Ideal))
  (x2 x3 : (⟨S32, .f32⟩ : BufTy).Contents (Elt Ideal)) (x4 : (⟨S384x480, .f32⟩ : BufTy).Contents (Elt Ideal))
  (x5 : (⟨S384x128, .f32⟩ : BufTy).Contents (Elt Ideal)) (x6 x7 : (⟨S384, .f32⟩ : BufTy).Contents (Elt Ideal))
  (x8 : (⟨S128x128, .f32⟩ : BufTy).Contents (Elt Ideal))
  (x9 x10 x11 x12 : (⟨S50000, .i32⟩ : BufTy).Contents (Elt Ideal)) (x13 : (⟨S100000, .i32⟩ : BufTy).Contents (Elt Ideal))

/-- THE FIRST RESULT. The kernel side's last scatter, applied to its whole-array function of the arguments, is the
    reference's new memory array. -/
theorem mem_result
    (hp : ∀ e : Cert.KernelIdeal.S50000.Idx, (99488 : Int) ≤ (x11 e).toInt ∧ (x11 e).toInt < 100000)
    (a1 : Cert.KSpec.A480.Idx → EReal) (a3 : Cert.KSpec.W480.Idx → EReal) (a4 : Cert.KSpec.W128.Idx → EReal)
    (a5 a6 : Cert.KSpec.B384.Idx → EReal)
    (h1 : ∀ (n : Fin 100000) (k : Fin 480), a1 (ix2 n k) = val_main_v93 (F := Ideal) x0 x1 x2 x3 x9 x10 x11 x12 x13 (ix2 n k))
    (h3 : ∀ (k : Fin 480) (j : Fin 384), a3 (ix2 k j) = x4 (ix2 j k))
    (h4 : ∀ (k : Fin 128) (j : Fin 384), a4 (ix2 k j) = x5 (ix2 j k))
    (h5 : ∀ j : Fin 384, a5 (ix2 (0 : Fin 1) j) = x6 (ix1 j))
    (h6 : ∀ j : Fin 384, a6 (ix2 (0 : Fin 1) j) = x7 (ix1 j)) :
    Host.scatterAdd (F := Ideal) Cert.KernelIdeal.scatter_S100000x640_S50000x2_S50000_n_01_01_1
        (fun i => Cert.KSpec.newMem (Ideal.ofBits .f32 0x3F800000#32) x0 a1 (val_main_v161 (F := Ideal) x1 x9 x11) a3 a4 a5 a6
          (val_main_v181 (F := Ideal) x0 x8) ⟨(i 0).val, (i 0).isLt⟩ ⟨(i 1).val, (i 1).isLt⟩)
        (Cert.BoughtBridge.idxK x10 x11) (Cert.BoughtBridge.amtK x1)
      = val_main_v195 (F := Ideal) x0 x1 x2 x3 x4 x5 x6 x7 x8 x9 x10 x11 x12 x13 := by
  funext i
  obtain ⟨n, c, rfl⟩ : ∃ (n : Fin 100000) (c : Fin 640), i = ix2 n c := ⟨i 0, i 1, eq_ix2 i⟩
  refine (Cert.BoughtBridge.bought_eq x1 x10 x11 hp _ n c).trans ?_
  exact Cert.Bridge.mem_eq x0 x1 x2 x3 x4 x5 x6 x7 x8 x9 x10 x11 x12 x13 a1 a3 a4 a5 a6 h1 h3 h4 h5 h6 n c

end

end Cert.MemResult

end
-- ==== Proof.AggrVal.lean ====
/-
  The reference's mean aggregation, and the kernel program's, are one array.

  The reference computes the mean message per node from its three message arrays (one per role of a node in an event) and
  the three index vectors: it concatenates the messages along the rows and the index vectors end to end, scatter-adds the
  rows into an all-zero [100000, 480] matrix, scatter-adds ones into an all-zero [100000] vector for the count, floors
  the count at one, and divides.  That chain of operations is, term for term, the reference-side aggregation the bridge
  compares the kernel program's with, so the kernel program's aggregation of the same messages and indices is the
  reference's value entry by entry.
-/
import proofs.«115542_j63840393888431_2_alg».proof.Proof.AggrBridge
import proofs.«115542_j63840393888431_2_alg».proof.Proof.RefRead

noncomputable section

namespace Cert.AggrVal

open Idealize.ShloMosaic Idealize.ShloMosaic.ValueIdx
open Cert.ReferenceIdeal Cert.ReferenceIdeal.ReadP

variable [Cert.KernelIdeal.Facts₀] [Cert.ReferenceIdeal.Facts₀]

/-- The reference's mean aggregation is the reference-side aggregation of its three message arrays and the three index vectors:
    the same operations in the same order. -/
theorem refAggr_is_v93 (x0 : (⟨S100000x640, .f32⟩ : BufTy).Contents (Elt Ideal)) (x1 : (⟨S50000x64, .f32⟩ : BufTy).Contents (Elt Ideal))
    (x2 x3 : (⟨S32, .f32⟩ : BufTy).Contents (Elt Ideal)) (x9 x10 x11 x12 : (⟨S50000, .i32⟩ : BufTy).Contents (Elt Ideal))
    (x13 : (⟨S100000, .i32⟩ : BufTy).Contents (Elt Ideal)) :
    Cert.AggrBridge.refAggr (val_main_v43 (F := Ideal) x0 x1 x2 x3 x9 x10 x11 x12 x13)
        (val_main_v61 (F := Ideal) x0 x1 x2 x3 x9 x10 x11 x12 x13) (val_main_v79 (F := Ideal) x0 x1 x2 x3 x9 x10 x11 x12 x13)
        x9 x10 x11
      = val_main_v93 (F := Ideal) x0 x1 x2 x3 x9 x10 x11 x12 x13 := by
  unfold Cert.AggrBridge.refAggr val_main_v93 val_main_v92 val_main_v91 val_main_v90 val_main_v89 val_main_v88 val_main_v87
    val_main_v86 val_main_v85 val_main_v84 val_main_v83 val_main_v82 val_main_v81 val_main_v80
    val_main_cst val_main_cst_11 val_main_cst_12 val_main_cst_13
  rfl

/-- So the kernel program's mean aggregation of those messages and indices is the reference's, entry by entry. -/
theorem aggr_val (x0 : (⟨S100000x640, .f32⟩ : BufTy).Contents (Elt Ideal)) (x1 : (⟨S50000x64, .f32⟩ : BufTy).Contents (Elt Ideal))
    (x2 x3 : (⟨S32, .f32⟩ : BufTy).Contents (Elt Ideal)) (x9 x10 x11 x12 : (⟨S50000, .i32⟩ : BufTy).Contents (Elt Ideal))
    (x13 : (⟨S100000, .i32⟩ : BufTy).Contents (Elt Ideal)) (n : Fin 100000) (k : Fin 480) :
    Cert.AggrBridge.kernelAggr (val_main_v43 (F := Ideal) x0 x1 x2 x3 x9 x10 x11 x12 x13)
        (val_main_v61 (F := Ideal) x0 x1 x2 x3 x9 x10 x11 x12 x13) (val_main_v79 (F := Ideal) x0 x1 x2 x3 x9 x10 x11 x12 x13)
        x9 x10 x11 (ix2 n k)
      = val_main_v93 (F := Ideal) x0 x1 x2 x3 x9 x10 x11 x12 x13 (ix2 n k) :=
  (Cert.AggrBridge.aggr_eq _ _ _ x9 x10 x11 n k).trans
    (congrFun (refAggr_is_v93 x0 x1 x2 x3 x9 x10 x11 x12 x13) (ix2 n k))

end Cert.AggrVal

end
-- ==== Proof.PreProd.lean ====
/-
  The product indices are in range. The precondition is the conjunction of "every float input is finite" with
  `99488 ≤ prod[e]` and `prod[e] < 100000` for every event `e` (signed comparisons, each under a `jnp.all`): the last two
  conjuncts of the printed predicate. Read back here: a conjunction of one-bit words that is 1 has both conjuncts 1; an
  `all` that is 1 had a 1 at every position; a signed comparison that is 1 compares the words' integer values. So the
  product number `p = prod − 99488` of every event lies in `[0, 512)`: it names a column of the inventory.
-/
import proofs.«115542_j63840393888431_2_alg».proof.Pre_finite_inputs
import Idealize.ShloMosaic.Lib.ReduceAll
import Idealize.ShloMosaic.Lib.ValueIdx

noncomputable section

namespace Cert.PreProd

open Idealize.ShloMosaic Idealize.ShloMosaic.ValueIdx Cert.Pre_finite_inputs

/-- A rank-0 array has one position. -/
instance : Subsingleton S_.Idx := ⟨fun a b => funext fun d => d.elim0⟩

variable {F : FTy → Type} [FloatOps F] [Cert.Pre_finite_inputs.Facts]

/-- Under the precondition every event's product index lies in `[99488, 100000)`, as a signed integer. -/
theorem prod_in_range (x0 : FVec F S100000x640 .f32) (x1 : FVec F S50000x64 .f32) (x2 x3 : FVec F S32 .f32) (x4 : FVec F S384x480 .f32)
    (x5 : FVec F S384x128 .f32) (x6 x7 : FVec F S384 .f32) (x8 : FVec F S128x128 .f32) (x9 x10 x11 x12 : IVec S50000 32) (x13 : IVec S100000 32)
    (h : Cert.Pre_finite_inputs.fn (F := F) x0 x1 x2 x3 x4 x5 x6 x7 x8 x9 x10 x11 x12 x13 = fun _ => 1#1) (e : S50000.Idx) :
    (99488 : Int) ≤ (x11 e).toInt ∧ (x11 e).toInt < 100000 := by
  have h0 := congrFun h ValueIdx.ix0
  dsimp only [fn, fn_part1, fn_part2, fn_part3] at h0
  obtain ⟨h1, hlt⟩ := IntOp.andi_eq_one.1 h0
  obtain ⟨-, hge⟩ := IntOp.andi_eq_one.1 h1
  have a := Host.reduce_andi_all _ _ _ _ _ hge e
  have b := Host.reduce_andi_all _ _ _ _ _ hlt e
  have a' := IntOp.cmpi_sge.1 a
  have b' := IntOp.cmpi_slt.1 b
  exact ⟨a', b'⟩

end Cert.PreProd

end
-- ==== Proof.KResult.lean ====
/-
  The kernel's run, read against the reference's stages.

  The frame run leaves the region's two output arrays at what the library computes from the proof data and every other buffer at
  what the host operations after the region make of them. The new memory bank is `Cert.KSpec.newMem` of the eight staged arrays
  (window 8), the loss partials `Cert.KSpec.partials` (window 9); the host operations before the region stage the same arrays the
  reference computes (supplied amounts, attention matrix, message arrays: the same operations of the same arguments; the mean
  messages: three segment sums added, against one over the concatenation); the last host operations add the bought amounts at
  (destination, 128 + product number) — under the precondition exactly the reference's bought array laid over the inventory
  columns — and sum the partials' two columns, the reference's two sums over all nodes and products regrouped by blocks. The
  second result is computed by host operations alone. So the three results are the reference's stages of the argument arrays.
-/
import proofs.«115542_j63840393888431_2_alg».proof.Proof.KValue8
import proofs.«115542_j63840393888431_2_alg».proof.Proof.KValue9
import proofs.«115542_j63840393888431_2_alg».proof.Proof.KIFrame
import proofs.«115542_j63840393888431_2_alg».proof.Proof.KHost
import proofs.«115542_j63840393888431_2_alg».proof.Proof.KHostAggr
import proofs.«115542_j63840393888431_2_alg».proof.Proof.KTail
import proofs.«115542_j63840393888431_2_alg».proof.Proof.SharedTerms
import proofs.«115542_j63840393888431_2_alg».proof.Proof.Gen.Pre_finite_inputs
import proofs.«115542_j63840393888431_2_alg».proof.Defs
import proofs.«115542_j63840393888431_2_alg».proof.Proof.MemResult
import proofs.«115542_j63840393888431_2_alg».proof.Proof.AggrVal
import proofs.«115542_j63840393888431_2_alg».proof.Proof.LossTail
import proofs.«115542_j63840393888431_2_alg».proof.Proof.Bridge
import proofs.«115542_j63840393888431_2_alg».proof.Proof.LastUpdate
import proofs.«115542_j63840393888431_2_alg».proof.Proof.PreProd
import proofs.«115542_j63840393888431_2_alg».proof.Proof.Gen.KernelIdeal
import proofs.«115542_j63840393888431_2_alg».proof.Proof.Gen.ReferenceIdeal

set_option maxRecDepth 16384

noncomputable section

namespace Cert.KResult

open Cert.KernelIdeal Cert.KernelIdeal.Gen Cert.KernelIdeal.Frm Cert.KernelIdeal.KValue
open Idealize.ShloMosaic Idealize.ShloMosaic.TcCoe Idealize.ShloMosaic.ValueIdx Idealize.SL.Sem
open Cert.ReferenceIdeal.ReadP
open Idealize.ShloMosaic.Pipeline (Dat Cfg Window)
open Idealize.ShloMosaic.Rounds

variable (m : (ℓ : Loc nD τ sig) → Buf (Elt Ideal) ℓ)

/-- The kernel's first result — the region's new memory bank with the bought amounts added by the last host operation —
    is the reference's, given that the three arrays the two programs compute by the same operations are the same. -/
theorem kernel_mem (c : Dev nD)
    (hp : ∀ e : S50000.Idx, (99488 : Int) ≤ ((m ((c : Thread nD τ).loc main_arg11)) e).toInt ∧ ((m ((c : Thread nD τ).loc main_arg11)) e).toInt < 100000)
    (hS : (V m c main_v143 : S100000x512.Idx → EReal) = val_main_v161 (F := Ideal) (m ((c : Thread nD τ).loc main_arg1)) (m ((c : Thread nD τ).loc main_arg9)) (m ((c : Thread nD τ).loc main_arg11)))
    (hT : (V m c main_v148 : S512x512.Idx → EReal) = val_main_v181 (F := Ideal) (m ((c : Thread nD τ).loc main_arg0)) (m ((c : Thread nD τ).loc main_arg8)))
    (hA : ∀ (n : Fin 100000) (k : Fin 480), (V m c main_v108 : S100000x480.Idx → EReal) (ix2 n k)
        = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12)) (m ((c : Thread nD τ).loc main_arg13)) (ix2 n k)) :
    Host.scatterAdd (F := Ideal) scatter_S100000x640_S50000x2_S50000_n_01_01_1 (G8 m c)
        (Cert.BoughtBridge.idxK (m ((c : Thread nD τ).loc main_arg10)) (m ((c : Thread nD τ).loc main_arg11))) (Cert.BoughtBridge.amtK (m ((c : Thread nD τ).loc main_arg1)))
      = val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have hG : G8 m c = fun i => Cert.KSpec.newMem (Ideal.ofBits .f32 0x3F800000#32) (m ((c : Thread nD τ).loc main_arg0)) (a1 m c)
      (val_main_v161 (F := Ideal) (m ((c : Thread nD τ).loc main_arg1)) (m ((c : Thread nD τ).loc main_arg9)) (m ((c : Thread nD τ).loc main_arg11))) (a3 m c) (a4 m c) (a5 m c) (a6 m c)
      (val_main_v181 (F := Ideal) (m ((c : Thread nD τ).loc main_arg0)) (m ((c : Thread nD τ).loc main_arg8))) ⟨(i 0).val, (i 0).isLt⟩ ⟨(i 1).val, (i 1).isLt⟩ := by
    unfold G8
    rw [show a0 m c = (m ((c : Thread nD τ).loc main_arg0)) from V_main_arg0 m c, show a2 m c = _ from hS, show a7 m c = _ from hT]
  rw [hG]
  exact Cert.MemResult.mem_result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) hp (a1 m c) (a3 m c) (a4 m c) (a5 m c) (a6 m c) hA
    (Cert.KernelIdeal.KHost.V_main_v149_apply m c) (Cert.KernelIdeal.KHost.V_main_v150_apply m c)
    (Cert.KernelIdeal.KHost.V_main_v151_apply m c) (Cert.KernelIdeal.KHost.V_main_v152_apply m c)

/-- The kernel's third result — the loss formed by the last host operations from the region's loss partials — is the
    reference's: the partials' two columns sum to the reference's two sums over all nodes and products. -/
theorem kernel_loss (c : Dev nD) (dat : Dat τ (Elt Ideal) Unit ℕ (UR sig nD τ) ℕ cfg0 c)
    (h9 : ∀ t, dat.after 9 t = out0_9 (iblk m c 0 t) (iblk m c 1 t) (iblk m c 2 t) (iblk m c 3 t) (iblk m c 4 t) (iblk m c 5 t) (iblk m c 6 t) (iblk m c 7 t))
    (hS : (V m c main_v143 : S100000x512.Idx → EReal) = val_main_v161 (F := Ideal) (m ((c : Thread nD τ).loc main_arg1)) (m ((c : Thread nD τ).loc main_arg9)) (m ((c : Thread nD τ).loc main_arg11)))
    (hT : (V m c main_v148 : S512x512.Idx → EReal) = val_main_v181 (F := Ideal) (m ((c : Thread nD τ).loc main_arg0)) (m ((c : Thread nD τ).loc main_arg8))) :
    Cert.LossTail.lossK (dat.arrAt 9 cfg0.N) = val_main_v192 (F := Ideal) (m ((c : Thread nD τ).loc main_arg0)) (m ((c : Thread nD τ).loc main_arg1)) (m ((c : Thread nD τ).loc main_arg8)) (m ((c : Thread nD τ).loc main_arg9)) (m ((c : Thread nD τ).loc main_arg11)) := by
  rw [Cert.KernelIdeal.KValue9.final9 m c dat h9]
  funext i
  obtain rfl : i = ix0 := Subsingleton.elim _ _
  rw [show (V m c main_arg0 : S100000x640.Idx → EReal) = (m ((c : Thread nD τ).loc main_arg0)) from V_main_arg0 m c, hS, hT]
  exact (Cert.LossTail.lossK_partials _ _ _).trans (Cert.Bridge.loss_eq (m ((c : Thread nD τ).loc main_arg0)) (m ((c : Thread nD τ).loc main_arg1)) (m ((c : Thread nD τ).loc main_arg8)) (m ((c : Thread nD τ).loc main_arg9)) (m ((c : Thread nD τ).loc main_arg11)))

/-- The kernel's second result, computed by host operations alone, is the reference's. -/
theorem kernel_lu (c : Dev nD)
    (hLU : (V m c main_v123 : S100000.Idx → BitVec 32) = Cert.LastUpdate.kernelLU (m ((c : Thread nD τ).loc main_arg9)) (m ((c : Thread nD τ).loc main_arg10)) (m ((c : Thread nD τ).loc main_arg11)) (m ((c : Thread nD τ).loc main_arg12))) :
    (V m c main_v123 : S100000.Idx → BitVec 32) = val_main_v141 (F := Ideal) (m ((c : Thread nD τ).loc main_arg9)) (m ((c : Thread nD τ).loc main_arg10)) (m ((c : Thread nD τ).loc main_arg11)) (m ((c : Thread nD τ).loc main_arg12)) :=
  hLU.trans (Cert.LastUpdate.result_eq (m ((c : Thread nD τ).loc main_arg9)) (m ((c : Thread nD τ).loc main_arg10)) (m ((c : Thread nD τ).loc main_arg11)) (m ((c : Thread nD τ).loc main_arg12))).symm

/-- The supplied amounts the region stages are the reference's stage: the same operations of the same arguments. -/
theorem hS (c : Dev nD) : (V m c main_v143 : S100000x512.Idx → EReal) = val_main_v161 (F := Ideal) (m ((c : Thread nD τ).loc main_arg1)) (m ((c : Thread nD τ).loc main_arg9)) (m ((c : Thread nD τ).loc main_arg11)) :=
  (Cert.KernelIdeal.KHost.V_main_v143 m c).trans (Cert.SharedTerms.supplied_eq _ _ _)

/-- The attention matrix the region stages is the reference's stage. -/
theorem hT (c : Dev nD) : (V m c main_v148 : S512x512.Idx → EReal) = val_main_v181 (F := Ideal) (m ((c : Thread nD τ).loc main_arg0)) (m ((c : Thread nD τ).loc main_arg8)) :=
  (Cert.KernelIdeal.KHost.V_main_v148 m c).trans (Cert.SharedTerms.att_eq _ _)

/-- The mean messages the region stages are the reference's stage: three scatter-adds of the same message arrays at the three
    index arrays, summed, against one scatter-add of their concatenation. -/
theorem hA (c : Dev nD) (n : Fin 100000) (k : Fin 480) : (V m c main_v108 : S100000x480.Idx → EReal) (ix2 n k)
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12)) (m ((c : Thread nD τ).loc main_arg13)) (ix2 n k) := by
  rw [show (V m c main_v108 : S100000x480.Idx → EReal) = _ from Cert.KernelIdeal.KHost.V_main_v108 m c,
    Cert.SharedTerms.msgS_eq, Cert.SharedTerms.msgD_eq, Cert.SharedTerms.msgP_eq]
  exact Cert.AggrVal.aggr_val _ _ _ _ _ _ _ _ _ n k

/-- THE KERNEL'S RUN, READ: every weakly fair execution terminates with the three results at the reference's stages of the
    arguments and the arguments unchanged — under the precondition, which places every product index in its range. -/
theorem kernel_run (ρ : Dev nD → PrngReg)
    (hpre : Cert.Pre_KernelIdeal (hPre_finite_inputs := Cert.Pre_finite_inputs.Gen.facts) m)
    (hLU : ∀ c : Dev nD, (V m c main_v123 : S100000.Idx → BitVec 32) = Cert.LastUpdate.kernelLU (m ((c : Thread nD τ).loc main_arg9)) (m ((c : Thread nD τ).loc main_arg10)) (m ((c : Thread nD τ).loc main_arg11)) (m ((c : Thread nD τ).loc main_arg12))) :
    θ_run (defs (F := Ideal)) (onTc (τ := τ) (main (F := Ideal))) ⟨m, fun _ => 0, ρ⟩ fun r => ∀ c : Dev nD,
      r.2.mem ((c.tc : Thread nD τ).loc main_v180) = val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v123) = val_main_v141 (F := Ideal) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v164) = val_main_v192 (F := Ideal) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => by
    obtain ⟨h0, h1, h2⟩ := Cert.KernelIdeal.KTail.results_of_post m r h c
    have hp : ∀ e : S50000.Idx, (99488 : Int) ≤ ((m ((c : Thread nD τ).loc main_arg11)) e).toInt ∧ ((m ((c : Thread nD τ).loc main_arg11)) e).toInt < 100000 :=
      fun e => Cert.PreProd.prod_in_range _ _ _ _ _ _ _ _ _ _ _ _ _ _ (hpre c) e
    refine ⟨h0.trans ?_, h1.trans (kernel_lu m c (hLU c)), h2.trans (kernel_loss m c (dats m 0 c) (after0_9 m c) (hS m c) (hT m c)),
      Cert.KernelIdeal.KTail.args_of_post m r h c⟩
    rw [final8 m c (dats m 0 c) (after0_8 m c), V_main_arg10 m c, Cert.KernelIdeal.KHost.V_main_v125 m c,
      Cert.KernelIdeal.KHost.V_main_v128 m c]
    exact kernel_mem m c hp (hS m c) (hT m c) (hA m c))
    (run_main m ρ)

end Cert.KResult

end
-- ==== Proof.RefWritten.lean ====
import proofs.«115542_j63840393888431_2_alg».proof.Proof.RefOps

/-! The reference's 244 host operations are in single-assignment form: each writes exactly one buffer, its result, and
    allocates nothing. The result references are listed in the operations' order. -/

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The result buffer of each of the 244 operations, in the operations' order: every buffer @main writes. -/
abbrev written : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_v25, main_c_5, main_v26, main_v27, main_c_6, main_v28, main_v29, main_v30, main_v31, main_v32, main_v33, main_v34, main_v35, main_v36, main_v37, main_v38, main_v39, main_v40, main_v41, main_v42, main_v43, main_c_7, main_v44, main_v45, main_c_8, main_v46, main_v47, main_v48, main_v49, main_v50, main_v51, main_v52, main_v53, main_v54, main_v55, main_v56, main_v57, main_v58, main_v59, main_v60, main_v61, main_c_9, main_v62, main_v63, main_c_10, main_v64, main_v65, main_v66, main_v67, main_v68, main_v69, main_v70, main_v71, main_v72, main_v73, main_v74, main_v75, main_v76, main_v77, main_v78, main_v79, main_v80, main_v81, main_cst, main_v82, main_v83, main_v84, main_cst_11, main_v85, main_cst_12, main_v86, main_v87, main_v88, main_cst_13, main_v89, main_v90, main_v91, main_v92, main_v93, main_v94, main_v95, main_v96, main_v97, main_v98, main_v99, main_v100, main_v101, main_v102, main_v103, main_v104, main_v105, main_v106, main_v107, main_v108, main_v109, main_v110, main_v111, main_v112, main_cst_14, main_v113, main_v114, main_cst_15, main_v115, main_v116, main_v117, main_v118, main_v119, main_cst_16, main_v120, main_v121, main_cst_17, main_v122, main_v123, main_v124, main_v125, main_v126, main_cst_18, main_v127, main_v128, main_v129, main_v130, main_v131, main_v132, main_v133, main_v134, main_c_19, main_v135, main_v136, main_v137, main_cst_20, main_v138, main_v139, main_c_21, main_v140, main_v141, main_c_22, main_v142, main_v143, main_v144, main_v145, main_cst_23, main_call1_v0, main_call1_v1, main_v146, main_cst_24, main_v147, main_c_25, main_v148, main_v149, main_c_26, main_v150, main_v151, main_v152, main_c_27, main_v153, main_v154, main_c_28, main_v155, main_v156, main_v157, main_v158, main_v159, main_v160, main_v161, main_cst_29, main_v162, main_c_30, main_v163, main_v164, main_c_31, main_v165, main_v166, main_v167, main_c_32, main_v168, main_v169, main_c_33, main_v170, main_v171, main_v172, main_v173, main_v174, main_v175, main_v176, main_v177, main_v178, main_v179, main_v180, main_call2_cst, main_call2_v0, main_v181, main_v182, main_v183, main_call3_cst, main_call3_v0, main_v184, main_cst_34, main_v185, main_cst_35, main_v186, main_cst_36, main_v187, main_v188, main_cst_37, main_v189, main_cst_38, main_v190, main_cst_39, main_v191, main_v192, main_v193, main_v194, main_v195]

/-- Operations that each write ONE buffer, the buffers listed beside them: every operation's writes are among the list's. -/
theorem writes_sub_of_forall₂ (Wf : List (Ref sig .tc)) :
    ∀ {l : List (HloOp τ sig (Elt F))} {W : List (Ref sig .tc)},
      List.Forall₂ (fun op y => op.writes = {Proc.devRef (τ := τ) .tc y}) l W → (∀ y ∈ W, y ∈ Wf) →
      ∀ op ∈ l, op.writes ⊆ (Wf.map (Proc.devRef (τ := τ) .tc)).toFinset
  | _, _, .nil, _, _, hop => nomatch hop
  | _, _, .cons (b := y) h t, hW, op, hop => by
    rcases List.mem_cons.mp hop with rfl | hop'
    · rw [h]
      exact Finset.singleton_subset_iff.mpr (List.mem_toFinset.mpr (List.mem_map_of_mem (hW y List.mem_cons_self)))
    · exact writes_sub_of_forall₂ Wf t (fun y hy => hW y (List.mem_cons_of_mem _ hy)) op hop'

set_option maxRecDepth 16384 in
/-- Operation by operation, what it writes is its result buffer. -/
theorem ops_written : List.Forall₂ (fun (op : HloOp τ sig (Elt F)) y => op.writes = {Proc.devRef (τ := τ) .tc y}) ops written :=
  List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.nil

/-- Every operation writes only buffers of the list. -/
theorem ops_writes : (ops : List (HloOp τ sig (Elt F))).Forall fun op =>
    op.writes ⊆ (written.map (Proc.devRef (τ := τ) .tc)).toFinset :=
  List.forall_iff_forall_mem.mpr (writes_sub_of_forall₂ written ops_written (fun _ hy => hy))

set_option maxRecDepth 8192 in
/-- No operation of the line allocates a buffer. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.LibAfter.lean ====
import Idealize.ShloMosaic.Lib.StableHlo.Run
import Mathlib.Data.List.Forall2

/-! A straight line of host operations in which every buffer is written at most once (single assignment). The
    contents a buffer ends with are then those it has right after the one operation that writes it, and that
    operation reads operands whose contents no later operation changes: so the FINAL valuation satisfies one equation
    per operation, over the final contents of its operands — no walk through the later operations is needed. -/

noncomputable section

namespace Cert.Lib

open Idealize.ShloMosaic Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position `i` on writes ends with what it holds after the first `i` operations. -/
theorem after_eq_take (ops : List (HloOp τ sig Val)) (V : Valuation τ sig Val) (i : Nat) (b : DevRef τ sig)
    (h : ∀ op ∈ ops.drop i, b ∉ op.writes) : after ops V b = after (ops.take i) V b := by
  conv_lhs => rw [← List.take_append_drop i ops, after_append]
  exact after_of_forall_not_mem _ _ h

/-- Operations that each write the one buffer listed beside them write no reference that is not in the list. -/
theorem not_mem_writes_of_forall₂ {l : List (HloOp τ sig Val)} {W : List (Ref sig .tc)}
    (hW : List.Forall₂ (fun op y => op.writes = {Proc.devRef (τ := τ) .tc y}) l W) (r : Ref sig .tc) (hr : r ∉ W) :
    ∀ op ∈ l, Proc.devRef (τ := τ) .tc r ∉ op.writes := by
  induction hW with
  | nil => intro op hop; exact absurd hop List.not_mem_nil
  | @cons op' y l' W' h t ih =>
    intro op hop
    rcases List.mem_cons.mp hop with rfl | hop'
    · rw [h, Finset.mem_singleton]
      exact fun e => hr (Proc.devRef_injective _ e ▸ List.mem_cons_self)
    · exact ih (fun hm => hr (List.mem_cons_of_mem _ hm)) op hop'

/-- A reference that is not among the results of the operations from position `i` on ends with what it holds after the
    first `i` operations: the side condition is one membership in a literal list of references. -/
theorem after_eq_take_of_written {ops : List (HloOp τ sig Val)} {W : List (Ref sig .tc)}
    (hW : List.Forall₂ (fun op y => op.writes = {Proc.devRef (τ := τ) .tc y}) ops W) {V : Valuation τ sig Val}
    (i : Nat) (r : Ref sig .tc) (hr : r ∉ W.drop i) :
    after ops V (Proc.devRef .tc r) = after (ops.take i) V (Proc.devRef .tc r) :=
  after_eq_take ops V i _ (not_mem_writes_of_forall₂ (List.forall₂_drop i hW) r hr)

/-- THE STAGE EQUATION: the result `y` of the operation at position `N`, written by no later operation, ends at that
    operation's result over the contents after the first `N` operations. -/
theorem stage {ops : List (HloOp τ sig Val)} {W : List (Ref sig .tc)}
    (hW : List.Forall₂ (fun op y => op.writes = {Proc.devRef (τ := τ) .tc y}) ops W) {V : Valuation τ sig Val}
    (N : Nat) (op : HloOp τ sig Val) (hop : ops[N]? = some op) (y : Ref sig .tc) (hy : y ∉ W.drop (N + 1)) :
    after ops V (Proc.devRef .tc y) = op.result (after (ops.take N) V) (Proc.devRef .tc y) := by
  rw [after_eq_take_of_written hW (N + 1) y hy]
  have e : ops.take (N + 1) = ops.take N ++ [op] := by
    rw [List.take_succ, hop]; rfl
  rw [e, after_append]
  rfl

/-- A three-operand operation's result, the operands read one by one (the library states the four-operand form). -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib

end
-- ==== Proof.RefStage1.lean ====
import proofs.«115542_j63840393888431_2_alg».proof.Proof.RefWritten
import proofs.«115542_j63840393888431_2_alg».proof.Proof.RefRead
import proofs.«115542_j63840393888431_2_alg».proof.Proof.LibAfter

/-! The reference's host operations, read one at a time against the FINAL buffer contents. Every buffer is written by
    exactly one operation, so the contents the whole line leaves in an operation's result buffer are that operation's
    function of the final contents of its operand buffers; with the operands' own stage lemmas these are the stages
    `val_<buffer>` of the argument arrays, by unfolding one definition. -/

noncomputable section

namespace Cert.ReferenceIdeal.Stage

open Cert.ReferenceIdeal Cert.ReferenceIdeal.Gen Cert.ReferenceIdeal.Ops Cert.ReferenceIdeal.ReadP
open Idealize.ShloMosaic Idealize.ShloMosaic.TcCoe Idealize.SL.Sem Idealize.ShloMosaic.StableHlo

variable {F : FTy → Type} [FloatOps F]

/-- No operation writes `main_arg0`. -/
theorem st_main_arg0 (V : Valuation τ sig (Elt F)) :
    after (ops (F := F)) V (Proc.devRef .tc main_arg0) = V (Proc.devRef .tc main_arg0) :=
  after_of_writes_sub ops V ops_writes (by decide)
/-- No operation writes `main_arg1`. -/
theorem st_main_arg1 (V : Valuation τ sig (Elt F)) :
    after (ops (F := F)) V (Proc.devRef .tc main_arg1) = V (Proc.devRef .tc main_arg1) :=
  after_of_writes_sub ops V ops_writes (by decide)
/-- No operation writes `main_arg2`. -/
theorem st_main_arg2 (V : Valuation τ sig (Elt F)) :
    after (ops (F := F)) V (Proc.devRef .tc main_arg2) = V (Proc.devRef .tc main_arg2) :=
  after_of_writes_sub ops V ops_writes (by decide)
/-- No operation writes `main_arg3`. -/
theorem st_main_arg3 (V : Valuation τ sig (Elt F)) :
    after (ops (F := F)) V (Proc.devRef .tc main_arg3) = V (Proc.devRef .tc main_arg3) :=
  after_of_writes_sub ops V ops_writes (by decide)
/-- No operation writes `main_arg4`. -/
theorem st_main_arg4 (V : Valuation τ sig (Elt F)) :
    after (ops (F := F)) V (Proc.devRef .tc main_arg4) = V (Proc.devRef .tc main_arg4) :=
  after_of_writes_sub ops V ops_writes (by decide)
/-- No operation writes `main_arg5`. -/
theorem st_main_arg5 (V : Valuation τ sig (Elt F)) :
    after (ops (F := F)) V (Proc.devRef .tc main_arg5) = V (Proc.devRef .tc main_arg5) :=
  after_of_writes_sub ops V ops_writes (by decide)
/-- No operation writes `main_arg6`. -/
theorem st_main_arg6 (V : Valuation τ sig (Elt F)) :
    after (ops (F := F)) V (Proc.devRef .tc main_arg6) = V (Proc.devRef .tc main_arg6) :=
  after_of_writes_sub ops V ops_writes (by decide)
/-- No operation writes `main_arg7`. -/
theorem st_main_arg7 (V : Valuation τ sig (Elt F)) :
    after (ops (F := F)) V (Proc.devRef .tc main_arg7) = V (Proc.devRef .tc main_arg7) :=
  after_of_writes_sub ops V ops_writes (by decide)
/-- No operation writes `main_arg8`. -/
theorem st_main_arg8 (V : Valuation τ sig (Elt F)) :
    after (ops (F := F)) V (Proc.devRef .tc main_arg8) = V (Proc.devRef .tc main_arg8) :=
  after_of_writes_sub ops V ops_writes (by decide)
/-- No operation writes `main_arg9`. -/
theorem st_main_arg9 (V : Valuation τ sig (Elt F)) :
    after (ops (F := F)) V (Proc.devRef .tc main_arg9) = V (Proc.devRef .tc main_arg9) :=
  after_of_writes_sub ops V ops_writes (by decide)
/-- No operation writes `main_arg10`. -/
theorem st_main_arg10 (V : Valuation τ sig (Elt F)) :
    after (ops (F := F)) V (Proc.devRef .tc main_arg10) = V (Proc.devRef .tc main_arg10) :=
  after_of_writes_sub ops V ops_writes (by decide)
/-- No operation writes `main_arg11`. -/
theorem st_main_arg11 (V : Valuation τ sig (Elt F)) :
    after (ops (F := F)) V (Proc.devRef .tc main_arg11) = V (Proc.devRef .tc main_arg11) :=
  after_of_writes_sub ops V ops_writes (by decide)
/-- No operation writes `main_arg12`. -/
theorem st_main_arg12 (V : Valuation τ sig (Elt F)) :
    after (ops (F := F)) V (Proc.devRef .tc main_arg12) = V (Proc.devRef .tc main_arg12) :=
  after_of_writes_sub ops V ops_writes (by decide)
/-- No operation writes `main_arg13`. -/
theorem st_main_arg13 (V : Valuation τ sig (Elt F)) :
    after (ops (F := F)) V (Proc.devRef .tc main_arg13) = V (Proc.devRef .tc main_arg13) :=
  after_of_writes_sub ops V ops_writes (by decide)

theorem st_main_v0 (V : Valuation τ sig (Elt F)) :
    after (ops (F := F)) V (Proc.devRef .tc main_v0) = val_main_v0 (F := F) (V (Proc.devRef .tc main_arg0)) := by
  rw [Cert.Lib.stage ops_written 0 _ rfl main_v0 (by decide),
    unary_result,
    ← Cert.Lib.after_eq_take_of_written ops_written 0 main_arg0 (by decide),
    st_main_arg0 V]
  rfl

theorem st_main_v1 (V : Valuation τ sig (Elt F)) :
    after (ops (F := F)) V (Proc.devRef .tc main_v1) = val_main_v1 (F := F) (V (Proc.devRef .tc main_arg0)) := by
  rw [Cert.Lib.stage ops_written 1 _ rfl main_v1 (by decide),
    unary_result,
    ← Cert.Lib.after_eq_take_of_written ops_written 1 main_arg0 (by decide),
    st_main_arg0 V]
  rfl

theorem st_main_v2 (V : Valuation τ sig (Elt F)) :
    after (ops (F := F)) V (Proc.devRef .tc main_v2) = val_main_v2 (F := F) (V (Proc.devRef .tc main_arg12)) := by
  rw [Cert.Lib.stage ops_written 2 _ rfl main_v2 (by decide),
    unary_result,
    ← Cert.Lib.after_eq_take_of_written ops_written 2 main_arg12 (by decide),
    st_main_arg12 V]
  rfl

theorem st_main_v3 (V : Valuation τ sig (Elt F)) :
    after (ops (F := F)) V (Proc.devRef .tc main_v3) = val_main_v3 (F := F) (V (Proc.devRef .tc main_arg13)) := by
  rw [Cert.Lib.stage ops_written 3 _ rfl main_v3 (by decide),
    unary_result,
    ← Cert.Lib.after_eq_take_of_written ops_written 3 main_arg13 (by decide),
    st_main_arg13 V]
  rfl

theorem st_main_c (V : Valuation τ sig (Elt F)) :
    after (ops (F := F)) V (Proc.devRef .tc main_c) = val_main_c (F := F) := by
  rw [Cert.Lib.stage ops_written 4 _ rfl main_c (by decide),
    nullary_result]
  rfl

theorem st_main_v4 (V : Valuation τ sig (Elt F)) :
    after (ops (F := F)) V (Proc.devRef .tc main_v4) = val_main_v4 (F := F) := by
  rw [Cert.Lib.stage ops_written 5 _ rfl main_v4 (by decide),
    unary_result,
    ← Cert.Lib.after_eq_take_of_written ops_written 5 main_c (by decide),
    st_main_c V]
  rfl

theorem st_main_v5 (V : Valuation τ sig (Elt F)) :
    after (ops (F := F)) V (Proc.devRef .tc main_v5) = val_main_v5 (F := F) (V (Proc.devRef .tc main_arg9)) := by
  rw [Cert.Lib.stage ops_written 6 _ rfl main_v5 (by decide),
    binary_result,
    ← Cert.Lib.after_eq_take_of_written ops_written 6 main_arg9 (by decide),
    ← Cert.Lib.after_eq_take_of_written ops_written 6 main_v4 (by decide),
    st_main_arg9 V,
    st_main_v4 V]
  rfl

theorem st_main_c_0 (V : Valuation τ sig (Elt F)) :
    after (ops (F := F)) V (Proc.devRef .tc main_c_0) = val_main_c_0 (F := F) := by
  rw [Cert.Lib.stage ops_written 7 _ rfl main_c_0 (by decide),
    nullary_result]
  rfl

theorem st_main_v6 (V : Valuation τ sig (Elt F)) :
    after (ops (F := F)) V (Proc.devRef .tc main_v6) = val_main_v6 (F := F) := by
  rw [Cert.Lib.stage ops_written 8 _ rfl main_v6 (by decide),
    unary_result,
    ← Cert.Lib.after_eq_take_of_written ops_written 8 main_c_0 (by decide),
    st_main_c_0 V]
  rfl

theorem st_main_v7 (V : Valuation τ sig (Elt F)) :
    after (ops (F := F)) V (Proc.devRef .tc main_v7) = val_main_v7 (F := F) (V (Proc.devRef .tc main_arg9)) := by
  rw [Cert.Lib.stage ops_written 9 _ rfl main_v7 (by decide),
    binary_result,
    ← Cert.Lib.after_eq_take_of_written ops_written 9 main_arg9 (by decide),
    ← Cert.Lib.after_eq_take_of_written ops_written 9 main_v6 (by decide),
    st_main_arg9 V,
    st_main_v6 V]
  rfl

theorem st_main_v8 (V : Valuation τ sig (Elt F)) :
    after (ops (F := F)) V (Proc.devRef .tc main_v8) = val_main_v8 (F := F) (V (Proc.devRef .tc main_arg9)) := by
  rw [Cert.Lib.stage ops_written 10 _ rfl main_v8 (by decide),
    ternary_result,
    ← Cert.Lib.after_eq_take_of_written ops_written 10 main_v5 (by decide),
    ← Cert.Lib.after_eq_take_of_written ops_written 10 main_v7 (by decide),
    ← Cert.Lib.after_eq_take_of_written ops_written 10 main_arg9 (by decide),
    st_main_v5 V,
    st_main_v7 V,
    st_main_arg9 V]
  rfl

theorem st_main_v9 (V : Valuation τ sig (Elt F)) :
    after (ops (F := F)) V (Proc.devRef .tc main_v9) = val_main_v9 (F := F) (V (Proc.devRef .tc main_arg9)) := by
  rw [Cert.Lib.stage ops_written 11 _ rfl main_v9 (by decide),
    unary_result,
    ← Cert.Lib.after_eq_take_of_written ops_written 11 main_v8 (by decide),
    st_main_v8 V]
  rfl

theorem st_main_v10 (V : Valuation τ sig (Elt F)) :
    after (ops (F := F)) V (Proc.devRef .tc main_v10) = val_main_v10 (F := F) (V (Proc.devRef .tc main_arg0)) (V (Proc.devRef .tc main_arg9)) := by
  rw [Cert.Lib.stage ops_written 12 _ rfl main_v10 (by decide),
    binary_result,
    ← Cert.Lib.after_eq_take_of_written ops_written 12 main_v0 (by decide),
    ← Cert.Lib.after_eq_take_of_written ops_written 12 main_v9 (by decide),
    st_main_v0 V,
    st_main_v9 V]
  rfl

theorem st_main_c_1 (V : Valuation τ sig (Elt F)) :
    after (ops (F := F)) V (Proc.devRef .tc main_c_1) = val_main_c_1 (F := F) := by
  rw [Cert.Lib.stage ops_written 13 _ rfl main_c_1 (by decide),
    nullary_result]
  rfl

theorem st_main_v11 (V : Valuation τ sig (Elt F)) :
    after (ops (F := F)) V (Proc.devRef .tc main_v11) = val_main_v11 (F := F) := by
  rw [Cert.Lib.stage ops_written 14 _ rfl main_v11 (by decide),
    unary_result,
    ← Cert.Lib.after_eq_take_of_written ops_written 14 main_c_1 (by decide),
    st_main_c_1 V]
  rfl

theorem st_main_v12 (V : Valuation τ sig (Elt F)) :
    after (ops (F := F)) V (Proc.devRef .tc main_v12) = val_main_v12 (F := F) (V (Proc.devRef .tc main_arg10)) := by
  rw [Cert.Lib.stage ops_written 15 _ rfl main_v12 (by decide),
    binary_result,
    ← Cert.Lib.after_eq_take_of_written ops_written 15 main_arg10 (by decide),
    ← Cert.Lib.after_eq_take_of_written ops_written 15 main_v11 (by decide),
    st_main_arg10 V,
    st_main_v11 V]
  rfl

theorem st_main_c_2 (V : Valuation τ sig (Elt F)) :
    after (ops (F := F)) V (Proc.devRef .tc main_c_2) = val_main_c_2 (F := F) := by
  rw [Cert.Lib.stage ops_written 16 _ rfl main_c_2 (by decide),
    nullary_result]
  rfl

theorem st_main_v13 (V : Valuation τ sig (Elt F)) :
    after (ops (F := F)) V (Proc.devRef .tc main_v13) = val_main_v13 (F := F) := by
  rw [Cert.Lib.stage ops_written 17 _ rfl main_v13 (by decide),
    unary_result,
    ← Cert.Lib.after_eq_take_of_written ops_written 17 main_c_2 (by decide),
    st_main_c_2 V]
  rfl

theorem st_main_v14 (V : Valuation τ sig (Elt F)) :
    after (ops (F := F)) V (Proc.devRef .tc main_v14) = val_main_v14 (F := F) (V (Proc.devRef .tc main_arg10)) := by
  rw [Cert.Lib.stage ops_written 18 _ rfl main_v14 (by decide),
    binary_result,
    ← Cert.Lib.after_eq_take_of_written ops_written 18 main_arg10 (by decide),
    ← Cert.Lib.after_eq_take_of_written ops_written 18 main_v13 (by decide),
    st_main_arg10 V,
    st_main_v13 V]
  rfl

theorem st_main_v15 (V : Valuation τ sig (Elt F)) :
    after (ops (F := F)) V (Proc.devRef .tc main_v15) = val_main_v15 (F := F) (V (Proc.devRef .tc main_arg10)) := by
  rw [Cert.Lib.stage ops_written 19 _ rfl main_v15 (by decide),
    ternary_result,
    ← Cert.Lib.after_eq_take_of_written ops_written 19 main_v12 (by decide),
    ← Cert.Lib.after_eq_take_of_written ops_written 19 main_v14 (by decide),
    ← Cert.Lib.after_eq_take_of_written ops_written 19 main_arg10 (by decide),
    st_main_v12 V,
    st_main_v14 V,
    st_main_arg10 V]
  rfl

theorem st_main_v16 (V : Valuation τ sig (Elt F)) :
    after (ops (F := F)) V (Proc.devRef .tc main_v16) = val_main_v16 (F := F) (V (Proc.devRef .tc main_arg10)) := by
  rw [Cert.Lib.stage ops_written 20 _ rfl main_v16 (by decide),
    unary_result,
    ← Cert.Lib.after_eq_take_of_written ops_written 20 main_v15 (by decide),
    st_main_v15 V]
  rfl

theorem st_main_v17 (V : Valuation τ sig (Elt F)) :
    after (ops (F := F)) V (Proc.devRef .tc main_v17) = val_main_v17 (F := F) (V (Proc.devRef .tc main_arg0)) (V (Proc.devRef .tc main_arg10)) := by
  rw [Cert.Lib.stage ops_written 21 _ rfl main_v17 (by decide),
    binary_result,
    ← Cert.Lib.after_eq_take_of_written ops_written 21 main_v0 (by decide),
    ← Cert.Lib.after_eq_take_of_written ops_written 21 main_v16 (by decide),
    st_main_v0 V,
    st_main_v16 V]
  rfl

theorem st_main_c_3 (V : Valuation τ sig (Elt F)) :
    after (ops (F := F)) V (Proc.devRef .tc main_c_3) = val_main_c_3 (F := F) := by
  rw [Cert.Lib.stage ops_written 22 _ rfl main_c_3 (by decide),
    nullary_result]
  rfl

theorem st_main_v18 (V : Valuation τ sig (Elt F)) :
    after (ops (F := F)) V (Proc.devRef .tc main_v18) = val_main_v18 (F := F) := by
  rw [Cert.Lib.stage ops_written 23 _ rfl main_v18 (by decide),
    unary_result,
    ← Cert.Lib.after_eq_take_of_written ops_written 23 main_c_3 (by decide),
    st_main_c_3 V]
  rfl

theorem st_main_v19 (V : Valuation τ sig (Elt F)) :
    after (ops (F := F)) V (Proc.devRef .tc main_v19) = val_main_v19 (F := F) (V (Proc.devRef .tc main_arg11)) := by
  rw [Cert.Lib.stage ops_written 24 _ rfl main_v19 (by decide),
    binary_result,
    ← Cert.Lib.after_eq_take_of_written ops_written 24 main_arg11 (by decide),
    ← Cert.Lib.after_eq_take_of_written ops_written 24 main_v18 (by decide),
    st_main_arg11 V,
    st_main_v18 V]
  rfl

theorem st_main_c_4 (V : Valuation τ sig (Elt F)) :
    after (ops (F := F)) V (Proc.devRef .tc main_c_4) = val_main_c_4 (F := F) := by
  rw [Cert.Lib.stage ops_written 25 _ rfl main_c_4 (by decide),
    nullary_result]
  rfl

theorem st_main_v20 (V : Valuation τ sig (Elt F)) :
    after (ops (F := F)) V (Proc.devRef .tc main_v20) = val_main_v20 (F := F) := by
  rw [Cert.Lib.stage ops_written 26 _ rfl main_v20 (by decide),
    unary_result,
    ← Cert.Lib.after_eq_take_of_written ops_written 26 main_c_4 (by decide),
    st_main_c_4 V]
  rfl

theorem st_main_v21 (V : Valuation τ sig (Elt F)) :
    after (ops (F := F)) V (Proc.devRef .tc main_v21) = val_main_v21 (F := F) (V (Proc.devRef .tc main_arg11)) := by
  rw [Cert.Lib.stage ops_written 27 _ rfl main_v21 (by decide),
    binary_result,
    ← Cert.Lib.after_eq_take_of_written ops_written 27 main_arg11 (by decide),
    ← Cert.Lib.after_eq_take_of_written ops_written 27 main_v20 (by decide),
    st_main_arg11 V,
    st_main_v20 V]
  rfl

theorem st_main_v22 (V : Valuation τ sig (Elt F)) :
    after (ops (F := F)) V (Proc.devRef .tc main_v22) = val_main_v22 (F := F) (V (Proc.devRef .tc main_arg11)) := by
  rw [Cert.Lib.stage ops_written 28 _ rfl main_v22 (by decide),
    ternary_result,
    ← Cert.Lib.after_eq_take_of_written ops_written 28 main_v19 (by decide),
    ← Cert.Lib.after_eq_take_of_written ops_written 28 main_v21 (by decide),
    ← Cert.Lib.after_eq_take_of_written ops_written 28 main_arg11 (by decide),
    st_main_v19 V,
    st_main_v21 V,
    st_main_arg11 V]
  rfl

theorem st_main_v23 (V : Valuation τ sig (Elt F)) :
    after (ops (F := F)) V (Proc.devRef .tc main_v23) = val_main_v23 (F := F) (V (Proc.devRef .tc main_arg11)) := by
  rw [Cert.Lib.stage ops_written 29 _ rfl main_v23 (by decide),
    unary_result,
    ← Cert.Lib.after_eq_take_of_written ops_written 29 main_v22 (by decide),
    st_main_v22 V]
  rfl

theorem st_main_v24 (V : Valuation τ sig (Elt F)) :
    after (ops (F := F)) V (Proc.devRef .tc main_v24) = val_main_v24 (F := F) (V (Proc.devRef .tc main_arg0)) (V (Proc.devRef .tc main_arg11)) := by
  rw [Cert.Lib.stage ops_written 30 _ rfl main_v24 (by decide),
    binary_result,
    ← Cert.Lib.after_eq_take_of_written ops_written 30 main_v0 (by decide),
    ← Cert.Lib.after_eq_take_of_written ops_written 30 main_v23 (by decide),
    st_main_v0 V,
    st_main_v23 V]
  rfl

theorem st_main_v25 (V : Valuation τ sig (Elt F)) :
    after (ops (F := F)) V (Proc.devRef .tc main_v25) = val_main_v25 (F := F) (V (Proc.devRef .tc main_arg0)) (V (Proc.devRef .tc main_arg1)) (V (Proc.devRef .tc main_arg9)) (V (Proc.devRef .tc main_arg10)) (V (Proc.devRef .tc main_arg11)) := by
  rw [Cert.Lib.stage ops_written 31 _ rfl main_v25 (by decide),
    nary4_result,
    ← Cert.Lib.after_eq_take_of_written ops_written 31 main_v10 (by decide),
    ← Cert.Lib.after_eq_take_of_written ops_written 31 main_v17 (by decide),
    ← Cert.Lib.after_eq_take_of_written ops_written 31 main_v24 (by decide),
    ← Cert.Lib.after_eq_take_of_written ops_written 31 main_arg1 (by decide),
    st_main_v10 V,
    st_main_v17 V,
    st_main_v24 V,
    st_main_arg1 V]
  rfl

theorem st_main_c_5 (V : Valuation τ sig (Elt F)) :
    after (ops (F := F)) V (Proc.devRef .tc main_c_5) = val_main_c_5 (F := F) := by
  rw [Cert.Lib.stage ops_written 32 _ rfl main_c_5 (by decide),
    nullary_result]
  rfl

theorem st_main_v26 (V : Valuation τ sig (Elt F)) :
    after (ops (F := F)) V (Proc.devRef .tc main_v26) = val_main_v26 (F := F) := by
  rw [Cert.Lib.stage ops_written 33 _ rfl main_v26 (by decide),
    unary_result,
    ← Cert.Lib.after_eq_take_of_written ops_written 33 main_c_5 (by decide),
    st_main_c_5 V]
  rfl

theorem st_main_v27 (V : Valuation τ sig (Elt F)) :
    after (ops (F := F)) V (Proc.devRef .tc main_v27) = val_main_v27 (F := F) (V (Proc.devRef .tc main_arg9)) := by
  rw [Cert.Lib.stage ops_written 34 _ rfl main_v27 (by decide),
    binary_result,
    ← Cert.Lib.after_eq_take_of_written ops_written 34 main_arg9 (by decide),
    ← Cert.Lib.after_eq_take_of_written ops_written 34 main_v26 (by decide),
    st_main_arg9 V,
    st_main_v26 V]
  rfl

theorem st_main_c_6 (V : Valuation τ sig (Elt F)) :
    after (ops (F := F)) V (Proc.devRef .tc main_c_6) = val_main_c_6 (F := F) := by
  rw [Cert.Lib.stage ops_written 35 _ rfl main_c_6 (by decide),
    nullary_result]
  rfl

theorem st_main_v28 (V : Valuation τ sig (Elt F)) :
    after (ops (F := F)) V (Proc.devRef .tc main_v28) = val_main_v28 (F := F) := by
  rw [Cert.Lib.stage ops_written 36 _ rfl main_v28 (by decide),
    unary_result,
    ← Cert.Lib.after_eq_take_of_written ops_written 36 main_c_6 (by decide),
    st_main_c_6 V]
  rfl

theorem st_main_v29 (V : Valuation τ sig (Elt F)) :
    after (ops (F := F)) V (Proc.devRef .tc main_v29) = val_main_v29 (F := F) (V (Proc.devRef .tc main_arg9)) := by
  rw [Cert.Lib.stage ops_written 37 _ rfl main_v29 (by decide),
    binary_result,
    ← Cert.Lib.after_eq_take_of_written ops_written 37 main_arg9 (by decide),
    ← Cert.Lib.after_eq_take_of_written ops_written 37 main_v28 (by decide),
    st_main_arg9 V,
    st_main_v28 V]
  rfl

theorem st_main_v30 (V : Valuation τ sig (Elt F)) :
    after (ops (F := F)) V (Proc.devRef .tc main_v30) = val_main_v30 (F := F) (V (Proc.devRef .tc main_arg9)) := by
  rw [Cert.Lib.stage ops_written 38 _ rfl main_v30 (by decide),
    ternary_result,
    ← Cert.Lib.after_eq_take_of_written ops_written 38 main_v27 (by decide),
    ← Cert.Lib.after_eq_take_of_written ops_written 38 main_v29 (by decide),
    ← Cert.Lib.after_eq_take_of_written ops_written 38 main_arg9 (by decide),
    st_main_v27 V,
    st_main_v29 V,
    st_main_arg9 V]
  rfl

theorem st_main_v31 (V : Valuation τ sig (Elt F)) :
    after (ops (F := F)) V (Proc.devRef .tc main_v31) = val_main_v31 (F := F) (V (Proc.devRef .tc main_arg9)) := by
  rw [Cert.Lib.stage ops_written 39 _ rfl main_v31 (by decide),
    unary_result,
    ← Cert.Lib.after_eq_take_of_written ops_written 39 main_v30 (by decide),
    st_main_v30 V]
  rfl

theorem st_main_v32 (V : Valuation τ sig (Elt F)) :
    after (ops (F := F)) V (Proc.devRef .tc main_v32) = val_main_v32 (F := F) (V (Proc.devRef .tc main_arg9)) (V (Proc.devRef .tc main_arg13)) := by
  rw [Cert.Lib.stage ops_written 40 _ rfl main_v32 (by decide),
    binary_result,
    ← Cert.Lib.after_eq_take_of_written ops_written 40 main_v3 (by decide),
    ← Cert.Lib.after_eq_take_of_written ops_written 40 main_v31 (by decide),
    st_main_v3 V,
    st_main_v31 V]
  rfl

theorem st_main_v33 (V : Valuation τ sig (Elt F)) :
    after (ops (F := F)) V (Proc.devRef .tc main_v33) = val_main_v33 (F := F) (V (Proc.devRef .tc main_arg9)) (V (Proc.devRef .tc main_arg12)) (V (Proc.devRef .tc main_arg13)) := by
  rw [Cert.Lib.stage ops_written 41 _ rfl main_v33 (by decide),
    binary_result,
    ← Cert.Lib.after_eq_take_of_written ops_written 41 main_v2 (by decide),
    ← Cert.Lib.after_eq_take_of_written ops_written 41 main_v32 (by decide),
    st_main_v2 V,
    st_main_v32 V]
  rfl

theorem st_main_v34 (V : Valuation τ sig (Elt F)) :
    after (ops (F := F)) V (Proc.devRef .tc main_v34) = val_main_v34 (F := F) (V (Proc.devRef .tc main_arg9)) (V (Proc.devRef .tc main_arg12)) (V (Proc.devRef .tc main_arg13)) := by
  rw [Cert.Lib.stage ops_written 42 _ rfl main_v34 (by decide),
    unary_result,
    ← Cert.Lib.after_eq_take_of_written ops_written 42 main_v33 (by decide),
    st_main_v33 V]
  rfl

theorem st_main_v35 (V : Valuation τ sig (Elt F)) :
    after (ops (F := F)) V (Proc.devRef .tc main_v35) = val_main_v35 (F := F) (V (Proc.devRef .tc main_arg2)) := by
  rw [Cert.Lib.stage ops_written 43 _ rfl main_v35 (by decide),
    unary_result,
    ← Cert.Lib.after_eq_take_of_written ops_written 43 main_arg2 (by decide),
    st_main_arg2 V]
  rfl

theorem st_main_v36 (V : Valuation τ sig (Elt F)) :
    after (ops (F := F)) V (Proc.devRef .tc main_v36) = val_main_v36 (F := F) (V (Proc.devRef .tc main_arg9)) (V (Proc.devRef .tc main_arg12)) (V (Proc.devRef .tc main_arg13)) := by
  rw [Cert.Lib.stage ops_written 44 _ rfl main_v36 (by decide),
    unary_result,
    ← Cert.Lib.after_eq_take_of_written ops_written 44 main_v34 (by decide),
    st_main_v34 V]
  rfl

theorem st_main_v37 (V : Valuation τ sig (Elt F)) :
    after (ops (F := F)) V (Proc.devRef .tc main_v37) = val_main_v37 (F := F) (V (Proc.devRef .tc main_arg2)) := by
  rw [Cert.Lib.stage ops_written 45 _ rfl main_v37 (by decide),
    unary_result,
    ← Cert.Lib.after_eq_take_of_written ops_written 45 main_v35 (by decide),
    st_main_v35 V]
  rfl

theorem st_main_v38 (V : Valuation τ sig (Elt F)) :
    after (ops (F := F)) V (Proc.devRef .tc main_v38) = val_main_v38 (F := F) (V (Proc.devRef .tc main_arg2)) (V (Proc.devRef .tc main_arg9)) (V (Proc.devRef .tc main_arg12)) (V (Proc.devRef .tc main_arg13)) := by
  rw [Cert.Lib.stage ops_written 46 _ rfl main_v38 (by decide),
    binary_result,
    ← Cert.Lib.after_eq_take_of_written ops_written 46 main_v36 (by decide),
    ← Cert.Lib.after_eq_take_of_written ops_written 46 main_v37 (by decide),
    st_main_v36 V,
    st_main_v37 V]
  rfl

theorem st_main_v39 (V : Valuation τ sig (Elt F)) :
    after (ops (F := F)) V (Proc.devRef .tc main_v39) = val_main_v39 (F := F) (V (Proc.devRef .tc main_arg3)) := by
  rw [Cert.Lib.stage ops_written 47 _ rfl main_v39 (by decide),
    unary_result,
    ← Cert.Lib.after_eq_take_of_written ops_written 47 main_arg3 (by decide),
    st_main_arg3 V]
  rfl

theorem st_main_v40 (V : Valuation τ sig (Elt F)) :
    after (ops (F := F)) V (Proc.devRef .tc main_v40) = val_main_v40 (F := F) (V (Proc.devRef .tc main_arg3)) := by
  rw [Cert.Lib.stage ops_written 48 _ rfl main_v40 (by decide),
    unary_result,
    ← Cert.Lib.after_eq_take_of_written ops_written 48 main_v39 (by decide),
    st_main_v39 V]
  rfl

theorem st_main_v41 (V : Valuation τ sig (Elt F)) :
    after (ops (F := F)) V (Proc.devRef .tc main_v41) = val_main_v41 (F := F) (V (Proc.devRef .tc main_arg2)) (V (Proc.devRef .tc main_arg3)) (V (Proc.devRef .tc main_arg9)) (V (Proc.devRef .tc main_arg12)) (V (Proc.devRef .tc main_arg13)) := by
  rw [Cert.Lib.stage ops_written 49 _ rfl main_v41 (by decide),
    binary_result,
    ← Cert.Lib.after_eq_take_of_written ops_written 49 main_v38 (by decide),
    ← Cert.Lib.after_eq_take_of_written ops_written 49 main_v40 (by decide),
    st_main_v38 V,
    st_main_v40 V]
  rfl

theorem st_main_v42 (V : Valuation τ sig (Elt F)) :
    after (ops (F := F)) V (Proc.devRef .tc main_v42) = val_main_v42 (F := F) (V (Proc.devRef .tc main_arg2)) (V (Proc.devRef .tc main_arg3)) (V (Proc.devRef .tc main_arg9)) (V (Proc.devRef .tc main_arg12)) (V (Proc.devRef .tc main_arg13)) := by
  rw [Cert.Lib.stage ops_written 50 _ rfl main_v42 (by decide),
    unary_result,
    ← Cert.Lib.after_eq_take_of_written ops_written 50 main_v41 (by decide),
    st_main_v41 V]
  rfl

theorem st_main_v43 (V : Valuation τ sig (Elt F)) :
    after (ops (F := F)) V (Proc.devRef .tc main_v43) = val_main_v43 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) := by
  rw [Cert.Lib.stage ops_written 51 _ rfl main_v43 (by decide),
    binary_result,
    ← Cert.Lib.after_eq_take_of_written ops_written 51 main_v25 (by decide),
    ← Cert.Lib.after_eq_take_of_written ops_written 51 main_v42 (by decide),
    st_main_v25 V,
    st_main_v42 V]
  rfl

theorem st_main_c_7 (V : Valuation τ sig (Elt F)) :
    after (ops (F := F)) V (Proc.devRef .tc main_c_7) = val_main_c_7 (F := F) := by
  rw [Cert.Lib.stage ops_written 52 _ rfl main_c_7 (by decide),
    nullary_result]
  rfl

theorem st_main_v44 (V : Valuation τ sig (Elt F)) :
    after (ops (F := F)) V (Proc.devRef .tc main_v44) = val_main_v44 (F := F) := by
  rw [Cert.Lib.stage ops_written 53 _ rfl main_v44 (by decide),
    unary_result,
    ← Cert.Lib.after_eq_take_of_written ops_written 53 main_c_7 (by decide),
    st_main_c_7 V]
  rfl

theorem st_main_v45 (V : Valuation τ sig (Elt F)) :
    after (ops (F := F)) V (Proc.devRef .tc main_v45) = val_main_v45 (F := F) (V (Proc.devRef .tc main_arg10)) := by
  rw [Cert.Lib.stage ops_written 54 _ rfl main_v45 (by decide),
    binary_result,
    ← Cert.Lib.after_eq_take_of_written ops_written 54 main_arg10 (by decide),
    ← Cert.Lib.after_eq_take_of_written ops_written 54 main_v44 (by decide),
    st_main_arg10 V,
    st_main_v44 V]
  rfl

theorem st_main_c_8 (V : Valuation τ sig (Elt F)) :
    after (ops (F := F)) V (Proc.devRef .tc main_c_8) = val_main_c_8 (F := F) := by
  rw [Cert.Lib.stage ops_written 55 _ rfl main_c_8 (by decide),
    nullary_result]
  rfl

theorem st_main_v46 (V : Valuation τ sig (Elt F)) :
    after (ops (F := F)) V (Proc.devRef .tc main_v46) = val_main_v46 (F := F) := by
  rw [Cert.Lib.stage ops_written 56 _ rfl main_v46 (by decide),
    unary_result,
    ← Cert.Lib.after_eq_take_of_written ops_written 56 main_c_8 (by decide),
    st_main_c_8 V]
  rfl

theorem st_main_v47 (V : Valuation τ sig (Elt F)) :
    after (ops (F := F)) V (Proc.devRef .tc main_v47) = val_main_v47 (F := F) (V (Proc.devRef .tc main_arg10)) := by
  rw [Cert.Lib.stage ops_written 57 _ rfl main_v47 (by decide),
    binary_result,
    ← Cert.Lib.after_eq_take_of_written ops_written 57 main_arg10 (by decide),
    ← Cert.Lib.after_eq_take_of_written ops_written 57 main_v46 (by decide),
    st_main_arg10 V,
    st_main_v46 V]
  rfl

theorem st_main_v48 (V : Valuation τ sig (Elt F)) :
    after (ops (F := F)) V (Proc.devRef .tc main_v48) = val_main_v48 (F := F) (V (Proc.devRef .tc main_arg10)) := by
  rw [Cert.Lib.stage ops_written 58 _ rfl main_v48 (by decide),
    ternary_result,
    ← Cert.Lib.after_eq_take_of_written ops_written 58 main_v45 (by decide),
    ← Cert.Lib.after_eq_take_of_written ops_written 58 main_v47 (by decide),
    ← Cert.Lib.after_eq_take_of_written ops_written 58 main_arg10 (by decide),
    st_main_v45 V,
    st_main_v47 V,
    st_main_arg10 V]
  rfl

theorem st_main_v49 (V : Valuation τ sig (Elt F)) :
    after (ops (F := F)) V (Proc.devRef .tc main_v49) = val_main_v49 (F := F) (V (Proc.devRef .tc main_arg10)) := by
  rw [Cert.Lib.stage ops_written 59 _ rfl main_v49 (by decide),
    unary_result,
    ← Cert.Lib.after_eq_take_of_written ops_written 59 main_v48 (by decide),
    st_main_v48 V]
  rfl

theorem st_main_v50 (V : Valuation τ sig (Elt F)) :
    after (ops (F := F)) V (Proc.devRef .tc main_v50) = val_main_v50 (F := F) (V (Proc.devRef .tc main_arg10)) (V (Proc.devRef .tc main_arg13)) := by
  rw [Cert.Lib.stage ops_written 60 _ rfl main_v50 (by decide),
    binary_result,
    ← Cert.Lib.after_eq_take_of_written ops_written 60 main_v3 (by decide),
    ← Cert.Lib.after_eq_take_of_written ops_written 60 main_v49 (by decide),
    st_main_v3 V,
    st_main_v49 V]
  rfl

end Cert.ReferenceIdeal.Stage

end
-- ==== Proof.RefStage2.lean ====
import proofs.«115542_j63840393888431_2_alg».proof.Proof.RefStage1

/-! The reference's host operations, read one at a time against the FINAL buffer contents. Every buffer is written by
    exactly one operation, so the contents the whole line leaves in an operation's result buffer are that operation's
    function of the final contents of its operand buffers; with the operands' own stage lemmas these are the stages
    `val_<buffer>` of the argument arrays, by unfolding one definition. -/

noncomputable section

namespace Cert.ReferenceIdeal.Stage

open Cert.ReferenceIdeal Cert.ReferenceIdeal.Gen Cert.ReferenceIdeal.Ops Cert.ReferenceIdeal.ReadP
open Idealize.ShloMosaic Idealize.ShloMosaic.TcCoe Idealize.SL.Sem Idealize.ShloMosaic.StableHlo

variable {F : FTy → Type} [FloatOps F]

theorem st_main_v51 (V : Valuation τ sig (Elt F)) :
    after (ops (F := F)) V (Proc.devRef .tc main_v51) = val_main_v51 (F := F) (V (Proc.devRef .tc main_arg10)) (V (Proc.devRef .tc main_arg12)) (V (Proc.devRef .tc main_arg13)) := by
  rw [Cert.Lib.stage ops_written 61 _ rfl main_v51 (by decide),
    binary_result,
    ← Cert.Lib.after_eq_take_of_written ops_written 61 main_v2 (by decide),
    ← Cert.Lib.after_eq_take_of_written ops_written 61 main_v50 (by decide),
    st_main_v2 V,
    st_main_v50 V]
  rfl

theorem st_main_v52 (V : Valuation τ sig (Elt F)) :
    after (ops (F := F)) V (Proc.devRef .tc main_v52) = val_main_v52 (F := F) (V (Proc.devRef .tc main_arg10)) (V (Proc.devRef .tc main_arg12)) (V (Proc.devRef .tc main_arg13)) := by
  rw [Cert.Lib.stage ops_written 62 _ rfl main_v52 (by decide),
    unary_result,
    ← Cert.Lib.after_eq_take_of_written ops_written 62 main_v51 (by decide),
    st_main_v51 V]
  rfl

theorem st_main_v53 (V : Valuation τ sig (Elt F)) :
    after (ops (F := F)) V (Proc.devRef .tc main_v53) = val_main_v53 (F := F) (V (Proc.devRef .tc main_arg2)) := by
  rw [Cert.Lib.stage ops_written 63 _ rfl main_v53 (by decide),
    unary_result,
    ← Cert.Lib.after_eq_take_of_written ops_written 63 main_arg2 (by decide),
    st_main_arg2 V]
  rfl

theorem st_main_v54 (V : Valuation τ sig (Elt F)) :
    after (ops (F := F)) V (Proc.devRef .tc main_v54) = val_main_v54 (F := F) (V (Proc.devRef .tc main_arg10)) (V (Proc.devRef .tc main_arg12)) (V (Proc.devRef .tc main_arg13)) := by
  rw [Cert.Lib.stage ops_written 64 _ rfl main_v54 (by decide),
    unary_result,
    ← Cert.Lib.after_eq_take_of_written ops_written 64 main_v52 (by decide),
    st_main_v52 V]
  rfl

theorem st_main_v55 (V : Valuation τ sig (Elt F)) :
    after (ops (F := F)) V (Proc.devRef .tc main_v55) = val_main_v55 (F := F) (V (Proc.devRef .tc main_arg2)) := by
  rw [Cert.Lib.stage ops_written 65 _ rfl main_v55 (by decide),
    unary_result,
    ← Cert.Lib.after_eq_take_of_written ops_written 65 main_v53 (by decide),
    st_main_v53 V]
  rfl

theorem st_main_v56 (V : Valuation τ sig (Elt F)) :
    after (ops (F := F)) V (Proc.devRef .tc main_v56) = val_main_v56 (F := F) (V (Proc.devRef .tc main_arg2)) (V (Proc.devRef .tc main_arg10)) (V (Proc.devRef .tc main_arg12)) (V (Proc.devRef .tc main_arg13)) := by
  rw [Cert.Lib.stage ops_written 66 _ rfl main_v56 (by decide),
    binary_result,
    ← Cert.Lib.after_eq_take_of_written ops_written 66 main_v54 (by decide),
    ← Cert.Lib.after_eq_take_of_written ops_written 66 main_v55 (by decide),
    st_main_v54 V,
    st_main_v55 V]
  rfl

theorem st_main_v57 (V : Valuation τ sig (Elt F)) :
    after (ops (F := F)) V (Proc.devRef .tc main_v57) = val_main_v57 (F := F) (V (Proc.devRef .tc main_arg3)) := by
  rw [Cert.Lib.stage ops_written 67 _ rfl main_v57 (by decide),
    unary_result,
    ← Cert.Lib.after_eq_take_of_written ops_written 67 main_arg3 (by decide),
    st_main_arg3 V]
  rfl

theorem st_main_v58 (V : Valuation τ sig (Elt F)) :
    after (ops (F := F)) V (Proc.devRef .tc main_v58) = val_main_v58 (F := F) (V (Proc.devRef .tc main_arg3)) := by
  rw [Cert.Lib.stage ops_written 68 _ rfl main_v58 (by decide),
    unary_result,
    ← Cert.Lib.after_eq_take_of_written ops_written 68 main_v57 (by decide),
    st_main_v57 V]
  rfl

theorem st_main_v59 (V : Valuation τ sig (Elt F)) :
    after (ops (F := F)) V (Proc.devRef .tc main_v59) = val_main_v59 (F := F) (V (Proc.devRef .tc main_arg2)) (V (Proc.devRef .tc main_arg3)) (V (Proc.devRef .tc main_arg10)) (V (Proc.devRef .tc main_arg12)) (V (Proc.devRef .tc main_arg13)) := by
  rw [Cert.Lib.stage ops_written 69 _ rfl main_v59 (by decide),
    binary_result,
    ← Cert.Lib.after_eq_take_of_written ops_written 69 main_v56 (by decide),
    ← Cert.Lib.after_eq_take_of_written ops_written 69 main_v58 (by decide),
    st_main_v56 V,
    st_main_v58 V]
  rfl

theorem st_main_v60 (V : Valuation τ sig (Elt F)) :
    after (ops (F := F)) V (Proc.devRef .tc main_v60) = val_main_v60 (F := F) (V (Proc.devRef .tc main_arg2)) (V (Proc.devRef .tc main_arg3)) (V (Proc.devRef .tc main_arg10)) (V (Proc.devRef .tc main_arg12)) (V (Proc.devRef .tc main_arg13)) := by
  rw [Cert.Lib.stage ops_written 70 _ rfl main_v60 (by decide),
    unary_result,
    ← Cert.Lib.after_eq_take_of_written ops_written 70 main_v59 (by decide),
    st_main_v59 V]
  rfl

theorem st_main_v61 (V : Valuation τ sig (Elt F)) :
    after (ops (F := F)) V (Proc.devRef .tc main_v61) = val_main_v61 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) := by
  rw [Cert.Lib.stage ops_written 71 _ rfl main_v61 (by decide),
    binary_result,
    ← Cert.Lib.after_eq_take_of_written ops_written 71 main_v25 (by decide),
    ← Cert.Lib.after_eq_take_of_written ops_written 71 main_v60 (by decide),
    st_main_v25 V,
    st_main_v60 V]
  rfl

theorem st_main_c_9 (V : Valuation τ sig (Elt F)) :
    after (ops (F := F)) V (Proc.devRef .tc main_c_9) = val_main_c_9 (F := F) := by
  rw [Cert.Lib.stage ops_written 72 _ rfl main_c_9 (by decide),
    nullary_result]
  rfl

theorem st_main_v62 (V : Valuation τ sig (Elt F)) :
    after (ops (F := F)) V (Proc.devRef .tc main_v62) = val_main_v62 (F := F) := by
  rw [Cert.Lib.stage ops_written 73 _ rfl main_v62 (by decide),
    unary_result,
    ← Cert.Lib.after_eq_take_of_written ops_written 73 main_c_9 (by decide),
    st_main_c_9 V]
  rfl

theorem st_main_v63 (V : Valuation τ sig (Elt F)) :
    after (ops (F := F)) V (Proc.devRef .tc main_v63) = val_main_v63 (F := F) (V (Proc.devRef .tc main_arg11)) := by
  rw [Cert.Lib.stage ops_written 74 _ rfl main_v63 (by decide),
    binary_result,
    ← Cert.Lib.after_eq_take_of_written ops_written 74 main_arg11 (by decide),
    ← Cert.Lib.after_eq_take_of_written ops_written 74 main_v62 (by decide),
    st_main_arg11 V,
    st_main_v62 V]
  rfl

theorem st_main_c_10 (V : Valuation τ sig (Elt F)) :
    after (ops (F := F)) V (Proc.devRef .tc main_c_10) = val_main_c_10 (F := F) := by
  rw [Cert.Lib.stage ops_written 75 _ rfl main_c_10 (by decide),
    nullary_result]
  rfl

theorem st_main_v64 (V : Valuation τ sig (Elt F)) :
    after (ops (F := F)) V (Proc.devRef .tc main_v64) = val_main_v64 (F := F) := by
  rw [Cert.Lib.stage ops_written 76 _ rfl main_v64 (by decide),
    unary_result,
    ← Cert.Lib.after_eq_take_of_written ops_written 76 main_c_10 (by decide),
    st_main_c_10 V]
  rfl

theorem st_main_v65 (V : Valuation τ sig (Elt F)) :
    after (ops (F := F)) V (Proc.devRef .tc main_v65) = val_main_v65 (F := F) (V (Proc.devRef .tc main_arg11)) := by
  rw [Cert.Lib.stage ops_written 77 _ rfl main_v65 (by decide),
    binary_result,
    ← Cert.Lib.after_eq_take_of_written ops_written 77 main_arg11 (by decide),
    ← Cert.Lib.after_eq_take_of_written ops_written 77 main_v64 (by decide),
    st_main_arg11 V,
    st_main_v64 V]
  rfl

theorem st_main_v66 (V : Valuation τ sig (Elt F)) :
    after (ops (F := F)) V (Proc.devRef .tc main_v66) = val_main_v66 (F := F) (V (Proc.devRef .tc main_arg11)) := by
  rw [Cert.Lib.stage ops_written 78 _ rfl main_v66 (by decide),
    ternary_result,
    ← Cert.Lib.after_eq_take_of_written ops_written 78 main_v63 (by decide),
    ← Cert.Lib.after_eq_take_of_written ops_written 78 main_v65 (by decide),
    ← Cert.Lib.after_eq_take_of_written ops_written 78 main_arg11 (by decide),
    st_main_v63 V,
    st_main_v65 V,
    st_main_arg11 V]
  rfl

theorem st_main_v67 (V : Valuation τ sig (Elt F)) :
    after (ops (F := F)) V (Proc.devRef .tc main_v67) = val_main_v67 (F := F) (V (Proc.devRef .tc main_arg11)) := by
  rw [Cert.Lib.stage ops_written 79 _ rfl main_v67 (by decide),
    unary_result,
    ← Cert.Lib.after_eq_take_of_written ops_written 79 main_v66 (by decide),
    st_main_v66 V]
  rfl

theorem st_main_v68 (V : Valuation τ sig (Elt F)) :
    after (ops (F := F)) V (Proc.devRef .tc main_v68) = val_main_v68 (F := F) (V (Proc.devRef .tc main_arg11)) (V (Proc.devRef .tc main_arg13)) := by
  rw [Cert.Lib.stage ops_written 80 _ rfl main_v68 (by decide),
    binary_result,
    ← Cert.Lib.after_eq_take_of_written ops_written 80 main_v3 (by decide),
    ← Cert.Lib.after_eq_take_of_written ops_written 80 main_v67 (by decide),
    st_main_v3 V,
    st_main_v67 V]
  rfl

theorem st_main_v69 (V : Valuation τ sig (Elt F)) :
    after (ops (F := F)) V (Proc.devRef .tc main_v69) = val_main_v69 (F := F) (V (Proc.devRef .tc main_arg11)) (V (Proc.devRef .tc main_arg12)) (V (Proc.devRef .tc main_arg13)) := by
  rw [Cert.Lib.stage ops_written 81 _ rfl main_v69 (by decide),
    binary_result,
    ← Cert.Lib.after_eq_take_of_written ops_written 81 main_v2 (by decide),
    ← Cert.Lib.after_eq_take_of_written ops_written 81 main_v68 (by decide),
    st_main_v2 V,
    st_main_v68 V]
  rfl

theorem st_main_v70 (V : Valuation τ sig (Elt F)) :
    after (ops (F := F)) V (Proc.devRef .tc main_v70) = val_main_v70 (F := F) (V (Proc.devRef .tc main_arg11)) (V (Proc.devRef .tc main_arg12)) (V (Proc.devRef .tc main_arg13)) := by
  rw [Cert.Lib.stage ops_written 82 _ rfl main_v70 (by decide),
    unary_result,
    ← Cert.Lib.after_eq_take_of_written ops_written 82 main_v69 (by decide),
    st_main_v69 V]
  rfl

theorem st_main_v71 (V : Valuation τ sig (Elt F)) :
    after (ops (F := F)) V (Proc.devRef .tc main_v71) = val_main_v71 (F := F) (V (Proc.devRef .tc main_arg2)) := by
  rw [Cert.Lib.stage ops_written 83 _ rfl main_v71 (by decide),
    unary_result,
    ← Cert.Lib.after_eq_take_of_written ops_written 83 main_arg2 (by decide),
    st_main_arg2 V]
  rfl

theorem st_main_v72 (V : Valuation τ sig (Elt F)) :
    after (ops (F := F)) V (Proc.devRef .tc main_v72) = val_main_v72 (F := F) (V (Proc.devRef .tc main_arg11)) (V (Proc.devRef .tc main_arg12)) (V (Proc.devRef .tc main_arg13)) := by
  rw [Cert.Lib.stage ops_written 84 _ rfl main_v72 (by decide),
    unary_result,
    ← Cert.Lib.after_eq_take_of_written ops_written 84 main_v70 (by decide),
    st_main_v70 V]
  rfl

theorem st_main_v73 (V : Valuation τ sig (Elt F)) :
    after (ops (F := F)) V (Proc.devRef .tc main_v73) = val_main_v73 (F := F) (V (Proc.devRef .tc main_arg2)) := by
  rw [Cert.Lib.stage ops_written 85 _ rfl main_v73 (by decide),
    unary_result,
    ← Cert.Lib.after_eq_take_of_written ops_written 85 main_v71 (by decide),
    st_main_v71 V]
  rfl

theorem st_main_v74 (V : Valuation τ sig (Elt F)) :
    after (ops (F := F)) V (Proc.devRef .tc main_v74) = val_main_v74 (F := F) (V (Proc.devRef .tc main_arg2)) (V (Proc.devRef .tc main_arg11)) (V (Proc.devRef .tc main_arg12)) (V (Proc.devRef .tc main_arg13)) := by
  rw [Cert.Lib.stage ops_written 86 _ rfl main_v74 (by decide),
    binary_result,
    ← Cert.Lib.after_eq_take_of_written ops_written 86 main_v72 (by decide),
    ← Cert.Lib.after_eq_take_of_written ops_written 86 main_v73 (by decide),
    st_main_v72 V,
    st_main_v73 V]
  rfl

theorem st_main_v75 (V : Valuation τ sig (Elt F)) :
    after (ops (F := F)) V (Proc.devRef .tc main_v75) = val_main_v75 (F := F) (V (Proc.devRef .tc main_arg3)) := by
  rw [Cert.Lib.stage ops_written 87 _ rfl main_v75 (by decide),
    unary_result,
    ← Cert.Lib.after_eq_take_of_written ops_written 87 main_arg3 (by decide),
    st_main_arg3 V]
  rfl

theorem st_main_v76 (V : Valuation τ sig (Elt F)) :
    after (ops (F := F)) V (Proc.devRef .tc main_v76) = val_main_v76 (F := F) (V (Proc.devRef .tc main_arg3)) := by
  rw [Cert.Lib.stage ops_written 88 _ rfl main_v76 (by decide),
    unary_result,
    ← Cert.Lib.after_eq_take_of_written ops_written 88 main_v75 (by decide),
    st_main_v75 V]
  rfl

theorem st_main_v77 (V : Valuation τ sig (Elt F)) :
    after (ops (F := F)) V (Proc.devRef .tc main_v77) = val_main_v77 (F := F) (V (Proc.devRef .tc main_arg2)) (V (Proc.devRef .tc main_arg3)) (V (Proc.devRef .tc main_arg11)) (V (Proc.devRef .tc main_arg12)) (V (Proc.devRef .tc main_arg13)) := by
  rw [Cert.Lib.stage ops_written 89 _ rfl main_v77 (by decide),
    binary_result,
    ← Cert.Lib.after_eq_take_of_written ops_written 89 main_v74 (by decide),
    ← Cert.Lib.after_eq_take_of_written ops_written 89 main_v76 (by decide),
    st_main_v74 V,
    st_main_v76 V]
  rfl

theorem st_main_v78 (V : Valuation τ sig (Elt F)) :
    after (ops (F := F)) V (Proc.devRef .tc main_v78) = val_main_v78 (F := F) (V (Proc.devRef .tc main_arg2)) (V (Proc.devRef .tc main_arg3)) (V (Proc.devRef .tc main_arg11)) (V (Proc.devRef .tc main_arg12)) (V (Proc.devRef .tc main_arg13)) := by
  rw [Cert.Lib.stage ops_written 90 _ rfl main_v78 (by decide),
    unary_result,
    ← Cert.Lib.after_eq_take_of_written ops_written 90 main_v77 (by decide),
    st_main_v77 V]
  rfl

theorem st_main_v79 (V : Valuation τ sig (Elt F)) :
    after (ops (F := F)) V (Proc.devRef .tc main_v79) = val_main_v79 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) := by
  rw [Cert.Lib.stage ops_written 91 _ rfl main_v79 (by decide),
    binary_result,
    ← Cert.Lib.after_eq_take_of_written ops_written 91 main_v25 (by decide),
    ← Cert.Lib.after_eq_take_of_written ops_written 91 main_v78 (by decide),
    st_main_v25 V,
    st_main_v78 V]
  rfl

theorem st_main_v80 (V : Valuation τ sig (Elt F)) :
    after (ops (F := F)) V (Proc.devRef .tc main_v80) = val_main_v80 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) := by
  rw [Cert.Lib.stage ops_written 92 _ rfl main_v80 (by decide),
    Cert.Lib.nary3_result,
    ← Cert.Lib.after_eq_take_of_written ops_written 92 main_v43 (by decide),
    ← Cert.Lib.after_eq_take_of_written ops_written 92 main_v61 (by decide),
    ← Cert.Lib.after_eq_take_of_written ops_written 92 main_v79 (by decide),
    st_main_v43 V,
    st_main_v61 V,
    st_main_v79 V]
  rfl

theorem st_main_v81 (V : Valuation τ sig (Elt F)) :
    after (ops (F := F)) V (Proc.devRef .tc main_v81) = val_main_v81 (F := F) (V (Proc.devRef .tc main_arg9)) (V (Proc.devRef .tc main_arg10)) (V (Proc.devRef .tc main_arg11)) := by
  rw [Cert.Lib.stage ops_written 93 _ rfl main_v81 (by decide),
    Cert.Lib.nary3_result,
    ← Cert.Lib.after_eq_take_of_written ops_written 93 main_arg9 (by decide),
    ← Cert.Lib.after_eq_take_of_written ops_written 93 main_arg10 (by decide),
    ← Cert.Lib.after_eq_take_of_written ops_written 93 main_arg11 (by decide),
    st_main_arg9 V,
    st_main_arg10 V,
    st_main_arg11 V]
  rfl

theorem st_main_cst (V : Valuation τ sig (Elt F)) :
    after (ops (F := F)) V (Proc.devRef .tc main_cst) = val_main_cst (F := F) := by
  rw [Cert.Lib.stage ops_written 94 _ rfl main_cst (by decide),
    nullary_result]
  rfl

theorem st_main_v82 (V : Valuation τ sig (Elt F)) :
    after (ops (F := F)) V (Proc.devRef .tc main_v82) = val_main_v82 (F := F) := by
  rw [Cert.Lib.stage ops_written 95 _ rfl main_v82 (by decide),
    unary_result,
    ← Cert.Lib.after_eq_take_of_written ops_written 95 main_cst (by decide),
    st_main_cst V]
  rfl

theorem st_main_v83 (V : Valuation τ sig (Elt F)) :
    after (ops (F := F)) V (Proc.devRef .tc main_v83) = val_main_v83 (F := F) (V (Proc.devRef .tc main_arg9)) (V (Proc.devRef .tc main_arg10)) (V (Proc.devRef .tc main_arg11)) := by
  rw [Cert.Lib.stage ops_written 96 _ rfl main_v83 (by decide),
    unary_result,
    ← Cert.Lib.after_eq_take_of_written ops_written 96 main_v81 (by decide),
    st_main_v81 V]
  rfl

theorem st_main_v84 (V : Valuation τ sig (Elt F)) :
    after (ops (F := F)) V (Proc.devRef .tc main_v84) = val_main_v84 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) := by
  rw [Cert.Lib.stage ops_written 97 _ rfl main_v84 (by decide),
    ternary_result,
    ← Cert.Lib.after_eq_take_of_written ops_written 97 main_v82 (by decide),
    ← Cert.Lib.after_eq_take_of_written ops_written 97 main_v83 (by decide),
    ← Cert.Lib.after_eq_take_of_written ops_written 97 main_v80 (by decide),
    st_main_v82 V,
    st_main_v83 V,
    st_main_v80 V]
  rfl

theorem st_main_cst_11 (V : Valuation τ sig (Elt F)) :
    after (ops (F := F)) V (Proc.devRef .tc main_cst_11) = val_main_cst_11 (F := F) := by
  rw [Cert.Lib.stage ops_written 98 _ rfl main_cst_11 (by decide),
    nullary_result]
  rfl

theorem st_main_v85 (V : Valuation τ sig (Elt F)) :
    after (ops (F := F)) V (Proc.devRef .tc main_v85) = val_main_v85 (F := F) := by
  rw [Cert.Lib.stage ops_written 99 _ rfl main_v85 (by decide),
    unary_result,
    ← Cert.Lib.after_eq_take_of_written ops_written 99 main_cst_11 (by decide),
    st_main_cst_11 V]
  rfl

theorem st_main_cst_12 (V : Valuation τ sig (Elt F)) :
    after (ops (F := F)) V (Proc.devRef .tc main_cst_12) = val_main_cst_12 (F := F) := by
  rw [Cert.Lib.stage ops_written 100 _ rfl main_cst_12 (by decide),
    nullary_result]
  rfl

theorem st_main_v86 (V : Valuation τ sig (Elt F)) :
    after (ops (F := F)) V (Proc.devRef .tc main_v86) = val_main_v86 (F := F) := by
  rw [Cert.Lib.stage ops_written 101 _ rfl main_v86 (by decide),
    unary_result,
    ← Cert.Lib.after_eq_take_of_written ops_written 101 main_cst_12 (by decide),
    st_main_cst_12 V]
  rfl

theorem st_main_v87 (V : Valuation τ sig (Elt F)) :
    after (ops (F := F)) V (Proc.devRef .tc main_v87) = val_main_v87 (F := F) (V (Proc.devRef .tc main_arg9)) (V (Proc.devRef .tc main_arg10)) (V (Proc.devRef .tc main_arg11)) := by
  rw [Cert.Lib.stage ops_written 102 _ rfl main_v87 (by decide),
    unary_result,
    ← Cert.Lib.after_eq_take_of_written ops_written 102 main_v81 (by decide),
    st_main_v81 V]
  rfl

theorem st_main_v88 (V : Valuation τ sig (Elt F)) :
    after (ops (F := F)) V (Proc.devRef .tc main_v88) = val_main_v88 (F := F) (V (Proc.devRef .tc main_arg9)) (V (Proc.devRef .tc main_arg10)) (V (Proc.devRef .tc main_arg11)) := by
  rw [Cert.Lib.stage ops_written 103 _ rfl main_v88 (by decide),
    ternary_result,
    ← Cert.Lib.after_eq_take_of_written ops_written 103 main_v86 (by decide),
    ← Cert.Lib.after_eq_take_of_written ops_written 103 main_v87 (by decide),
    ← Cert.Lib.after_eq_take_of_written ops_written 103 main_v85 (by decide),
    st_main_v86 V,
    st_main_v87 V,
    st_main_v85 V]
  rfl

theorem st_main_cst_13 (V : Valuation τ sig (Elt F)) :
    after (ops (F := F)) V (Proc.devRef .tc main_cst_13) = val_main_cst_13 (F := F) := by
  rw [Cert.Lib.stage ops_written 104 _ rfl main_cst_13 (by decide),
    nullary_result]
  rfl

theorem st_main_v89 (V : Valuation τ sig (Elt F)) :
    after (ops (F := F)) V (Proc.devRef .tc main_v89) = val_main_v89 (F := F) := by
  rw [Cert.Lib.stage ops_written 105 _ rfl main_v89 (by decide),
    unary_result,
    ← Cert.Lib.after_eq_take_of_written ops_written 105 main_cst_13 (by decide),
    st_main_cst_13 V]
  rfl

theorem st_main_v90 (V : Valuation τ sig (Elt F)) :
    after (ops (F := F)) V (Proc.devRef .tc main_v90) = val_main_v90 (F := F) (V (Proc.devRef .tc main_arg9)) (V (Proc.devRef .tc main_arg10)) (V (Proc.devRef .tc main_arg11)) := by
  rw [Cert.Lib.stage ops_written 106 _ rfl main_v90 (by decide),
    binary_result,
    ← Cert.Lib.after_eq_take_of_written ops_written 106 main_v88 (by decide),
    ← Cert.Lib.after_eq_take_of_written ops_written 106 main_v89 (by decide),
    st_main_v88 V,
    st_main_v89 V]
  rfl

theorem st_main_v91 (V : Valuation τ sig (Elt F)) :
    after (ops (F := F)) V (Proc.devRef .tc main_v91) = val_main_v91 (F := F) (V (Proc.devRef .tc main_arg9)) (V (Proc.devRef .tc main_arg10)) (V (Proc.devRef .tc main_arg11)) := by
  rw [Cert.Lib.stage ops_written 107 _ rfl main_v91 (by decide),
    unary_result,
    ← Cert.Lib.after_eq_take_of_written ops_written 107 main_v90 (by decide),
    st_main_v90 V]
  rfl

theorem st_main_v92 (V : Valuation τ sig (Elt F)) :
    after (ops (F := F)) V (Proc.devRef .tc main_v92) = val_main_v92 (F := F) (V (Proc.devRef .tc main_arg9)) (V (Proc.devRef .tc main_arg10)) (V (Proc.devRef .tc main_arg11)) := by
  rw [Cert.Lib.stage ops_written 108 _ rfl main_v92 (by decide),
    unary_result,
    ← Cert.Lib.after_eq_take_of_written ops_written 108 main_v91 (by decide),
    st_main_v91 V]
  rfl

theorem st_main_v93 (V : Valuation τ sig (Elt F)) :
    after (ops (F := F)) V (Proc.devRef .tc main_v93) = val_main_v93 (F := F) (V (Proc.devRef .tc main_arg0)) (V (Proc.devRef .tc main_arg1)) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) := by
  rw [Cert.Lib.stage ops_written 109 _ rfl main_v93 (by decide),
    binary_result,
    ← Cert.Lib.after_eq_take_of_written ops_written 109 main_v84 (by decide),
    ← Cert.Lib.after_eq_take_of_written ops_written 109 main_v92 (by decide),
    st_main_v84 V,
    st_main_v92 V]
  rfl

theorem st_main_v94 (V : Valuation τ sig (Elt F)) :
    after (ops (F := F)) V (Proc.devRef .tc main_v94) = val_main_v94 (F := F) (V (Proc.devRef .tc main_arg4)) := by
  rw [Cert.Lib.stage ops_written 110 _ rfl main_v94 (by decide),
    unary_result,
    ← Cert.Lib.after_eq_take_of_written ops_written 110 main_arg4 (by decide),
    st_main_arg4 V]
  rfl

theorem st_main_v95 (V : Valuation τ sig (Elt F)) :
    after (ops (F := F)) V (Proc.devRef .tc main_v95) = val_main_v95 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) (V (Proc.devRef .tc main_arg11)) (V (Proc.devRef .tc main_arg12)) (V (Proc.devRef .tc main_arg13)) := by
  rw [Cert.Lib.stage ops_written 111 _ rfl main_v95 (by decide),
    binary_result,
    ← Cert.Lib.after_eq_take_of_written ops_written 111 main_v93 (by decide),
    ← Cert.Lib.after_eq_take_of_written ops_written 111 main_v94 (by decide),
    st_main_v93 V,
    st_main_v94 V]
  rfl

theorem st_main_v96 (V : Valuation τ sig (Elt F)) :
    after (ops (F := F)) V (Proc.devRef .tc main_v96) = val_main_v96 (F := F) (V (Proc.devRef .tc main_arg6)) := by
  rw [Cert.Lib.stage ops_written 112 _ rfl main_v96 (by decide),
    unary_result,
    ← Cert.Lib.after_eq_take_of_written ops_written 112 main_arg6 (by decide),
    st_main_arg6 V]
  rfl

theorem st_main_v97 (V : Valuation τ sig (Elt F)) :
    after (ops (F := F)) V (Proc.devRef .tc main_v97) = val_main_v97 (F := F) (V (Proc.devRef .tc main_arg6)) := by
  rw [Cert.Lib.stage ops_written 113 _ rfl main_v97 (by decide),
    unary_result,
    ← Cert.Lib.after_eq_take_of_written ops_written 113 main_v96 (by decide),
    st_main_v96 V]
  rfl

theorem st_main_v98 (V : Valuation τ sig (Elt F)) :
    after (ops (F := F)) V (Proc.devRef .tc main_v98) = val_main_v98 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg9)) (V (Proc.devRef .tc main_arg10)) (V (Proc.devRef .tc main_arg11)) (V (Proc.devRef .tc main_arg12)) (V (Proc.devRef .tc main_arg13)) := by
  rw [Cert.Lib.stage ops_written 114 _ rfl main_v98 (by decide),
    binary_result,
    ← Cert.Lib.after_eq_take_of_written ops_written 114 main_v95 (by decide),
    ← Cert.Lib.after_eq_take_of_written ops_written 114 main_v97 (by decide),
    st_main_v95 V,
    st_main_v97 V]
  rfl

theorem st_main_v99 (V : Valuation τ sig (Elt F)) :
    after (ops (F := F)) V (Proc.devRef .tc main_v99) = val_main_v99 (F := F) (V (Proc.devRef .tc main_arg5)) := by
  rw [Cert.Lib.stage ops_written 115 _ rfl main_v99 (by decide),
    unary_result,
    ← Cert.Lib.after_eq_take_of_written ops_written 115 main_arg5 (by decide),
    st_main_arg5 V]
  rfl

theorem st_main_v100 (V : Valuation τ sig (Elt F)) :
    after (ops (F := F)) V (Proc.devRef .tc main_v100) = val_main_v100 (F := F) (V (Proc.devRef .tc main_arg0)) (V (Proc.devRef .tc main_arg5)) := by
  rw [Cert.Lib.stage ops_written 116 _ rfl main_v100 (by decide),
    binary_result,
    ← Cert.Lib.after_eq_take_of_written ops_written 116 main_v0 (by decide),
    ← Cert.Lib.after_eq_take_of_written ops_written 116 main_v99 (by decide),
    st_main_v0 V,
    st_main_v99 V]
  rfl

theorem st_main_v101 (V : Valuation τ sig (Elt F)) :
    after (ops (F := F)) V (Proc.devRef .tc main_v101) = val_main_v101 (F := F) (V (Proc.devRef .tc main_arg7)) := by
  rw [Cert.Lib.stage ops_written 117 _ rfl main_v101 (by decide),
    unary_result,
    ← Cert.Lib.after_eq_take_of_written ops_written 117 main_arg7 (by decide),
    st_main_arg7 V]
  rfl

theorem st_main_v102 (V : Valuation τ sig (Elt F)) :
    after (ops (F := F)) V (Proc.devRef .tc main_v102) = val_main_v102 (F := F) (V (Proc.devRef .tc main_arg7)) := by
  rw [Cert.Lib.stage ops_written 118 _ rfl main_v102 (by decide),
    unary_result,
    ← Cert.Lib.after_eq_take_of_written ops_written 118 main_v101 (by decide),
    st_main_v101 V]
  rfl

theorem st_main_v103 (V : Valuation τ sig (Elt F)) :
    after (ops (F := F)) V (Proc.devRef .tc main_v103) = val_main_v103 (F := F) (V (Proc.devRef .tc main_arg0)) (V (Proc.devRef .tc main_arg5)) (V (Proc.devRef .tc main_arg7)) := by
  rw [Cert.Lib.stage ops_written 119 _ rfl main_v103 (by decide),
    binary_result,
    ← Cert.Lib.after_eq_take_of_written ops_written 119 main_v100 (by decide),
    ← Cert.Lib.after_eq_take_of_written ops_written 119 main_v102 (by decide),
    st_main_v100 V,
    st_main_v102 V]
  rfl

theorem st_main_v104 (V : Valuation τ sig (Elt F)) :
    after (ops (F := F)) V (Proc.devRef .tc main_v104) = val_main_v104 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg9)) (V (Proc.devRef .tc main_arg10)) (V (Proc.devRef .tc main_arg11)) (V (Proc.devRef .tc main_arg12)) (V (Proc.devRef .tc main_arg13)) := by
  rw [Cert.Lib.stage ops_written 120 _ rfl main_v104 (by decide),
    unary_result,
    ← Cert.Lib.after_eq_take_of_written ops_written 120 main_v98 (by decide),
    st_main_v98 V]
  rfl

theorem st_main_v105 (V : Valuation τ sig (Elt F)) :
    after (ops (F := F)) V (Proc.devRef .tc main_v105) = val_main_v105 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg9)) (V (Proc.devRef .tc main_arg10)) (V (Proc.devRef .tc main_arg11)) (V (Proc.devRef .tc main_arg12)) (V (Proc.devRef .tc main_arg13)) := by
  rw [Cert.Lib.stage ops_written 121 _ rfl main_v105 (by decide),
    unary_result,
    ← Cert.Lib.after_eq_take_of_written ops_written 121 main_v98 (by decide),
    st_main_v98 V]
  rfl

end Cert.ReferenceIdeal.Stage

end
-- ==== Proof.RefStage3.lean ====
import proofs.«115542_j63840393888431_2_alg».proof.Proof.RefStage2

/-! The reference's host operations, read one at a time against the FINAL buffer contents. Every buffer is written by
    exactly one operation, so the contents the whole line leaves in an operation's result buffer are that operation's
    function of the final contents of its operand buffers; with the operands' own stage lemmas these are the stages
    `val_<buffer>` of the argument arrays, by unfolding one definition. -/

noncomputable section

namespace Cert.ReferenceIdeal.Stage

open Cert.ReferenceIdeal Cert.ReferenceIdeal.Gen Cert.ReferenceIdeal.Ops Cert.ReferenceIdeal.ReadP
open Idealize.ShloMosaic Idealize.ShloMosaic.TcCoe Idealize.SL.Sem Idealize.ShloMosaic.StableHlo

variable {F : FTy → Type} [FloatOps F]

theorem st_main_v106 (V : Valuation τ sig (Elt F)) :
    after (ops (F := F)) V (Proc.devRef .tc main_v106) = val_main_v106 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg9)) (V (Proc.devRef .tc main_arg10)) (V (Proc.devRef .tc main_arg11)) (V (Proc.devRef .tc main_arg12)) (V (Proc.devRef .tc main_arg13)) := by
  rw [Cert.Lib.stage ops_written 122 _ rfl main_v106 (by decide),
    unary_result,
    ← Cert.Lib.after_eq_take_of_written ops_written 122 main_v98 (by decide),
    st_main_v98 V]
  rfl

theorem st_main_v107 (V : Valuation τ sig (Elt F)) :
    after (ops (F := F)) V (Proc.devRef .tc main_v107) = val_main_v107 (F := F) (V (Proc.devRef .tc main_arg0)) (V (Proc.devRef .tc main_arg5)) (V (Proc.devRef .tc main_arg7)) := by
  rw [Cert.Lib.stage ops_written 123 _ rfl main_v107 (by decide),
    unary_result,
    ← Cert.Lib.after_eq_take_of_written ops_written 123 main_v103 (by decide),
    st_main_v103 V]
  rfl

theorem st_main_v108 (V : Valuation τ sig (Elt F)) :
    after (ops (F := F)) V (Proc.devRef .tc main_v108) = val_main_v108 (F := F) (V (Proc.devRef .tc main_arg0)) (V (Proc.devRef .tc main_arg5)) (V (Proc.devRef .tc main_arg7)) := by
  rw [Cert.Lib.stage ops_written 124 _ rfl main_v108 (by decide),
    unary_result,
    ← Cert.Lib.after_eq_take_of_written ops_written 124 main_v103 (by decide),
    st_main_v103 V]
  rfl

theorem st_main_v109 (V : Valuation τ sig (Elt F)) :
    after (ops (F := F)) V (Proc.devRef .tc main_v109) = val_main_v109 (F := F) (V (Proc.devRef .tc main_arg0)) (V (Proc.devRef .tc main_arg5)) (V (Proc.devRef .tc main_arg7)) := by
  rw [Cert.Lib.stage ops_written 125 _ rfl main_v109 (by decide),
    unary_result,
    ← Cert.Lib.after_eq_take_of_written ops_written 125 main_v103 (by decide),
    st_main_v103 V]
  rfl

theorem st_main_v110 (V : Valuation τ sig (Elt F)) :
    after (ops (F := F)) V (Proc.devRef .tc main_v110) = val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 126 _ rfl main_v110 (by decide),
    binary_result,
    ← Cert.Lib.after_eq_take_of_written ops_written 126 main_v104 (by decide),
    ← Cert.Lib.after_eq_take_of_written ops_written 126 main_v107 (by decide),
    st_main_v104 V,
    st_main_v107 V]
  rfl

theorem st_main_v111 (V : Valuation τ sig (Elt F)) :
    after (ops (F := F)) V (Proc.devRef .tc main_v111) = val_main_v111 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 127 _ rfl main_v111 (by decide),
    unary_result,
    ← Cert.Lib.after_eq_take_of_written ops_written 127 main_v110 (by decide),
    st_main_v110 V]
  rfl

theorem st_main_v112 (V : Valuation τ sig (Elt F)) :
    after (ops (F := F)) V (Proc.devRef .tc main_v112) = val_main_v112 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 128 _ rfl main_v112 (by decide),
    unary_result,
    ← Cert.Lib.after_eq_take_of_written ops_written 128 main_v111 (by decide),
    st_main_v111 V]
  rfl

theorem st_main_cst_14 (V : Valuation τ sig (Elt F)) :
    after (ops (F := F)) V (Proc.devRef .tc main_cst_14) = val_main_cst_14 (F := F) := by
  rw [Cert.Lib.stage ops_written 129 _ rfl main_cst_14 (by decide),
    nullary_result]
  rfl

theorem st_main_v113 (V : Valuation τ sig (Elt F)) :
    after (ops (F := F)) V (Proc.devRef .tc main_v113) = val_main_v113 (F := F) := by
  rw [Cert.Lib.stage ops_written 130 _ rfl main_v113 (by decide),
    unary_result,
    ← Cert.Lib.after_eq_take_of_written ops_written 130 main_cst_14 (by decide),
    st_main_cst_14 V]
  rfl

theorem st_main_v114 (V : Valuation τ sig (Elt F)) :
    after (ops (F := F)) V (Proc.devRef .tc main_v114) = val_main_v114 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 131 _ rfl main_v114 (by decide),
    binary_result,
    ← Cert.Lib.after_eq_take_of_written ops_written 131 main_v113 (by decide),
    ← Cert.Lib.after_eq_take_of_written ops_written 131 main_v112 (by decide),
    st_main_v113 V,
    st_main_v112 V]
  rfl

theorem st_main_cst_15 (V : Valuation τ sig (Elt F)) :
    after (ops (F := F)) V (Proc.devRef .tc main_cst_15) = val_main_cst_15 (F := F) := by
  rw [Cert.Lib.stage ops_written 132 _ rfl main_cst_15 (by decide),
    nullary_result]
  rfl

theorem st_main_v115 (V : Valuation τ sig (Elt F)) :
    after (ops (F := F)) V (Proc.devRef .tc main_v115) = val_main_v115 (F := F) := by
  rw [Cert.Lib.stage ops_written 133 _ rfl main_v115 (by decide),
    unary_result,
    ← Cert.Lib.after_eq_take_of_written ops_written 133 main_cst_15 (by decide),
    st_main_cst_15 V]
  rfl

theorem st_main_v116 (V : Valuation τ sig (Elt F)) :
    after (ops (F := F)) V (Proc.devRef .tc main_v116) = val_main_v116 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 134 _ rfl main_v116 (by decide),
    binary_result,
    ← Cert.Lib.after_eq_take_of_written ops_written 134 main_v115 (by decide),
    ← Cert.Lib.after_eq_take_of_written ops_written 134 main_v114 (by decide),
    st_main_v115 V,
    st_main_v114 V]
  rfl

theorem st_main_v117 (V : Valuation τ sig (Elt F)) :
    after (ops (F := F)) V (Proc.devRef .tc main_v117) = val_main_v117 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 135 _ rfl main_v117 (by decide),
    binary_result,
    ← Cert.Lib.after_eq_take_of_written ops_written 135 main_v105 (by decide),
    ← Cert.Lib.after_eq_take_of_written ops_written 135 main_v108 (by decide),
    st_main_v105 V,
    st_main_v108 V]
  rfl

theorem st_main_v118 (V : Valuation τ sig (Elt F)) :
    after (ops (F := F)) V (Proc.devRef .tc main_v118) = val_main_v118 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 136 _ rfl main_v118 (by decide),
    unary_result,
    ← Cert.Lib.after_eq_take_of_written ops_written 136 main_v117 (by decide),
    st_main_v117 V]
  rfl

theorem st_main_v119 (V : Valuation τ sig (Elt F)) :
    after (ops (F := F)) V (Proc.devRef .tc main_v119) = val_main_v119 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 137 _ rfl main_v119 (by decide),
    unary_result,
    ← Cert.Lib.after_eq_take_of_written ops_written 137 main_v118 (by decide),
    st_main_v118 V]
  rfl

theorem st_main_cst_16 (V : Valuation τ sig (Elt F)) :
    after (ops (F := F)) V (Proc.devRef .tc main_cst_16) = val_main_cst_16 (F := F) := by
  rw [Cert.Lib.stage ops_written 138 _ rfl main_cst_16 (by decide),
    nullary_result]
  rfl

theorem st_main_v120 (V : Valuation τ sig (Elt F)) :
    after (ops (F := F)) V (Proc.devRef .tc main_v120) = val_main_v120 (F := F) := by
  rw [Cert.Lib.stage ops_written 139 _ rfl main_v120 (by decide),
    unary_result,
    ← Cert.Lib.after_eq_take_of_written ops_written 139 main_cst_16 (by decide),
    st_main_cst_16 V]
  rfl

theorem st_main_v121 (V : Valuation τ sig (Elt F)) :
    after (ops (F := F)) V (Proc.devRef .tc main_v121) = val_main_v121 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 140 _ rfl main_v121 (by decide),
    binary_result,
    ← Cert.Lib.after_eq_take_of_written ops_written 140 main_v120 (by decide),
    ← Cert.Lib.after_eq_take_of_written ops_written 140 main_v119 (by decide),
    st_main_v120 V,
    st_main_v119 V]
  rfl

theorem st_main_cst_17 (V : Valuation τ sig (Elt F)) :
    after (ops (F := F)) V (Proc.devRef .tc main_cst_17) = val_main_cst_17 (F := F) := by
  rw [Cert.Lib.stage ops_written 141 _ rfl main_cst_17 (by decide),
    nullary_result]
  rfl

theorem st_main_v122 (V : Valuation τ sig (Elt F)) :
    after (ops (F := F)) V (Proc.devRef .tc main_v122) = val_main_v122 (F := F) := by
  rw [Cert.Lib.stage ops_written 142 _ rfl main_v122 (by decide),
    unary_result,
    ← Cert.Lib.after_eq_take_of_written ops_written 142 main_cst_17 (by decide),
    st_main_cst_17 V]
  rfl

theorem st_main_v123 (V : Valuation τ sig (Elt F)) :
    after (ops (F := F)) V (Proc.devRef .tc main_v123) = val_main_v123 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 143 _ rfl main_v123 (by decide),
    binary_result,
    ← Cert.Lib.after_eq_take_of_written ops_written 143 main_v122 (by decide),
    ← Cert.Lib.after_eq_take_of_written ops_written 143 main_v121 (by decide),
    st_main_v122 V,
    st_main_v121 V]
  rfl

theorem st_main_v124 (V : Valuation τ sig (Elt F)) :
    after (ops (F := F)) V (Proc.devRef .tc main_v124) = val_main_v124 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 144 _ rfl main_v124 (by decide),
    binary_result,
    ← Cert.Lib.after_eq_take_of_written ops_written 144 main_v116 (by decide),
    ← Cert.Lib.after_eq_take_of_written ops_written 144 main_v109 (by decide),
    st_main_v116 V,
    st_main_v109 V]
  rfl

theorem st_main_v125 (V : Valuation τ sig (Elt F)) :
    after (ops (F := F)) V (Proc.devRef .tc main_v125) = val_main_v125 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 145 _ rfl main_v125 (by decide),
    binary_result,
    ← Cert.Lib.after_eq_take_of_written ops_written 145 main_v106 (by decide),
    ← Cert.Lib.after_eq_take_of_written ops_written 145 main_v124 (by decide),
    st_main_v106 V,
    st_main_v124 V]
  rfl

theorem st_main_v126 (V : Valuation τ sig (Elt F)) :
    after (ops (F := F)) V (Proc.devRef .tc main_v126) = val_main_v126 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 146 _ rfl main_v126 (by decide),
    unary_result,
    ← Cert.Lib.after_eq_take_of_written ops_written 146 main_v125 (by decide),
    st_main_v125 V]
  rfl

theorem st_main_cst_18 (V : Valuation τ sig (Elt F)) :
    after (ops (F := F)) V (Proc.devRef .tc main_cst_18) = val_main_cst_18 (F := F) := by
  rw [Cert.Lib.stage ops_written 147 _ rfl main_cst_18 (by decide),
    nullary_result]
  rfl

theorem st_main_v127 (V : Valuation τ sig (Elt F)) :
    after (ops (F := F)) V (Proc.devRef .tc main_v127) = val_main_v127 (F := F) := by
  rw [Cert.Lib.stage ops_written 148 _ rfl main_v127 (by decide),
    unary_result,
    ← Cert.Lib.after_eq_take_of_written ops_written 148 main_cst_18 (by decide),
    st_main_cst_18 V]
  rfl

theorem st_main_v128 (V : Valuation τ sig (Elt F)) :
    after (ops (F := F)) V (Proc.devRef .tc main_v128) = val_main_v128 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 149 _ rfl main_v128 (by decide),
    binary_result,
    ← Cert.Lib.after_eq_take_of_written ops_written 149 main_v127 (by decide),
    ← Cert.Lib.after_eq_take_of_written ops_written 149 main_v123 (by decide),
    st_main_v127 V,
    st_main_v123 V]
  rfl

theorem st_main_v129 (V : Valuation τ sig (Elt F)) :
    after (ops (F := F)) V (Proc.devRef .tc main_v129) = val_main_v129 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 150 _ rfl main_v129 (by decide),
    binary_result,
    ← Cert.Lib.after_eq_take_of_written ops_written 150 main_v128 (by decide),
    ← Cert.Lib.after_eq_take_of_written ops_written 150 main_v126 (by decide),
    st_main_v128 V,
    st_main_v126 V]
  rfl

theorem st_main_v130 (V : Valuation τ sig (Elt F)) :
    after (ops (F := F)) V (Proc.devRef .tc main_v130) = val_main_v130 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 151 _ rfl main_v130 (by decide),
    binary_result,
    ← Cert.Lib.after_eq_take_of_written ops_written 151 main_v123 (by decide),
    ← Cert.Lib.after_eq_take_of_written ops_written 151 main_v0 (by decide),
    st_main_v123 V,
    st_main_v0 V]
  rfl

theorem st_main_v131 (V : Valuation τ sig (Elt F)) :
    after (ops (F := F)) V (Proc.devRef .tc main_v131) = val_main_v131 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) := by
  rw [Cert.Lib.stage ops_written 152 _ rfl main_v131 (by decide),
    binary_result,
    ← Cert.Lib.after_eq_take_of_written ops_written 152 main_v129 (by decide),
    ← Cert.Lib.after_eq_take_of_written ops_written 152 main_v130 (by decide),
    st_main_v129 V,
    st_main_v130 V]
  rfl

theorem st_main_v132 (V : Valuation τ sig (Elt F)) :
    after (ops (F := F)) V (Proc.devRef .tc main_v132) = val_main_v132 (F := F) (V (Proc.devRef .tc main_arg12)) := by
  rw [Cert.Lib.stage ops_written 153 _ rfl main_v132 (by decide),
    reshape_result,
    ← Cert.Lib.after_eq_take_of_written ops_written 153 main_arg12 (by decide),
    st_main_arg12 V]
  rfl

theorem st_main_v133 (V : Valuation τ sig (Elt F)) :
    after (ops (F := F)) V (Proc.devRef .tc main_v133) = val_main_v133 (F := F) (V (Proc.devRef .tc main_arg12)) := by
  rw [Cert.Lib.stage ops_written 154 _ rfl main_v133 (by decide),
    unary_result,
    ← Cert.Lib.after_eq_take_of_written ops_written 154 main_v132 (by decide),
    st_main_v132 V]
  rfl

theorem st_main_v134 (V : Valuation τ sig (Elt F)) :
    after (ops (F := F)) V (Proc.devRef .tc main_v134) = val_main_v134 (F := F) (V (Proc.devRef .tc main_arg12)) := by
  rw [Cert.Lib.stage ops_written 155 _ rfl main_v134 (by decide),
    reshape_result,
    ← Cert.Lib.after_eq_take_of_written ops_written 155 main_v133 (by decide),
    st_main_v133 V]
  rfl

theorem st_main_c_19 (V : Valuation τ sig (Elt F)) :
    after (ops (F := F)) V (Proc.devRef .tc main_c_19) = val_main_c_19 (F := F) := by
  rw [Cert.Lib.stage ops_written 156 _ rfl main_c_19 (by decide),
    nullary_result]
  rfl

theorem st_main_v135 (V : Valuation τ sig (Elt F)) :
    after (ops (F := F)) V (Proc.devRef .tc main_v135) = val_main_v135 (F := F) := by
  rw [Cert.Lib.stage ops_written 157 _ rfl main_v135 (by decide),
    unary_result,
    ← Cert.Lib.after_eq_take_of_written ops_written 157 main_c_19 (by decide),
    st_main_c_19 V]
  rfl

theorem st_main_v136 (V : Valuation τ sig (Elt F)) :
    after (ops (F := F)) V (Proc.devRef .tc main_v136) = val_main_v136 (F := F) (V (Proc.devRef .tc main_arg9)) (V (Proc.devRef .tc main_arg10)) (V (Proc.devRef .tc main_arg11)) := by
  rw [Cert.Lib.stage ops_written 158 _ rfl main_v136 (by decide),
    unary_result,
    ← Cert.Lib.after_eq_take_of_written ops_written 158 main_v81 (by decide),
    st_main_v81 V]
  rfl

theorem st_main_v137 (V : Valuation τ sig (Elt F)) :
    after (ops (F := F)) V (Proc.devRef .tc main_v137) = val_main_v137 (F := F) (V (Proc.devRef .tc main_arg9)) (V (Proc.devRef .tc main_arg10)) (V (Proc.devRef .tc main_arg11)) (V (Proc.devRef .tc main_arg12)) := by
  rw [Cert.Lib.stage ops_written 159 _ rfl main_v137 (by decide),
    ternary_result,
    ← Cert.Lib.after_eq_take_of_written ops_written 159 main_v135 (by decide),
    ← Cert.Lib.after_eq_take_of_written ops_written 159 main_v136 (by decide),
    ← Cert.Lib.after_eq_take_of_written ops_written 159 main_v134 (by decide),
    st_main_v135 V,
    st_main_v136 V,
    st_main_v134 V]
  rfl

theorem st_main_cst_20 (V : Valuation τ sig (Elt F)) :
    after (ops (F := F)) V (Proc.devRef .tc main_cst_20) = val_main_cst_20 (F := F) := by
  rw [Cert.Lib.stage ops_written 160 _ rfl main_cst_20 (by decide),
    nullary_result]
  rfl

theorem st_main_v138 (V : Valuation τ sig (Elt F)) :
    after (ops (F := F)) V (Proc.devRef .tc main_v138) = val_main_v138 (F := F) := by
  rw [Cert.Lib.stage ops_written 161 _ rfl main_v138 (by decide),
    unary_result,
    ← Cert.Lib.after_eq_take_of_written ops_written 161 main_cst_20 (by decide),
    st_main_cst_20 V]
  rfl

theorem st_main_v139 (V : Valuation τ sig (Elt F)) :
    after (ops (F := F)) V (Proc.devRef .tc main_v139) = val_main_v139 (F := F) (V (Proc.devRef .tc main_arg9)) (V (Proc.devRef .tc main_arg10)) (V (Proc.devRef .tc main_arg11)) := by
  rw [Cert.Lib.stage ops_written 162 _ rfl main_v139 (by decide),
    binary_result,
    ← Cert.Lib.after_eq_take_of_written ops_written 162 main_v88 (by decide),
    ← Cert.Lib.after_eq_take_of_written ops_written 162 main_v138 (by decide),
    st_main_v88 V,
    st_main_v138 V]
  rfl

theorem st_main_c_21 (V : Valuation τ sig (Elt F)) :
    after (ops (F := F)) V (Proc.devRef .tc main_c_21) = val_main_c_21 (F := F) := by
  rw [Cert.Lib.stage ops_written 163 _ rfl main_c_21 (by decide),
    nullary_result]
  rfl

theorem st_main_v140 (V : Valuation τ sig (Elt F)) :
    after (ops (F := F)) V (Proc.devRef .tc main_v140) = val_main_v140 (F := F) := by
  rw [Cert.Lib.stage ops_written 164 _ rfl main_v140 (by decide),
    unary_result,
    ← Cert.Lib.after_eq_take_of_written ops_written 164 main_c_21 (by decide),
    st_main_c_21 V]
  rfl

theorem st_main_v141 (V : Valuation τ sig (Elt F)) :
    after (ops (F := F)) V (Proc.devRef .tc main_v141) = val_main_v141 (F := F) (V (Proc.devRef .tc main_arg9)) (V (Proc.devRef .tc main_arg10)) (V (Proc.devRef .tc main_arg11)) (V (Proc.devRef .tc main_arg12)) := by
  rw [Cert.Lib.stage ops_written 165 _ rfl main_v141 (by decide),
    ternary_result,
    ← Cert.Lib.after_eq_take_of_written ops_written 165 main_v139 (by decide),
    ← Cert.Lib.after_eq_take_of_written ops_written 165 main_v137 (by decide),
    ← Cert.Lib.after_eq_take_of_written ops_written 165 main_v140 (by decide),
    st_main_v139 V,
    st_main_v137 V,
    st_main_v140 V]
  simp only [TRef.toBuf, TRef.ofBuf, cast_eq]
  rfl

theorem st_main_c_22 (V : Valuation τ sig (Elt F)) :
    after (ops (F := F)) V (Proc.devRef .tc main_c_22) = val_main_c_22 (F := F) := by
  rw [Cert.Lib.stage ops_written 166 _ rfl main_c_22 (by decide),
    nullary_result]
  rfl

theorem st_main_v142 (V : Valuation τ sig (Elt F)) :
    after (ops (F := F)) V (Proc.devRef .tc main_v142) = val_main_v142 (F := F) := by
  rw [Cert.Lib.stage ops_written 167 _ rfl main_v142 (by decide),
    unary_result,
    ← Cert.Lib.after_eq_take_of_written ops_written 167 main_c_22 (by decide),
    st_main_c_22 V]
  rfl

theorem st_main_v143 (V : Valuation τ sig (Elt F)) :
    after (ops (F := F)) V (Proc.devRef .tc main_v143) = val_main_v143 (F := F) (V (Proc.devRef .tc main_arg11)) := by
  rw [Cert.Lib.stage ops_written 168 _ rfl main_v143 (by decide),
    binary_result,
    ← Cert.Lib.after_eq_take_of_written ops_written 168 main_arg11 (by decide),
    ← Cert.Lib.after_eq_take_of_written ops_written 168 main_v142 (by decide),
    st_main_arg11 V,
    st_main_v142 V]
  rfl

theorem st_main_v144 (V : Valuation τ sig (Elt F)) :
    after (ops (F := F)) V (Proc.devRef .tc main_v144) = val_main_v144 (F := F) (V (Proc.devRef .tc main_arg1)) := by
  rw [Cert.Lib.stage ops_written 169 _ rfl main_v144 (by decide),
    unary_result,
    ← Cert.Lib.after_eq_take_of_written ops_written 169 main_arg1 (by decide),
    st_main_arg1 V]
  rfl

theorem st_main_v145 (V : Valuation τ sig (Elt F)) :
    after (ops (F := F)) V (Proc.devRef .tc main_v145) = val_main_v145 (F := F) (V (Proc.devRef .tc main_arg1)) := by
  rw [Cert.Lib.stage ops_written 170 _ rfl main_v145 (by decide),
    reshape_result,
    ← Cert.Lib.after_eq_take_of_written ops_written 170 main_v144 (by decide),
    st_main_v144 V]
  rfl

theorem st_main_cst_23 (V : Valuation τ sig (Elt F)) :
    after (ops (F := F)) V (Proc.devRef .tc main_cst_23) = val_main_cst_23 (F := F) := by
  rw [Cert.Lib.stage ops_written 171 _ rfl main_cst_23 (by decide),
    nullary_result]
  rfl

theorem st_main_call1_v0 (V : Valuation τ sig (Elt F)) :
    after (ops (F := F)) V (Proc.devRef .tc main_call1_v0) = val_main_call1_v0 (F := F) := by
  rw [Cert.Lib.stage ops_written 172 _ rfl main_call1_v0 (by decide),
    unary_result,
    ← Cert.Lib.after_eq_take_of_written ops_written 172 main_cst_23 (by decide),
    st_main_cst_23 V]
  simp only [TRef.toBuf, TRef.ofBuf, cast_eq]
  rfl

theorem st_main_call1_v1 (V : Valuation τ sig (Elt F)) :
    after (ops (F := F)) V (Proc.devRef .tc main_call1_v1) = val_main_call1_v1 (F := F) := by
  rw [Cert.Lib.stage ops_written 173 _ rfl main_call1_v1 (by decide),
    unary_result,
    ← Cert.Lib.after_eq_take_of_written ops_written 173 main_call1_v0 (by decide),
    st_main_call1_v0 V]
  simp only [TRef.toBuf, TRef.ofBuf, cast_eq]
  rfl

theorem st_main_v146 (V : Valuation τ sig (Elt F)) :
    after (ops (F := F)) V (Proc.devRef .tc main_v146) = val_main_v146 (F := F) (V (Proc.devRef .tc main_arg1)) := by
  rw [Cert.Lib.stage ops_written 174 _ rfl main_v146 (by decide),
    binary_result,
    ← Cert.Lib.after_eq_take_of_written ops_written 174 main_call1_v1 (by decide),
    ← Cert.Lib.after_eq_take_of_written ops_written 174 main_v145 (by decide),
    st_main_call1_v1 V,
    st_main_v145 V]
  simp only [TRef.toBuf, TRef.ofBuf, cast_eq]
  rfl

theorem st_main_cst_24 (V : Valuation τ sig (Elt F)) :
    after (ops (F := F)) V (Proc.devRef .tc main_cst_24) = val_main_cst_24 (F := F) := by
  rw [Cert.Lib.stage ops_written 175 _ rfl main_cst_24 (by decide),
    nullary_result]
  rfl

theorem st_main_v147 (V : Valuation τ sig (Elt F)) :
    after (ops (F := F)) V (Proc.devRef .tc main_v147) = val_main_v147 (F := F) := by
  rw [Cert.Lib.stage ops_written 176 _ rfl main_v147 (by decide),
    unary_result,
    ← Cert.Lib.after_eq_take_of_written ops_written 176 main_cst_24 (by decide),
    st_main_cst_24 V]
  rfl

theorem st_main_c_25 (V : Valuation τ sig (Elt F)) :
    after (ops (F := F)) V (Proc.devRef .tc main_c_25) = val_main_c_25 (F := F) := by
  rw [Cert.Lib.stage ops_written 177 _ rfl main_c_25 (by decide),
    nullary_result]
  rfl

theorem st_main_v148 (V : Valuation τ sig (Elt F)) :
    after (ops (F := F)) V (Proc.devRef .tc main_v148) = val_main_v148 (F := F) := by
  rw [Cert.Lib.stage ops_written 178 _ rfl main_v148 (by decide),
    unary_result,
    ← Cert.Lib.after_eq_take_of_written ops_written 178 main_c_25 (by decide),
    st_main_c_25 V]
  rfl

theorem st_main_v149 (V : Valuation τ sig (Elt F)) :
    after (ops (F := F)) V (Proc.devRef .tc main_v149) = val_main_v149 (F := F) (V (Proc.devRef .tc main_arg9)) := by
  rw [Cert.Lib.stage ops_written 179 _ rfl main_v149 (by decide),
    binary_result,
    ← Cert.Lib.after_eq_take_of_written ops_written 179 main_arg9 (by decide),
    ← Cert.Lib.after_eq_take_of_written ops_written 179 main_v148 (by decide),
    st_main_arg9 V,
    st_main_v148 V]
  rfl

theorem st_main_c_26 (V : Valuation τ sig (Elt F)) :
    after (ops (F := F)) V (Proc.devRef .tc main_c_26) = val_main_c_26 (F := F) := by
  rw [Cert.Lib.stage ops_written 180 _ rfl main_c_26 (by decide),
    nullary_result]
  rfl

theorem st_main_v150 (V : Valuation τ sig (Elt F)) :
    after (ops (F := F)) V (Proc.devRef .tc main_v150) = val_main_v150 (F := F) := by
  rw [Cert.Lib.stage ops_written 181 _ rfl main_v150 (by decide),
    unary_result,
    ← Cert.Lib.after_eq_take_of_written ops_written 181 main_c_26 (by decide),
    st_main_c_26 V]
  rfl

theorem st_main_v151 (V : Valuation τ sig (Elt F)) :
    after (ops (F := F)) V (Proc.devRef .tc main_v151) = val_main_v151 (F := F) (V (Proc.devRef .tc main_arg9)) := by
  rw [Cert.Lib.stage ops_written 182 _ rfl main_v151 (by decide),
    binary_result,
    ← Cert.Lib.after_eq_take_of_written ops_written 182 main_arg9 (by decide),
    ← Cert.Lib.after_eq_take_of_written ops_written 182 main_v150 (by decide),
    st_main_arg9 V,
    st_main_v150 V]
  rfl

end Cert.ReferenceIdeal.Stage

end
-- ==== Proof.RefStage4.lean ====
import proofs.«115542_j63840393888431_2_alg».proof.Proof.RefStage3

/-! The reference's host operations, read one at a time against the FINAL buffer contents. Every buffer is written by
    exactly one operation, so the contents the whole line leaves in an operation's result buffer are that operation's
    function of the final contents of its operand buffers; with the operands' own stage lemmas these are the stages
    `val_<buffer>` of the argument arrays, by unfolding one definition. -/

noncomputable section

namespace Cert.ReferenceIdeal.Stage

open Cert.ReferenceIdeal Cert.ReferenceIdeal.Gen Cert.ReferenceIdeal.Ops Cert.ReferenceIdeal.ReadP
open Idealize.ShloMosaic Idealize.ShloMosaic.TcCoe Idealize.SL.Sem Idealize.ShloMosaic.StableHlo

variable {F : FTy → Type} [FloatOps F]

theorem st_main_v152 (V : Valuation τ sig (Elt F)) :
    after (ops (F := F)) V (Proc.devRef .tc main_v152) = val_main_v152 (F := F) (V (Proc.devRef .tc main_arg9)) := by
  rw [Cert.Lib.stage ops_written 183 _ rfl main_v152 (by decide),
    ternary_result,
    ← Cert.Lib.after_eq_take_of_written ops_written 183 main_v149 (by decide),
    ← Cert.Lib.after_eq_take_of_written ops_written 183 main_v151 (by decide),
    ← Cert.Lib.after_eq_take_of_written ops_written 183 main_arg9 (by decide),
    st_main_v149 V,
    st_main_v151 V,
    st_main_arg9 V]
  rfl

theorem st_main_c_27 (V : Valuation τ sig (Elt F)) :
    after (ops (F := F)) V (Proc.devRef .tc main_c_27) = val_main_c_27 (F := F) := by
  rw [Cert.Lib.stage ops_written 184 _ rfl main_c_27 (by decide),
    nullary_result]
  rfl

theorem st_main_v153 (V : Valuation τ sig (Elt F)) :
    after (ops (F := F)) V (Proc.devRef .tc main_v153) = val_main_v153 (F := F) := by
  rw [Cert.Lib.stage ops_written 185 _ rfl main_v153 (by decide),
    unary_result,
    ← Cert.Lib.after_eq_take_of_written ops_written 185 main_c_27 (by decide),
    st_main_c_27 V]
  rfl

theorem st_main_v154 (V : Valuation τ sig (Elt F)) :
    after (ops (F := F)) V (Proc.devRef .tc main_v154) = val_main_v154 (F := F) (V (Proc.devRef .tc main_arg11)) := by
  rw [Cert.Lib.stage ops_written 186 _ rfl main_v154 (by decide),
    binary_result,
    ← Cert.Lib.after_eq_take_of_written ops_written 186 main_v143 (by decide),
    ← Cert.Lib.after_eq_take_of_written ops_written 186 main_v153 (by decide),
    st_main_v143 V,
    st_main_v153 V]
  rfl

theorem st_main_c_28 (V : Valuation τ sig (Elt F)) :
    after (ops (F := F)) V (Proc.devRef .tc main_c_28) = val_main_c_28 (F := F) := by
  rw [Cert.Lib.stage ops_written 187 _ rfl main_c_28 (by decide),
    nullary_result]
  rfl

theorem st_main_v155 (V : Valuation τ sig (Elt F)) :
    after (ops (F := F)) V (Proc.devRef .tc main_v155) = val_main_v155 (F := F) := by
  rw [Cert.Lib.stage ops_written 188 _ rfl main_v155 (by decide),
    unary_result,
    ← Cert.Lib.after_eq_take_of_written ops_written 188 main_c_28 (by decide),
    st_main_c_28 V]
  rfl

theorem st_main_v156 (V : Valuation τ sig (Elt F)) :
    after (ops (F := F)) V (Proc.devRef .tc main_v156) = val_main_v156 (F := F) (V (Proc.devRef .tc main_arg11)) := by
  rw [Cert.Lib.stage ops_written 189 _ rfl main_v156 (by decide),
    binary_result,
    ← Cert.Lib.after_eq_take_of_written ops_written 189 main_v143 (by decide),
    ← Cert.Lib.after_eq_take_of_written ops_written 189 main_v155 (by decide),
    st_main_v143 V,
    st_main_v155 V]
  rfl

theorem st_main_v157 (V : Valuation τ sig (Elt F)) :
    after (ops (F := F)) V (Proc.devRef .tc main_v157) = val_main_v157 (F := F) (V (Proc.devRef .tc main_arg11)) := by
  rw [Cert.Lib.stage ops_written 190 _ rfl main_v157 (by decide),
    ternary_result,
    ← Cert.Lib.after_eq_take_of_written ops_written 190 main_v154 (by decide),
    ← Cert.Lib.after_eq_take_of_written ops_written 190 main_v156 (by decide),
    ← Cert.Lib.after_eq_take_of_written ops_written 190 main_v143 (by decide),
    st_main_v154 V,
    st_main_v156 V,
    st_main_v143 V]
  rfl

theorem st_main_v158 (V : Valuation τ sig (Elt F)) :
    after (ops (F := F)) V (Proc.devRef .tc main_v158) = val_main_v158 (F := F) (V (Proc.devRef .tc main_arg9)) := by
  rw [Cert.Lib.stage ops_written 191 _ rfl main_v158 (by decide),
    unary_result,
    ← Cert.Lib.after_eq_take_of_written ops_written 191 main_v152 (by decide),
    st_main_v152 V]
  rfl

theorem st_main_v159 (V : Valuation τ sig (Elt F)) :
    after (ops (F := F)) V (Proc.devRef .tc main_v159) = val_main_v159 (F := F) (V (Proc.devRef .tc main_arg11)) := by
  rw [Cert.Lib.stage ops_written 192 _ rfl main_v159 (by decide),
    unary_result,
    ← Cert.Lib.after_eq_take_of_written ops_written 192 main_v157 (by decide),
    st_main_v157 V]
  rfl

theorem st_main_v160 (V : Valuation τ sig (Elt F)) :
    after (ops (F := F)) V (Proc.devRef .tc main_v160) = val_main_v160 (F := F) (V (Proc.devRef .tc main_arg9)) (V (Proc.devRef .tc main_arg11)) := by
  rw [Cert.Lib.stage ops_written 193 _ rfl main_v160 (by decide),
    binary_result,
    ← Cert.Lib.after_eq_take_of_written ops_written 193 main_v158 (by decide),
    ← Cert.Lib.after_eq_take_of_written ops_written 193 main_v159 (by decide),
    st_main_v158 V,
    st_main_v159 V]
  rfl

theorem st_main_v161 (V : Valuation τ sig (Elt F)) :
    after (ops (F := F)) V (Proc.devRef .tc main_v161) = val_main_v161 (F := F) (V (Proc.devRef .tc main_arg1)) (V (Proc.devRef .tc main_arg9)) (V (Proc.devRef .tc main_arg11)) := by
  rw [Cert.Lib.stage ops_written 194 _ rfl main_v161 (by decide),
    ternary_result,
    ← Cert.Lib.after_eq_take_of_written ops_written 194 main_v147 (by decide),
    ← Cert.Lib.after_eq_take_of_written ops_written 194 main_v160 (by decide),
    ← Cert.Lib.after_eq_take_of_written ops_written 194 main_v146 (by decide),
    st_main_v147 V,
    st_main_v160 V,
    st_main_v146 V]
  rfl

theorem st_main_cst_29 (V : Valuation τ sig (Elt F)) :
    after (ops (F := F)) V (Proc.devRef .tc main_cst_29) = val_main_cst_29 (F := F) := by
  rw [Cert.Lib.stage ops_written 195 _ rfl main_cst_29 (by decide),
    nullary_result]
  rfl

theorem st_main_v162 (V : Valuation τ sig (Elt F)) :
    after (ops (F := F)) V (Proc.devRef .tc main_v162) = val_main_v162 (F := F) := by
  rw [Cert.Lib.stage ops_written 196 _ rfl main_v162 (by decide),
    unary_result,
    ← Cert.Lib.after_eq_take_of_written ops_written 196 main_cst_29 (by decide),
    st_main_cst_29 V]
  rfl

theorem st_main_c_30 (V : Valuation τ sig (Elt F)) :
    after (ops (F := F)) V (Proc.devRef .tc main_c_30) = val_main_c_30 (F := F) := by
  rw [Cert.Lib.stage ops_written 197 _ rfl main_c_30 (by decide),
    nullary_result]
  rfl

theorem st_main_v163 (V : Valuation τ sig (Elt F)) :
    after (ops (F := F)) V (Proc.devRef .tc main_v163) = val_main_v163 (F := F) := by
  rw [Cert.Lib.stage ops_written 198 _ rfl main_v163 (by decide),
    unary_result,
    ← Cert.Lib.after_eq_take_of_written ops_written 198 main_c_30 (by decide),
    st_main_c_30 V]
  rfl

theorem st_main_v164 (V : Valuation τ sig (Elt F)) :
    after (ops (F := F)) V (Proc.devRef .tc main_v164) = val_main_v164 (F := F) (V (Proc.devRef .tc main_arg10)) := by
  rw [Cert.Lib.stage ops_written 199 _ rfl main_v164 (by decide),
    binary_result,
    ← Cert.Lib.after_eq_take_of_written ops_written 199 main_arg10 (by decide),
    ← Cert.Lib.after_eq_take_of_written ops_written 199 main_v163 (by decide),
    st_main_arg10 V,
    st_main_v163 V]
  rfl

theorem st_main_c_31 (V : Valuation τ sig (Elt F)) :
    after (ops (F := F)) V (Proc.devRef .tc main_c_31) = val_main_c_31 (F := F) := by
  rw [Cert.Lib.stage ops_written 200 _ rfl main_c_31 (by decide),
    nullary_result]
  rfl

theorem st_main_v165 (V : Valuation τ sig (Elt F)) :
    after (ops (F := F)) V (Proc.devRef .tc main_v165) = val_main_v165 (F := F) := by
  rw [Cert.Lib.stage ops_written 201 _ rfl main_v165 (by decide),
    unary_result,
    ← Cert.Lib.after_eq_take_of_written ops_written 201 main_c_31 (by decide),
    st_main_c_31 V]
  rfl

theorem st_main_v166 (V : Valuation τ sig (Elt F)) :
    after (ops (F := F)) V (Proc.devRef .tc main_v166) = val_main_v166 (F := F) (V (Proc.devRef .tc main_arg10)) := by
  rw [Cert.Lib.stage ops_written 202 _ rfl main_v166 (by decide),
    binary_result,
    ← Cert.Lib.after_eq_take_of_written ops_written 202 main_arg10 (by decide),
    ← Cert.Lib.after_eq_take_of_written ops_written 202 main_v165 (by decide),
    st_main_arg10 V,
    st_main_v165 V]
  rfl

theorem st_main_v167 (V : Valuation τ sig (Elt F)) :
    after (ops (F := F)) V (Proc.devRef .tc main_v167) = val_main_v167 (F := F) (V (Proc.devRef .tc main_arg10)) := by
  rw [Cert.Lib.stage ops_written 203 _ rfl main_v167 (by decide),
    ternary_result,
    ← Cert.Lib.after_eq_take_of_written ops_written 203 main_v164 (by decide),
    ← Cert.Lib.after_eq_take_of_written ops_written 203 main_v166 (by decide),
    ← Cert.Lib.after_eq_take_of_written ops_written 203 main_arg10 (by decide),
    st_main_v164 V,
    st_main_v166 V,
    st_main_arg10 V]
  rfl

theorem st_main_c_32 (V : Valuation τ sig (Elt F)) :
    after (ops (F := F)) V (Proc.devRef .tc main_c_32) = val_main_c_32 (F := F) := by
  rw [Cert.Lib.stage ops_written 204 _ rfl main_c_32 (by decide),
    nullary_result]
  rfl

theorem st_main_v168 (V : Valuation τ sig (Elt F)) :
    after (ops (F := F)) V (Proc.devRef .tc main_v168) = val_main_v168 (F := F) := by
  rw [Cert.Lib.stage ops_written 205 _ rfl main_v168 (by decide),
    unary_result,
    ← Cert.Lib.after_eq_take_of_written ops_written 205 main_c_32 (by decide),
    st_main_c_32 V]
  rfl

theorem st_main_v169 (V : Valuation τ sig (Elt F)) :
    after (ops (F := F)) V (Proc.devRef .tc main_v169) = val_main_v169 (F := F) (V (Proc.devRef .tc main_arg11)) := by
  rw [Cert.Lib.stage ops_written 206 _ rfl main_v169 (by decide),
    binary_result,
    ← Cert.Lib.after_eq_take_of_written ops_written 206 main_v143 (by decide),
    ← Cert.Lib.after_eq_take_of_written ops_written 206 main_v168 (by decide),
    st_main_v143 V,
    st_main_v168 V]
  rfl

theorem st_main_c_33 (V : Valuation τ sig (Elt F)) :
    after (ops (F := F)) V (Proc.devRef .tc main_c_33) = val_main_c_33 (F := F) := by
  rw [Cert.Lib.stage ops_written 207 _ rfl main_c_33 (by decide),
    nullary_result]
  rfl

theorem st_main_v170 (V : Valuation τ sig (Elt F)) :
    after (ops (F := F)) V (Proc.devRef .tc main_v170) = val_main_v170 (F := F) := by
  rw [Cert.Lib.stage ops_written 208 _ rfl main_v170 (by decide),
    unary_result,
    ← Cert.Lib.after_eq_take_of_written ops_written 208 main_c_33 (by decide),
    st_main_c_33 V]
  rfl

theorem st_main_v171 (V : Valuation τ sig (Elt F)) :
    after (ops (F := F)) V (Proc.devRef .tc main_v171) = val_main_v171 (F := F) (V (Proc.devRef .tc main_arg11)) := by
  rw [Cert.Lib.stage ops_written 209 _ rfl main_v171 (by decide),
    binary_result,
    ← Cert.Lib.after_eq_take_of_written ops_written 209 main_v143 (by decide),
    ← Cert.Lib.after_eq_take_of_written ops_written 209 main_v170 (by decide),
    st_main_v143 V,
    st_main_v170 V]
  rfl

theorem st_main_v172 (V : Valuation τ sig (Elt F)) :
    after (ops (F := F)) V (Proc.devRef .tc main_v172) = val_main_v172 (F := F) (V (Proc.devRef .tc main_arg11)) := by
  rw [Cert.Lib.stage ops_written 210 _ rfl main_v172 (by decide),
    ternary_result,
    ← Cert.Lib.after_eq_take_of_written ops_written 210 main_v169 (by decide),
    ← Cert.Lib.after_eq_take_of_written ops_written 210 main_v171 (by decide),
    ← Cert.Lib.after_eq_take_of_written ops_written 210 main_v143 (by decide),
    st_main_v169 V,
    st_main_v171 V,
    st_main_v143 V]
  rfl

theorem st_main_v173 (V : Valuation τ sig (Elt F)) :
    after (ops (F := F)) V (Proc.devRef .tc main_v173) = val_main_v173 (F := F) (V (Proc.devRef .tc main_arg10)) := by
  rw [Cert.Lib.stage ops_written 211 _ rfl main_v173 (by decide),
    unary_result,
    ← Cert.Lib.after_eq_take_of_written ops_written 211 main_v167 (by decide),
    st_main_v167 V]
  rfl

theorem st_main_v174 (V : Valuation τ sig (Elt F)) :
    after (ops (F := F)) V (Proc.devRef .tc main_v174) = val_main_v174 (F := F) (V (Proc.devRef .tc main_arg11)) := by
  rw [Cert.Lib.stage ops_written 212 _ rfl main_v174 (by decide),
    unary_result,
    ← Cert.Lib.after_eq_take_of_written ops_written 212 main_v172 (by decide),
    st_main_v172 V]
  rfl

theorem st_main_v175 (V : Valuation τ sig (Elt F)) :
    after (ops (F := F)) V (Proc.devRef .tc main_v175) = val_main_v175 (F := F) (V (Proc.devRef .tc main_arg10)) (V (Proc.devRef .tc main_arg11)) := by
  rw [Cert.Lib.stage ops_written 213 _ rfl main_v175 (by decide),
    binary_result,
    ← Cert.Lib.after_eq_take_of_written ops_written 213 main_v173 (by decide),
    ← Cert.Lib.after_eq_take_of_written ops_written 213 main_v174 (by decide),
    st_main_v173 V,
    st_main_v174 V]
  rfl

theorem st_main_v176 (V : Valuation τ sig (Elt F)) :
    after (ops (F := F)) V (Proc.devRef .tc main_v176) = val_main_v176 (F := F) (V (Proc.devRef .tc main_arg1)) (V (Proc.devRef .tc main_arg10)) (V (Proc.devRef .tc main_arg11)) := by
  rw [Cert.Lib.stage ops_written 214 _ rfl main_v176 (by decide),
    ternary_result,
    ← Cert.Lib.after_eq_take_of_written ops_written 214 main_v162 (by decide),
    ← Cert.Lib.after_eq_take_of_written ops_written 214 main_v175 (by decide),
    ← Cert.Lib.after_eq_take_of_written ops_written 214 main_v146 (by decide),
    st_main_v162 V,
    st_main_v175 V,
    st_main_v146 V]
  rfl

theorem st_main_v177 (V : Valuation τ sig (Elt F)) :
    after (ops (F := F)) V (Proc.devRef .tc main_v177) = val_main_v177 (F := F) (V (Proc.devRef .tc main_arg0)) := by
  rw [Cert.Lib.stage ops_written 215 _ rfl main_v177 (by decide),
    unary_result,
    ← Cert.Lib.after_eq_take_of_written ops_written 215 main_v0 (by decide),
    st_main_v0 V]
  rfl

theorem st_main_v178 (V : Valuation τ sig (Elt F)) :
    after (ops (F := F)) V (Proc.devRef .tc main_v178) = val_main_v178 (F := F) (V (Proc.devRef .tc main_arg0)) := by
  rw [Cert.Lib.stage ops_written 216 _ rfl main_v178 (by decide),
    unary_result,
    ← Cert.Lib.after_eq_take_of_written ops_written 216 main_v177 (by decide),
    st_main_v177 V]
  rfl

theorem st_main_v179 (V : Valuation τ sig (Elt F)) :
    after (ops (F := F)) V (Proc.devRef .tc main_v179) = val_main_v179 (F := F) (V (Proc.devRef .tc main_arg0)) (V (Proc.devRef .tc main_arg8)) := by
  rw [Cert.Lib.stage ops_written 217 _ rfl main_v179 (by decide),
    binary_result,
    ← Cert.Lib.after_eq_take_of_written ops_written 217 main_arg8 (by decide),
    ← Cert.Lib.after_eq_take_of_written ops_written 217 main_v178 (by decide),
    st_main_arg8 V,
    st_main_v178 V]
  rfl

theorem st_main_v180 (V : Valuation τ sig (Elt F)) :
    after (ops (F := F)) V (Proc.devRef .tc main_v180) = val_main_v180 (F := F) (V (Proc.devRef .tc main_arg0)) (V (Proc.devRef .tc main_arg8)) := by
  rw [Cert.Lib.stage ops_written 218 _ rfl main_v180 (by decide),
    binary_result,
    ← Cert.Lib.after_eq_take_of_written ops_written 218 main_v177 (by decide),
    ← Cert.Lib.after_eq_take_of_written ops_written 218 main_v179 (by decide),
    st_main_v177 V,
    st_main_v179 V]
  rfl

theorem st_main_call2_cst (V : Valuation τ sig (Elt F)) :
    after (ops (F := F)) V (Proc.devRef .tc main_call2_cst) = val_main_call2_cst (F := F) := by
  rw [Cert.Lib.stage ops_written 219 _ rfl main_call2_cst (by decide),
    nullary_result]
  simp only [TRef.toBuf, TRef.ofBuf, cast_eq]
  rfl

theorem st_main_call2_v0 (V : Valuation τ sig (Elt F)) :
    after (ops (F := F)) V (Proc.devRef .tc main_call2_v0) = val_main_call2_v0 (F := F) := by
  rw [Cert.Lib.stage ops_written 220 _ rfl main_call2_v0 (by decide),
    unary_result,
    ← Cert.Lib.after_eq_take_of_written ops_written 220 main_call2_cst (by decide),
    st_main_call2_cst V]
  simp only [TRef.toBuf, TRef.ofBuf, cast_eq]
  rfl

theorem st_main_v181 (V : Valuation τ sig (Elt F)) :
    after (ops (F := F)) V (Proc.devRef .tc main_v181) = val_main_v181 (F := F) (V (Proc.devRef .tc main_arg0)) (V (Proc.devRef .tc main_arg8)) := by
  rw [Cert.Lib.stage ops_written 221 _ rfl main_v181 (by decide),
    binary_result,
    ← Cert.Lib.after_eq_take_of_written ops_written 221 main_v180 (by decide),
    ← Cert.Lib.after_eq_take_of_written ops_written 221 main_call2_v0 (by decide),
    st_main_v180 V,
    st_main_call2_v0 V]
  simp only [TRef.toBuf, TRef.ofBuf, cast_eq]
  rfl

theorem st_main_v182 (V : Valuation τ sig (Elt F)) :
    after (ops (F := F)) V (Proc.devRef .tc main_v182) = val_main_v182 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 222 _ rfl main_v182 (by decide),
    binary_result,
    ← Cert.Lib.after_eq_take_of_written ops_written 222 main_v161 (by decide),
    ← Cert.Lib.after_eq_take_of_written ops_written 222 main_v181 (by decide),
    st_main_v161 V,
    st_main_v181 V]
  rfl

theorem st_main_v183 (V : Valuation τ sig (Elt F)) :
    after (ops (F := F)) V (Proc.devRef .tc main_v183) = val_main_v183 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 223 _ rfl main_v183 (by decide),
    binary_result,
    ← Cert.Lib.after_eq_take_of_written ops_written 223 main_v182 (by decide),
    ← Cert.Lib.after_eq_take_of_written ops_written 223 main_v1 (by decide),
    st_main_v182 V,
    st_main_v1 V]
  rfl

theorem st_main_call3_cst (V : Valuation τ sig (Elt F)) :
    after (ops (F := F)) V (Proc.devRef .tc main_call3_cst) = val_main_call3_cst (F := F) := by
  rw [Cert.Lib.stage ops_written 224 _ rfl main_call3_cst (by decide),
    nullary_result]
  simp only [TRef.toBuf, TRef.ofBuf, cast_eq]
  rfl

theorem st_main_call3_v0 (V : Valuation τ sig (Elt F)) :
    after (ops (F := F)) V (Proc.devRef .tc main_call3_v0) = val_main_call3_v0 (F := F) := by
  rw [Cert.Lib.stage ops_written 225 _ rfl main_call3_v0 (by decide),
    unary_result,
    ← Cert.Lib.after_eq_take_of_written ops_written 225 main_call3_cst (by decide),
    st_main_call3_cst V]
  simp only [TRef.toBuf, TRef.ofBuf, cast_eq]
  rfl

theorem st_main_v184 (V : Valuation τ sig (Elt F)) :
    after (ops (F := F)) V (Proc.devRef .tc main_v184) = val_main_v184 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 226 _ rfl main_v184 (by decide),
    binary_result,
    ← Cert.Lib.after_eq_take_of_written ops_written 226 main_v183 (by decide),
    ← Cert.Lib.after_eq_take_of_written ops_written 226 main_call3_v0 (by decide),
    st_main_v183 V,
    st_main_call3_v0 V]
  simp only [TRef.toBuf, TRef.ofBuf, cast_eq]
  rfl

theorem st_main_cst_34 (V : Valuation τ sig (Elt F)) :
    after (ops (F := F)) V (Proc.devRef .tc main_cst_34) = val_main_cst_34 (F := F) := by
  rw [Cert.Lib.stage ops_written 227 _ rfl main_cst_34 (by decide),
    nullary_result]
  rfl

theorem st_main_v185 (V : Valuation τ sig (Elt F)) :
    after (ops (F := F)) V (Proc.devRef .tc main_v185) = val_main_v185 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 228 _ rfl main_v185 (by decide),
    binary_result,
    ← Cert.Lib.after_eq_take_of_written ops_written 228 main_v184 (by decide),
    ← Cert.Lib.after_eq_take_of_written ops_written 228 main_cst_34 (by decide),
    st_main_v184 V,
    st_main_cst_34 V]
  rfl

theorem st_main_cst_35 (V : Valuation τ sig (Elt F)) :
    after (ops (F := F)) V (Proc.devRef .tc main_cst_35) = val_main_cst_35 (F := F) := by
  rw [Cert.Lib.stage ops_written 229 _ rfl main_cst_35 (by decide),
    nullary_result]
  rfl

theorem st_main_v186 (V : Valuation τ sig (Elt F)) :
    after (ops (F := F)) V (Proc.devRef .tc main_v186) = val_main_v186 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 230 _ rfl main_v186 (by decide),
    binary_result,
    ← Cert.Lib.after_eq_take_of_written ops_written 230 main_v185 (by decide),
    ← Cert.Lib.after_eq_take_of_written ops_written 230 main_cst_35 (by decide),
    st_main_v185 V,
    st_main_cst_35 V]
  rfl

theorem st_main_cst_36 (V : Valuation τ sig (Elt F)) :
    after (ops (F := F)) V (Proc.devRef .tc main_cst_36) = val_main_cst_36 (F := F) := by
  rw [Cert.Lib.stage ops_written 231 _ rfl main_cst_36 (by decide),
    nullary_result]
  rfl

theorem st_main_v187 (V : Valuation τ sig (Elt F)) :
    after (ops (F := F)) V (Proc.devRef .tc main_v187) = val_main_v187 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 232 _ rfl main_v187 (by decide),
    binary_result,
    ← Cert.Lib.after_eq_take_of_written ops_written 232 main_cst_36 (by decide),
    ← Cert.Lib.after_eq_take_of_written ops_written 232 main_v186 (by decide),
    st_main_cst_36 V,
    st_main_v186 V]
  rfl

theorem st_main_v188 (V : Valuation τ sig (Elt F)) :
    after (ops (F := F)) V (Proc.devRef .tc main_v188) = val_main_v188 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 233 _ rfl main_v188 (by decide),
    binary_result,
    ← Cert.Lib.after_eq_take_of_written ops_written 233 main_v182 (by decide),
    ← Cert.Lib.after_eq_take_of_written ops_written 233 main_v1 (by decide),
    st_main_v182 V,
    st_main_v1 V]
  rfl

theorem st_main_cst_37 (V : Valuation τ sig (Elt F)) :
    after (ops (F := F)) V (Proc.devRef .tc main_cst_37) = val_main_cst_37 (F := F) := by
  rw [Cert.Lib.stage ops_written 234 _ rfl main_cst_37 (by decide),
    nullary_result]
  rfl

theorem st_main_v189 (V : Valuation τ sig (Elt F)) :
    after (ops (F := F)) V (Proc.devRef .tc main_v189) = val_main_v189 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 235 _ rfl main_v189 (by decide),
    binary_result,
    ← Cert.Lib.after_eq_take_of_written ops_written 235 main_v188 (by decide),
    ← Cert.Lib.after_eq_take_of_written ops_written 235 main_cst_37 (by decide),
    st_main_v188 V,
    st_main_cst_37 V]
  rfl

theorem st_main_cst_38 (V : Valuation τ sig (Elt F)) :
    after (ops (F := F)) V (Proc.devRef .tc main_cst_38) = val_main_cst_38 (F := F) := by
  rw [Cert.Lib.stage ops_written 236 _ rfl main_cst_38 (by decide),
    nullary_result]
  rfl

theorem st_main_v190 (V : Valuation τ sig (Elt F)) :
    after (ops (F := F)) V (Proc.devRef .tc main_v190) = val_main_v190 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 237 _ rfl main_v190 (by decide),
    binary_result,
    ← Cert.Lib.after_eq_take_of_written ops_written 237 main_v189 (by decide),
    ← Cert.Lib.after_eq_take_of_written ops_written 237 main_cst_38 (by decide),
    st_main_v189 V,
    st_main_cst_38 V]
  rfl

theorem st_main_cst_39 (V : Valuation τ sig (Elt F)) :
    after (ops (F := F)) V (Proc.devRef .tc main_cst_39) = val_main_cst_39 (F := F) := by
  rw [Cert.Lib.stage ops_written 238 _ rfl main_cst_39 (by decide),
    nullary_result]
  rfl

theorem st_main_v191 (V : Valuation τ sig (Elt F)) :
    after (ops (F := F)) V (Proc.devRef .tc main_v191) = val_main_v191 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 239 _ rfl main_v191 (by decide),
    binary_result,
    ← Cert.Lib.after_eq_take_of_written ops_written 239 main_cst_39 (by decide),
    ← Cert.Lib.after_eq_take_of_written ops_written 239 main_v190 (by decide),
    st_main_cst_39 V,
    st_main_v190 V]
  rfl

theorem st_main_v192 (V : Valuation τ sig (Elt F)) :
    after (ops (F := F)) V (Proc.devRef .tc main_v192) = val_main_v192 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 240 _ rfl main_v192 (by decide),
    binary_result,
    ← Cert.Lib.after_eq_take_of_written ops_written 240 main_v187 (by decide),
    ← Cert.Lib.after_eq_take_of_written ops_written 240 main_v191 (by decide),
    st_main_v187 V,
    st_main_v191 V]
  rfl

theorem st_main_v193 (V : Valuation τ sig (Elt F)) :
    after (ops (F := F)) V (Proc.devRef .tc main_v193) = val_main_v193 (F := F) (V (Proc.devRef .tc main_arg0)) (V (Proc.devRef .tc main_arg1)) (V (Proc.devRef .tc main_arg8)) (V (Proc.devRef .tc main_arg9)) (V (Proc.devRef .tc main_arg11)) := by
  rw [Cert.Lib.stage ops_written 241 _ rfl main_v193 (by decide),
    binary_result,
    ← Cert.Lib.after_eq_take_of_written ops_written 241 main_v1 (by decide),
    ← Cert.Lib.after_eq_take_of_written ops_written 241 main_v182 (by decide),
    st_main_v1 V,
    st_main_v182 V]
  rfl

theorem st_main_v194 (V : Valuation τ sig (Elt F)) :
    after (ops (F := F)) V (Proc.devRef .tc main_v194) = val_main_v194 (F := F) (V (Proc.devRef .tc main_arg0)) (V (Proc.devRef .tc main_arg1)) (V (Proc.devRef .tc main_arg8)) (V (Proc.devRef .tc main_arg9)) (V (Proc.devRef .tc main_arg10)) (V (Proc.devRef .tc main_arg11)) := by
  rw [Cert.Lib.stage ops_written 242 _ rfl main_v194 (by decide),
    binary_result,
    ← Cert.Lib.after_eq_take_of_written ops_written 242 main_v193 (by decide),
    ← Cert.Lib.after_eq_take_of_written ops_written 242 main_v176 (by decide),
    st_main_v193 V,
    st_main_v176 V]
  rfl

theorem st_main_v195 (V : Valuation τ sig (Elt F)) :
    after (ops (F := F)) V (Proc.devRef .tc main_v195) = val_main_v195 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Lib.stage ops_written 243 _ rfl main_v195 (by decide),
    binary_result,
    ← Cert.Lib.after_eq_take_of_written ops_written 243 main_v131 (by decide),
    ← Cert.Lib.after_eq_take_of_written ops_written 243 main_v194 (by decide),
    st_main_v131 V,
    st_main_v194 V]
  rfl

end Cert.ReferenceIdeal.Stage

end
-- ==== Proof.RefSide.lean ====
/-
  The reference's run, read. Every weakly fair execution of the reference program terminates with its three results at the
  stages `val_main_v195` (the new memory bank), `val_main_v141` (the new last-update times) and `val_main_v192` (the loss) of
  the argument arrays, and with the argument arrays unchanged. The program is a straight line of 244 host operations in
  single-assignment form: each final buffer is read by its one stage lemma (RefStage1 … RefStage4), no composed term is
  ever formed. Dropping the results leaves the frame claim of the reference.
-/
import proofs.«115542_j63840393888431_2_alg».proof.Defs
import proofs.«115542_j63840393888431_2_alg».proof.Proof.Gen.ReferenceIdeal
import proofs.«115542_j63840393888431_2_alg».proof.Proof.Gen.Pre_finite_inputs
import proofs.«115542_j63840393888431_2_alg».proof.Proof.RefStage4

noncomputable section

namespace Cert.RefSide

open Cert.ReferenceIdeal Cert.ReferenceIdeal.Gen Cert.ReferenceIdeal.ReadP Cert.ReferenceIdeal.Ops Cert.ReferenceIdeal.Stage
open Idealize.ShloMosaic Idealize.ShloMosaic.TcCoe Idealize.SL.Sem Idealize.ShloMosaic.StableHlo

/-- The reference's run with each result at its stage of the arguments. -/
theorem run_vals (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v195) = val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v141) = val_main_v141 (F := Ideal) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v192) = val_main_v192 (F := Ideal) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c main_v195).trans (st_main_v195 _), (h c main_v141).trans (st_main_v141 _),
      (h c main_v192).trans (st_main_v192 _),
      (h c main_arg0).trans (st_main_arg0 _),
      (h c main_arg1).trans (st_main_arg1 _),
      (h c main_arg2).trans (st_main_arg2 _),
      (h c main_arg3).trans (st_main_arg3 _),
      (h c main_arg4).trans (st_main_arg4 _),
      (h c main_arg5).trans (st_main_arg5 _),
      (h c main_arg6).trans (st_main_arg6 _),
      (h c main_arg7).trans (st_main_arg7 _),
      (h c main_arg8).trans (st_main_arg8 _),
      (h c main_arg9).trans (st_main_arg9 _),
      (h c main_arg10).trans (st_main_arg10 _),
      (h c main_arg11).trans (st_main_arg11 _),
      (h c main_arg12).trans (st_main_arg12 _),
      (h c main_arg13).trans (st_main_arg13 _)⟩)
    (run_seq scopedRefs_eq scopedSems_eq defs main (fun _ => ops) main_eq (fun _ => ops_sub) m ρ
      (fun _ => List.forall_iff_forall_mem.mp ops_fresh))

/-- The reference terminates without a fault and leaves its arguments unchanged. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (run_vals m ρ)

end Cert.RefSide

end
-- ==== Proof.lean ====
/-
  The certificate's five claims for the fused memory-update kernel against its jnp reference.

  The program: per event, messages built from the states of its source, destination and product nodes, its raw features and a
  cosine time encoding; per node the mean of the messages of its events; a GRU cell updating each node's 128-wide state from that
  mean; the node's 512-wide inventory less its consumption (the supplied amounts times an attention matrix of the product states)
  plus the amounts it bought; the per-node latest event time; and a scalar loss from the consumption's shortfall and the served
  demand. The kernel computes the mean as three segment sums added, runs the GRU, the consumption and the loss partials in one
  pallas_call over 125 blocks of 800 nodes, and adds the bought amounts afterwards directly into the inventory columns of the
  result; the reference concatenates the three event lists, works on whole arrays, and concatenates state and inventory.

  * The three frames: each program terminates on every weakly fair execution, faults nowhere and leaves its arguments
    unchanged — the two kernel programs by the frame of their one region between host operations (`Frm.frame`), the reference
    by its run with the results dropped.
  * `preserves`: the idealization rewrote nothing, so the claim is `True`.
  * `algebraic`: from memories agreeing on the arguments both idealized programs end with the same three results, entry by entry
    on the extended reals: the results of both are the reference's stages `val_main_v195`, `val_main_v141`, `val_main_v192` of
    the argument arrays (`Cert.KResult.kernel_run`, `Cert.RefSide.run_vals`). The precondition beyond finiteness — every
    product index lies in `[99488, 100000)` — is what makes the kernel's column `128 + (prod − 99488)` of the 640-wide result the
    reference's column `prod − 99488` of the 512-wide inventory. Sums are regrouped freely: addition of extended reals is
    commutative and associative, and no step needs finiteness.
-/
import proofs.«115542_j63840393888431_2_alg».proof.Defs
import proofs.«115542_j63840393888431_2_alg».proof.Proof.Gen.Kernel
import proofs.«115542_j63840393888431_2_alg».proof.Proof.Gen.KernelIdeal
import proofs.«115542_j63840393888431_2_alg».proof.Proof.Gen.ReferenceIdeal
import proofs.«115542_j63840393888431_2_alg».proof.Proof.Gen.Pre_finite_inputs
import proofs.«115542_j63840393888431_2_alg».proof.Proof.KFrame
import proofs.«115542_j63840393888431_2_alg».proof.Proof.KIFrame
import proofs.«115542_j63840393888431_2_alg».proof.Proof.KHostLU
import proofs.«115542_j63840393888431_2_alg».proof.Proof.KResult
import proofs.«115542_j63840393888431_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-- The kernel as printed terminates, faults nowhere and leaves its arguments unchanged. -/
theorem frame_k : Cert.frame_Kernel (hKernel := Cert.Kernel.Gen.facts) (hPre_finite_inputs := Cert.Pre_finite_inputs.Gen.facts) :=
  fun m ρ _ => Cert.Kernel.Frm.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- Both idealized programs, from memories agreeing on the arguments, end with the reference's stages of the arguments as
    their three results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, _, Cert.KResult.kernel_run m ρ hpre (Cert.KernelIdeal.KHost.V_main_v123 m), ?_⟩
  refine (θ_run Cert.ReferenceIdeal.defs _ _).mono (fun r h c => ?_) (Cert.RefSide.run_vals m' ρ')
  obtain ⟨h0, h1, h2, hargs⟩ := h c
  obtain ⟨e0, e1, e2, e3, e4, e5, e6, e7, e8, e9, e10, e11, e12, e13⟩ := hagree c
  refine ⟨h0.trans ?_, h1.trans ?_, h2.trans ?_, hargs⟩
  · rw [e0, e1, e2, e3, e4, e5, e6, e7, e8, e9, e10, e11, e12, e13]
  · rw [e9, e10, e11, e12]
  · rw [e0, e1, e8, e9, e11]

theorem claim : Cert.Claim :=
  ⟨Cert.Kernel.Gen.facts, Cert.KernelIdeal.Gen.facts, Cert.ReferenceIdeal.Gen.facts, Cert.Pre_finite_inputs.Gen.facts,
    frame_k, frame_ki, Cert.RefSide.frame_ri, trivial, algebraic⟩

end Cert.Proof

end
